-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S1600000 : Shape := ⟨1, ![1600000]⟩
abbrev S10x128 : Shape := ⟨2, ![10, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x1600000 : Shape := ⟨2, ![2, 1600000]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S128x10 .f32) (main_arg19 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x10 .f32 := Host.absf main_arg18
  let main_cst_34 : FVec F S_ .f32 := constant S_ .f32 0x7F800000#32
  let main_v90 : FVec F S128x10 .f32 := broadcastInDim S128x10 ![] bcast_S_S128x10 main_cst_34
  let main_v91 : IVec S128x10 1 := cmpf .olt main_v89 main_v90
  let main_c_35 : IVec S_ 1 := constantI S_ 1 1#1
  let main_v92 : IVec S_ 1 := (fun x v => Host.reduce IntOp.andi x v reducesTo_S128x10_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg14 : FVec F S128x128 .f32) (main_arg15 : FVec F S128 .f32) (main_arg16 : FVec F S128 .f32) (main_arg17 : FVec F S128 .f32) (main_arg18 : FVec F S128x10 .f32) (main_arg19 : FVec F S10 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x10 .f32) (main_arg19 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x10 .f32) (main_arg19 : FVec F S10 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x10 .f32) (main_arg19 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S100000x10 .f32) (main_arg1 : FVec F S1600000 .f32) (main_arg2 : FVec F S10x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x10 .f32) (main_arg19 : FVec F S10 .f32) (main_arg20 : IVec S2x1600000 32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S10x128 .f32 := Host.absf main_arg2
  let main_cst_2 : FVec F S_ .f32 := constant S_ .f32 0x7F800000#32
  let main_v10 : FVec F S10x128 .f32 := broadcastInDim S10x128 ![] bcast_S_S10x128 main_cst_2
  let main_v11 : IVec S10x128 1 := cmpf .olt main_v9 main_v10
  let main_c_3 : IVec S_ 1 := constantI S_ 1 1#1
  let main_v12 : IVec S_ 1 := (fun x v => Host.reduce IntOp.andi x v reducesTo_S10x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x10 : Shape := ⟨2, ![100000, 10]⟩
abbrev S1600000 : Shape := ⟨1, ![1600000]⟩
abbrev S10x128 : Shape := ⟨2, ![10, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x10 : Shape := ⟨2, ![1600000, 10]⟩
abbrev S1x128 : Shape := ⟨2, ![1, 128]⟩
abbrev S100000x128 : Shape := ⟨2, ![100000, 128]⟩
abbrev S10000x10 : Shape := ⟨2, ![10000, 10]⟩
abbrev S10000x128 : Shape := ⟨2, ![10000, 128]⟩
abbrev S1600000x128 : Shape := ⟨2, ![1600000, 128]⟩
abbrev S1x10 : Shape := ⟨2, ![1, 10]⟩
abbrev S10000 : Shape := ⟨1, ![10000]⟩
abbrev S10000x1 : Shape := ⟨2, ![10000, 1]⟩

abbrev nBuf : Space → Nat
  | .hbm => 113
  | .vmem => 82
  | .smem => 0
  | _ => 0

abbrev bufTy : (tb : Table) → Fin (tcTables nBuf tb) → BufTy
  | .hbm, ⟨0, _⟩ => ⟨S100000x10, .f32⟩
  | .hbm, ⟨1, _⟩ => ⟨S1600000, .f32⟩
  | .hbm, ⟨2, _⟩ => ⟨S10x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x10, .f32⟩
  | .hbm, ⟨19, _⟩ => ⟨S10, .f32⟩
  | .hbm, ⟨20, _⟩ => ⟨S2x1600000, .i32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x10, .f32⟩
  | .hbm, ⟨34, _⟩ => ⟨S_, .f32⟩
  | .hbm, ⟨35, _⟩ => ⟨S100000x10, .f32⟩
  | .hbm, ⟨36, _⟩ => ⟨S1600000x1, .i32⟩
  | .hbm, ⟨37, _⟩ => ⟨S100000x10, .f32⟩
  | .hbm, ⟨38, _⟩ => ⟨S1x128, .f32⟩
  | .hbm, ⟨39, _⟩ => ⟨S100000x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S_, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S100000x128, .f32⟩
  | .hbm, ⟨111, _⟩ => ⟨S1x10, .f32⟩
  | .hbm, ⟨112, _⟩ => ⟨S100000x10, .f32⟩
  | .local _ .vmem, ⟨0, _⟩ => ⟨S10000x10, .f32⟩
  | .local _ .vmem, ⟨1, _⟩ => ⟨S10000x10, .f32⟩
  | .local _ .vmem, ⟨2, _⟩ => ⟨S10000x10, .f32⟩
  | .local _ .vmem, ⟨3, _⟩ => ⟨S10000x10, .f32⟩
  | .local _ .vmem, ⟨4, _⟩ => ⟨S10x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S10000x128, .f32⟩
  | .local _ .vmem, ⟨51, _⟩ => ⟨S10000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S128x128, .f32⟩
  | .local _ .vmem, ⟨61, _⟩ => ⟨S1x128, .f32⟩
  | .local _ .vmem, ⟨62, _⟩ => ⟨S10000x128, .f32⟩
  | .local _ .vmem, ⟨63, _⟩ => ⟨S10000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S10000x128, .f32⟩
  | .local _ .vmem, ⟨69, _⟩ => ⟨S10000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S10000x128, .f32⟩
  | .local _ .vmem, ⟨75, _⟩ => ⟨S10000x128, .f32⟩
  | .local _ .vmem, ⟨76, _⟩ => ⟨S10000x128, .f32⟩
  | .local _ .vmem, ⟨77, _⟩ => ⟨S10000x128, .f32⟩
  | .local _ .vmem, ⟨78, _⟩ => ⟨S128x10, .f32⟩
  | .local _ .vmem, ⟨79, _⟩ => ⟨S1x10, .f32⟩
  | .local _ .vmem, ⟨80, _⟩ => ⟨S10000x10, .f32⟩
  | .local _ .vmem, ⟨81, _⟩ => ⟨S10000x10, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_v15_2 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26_0 : Ref sig .tc := ⟨.hbm, 54, rfl⟩
abbrev main_v26_1 : Ref sig .tc := ⟨.hbm, 55, rfl⟩
abbrev main_v26_2 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_5 : Ref sig .tc := ⟨.hbm, 68, rfl⟩
abbrev main_v36 : Ref sig .tc := ⟨.hbm, 69, rfl⟩
abbrev main_v37 : Ref sig .tc := ⟨.hbm, 70, rfl⟩
abbrev main_c_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47_0 : Ref sig .tc := ⟨.hbm, 82, rfl⟩
abbrev main_v47_1 : Ref sig .tc := ⟨.hbm, 83, rfl⟩
abbrev main_v47_2 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58_0 : Ref sig .tc := ⟨.hbm, 97, rfl⟩
abbrev main_v58_1 : Ref sig .tc := ⟨.hbm, 98, rfl⟩
abbrev main_v58_2 : Ref sig .tc := ⟨.hbm, 99, rfl⟩
abbrev main_cst_10 : Ref sig .tc := ⟨.hbm, 100, rfl⟩
abbrev main_v59 : Ref sig .tc := ⟨.hbm, 101, rfl⟩
abbrev main_v60 : Ref sig .tc := ⟨.hbm, 102, rfl⟩
abbrev main_cst_11 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg6_0 : Ref sig .tc := ⟨.vmem, 47, rfl⟩
abbrev cc4_scratch0 : Ref sig .tc := ⟨.vmem, 48, rfl⟩
abbrev cc4_scratch1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg5_0 : Ref sig .tc := ⟨.vmem, 65, rfl⟩
abbrev cc6_scratch0 : Ref sig .tc := ⟨.vmem, 66, rfl⟩
abbrev cc6_scratch1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg3_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc6_sem4_0 : DmaSem sig := 58
abbrev cc6_sem5_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem3_1 : DmaSem sig := 73

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_18 : BitVec 32 := 0#32
  let v29 : BitVec 1 := Scalar.cmpi .ne v28 c0_i32_18
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_20 : BitVec 32 := 0#32
  let v32 : BitVec 1 := Scalar.cmpi .ne v31 c0_i32_20
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_18 : BitVec 32 := 0#32
  let v29 : BitVec 1 := Scalar.cmpi .ne v28 c0_i32_18
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x10 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x10 : S_.BroadcastsInDim S100000x10 (![] : Fin 0 → Fin S100000x10.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10x128_S10x128_0_0 : ∀ a, (![0, 0] : Fin 2 → Nat) a + S10x128.size a ≤ S10x128.size a
  h_S10x128 : 0 < S10x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  dot_S10000x10_S10x128_S10000x128_1_0_0_1_n_n_wf : DotDims.WF S10000x10 S10x128 S10000x128 [1] [0] [0] [1] [] []
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x10_S10000x10_1_0_0_1_n_n_wf : DotDims.WF S10000x128 S128x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S100000x10.size a
  hwx0_0 : ∀ i : grid0.Coords, EltTy.bits .f32 = 32 ∨ (Rect.block (s := S100000x10) S10000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x10.size a ≤ S100000x10.size a
  hwx0_1 : ∀ i : grid0.Coords, EltTy.bits .f32 = 32 ∨ (Rect.block (s := S100000x10) S10000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .f32 = 32 ∨ (Rect.block (s := S100000x128) S10000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S100000x128.size a
  hwx7_5 : ∀ i : grid7.Coords, EltTy.bits .f32 = 32 ∨ (Rect.block (s := S100000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x10.size a ≤ S128x10.size a
  hwx8_1 : ∀ i : grid8.Coords, EltTy.bits .f32 = 32 ∨ (Rect.block (s := S128x10) S128x10.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x10.size a ≤ S1x10.size a
  hwx8_2 : ∀ i : grid8.Coords, EltTy.bits .f32 = 32 ∨ (Rect.block (s := S1x10) S1x10.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x10.size a ≤ S100000x10.size a
  hwx8_3 : ∀ i : grid8.Coords, EltTy.bits .f32 = 32 ∨ (Rect.block (s := S100000x10) S10000x10.size (cc8_transform_3 i) (hinb8_3 i)).WholeWords (EltTy.packing .f32)

variable [Facts₀]

def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def dot_S10000x10_S10x128_S10000x128_1_0_0_1_n_n : DotDims S10000x10 S10x128 S10000x128 where
  lhsContracting := [1]
  rhsContracting := [0]
  lhsNonContracting := [0]
  rhsNonContracting := [1]
  lhsBatch := []
  rhsBatch := []
  wf := dot_S10000x10_S10x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

abbrev win0_0 : Pipeline.Window sig grid0 :=
  Pipeline.Window.ofSpec (Memref.whole main_arg0) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v15_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26_0) S10000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v26_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v35) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47_0) S10000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v47_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v47_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v47_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v56) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58_0) S10000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v58_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v58_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v58_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v64) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v65) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v66) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v67) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v67) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S128x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68) S1x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v69) S10000x10.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x10 : Shape := ⟨2, ![100000, 10]⟩
abbrev S1600000 : Shape := ⟨1, ![1600000]⟩
abbrev S10x128 : Shape := ⟨2, ![10, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x10 : Shape := ⟨2, ![1600000, 10]⟩
abbrev S100000x128 : Shape := ⟨2, ![100000, 128]⟩
abbrev S1x128 : Shape := ⟨2, ![1, 128]⟩
abbrev S1600000x128 : Shape := ⟨2, ![1600000, 128]⟩
abbrev S1x10 : Shape := ⟨2, ![1, 10]⟩
abbrev S100000 : Shape := ⟨1, ![100000]⟩
abbrev S100000x1 : Shape := ⟨2, ![100000, 1]⟩

abbrev nBuf : Space → Nat
  | .hbm => 230
  | .vmem => 0
  | .smem => 0
  | _ => 0

abbrev hbmTy0_0 (i : Nat) : BufTy := match i % 128 with
  | 0 => ⟨S100000x10, .f32⟩
  | 1 => ⟨S1600000, .f32⟩
  | 2 => ⟨S10x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128, .f32⟩
  | 18 => ⟨S128x10, .f32⟩
  | 19 => ⟨S10, .f32⟩
  | 20 => ⟨S2x1600000, .i32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x10, .f32⟩
  | 34 => ⟨S_, .f32⟩
  | 35 => ⟨S100000x10, .f32⟩
  | 36 => ⟨S1600000x1, .i32⟩
  | 37 => ⟨S100000x10, .f32⟩
  | 38 => ⟨S100000x10, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S1x1600000, .i32⟩
  | 117 => ⟨S1600000, .i32⟩
  | 118 => ⟨S1x1600000, .i32⟩
  | 119 => ⟨S1600000, .i32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x10, .f32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x10, .f32⟩
  | 84 => ⟨S1x10, .f32⟩
  | 85 => ⟨S100000x10, .f32⟩
  | 86 => ⟨S100000x10, .f32⟩
  | 87 => ⟨S_, .f32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x10, .f32⟩
  | 94 => ⟨S100000x10, .f32⟩
  | 95 => ⟨S100000x10, .f32⟩
  | 96 => ⟨S_, .f32⟩
  | 97 => ⟨S100000, .f32⟩
  | 98 => ⟨S100000x1, .f32⟩
  | 99 => ⟨S100000x1, .f32⟩
  | 100 => ⟨S100000x10, .f32⟩
  | 101 => ⟨S100000x10, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call0_cst : Ref sig .tc := ⟨.hbm, 73, rfl⟩
abbrev main_call0_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call1_cst : Ref sig .tc := ⟨.hbm, 110, rfl⟩
abbrev main_call1_v0 : Ref sig .tc := ⟨.hbm, 111, rfl⟩
abbrev main_v74 : Ref sig .tc := ⟨.hbm, 112, rfl⟩
abbrev main_call2_cst : Ref sig .tc := ⟨.hbm, 113, rfl⟩
abbrev main_call2_v0 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_11 : Ref sig .tc := ⟨.hbm, 120, rfl⟩
abbrev main_v80 : Ref sig .tc := ⟨.hbm, 121, rfl⟩
abbrev main_v81 : Ref sig .tc := ⟨.hbm, 122, rfl⟩
abbrev main_c_12 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_13 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_14 : Ref sig .tc := ⟨.hbm, 138, rfl⟩
abbrev main_v95 : Ref sig .tc := ⟨.hbm, 139, rfl⟩
abbrev main_cst_15 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_16 : Ref sig .tc := ⟨.hbm, 147, rfl⟩
abbrev main_v102 : Ref sig .tc := ⟨.hbm, 148, rfl⟩
abbrev main_cst_17 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_18 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_call3_cst : Ref sig .tc := ⟨.hbm, 168, rfl⟩
abbrev main_call3_v0 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_19 : Ref sig .tc := ⟨.hbm, 175, rfl⟩
abbrev main_v125 : Ref sig .tc := ⟨.hbm, 176, rfl⟩
abbrev main_cst_20 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_21 : Ref sig .tc := ⟨.hbm, 184, rfl⟩
abbrev main_v132 : Ref sig .tc := ⟨.hbm, 185, rfl⟩
abbrev main_cst_22 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_23 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call4_cst : Ref sig .tc := ⟨.hbm, 205, rfl⟩
abbrev main_call4_v0 : Ref sig .tc := ⟨.hbm, 206, rfl⟩
abbrev main_v150 : Ref sig .tc := ⟨.hbm, 207, rfl⟩
abbrev main_call5_cst : Ref sig .tc := ⟨.hbm, 208, rfl⟩
abbrev main_call5_v0 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_call6_cst : Ref sig .tc := ⟨.hbm, 215, rfl⟩
abbrev main_call6_v0 : Ref sig .tc := ⟨.hbm, 216, rfl⟩
abbrev main_call6_cst_0 : Ref sig .tc := ⟨.hbm, 217, rfl⟩
abbrev main_call6_v1 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_v6 : Ref sig .tc := ⟨.hbm, 223, rfl⟩
abbrev main_call6_cst_1 : Ref sig .tc := ⟨.hbm, 224, rfl⟩
abbrev main_call6_v7 : Ref sig .tc := ⟨.hbm, 225, rfl⟩
abbrev main_call6_v8 : Ref sig .tc := ⟨.hbm, 226, rfl⟩
abbrev main_call6_v9 : Ref sig .tc := ⟨.hbm, 227, rfl⟩
abbrev main_call6_v10 : Ref sig .tc := ⟨.hbm, 228, rfl⟩
abbrev main_v156 : Ref sig .tc := ⟨.hbm, 229, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x10 : S_.BroadcastsInDim S100000x10 (![] : Fin 0 → Fin S100000x10.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  dot_S100000x10_S10x128_S100000x128_1_0_0_1_n_n_wf : DotDims.WF S100000x10 S10x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []

variable [Facts₀]

def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def dot_S100000x10_S10x128_S100000x128_1_0_0_1_n_n : DotDims S100000x10 S10x128 S100000x128 where
  lhsContracting := [1]
  rhsContracting := [0]
  lhsNonContracting := [0]
  rhsNonContracting := [1]
  lhsBatch := []
  rhsBatch := []
  wf := dot_S100000x10_S10x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KB.Stats0Base.lean ====
/-
  Region 0, shared definitions: the linear layer with running column statistics over one block of 10000
  rows.  The body computes y = (x + agg)·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- "This is the first grid point": the body's first branch condition, from the grid coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the last grid point": the body's second branch condition. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the body stores nothing into statistics window 5, and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
/-- Away from the last point the body stores nothing into statistics window 6, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-- One staging buffer of each output window, through which its contents are stated. -/
abbrev VO0_4 : View sig .tc .vmem S10000x128 .f32 := (Memref.whole cc0_stg4_0 : Memref sig .tc .vmem S10000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
/-- The two scratch rows the kernel carries between points. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two scratch rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Regions

end
-- ==== Proof.KB.Stats0RunA.lean ====
/-
  Region 0, the body's run at the first grid point (the scratch rows are started from zero):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun0_A (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__add_linear_stats_kernel_eq_skeleton]; unfold cc0__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.Kernel.Regions

end
-- ==== Proof.KB.Stats0RunB.lean ====
/-
  Region 0, the body's run at a middle grid point (the scratch rows carry on from the point before):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun0_B (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__add_linear_stats_kernel_eq_skeleton]; unfold cc0__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.Kernel.Regions

end
-- ==== Proof.KB.Stats0RunC.lean ====
/-
  Region 0, the body's run at the last grid point (the scratch rows are copied to the two statistics outputs):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun0_C (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    Σ' (L4 : List (View.Piece (Elt F) S10000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__add_linear_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__add_linear_stats_kernel_eq_skeleton]; unfold cc0__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]; · iexists _; iexact HS
    isplitl [HQ]; · iexists _; iexact HQ
    isplitl [HS0]; · iexists _; iexact HS0
    iexists _; iexact HS1

end Cert.Kernel.Regions

end
-- ==== Proof.KB.Stats0.lean ====
/-
  Region 0: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats0RunA
import proofs.«110958_j70274254897753_1_alg».proof.Proof.KB.Stats0RunB
import proofs.«110958_j70274254897753_1_alg».proof.Proof.KB.Stats0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms0_0 (t : Fin cfg0.N) : Memref sig .tc .vmem S10000x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

theorem cov0_A_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) (y : S10000x128.Idx) :
    ∃ pc ∈ (kernelRun0_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).1 S10000x128.size (by sl_kernel_rfl) y
/-- What this case leaves there: its pieces read back. -/
def val0_A_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) : Vec F S10000x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x0 x1 x2 x3).1)

theorem cov0_A_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.1 S1x128.size (by sl_kernel_rfl) y
/-- What this case leaves there: its pieces read back. -/
def val0_A_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3).2.1)

theorem cov0_A_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.1 S1x128.size (by sl_kernel_rfl) y
/-- What this case leaves there: its pieces read back. -/
def val0_A_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3).2.2.1)

theorem cov0_B_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) (y : S10000x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val0_B_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) : Vec F S10000x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x0 x1 x2 x3 xs0 xs1).1)

theorem cov0_B_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val0_B_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 xs0 xs1).2.1)

theorem cov0_B_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val0_B_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 xs0 xs1).2.2.1)

theorem cov0_C_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S10000x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val0_C_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S10000x128 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x0 x1 x2 x3 xs0 xs1).1)

theorem cov0_C_S (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val0_C_S (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 xs0 xs1).2.1)

theorem cov0_C_Q (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val0_C_Q (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 xs0 xs1).2.2.1)

theorem cov0_C_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y
/-- What this case leaves there: its pieces read back. -/
def val0_C_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 xs0 xs1).2.2.2.1)

theorem cov0_C_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y
/-- What this case leaves there: its pieces read back. -/
def val0_C_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 xs0 xs1).2.2.2.2.1)

/-- THE ACCUMULATION: (block output, sum window, sum-of-squares window, scratch row 0, scratch row 1) after point `n`. -/
def outsAt0 (c : Dev nD) : (n : ℕ) → n < cfg0.N → Vec F S10000x128 .f32 × Vec F S1x128 .f32 × Vec F S1x128 .f32 × Vec F S1x128 .f32 × Vec F S1x128 .f32
  | 0, hn => ((val0_A_y c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)), (VO0_5.read (Elt F) VO0_5.junk), (VO0_6.read (Elt F) VO0_6.junk), (val0_A_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)), (val0_A_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)))
  | n + 1, hn =>
    have hN : n + 1 < 10 := lt_of_lt_of_eq hn (show cfg0.N = 10 from N_0)
    if h1 : (n + 1) % 10 = 9 then
      ((val0_C_y c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_S c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_Q c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2))
    else
      ((val0_B_y c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (VO0_5.read (Elt F) VO0_5.junk), (VO0_6.read (Elt F) VO0_6.junk), (val0_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2))

theorem outsAt0_A (c : Dev nD) (t : Fin cfg0.N) (h0 : t.val % 10 = 0) (h1 : ¬t.val % 10 = 9) :
    outsAt0 V c t.val t.isLt = ((val0_A_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)), (VO0_5.read (Elt F) VO0_5.junk), (VO0_6.read (Elt F) VO0_6.junk), (val0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)), (val0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))) := by
  obtain ⟨n, hn⟩ := t
  cases n with
  | zero => exact rfl
  | succ n => exact (by exfalso; have hN : n + 1 < 10 := lt_of_lt_of_eq hn (show cfg0.N = 10 from N_0); (try dsimp only at h0); omega)

theorem outsAt0_B (c : Dev nD) (t : Fin cfg0.N) (h0 : ¬t.val % 10 = 0) (h1 : ¬t.val % 10 = 9) :
    outsAt0 V c t.val t.isLt = ((val0_B_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (VO0_5.read (Elt F) VO0_5.junk), (VO0_6.read (Elt F) VO0_6.junk), (val0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 10 = 0) (h1 : t.val % 10 = 9) :
    outsAt0 V c t.val t.isLt = ((val0_C_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_Q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
          ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  by_cases h0 : t.val % 10 = 0
  · have h1 : ¬t.val % 10 = 9 := by omega
    have hz : t.val = 0 := by omega
    rw [Dat.leavesExact_idle (dat0 V c) 5 t (idleAt0_5 t (fun h => h1 ((hcond0_1 t).mp h))) (noFlush0_5 t (fun h => h1 ((hcond0_1 t).mp h))),
      Dat.leavesExact_idle (dat0 V c) 6 t (idleAt0_6 t (fun h => h1 ((hcond0_1 t).mp h))) (noFlush0_6 t (fun h => h1 ((hcond0_1 t).mp h)))]
    rw [outsAt0_A V c t h0 h1]
    unfold val0_A_y val0_A_s0 val0_A_s1; (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%ey, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov0_A_s0 c _ _ _ _ _ _ _ _ _ _ _ _ _ _ _ _ _ _ _ _ _ _ _ _ _)
          unfold owns; iexists _; isplitr
          swap; · iexact HS1
          ipureintro; exact View.read_writes_of_cover _ _ _ _ _ (cov0_A_s1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cov0_A_y c _ _ _ _ _ _ _ _ _ _ _ _ _ _ _ _ _ _ _ _ _ _ _ _ _)
    isplitl [H5]; · iexists _; iexact H5
    iexists _; iexact H6
  · by_cases h1 : t.val % 10 = 9
    · have hz : t.val ≠ 0 := by omega
      rw [show (dat0 V c).leavesExact 5 t = owns (c : Thread nD τ) (ms0_5 t) fullShare ((dat0 V c).after 5 t) from by
        unfold Dat.leavesExact; rw [liveAt0_5_C t ((hcond0_1 t).mpr h1)], after0_5]
      rw [show (dat0 V c).leavesExact 6 t = owns (c : Thread nD τ) (ms0_6 t) fullShare ((dat0 V c).after 6 t) from by
        unfold Dat.leavesExact; rw [liveAt0_6_C t ((hcond0_1 t).mpr h1)], after0_6]
      rw [outsAt0_C V c t h0 h1]
      unfold val0_C_y val0_C_S val0_C_Q val0_C_s0 val0_C_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%ey, H4⟩, ⟨%eS, H5⟩, ⟨%eQ, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov0_C_s0 c _ _ _ _ _ _ _ _ _ _ _ _ _ _ _ _ _ _ _ _ _ _ _ _ _ _ _)
            unfold owns; iexists _; isplitr
            swap; · iexact HS1
            ipureintro; exact View.read_writes_of_cover _ _ _ _ _ (cov0_C_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov0_C_y c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cov0_C_S c _ _ _ _ _ _ _ _ _ _ _ _ _ _ _ _ _ _ _ _ _ _ _ _ _ _ _)
      unfold owns; iexists _; isplitr
      swap; · iexact H6
      ipureintro; exact View.read_writes_of_cover _ _ _ _ _ (cov0_C_Q c _ _ _ _ _ _ _ _ _ _ _ _ _ _ _ _ _ _ _ _ _ _ _ _ _ _ _)
    · have hz : t.val ≠ 0 := by omega
      rw [Dat.leavesExact_idle (dat0 V c) 5 t (idleAt0_5 t (fun h => h1 ((hcond0_1 t).mp h))) (noFlush0_5 t (fun h => h1 ((hcond0_1 t).mp h))),
        Dat.leavesExact_idle (dat0 V c) 6 t (idleAt0_6 t (fun h => h1 ((hcond0_1 t).mp h))) (noFlush0_6 t (fun h => h1 ((hcond0_1 t).mp h)))]
      rw [outsAt0_B V c t h0 h1]
      unfold val0_B_y val0_B_s0 val0_B_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%ey, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov0_B_s0 c _ _ _ _ _ _ _ _ _ _ _ _ _ _ _ _ _ _ _ _ _ _ _ _ _ _ _)
            unfold owns; iexists _; isplitr
            swap; · iexact HS1
            ipureintro; exact View.read_writes_of_cover _ _ _ _ _ (cov0_B_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov0_B_y c _ _ _ _ _ _ _ _ _ _ _ _ _ _ _ _ _ _ _ _ _ _ _ _ _ _ _)
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.Kernel.Regions

end
-- ==== Proof.KB.Norm1.lean ====
/-
  Region 1: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one store, over the whole block. -/
def out1_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k1_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover1_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out1_5` of the inputs. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1: arrays as found; inputs left at their blocks, the output at `out1_5` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.KB.Stats2Base.lean ====
/-
  Region 2, shared definitions: the linear layer with running column statistics over one block of 10000
  rows.  The body computes y = x·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- "This is the first grid point": the body's first branch condition, from the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)
/-- "This is the last grid point": the body's second branch condition. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the body stores nothing into statistics window 4, and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4_C : ∀ t : Fin cfg2.N, cond2_1 (grid2.coords t) → cfg2.idle 4 (grid2.coords t) = false := by decide +kernel
/-- Away from the last point the body stores nothing into statistics window 5, and its block is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5_C : ∀ t : Fin cfg2.N, cond2_1 (grid2.coords t) → cfg2.idle 5 (grid2.coords t) = false := by decide +kernel

/-- One staging buffer of each output window, through which its contents are stated. -/
abbrev VO2_3 : View sig .tc .vmem S10000x128 .f32 := (Memref.whole cc2_stg3_0 : Memref sig .tc .vmem S10000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
/-- The two scratch rows the kernel carries between points. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Regions

end
-- ==== Proof.KB.Stats2RunA.lean ====
/-
  Region 2, the body's run at the first grid point (the scratch rows are started from zero):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hfS; obtain rfl := harg6.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.Kernel.Regions

end
-- ==== Proof.KB.Stats2RunB.lean ====
/-
  Region 2, the body's run at a middle grid point (the scratch rows carry on from the point before):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfS; obtain rfl := harg6.eq_unread hfQ; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.Kernel.Regions

end
-- ==== Proof.KB.Stats2RunC.lean ====
/-
  Region 2, the body's run at the last grid point (the scratch rows are copied to the two statistics outputs):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_C (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    Σ' (L3 : List (View.Piece (Elt F) S10000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]; · iexists _; iexact HS
    isplitl [HQ]; · iexists _; iexact HQ
    isplitl [HS0]; · iexists _; iexact HS0
    iexists _; iexact HS1

end Cert.Kernel.Regions

end
-- ==== Proof.KB.Stats2.lean ====
/-
  Region 2: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats2RunA
import proofs.«110958_j70274254897753_1_alg».proof.Proof.KB.Stats2RunB
import proofs.«110958_j70274254897753_1_alg».proof.Proof.KB.Stats2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

theorem cov2_A_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) (y : S10000x128.Idx) :
    ∃ pc ∈ (kernelRun2_A c i arg1 harg1 arg2 harg2 arg3 harg3 arg4 harg4 arg5 harg5 arg6 harg6 arg7 harg7 arg8 harg8 hc0 hc1 x0 x1 x2).1, y ∈ pc.1.set :=
  View.cover_of_tiledL (kernelRun2_A c i arg1 harg1 arg2 harg2 arg3 harg3 arg4 harg4 arg5 harg5 arg6 harg6 arg7 harg7 arg8 harg8 hc0 hc1 x0 x1 x2).1 S10000x128.size (by sl_kernel_rfl) y
/-- What this case leaves there: its pieces read back. -/
def val2_A_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) : Vec F S10000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 x0 x1 x2).1)

theorem cov2_A_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.1, y ∈ pc.1.set :=
  View.cover_of_tiledL (kernelRun2_A c i arg1 harg1 arg2 harg2 arg3 harg3 arg4 harg4 arg5 harg5 arg6 harg6 arg7 harg7 arg8 harg8 hc0 hc1 x0 x1 x2).2.1 S1x128.size (by sl_kernel_rfl) y
/-- What this case leaves there: its pieces read back. -/
def val2_A_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2).2.1)

theorem cov2_A_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.2.1, y ∈ pc.1.set :=
  View.cover_of_tiledL (kernelRun2_A c i arg1 harg1 arg2 harg2 arg3 harg3 arg4 harg4 arg5 harg5 arg6 harg6 arg7 harg7 arg8 harg8 hc0 hc1 x0 x1 x2).2.2.1 S1x128.size (by sl_kernel_rfl) y
/-- What this case leaves there: its pieces read back. -/
def val2_A_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2).2.2.1)

theorem cov2_B_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) (y : S10000x128.Idx) :
    ∃ pc ∈ (kernelRun2_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val2_B_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) : Vec F S10000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 x0 x1 x2 xs0 xs1).1)

theorem cov2_B_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val2_B_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 xs0 xs1).2.1)

theorem cov2_B_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val2_B_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 xs0 xs1).2.2.1)

theorem cov2_C_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S10000x128.Idx) :
    ∃ pc ∈ (kernelRun2_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val2_C_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S10000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 x0 x1 x2 xs0 xs1).1)

theorem cov2_C_S (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val2_C_S (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 xs0 xs1).2.1)

theorem cov2_C_Q (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val2_C_Q (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 xs0 xs1).2.2.1)

theorem cov2_C_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.1 S1x128.size (by sl_kernel_rfl) y
/-- What this case leaves there: its pieces read back. -/
def val2_C_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 xs0 xs1).2.2.2.1)

theorem cov2_C_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.2.1 S1x128.size (by sl_kernel_rfl) y
/-- What this case leaves there: its pieces read back. -/
def val2_C_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 xs0 xs1).2.2.2.2.1)

/-- THE ACCUMULATION: (block output, sum window, sum-of-squares window, scratch row 0, scratch row 1) after point `n`. -/
def outsAt2 (c : Dev nD) : (n : ℕ) → n < cfg2.N → Vec F S10000x128 .f32 × Vec F S1x128 .f32 × Vec F S1x128 .f32 × Vec F S1x128 .f32 × Vec F S1x128 .f32
  | 0, hn => ((val2_A_y c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)), (VO2_4.read (Elt F) VO2_4.junk), (VO2_5.read (Elt F) VO2_5.junk), (val2_A_s0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)), (val2_A_s1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)))
  | n + 1, hn =>
    have hN : n + 1 < 10 := lt_of_lt_of_eq hn (show cfg2.N = 10 from N_2)
    if h1 : (n + 1) % 10 = 9 then
      ((val2_C_y c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_S c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_Q c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2))
    else
      ((val2_B_y c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (VO2_4.read (Elt F) VO2_4.junk), (VO2_5.read (Elt F) VO2_5.junk), (val2_B_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_B_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2))

theorem outsAt2_A (c : Dev nD) (t : Fin cfg2.N) (h0 : t.val % 10 = 0) (h1 : ¬t.val % 10 = 9) :
    outsAt2 V c t.val t.isLt = ((val2_A_y c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)), (VO2_4.read (Elt F) VO2_4.junk), (VO2_5.read (Elt F) VO2_5.junk), (val2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)), (val2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t))) := by
  obtain ⟨n, hn⟩ := t
  cases n with
  | zero => exact rfl
  | succ n => exact (by exfalso; have hN : n + 1 < 10 := lt_of_lt_of_eq hn (show cfg2.N = 10 from N_2); (try dsimp only at h0); omega)

theorem outsAt2_B (c : Dev nD) (t : Fin cfg2.N) (h0 : ¬t.val % 10 = 0) (h1 : ¬t.val % 10 = 9) :
    outsAt2 V c t.val t.isLt = ((val2_B_y c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (VO2_4.read (Elt F) VO2_4.junk), (VO2_5.read (Elt F) VO2_5.junk), (val2_B_s0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_B_s1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 10 = 0) (h1 : t.val % 10 = 9) :
    outsAt2 V c t.val t.isLt = ((val2_C_y c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_S c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_Q c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of pipeline 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  by_cases h0 : t.val % 10 = 0
  · have h1 : ¬t.val % 10 = 9 := by omega
    have hz : t.val = 0 := by omega
    rw [Dat.leavesExact_idle (dat2 V c) 4 t (idleAt2_4 t (fun h => h1 ((hcond2_1 t).mp h))) (noFlush2_4 t (fun h => h1 ((hcond2_1 t).mp h))),
      Dat.leavesExact_idle (dat2 V c) 5 t (idleAt2_5 t (fun h => h1 ((hcond2_1 t).mp h))) (noFlush2_5 t (fun h => h1 ((hcond2_1 t).mp h)))]
    rw [outsAt2_A V c t h0 h1]
    unfold val2_A_y val2_A_s0 val2_A_s1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%ey, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov2_A_s0 c _ _ _ _ _ _ _ _ _ _ _ _ _ _ _ _ _ _ _ _ _ _)
          unfold owns; iexists _; isplitr
          swap; · iexact HS1
          ipureintro; exact View.read_writes_of_cover _ _ _ _ _ (cov2_A_s1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cov2_A_y c _ _ _ _ _ _ _ _ _ _ _ _ _ _ _ _ _ _ _ _ _ _)
    isplitl [H4]; · iexists _; iexact H4
    iexists _; iexact H5
  · by_cases h1 : t.val % 10 = 9
    · have hz : t.val ≠ 0 := by omega
      rw [show (dat2 V c).leavesExact 4 t = owns (c : Thread nD τ) (ms2_4 t) fullShare ((dat2 V c).after 4 t) from by
        unfold Dat.leavesExact; rw [liveAt2_4_C t ((hcond2_1 t).mpr h1)], after2_4]
      rw [show (dat2 V c).leavesExact 5 t = owns (c : Thread nD τ) (ms2_5 t) fullShare ((dat2 V c).after 5 t) from by
        unfold Dat.leavesExact; rw [liveAt2_5_C t ((hcond2_1 t).mpr h1)], after2_5]
      rw [outsAt2_C V c t h0 h1]
      unfold val2_C_y val2_C_S val2_C_Q val2_C_s0 val2_C_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%ey, H3⟩, ⟨%eS, H4⟩, ⟨%eQ, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov2_C_s0 c _ _ _ _ _ _ _ _ _ _ _ _ _ _ _ _ _ _ _ _ _ _ _ _)
            unfold owns; iexists _; isplitr
            swap; · iexact HS1
            ipureintro; exact View.read_writes_of_cover _ _ _ _ _ (cov2_C_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov2_C_y c _ _ _ _ _ _ _ _ _ _ _ _ _ _ _ _ _ _ _ _ _ _ _ _)
      isplitl [H4]
      · unfold owns; iexists _; isplitr
        swap; · iexact H4
        ipureintro; exact View.read_writes_of_cover _ _ _ _ _ (cov2_C_S c _ _ _ _ _ _ _ _ _ _ _ _ _ _ _ _ _ _ _ _ _ _ _ _)
      unfold owns; iexists _; isplitr
      swap; · iexact H5
      ipureintro; exact View.read_writes_of_cover _ _ _ _ _ (cov2_C_Q c _ _ _ _ _ _ _ _ _ _ _ _ _ _ _ _ _ _ _ _ _ _ _ _)
    · have hz : t.val ≠ 0 := by omega
      rw [Dat.leavesExact_idle (dat2 V c) 4 t (idleAt2_4 t (fun h => h1 ((hcond2_1 t).mp h))) (noFlush2_4 t (fun h => h1 ((hcond2_1 t).mp h))),
        Dat.leavesExact_idle (dat2 V c) 5 t (idleAt2_5 t (fun h => h1 ((hcond2_1 t).mp h))) (noFlush2_5 t (fun h => h1 ((hcond2_1 t).mp h)))]
      rw [outsAt2_B V c t h0 h1]
      unfold val2_B_y val2_B_s0 val2_B_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%ey, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov2_B_s0 c _ _ _ _ _ _ _ _ _ _ _ _ _ _ _ _ _ _ _ _ _ _ _ _)
            unfold owns; iexists _; isplitr
            swap; · iexact HS1
            ipureintro; exact View.read_writes_of_cover _ _ _ _ _ (cov2_B_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov2_B_y c _ _ _ _ _ _ _ _ _ _ _ _ _ _ _ _ _ _ _ _ _ _ _ _)
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.Kernel.Regions

end
-- ==== Proof.KB.Norm3.lean ====
/-
  Region 3: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one store, over the whole block. -/
def out3_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k3_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover3_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out3_5` of the inputs. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3: arrays as found; inputs left at their blocks, the output at `out3_5` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.KB.Stats4Base.lean ====
/-
  Region 4, shared definitions: the linear layer with running column statistics over one block of 10000
  rows.  The body computes y = (x + agg)·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- "This is the first grid point": the body's first branch condition, from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- "This is the last grid point": the body's second branch condition. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Away from the last point the body stores nothing into statistics window 5, and its block is not written back. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5_C : ∀ t : Fin cfg4.N, cond4_1 (grid4.coords t) → cfg4.idle 5 (grid4.coords t) = false := by decide +kernel
/-- Away from the last point the body stores nothing into statistics window 6, and its block is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel

/-- One staging buffer of each output window, through which its contents are stated. -/
abbrev VO4_4 : View sig .tc .vmem S10000x128 .f32 := (Memref.whole cc4_stg4_0 : Memref sig .tc .vmem S10000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
/-- The two scratch rows the kernel carries between points. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Regions

end
-- ==== Proof.KB.Stats4RunA.lean ====
/-
  Region 4, the body's run at the first grid point (the scratch rows are started from zero):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun4_A (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__add_linear_stats_kernel_eq_skeleton]; unfold cc4__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.Kernel.Regions

end
-- ==== Proof.KB.Stats4RunB.lean ====
/-
  Region 4, the body's run at a middle grid point (the scratch rows carry on from the point before):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun4_B (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__add_linear_stats_kernel_eq_skeleton]; unfold cc4__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.Kernel.Regions

end
-- ==== Proof.KB.Stats4RunC.lean ====
/-
  Region 4, the body's run at the last grid point (the scratch rows are copied to the two statistics outputs):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun4_C (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    Σ' (L4 : List (View.Piece (Elt F) S10000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__add_linear_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__add_linear_stats_kernel_eq_skeleton]; unfold cc4__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]; · iexists _; iexact HS
    isplitl [HQ]; · iexists _; iexact HQ
    isplitl [HS0]; · iexists _; iexact HS0
    iexists _; iexact HS1

end Cert.Kernel.Regions

end
-- ==== Proof.KB.Stats4.lean ====
/-
  Region 4: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats4RunA
import proofs.«110958_j70274254897753_1_alg».proof.Proof.KB.Stats4RunB
import proofs.«110958_j70274254897753_1_alg».proof.Proof.KB.Stats4RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S10000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

theorem cov4_A_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) (y : S10000x128.Idx) :
    ∃ pc ∈ (kernelRun4_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).1 S10000x128.size (by sl_kernel_rfl) y
/-- What this case leaves there: its pieces read back. -/
def val4_A_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) : Vec F S10000x128 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x0 x1 x2 x3).1)

theorem cov4_A_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.1 S1x128.size (by sl_kernel_rfl) y
/-- What this case leaves there: its pieces read back. -/
def val4_A_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3).2.1)

theorem cov4_A_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.1 S1x128.size (by sl_kernel_rfl) y
/-- What this case leaves there: its pieces read back. -/
def val4_A_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3).2.2.1)

theorem cov4_B_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) (y : S10000x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val4_B_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) : Vec F S10000x128 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x0 x1 x2 x3 xs0 xs1).1)

theorem cov4_B_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val4_B_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 xs0 xs1).2.1)

theorem cov4_B_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val4_B_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 xs0 xs1).2.2.1)

theorem cov4_C_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S10000x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val4_C_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S10000x128 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x0 x1 x2 x3 xs0 xs1).1)

theorem cov4_C_S (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val4_C_S (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x0 x1 x2 x3 xs0 xs1).2.1)

theorem cov4_C_Q (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val4_C_Q (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 xs0 xs1).2.2.1)

theorem cov4_C_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y
/-- What this case leaves there: its pieces read back. -/
def val4_C_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 xs0 xs1).2.2.2.1)

theorem cov4_C_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y
/-- What this case leaves there: its pieces read back. -/
def val4_C_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 xs0 xs1).2.2.2.2.1)

/-- THE ACCUMULATION: (block output, sum window, sum-of-squares window, scratch row 0, scratch row 1) after point `n`. -/
def outsAt4 (c : Dev nD) : (n : ℕ) → n < cfg4.N → Vec F S10000x128 .f32 × Vec F S1x128 .f32 × Vec F S1x128 .f32 × Vec F S1x128 .f32 × Vec F S1x128 .f32
  | 0, hn => ((val4_A_y c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)), (VO4_5.read (Elt F) VO4_5.junk), (VO4_6.read (Elt F) VO4_6.junk), (val4_A_s0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)), (val4_A_s1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)))
  | n + 1, hn =>
    have hN : n + 1 < 10 := lt_of_lt_of_eq hn (show cfg4.N = 10 from N_4)
    if h1 : (n + 1) % 10 = 9 then
      ((val4_C_y c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_S c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_Q c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2))
    else
      ((val4_B_y c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (VO4_5.read (Elt F) VO4_5.junk), (VO4_6.read (Elt F) VO4_6.junk), (val4_B_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_B_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2))

theorem outsAt4_A (c : Dev nD) (t : Fin cfg4.N) (h0 : t.val % 10 = 0) (h1 : ¬t.val % 10 = 9) :
    outsAt4 V c t.val t.isLt = ((val4_A_y c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)), (VO4_5.read (Elt F) VO4_5.junk), (VO4_6.read (Elt F) VO4_6.junk), (val4_A_s0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)), (val4_A_s1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))) := by
  obtain ⟨n, hn⟩ := t
  cases n with
  | zero => exact rfl
  | succ n => exact (by exfalso; have hN : n + 1 < 10 := lt_of_lt_of_eq hn (show cfg4.N = 10 from N_4); (try dsimp only at h0); omega)

theorem outsAt4_B (c : Dev nD) (t : Fin cfg4.N) (h0 : ¬t.val % 10 = 0) (h1 : ¬t.val % 10 = 9) :
    outsAt4 V c t.val t.isLt = ((val4_B_y c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (VO4_5.read (Elt F) VO4_5.junk), (VO4_6.read (Elt F) VO4_6.junk), (val4_B_s0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_B_s1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 10 = 0) (h1 : t.val % 10 = 9) :
    outsAt4 V c t.val t.isLt = ((val4_C_y c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_S c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_Q c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_s0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_s1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of pipeline 4. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  rw [show (dat4 V c).leavesExact 4 t = owns (c : Thread nD τ) (ms4_4 t) fullShare ((dat4 V c).after 4 t) from by
        unfold Dat.leavesExact; rw [liveAt4_4 t], after4_4]
  by_cases h0 : t.val % 10 = 0
  · have h1 : ¬t.val % 10 = 9 := by omega
    have hz : t.val = 0 := by omega
    rw [Dat.leavesExact_idle (dat4 V c) 5 t (idleAt4_5 t (fun h => h1 ((hcond4_1 t).mp h))) (noFlush4_5 t (fun h => h1 ((hcond4_1 t).mp h))),
      Dat.leavesExact_idle (dat4 V c) 6 t (idleAt4_6 t (fun h => h1 ((hcond4_1 t).mp h))) (noFlush4_6 t (fun h => h1 ((hcond4_1 t).mp h)))]
    rw [outsAt4_A V c t h0 h1]
    unfold val4_A_y val4_A_s0 val4_A_s1; (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%ey, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov4_A_s0 c _ _ _ _ _ _ _ _ _ _ _ _ _ _ _ _ _ _ _ _ _ _ _ _ _)
          unfold owns; iexists _; isplitr
          swap; · iexact HS1
          ipureintro; exact View.read_writes_of_cover _ _ _ _ _ (cov4_A_s1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cov4_A_y c _ _ _ _ _ _ _ _ _ _ _ _ _ _ _ _ _ _ _ _ _ _ _ _ _)
    isplitl [H5]; · iexists _; iexact H5
    iexists _; iexact H6
  · by_cases h1 : t.val % 10 = 9
    · have hz : t.val ≠ 0 := by omega
      rw [show (dat4 V c).leavesExact 5 t = owns (c : Thread nD τ) (ms4_5 t) fullShare ((dat4 V c).after 5 t) from by
        unfold Dat.leavesExact; rw [liveAt4_5_C t ((hcond4_1 t).mpr h1)], after4_5]
      rw [show (dat4 V c).leavesExact 6 t = owns (c : Thread nD τ) (ms4_6 t) fullShare ((dat4 V c).after 6 t) from by
        unfold Dat.leavesExact; rw [liveAt4_6_C t ((hcond4_1 t).mpr h1)], after4_6]
      rw [outsAt4_C V c t h0 h1]
      unfold val4_C_y val4_C_S val4_C_Q val4_C_s0 val4_C_s1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%ey, H4⟩, ⟨%eS, H5⟩, ⟨%eQ, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov4_C_s0 c _ _ _ _ _ _ _ _ _ _ _ _ _ _ _ _ _ _ _ _ _ _ _ _ _ _ _)
            unfold owns; iexists _; isplitr
            swap; · iexact HS1
            ipureintro; exact View.read_writes_of_cover _ _ _ _ _ (cov4_C_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov4_C_y c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cov4_C_S c _ _ _ _ _ _ _ _ _ _ _ _ _ _ _ _ _ _ _ _ _ _ _ _ _ _ _)
      unfold owns; iexists _; isplitr
      swap; · iexact H6
      ipureintro; exact View.read_writes_of_cover _ _ _ _ _ (cov4_C_Q c _ _ _ _ _ _ _ _ _ _ _ _ _ _ _ _ _ _ _ _ _ _ _ _ _ _ _)
    · have hz : t.val ≠ 0 := by omega
      rw [Dat.leavesExact_idle (dat4 V c) 5 t (idleAt4_5 t (fun h => h1 ((hcond4_1 t).mp h))) (noFlush4_5 t (fun h => h1 ((hcond4_1 t).mp h))),
        Dat.leavesExact_idle (dat4 V c) 6 t (idleAt4_6 t (fun h => h1 ((hcond4_1 t).mp h))) (noFlush4_6 t (fun h => h1 ((hcond4_1 t).mp h)))]
      rw [outsAt4_B V c t h0 h1]
      unfold val4_B_y val4_B_s0 val4_B_s1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%ey, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov4_B_s0 c _ _ _ _ _ _ _ _ _ _ _ _ _ _ _ _ _ _ _ _ _ _ _ _ _ _ _)
            unfold owns; iexists _; isplitr
            swap; · iexact HS1
            ipureintro; exact View.read_writes_of_cover _ _ _ _ _ (cov4_B_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov4_B_y c _ _ _ _ _ _ _ _ _ _ _ _ _ _ _ _ _ _ _ _ _ _ _ _ _ _ _)
      isplitl [H5]; · iexists _; iexact H5
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.Kernel.Regions

end
-- ==== Proof.KB.Norm5.lean ====
/-
  Region 5: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body: its one store, over the whole block. -/
def out5_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k5_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover5_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out5_5` of the inputs. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5: arrays as found; inputs left at their blocks, the output at `out5_5` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Regions

end
-- ==== Proof.KB.Stats6Base.lean ====
/-
  Region 6, shared definitions: the linear layer with running column statistics over one block of 10000
  rows.  The body computes y = x·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- "This is the first grid point": the body's first branch condition, from the grid coordinates. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
/-- "This is the last grid point": the body's second branch condition. -/
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Away from the last point the body stores nothing into statistics window 4, and its block is not written back. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4_C : ∀ t : Fin cfg6.N, cond6_1 (grid6.coords t) → cfg6.idle 4 (grid6.coords t) = false := by decide +kernel
/-- Away from the last point the body stores nothing into statistics window 5, and its block is not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5_C : ∀ t : Fin cfg6.N, cond6_1 (grid6.coords t) → cfg6.idle 5 (grid6.coords t) = false := by decide +kernel

/-- One staging buffer of each output window, through which its contents are stated. -/
abbrev VO6_3 : View sig .tc .vmem S10000x128 .f32 := (Memref.whole cc6_stg3_0 : Memref sig .tc .vmem S10000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
/-- The two scratch rows the kernel carries between points. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-- The class invariant with the two scratch rows as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

end Cert.Kernel.Regions

end
-- ==== Proof.KB.Stats6RunA.lean ====
/-
  Region 6, the body's run at the first grid point (the scratch rows are started from zero):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats6Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun6_A (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__linear_stats_kernel_eq_skeleton]; unfold cc6__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hfS; obtain rfl := harg6.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.Kernel.Regions

end
-- ==== Proof.KB.Stats6RunB.lean ====
/-
  Region 6, the body's run at a middle grid point (the scratch rows carry on from the point before):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats6Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun6_B (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__linear_stats_kernel_eq_skeleton]; unfold cc6__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfS; obtain rfl := harg6.eq_unread hfQ; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.Kernel.Regions

end
-- ==== Proof.KB.Stats6RunC.lean ====
/-
  Region 6, the body's run at the last grid point (the scratch rows are copied to the two statistics outputs):
  the pieces the stores leave in each buffer, found by running the body.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats6Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun6_C (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    Σ' (L3 : List (View.Piece (Elt F) S10000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__linear_stats_kernel_eq_skeleton]; unfold cc6__linear_stats_kernel_skel
    unfold owns
    iintro ⟨⟨%f0, %hf0, H0⟩, ⟨%f1, %hf1, H1⟩, ⟨%f2, %hf2, H2⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]; · iexists _; iexact HS
    isplitl [HQ]; · iexists _; iexact HQ
    isplitl [HS0]; · iexists _; iexact HS0
    iexists _; iexact HS1

end Cert.Kernel.Regions

end
-- ==== Proof.KB.Stats6.lean ====
/-
  Region 6: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats6RunA
import proofs.«110958_j70274254897753_1_alg».proof.Proof.KB.Stats6RunB
import proofs.«110958_j70274254897753_1_alg».proof.Proof.KB.Stats6RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S10000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)

theorem cov6_A_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) (y : S10000x128.Idx) :
    ∃ pc ∈ (kernelRun6_A c i arg1 harg1 arg2 harg2 arg3 harg3 arg4 harg4 arg5 harg5 arg6 harg6 arg7 harg7 arg8 harg8 hc0 hc1 x0 x1 x2).1, y ∈ pc.1.set :=
  View.cover_of_tiledL (kernelRun6_A c i arg1 harg1 arg2 harg2 arg3 harg3 arg4 harg4 arg5 harg5 arg6 harg6 arg7 harg7 arg8 harg8 hc0 hc1 x0 x1 x2).1 S10000x128.size (by sl_kernel_rfl) y
/-- What this case leaves there: its pieces read back. -/
def val6_A_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) : Vec F S10000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc0 hc1 x0 x1 x2).1)

theorem cov6_A_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.1, y ∈ pc.1.set :=
  View.cover_of_tiledL (kernelRun6_A c i arg1 harg1 arg2 harg2 arg3 harg3 arg4 harg4 arg5 harg5 arg6 harg6 arg7 harg7 arg8 harg8 hc0 hc1 x0 x1 x2).2.1 S1x128.size (by sl_kernel_rfl) y
/-- What this case leaves there: its pieces read back. -/
def val6_A_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2).2.1)

theorem cov6_A_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.2.1, y ∈ pc.1.set :=
  View.cover_of_tiledL (kernelRun6_A c i arg1 harg1 arg2 harg2 arg3 harg3 arg4 harg4 arg5 harg5 arg6 harg6 arg7 harg7 arg8 harg8 hc0 hc1 x0 x1 x2).2.2.1 S1x128.size (by sl_kernel_rfl) y
/-- What this case leaves there: its pieces read back. -/
def val6_A_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2).2.2.1)

theorem cov6_B_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) (y : S10000x128.Idx) :
    ∃ pc ∈ (kernelRun6_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val6_B_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) : Vec F S10000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc0 hc1 x0 x1 x2 xs0 xs1).1)

theorem cov6_B_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val6_B_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 xs0 xs1).2.1)

theorem cov6_B_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val6_B_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 xs0 xs1).2.2.1)

theorem cov6_C_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S10000x128.Idx) :
    ∃ pc ∈ (kernelRun6_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val6_C_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S10000x128 .f32 :=
  VO6_3.read (Elt F) (VO6_3.writes (Elt F) VO6_3.junk (kernelRun6_C c i arg1 harg1 arg2 harg2 arg3 harg3 arg4 harg4 arg5 harg5 arg6 harg6 arg7 harg7 arg8 harg8 hc0 hc1 x0 x1 x2 xs0 xs1).1)

theorem cov6_C_S (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val6_C_S (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VO6_4.read (Elt F) (VO6_4.writes (Elt F) VO6_4.junk (kernelRun6_C c i arg1 harg1 arg2 harg2 arg3 harg3 arg4 harg4 arg5 harg5 arg6 harg6 arg7 harg7 arg8 harg8 hc0 hc1 x0 x1 x2 xs0 xs1).2.1)

theorem cov6_C_Q (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val6_C_Q (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 xs0 xs1).2.2.1)

theorem cov6_C_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.1 S1x128.size (by sl_kernel_rfl) y
/-- What this case leaves there: its pieces read back. -/
def val6_C_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 xs0 xs1).2.2.2.1)

theorem cov6_C_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.2.1 S1x128.size (by sl_kernel_rfl) y
/-- What this case leaves there: its pieces read back. -/
def val6_C_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 xs0 xs1).2.2.2.2.1)

/-- THE ACCUMULATION: (block output, sum window, sum-of-squares window, scratch row 0, scratch row 1) after point `n`. -/
def outsAt6 (c : Dev nD) : (n : ℕ) → n < cfg6.N → Vec F S10000x128 .f32 × Vec F S1x128 .f32 × Vec F S1x128 .f32 × Vec F S1x128 .f32 × Vec F S1x128 .f32
  | 0, hn => ((val6_A_y c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩)), (VO6_4.read (Elt F) VO6_4.junk), (VO6_5.read (Elt F) VO6_5.junk), (val6_A_s0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩)), (val6_A_s1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩)))
  | n + 1, hn =>
    have hN : n + 1 < 10 := lt_of_lt_of_eq hn (show cfg6.N = 10 from N_6)
    if h1 : (n + 1) % 10 = 9 then
      ((val6_C_y c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_S c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_Q c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_s0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_s1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2))
    else
      ((val6_B_y c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (VO6_4.read (Elt F) VO6_4.junk), (VO6_5.read (Elt F) VO6_5.junk), (val6_B_s0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_B_s1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2))

theorem outsAt6_A (c : Dev nD) (t : Fin cfg6.N) (h0 : t.val % 10 = 0) (h1 : ¬t.val % 10 = 9) :
    outsAt6 V c t.val t.isLt = ((val6_A_y c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)), (VO6_4.read (Elt F) VO6_4.junk), (VO6_5.read (Elt F) VO6_5.junk), (val6_A_s0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)), (val6_A_s1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t))) := by
  obtain ⟨n, hn⟩ := t
  cases n with
  | zero => exact rfl
  | succ n => exact (by exfalso; have hN : n + 1 < 10 := lt_of_lt_of_eq hn (show cfg6.N = 10 from N_6); (try dsimp only at h0); omega)

theorem outsAt6_B (c : Dev nD) (t : Fin cfg6.N) (h0 : ¬t.val % 10 = 0) (h1 : ¬t.val % 10 = 9) :
    outsAt6 V c t.val t.isLt = ((val6_B_y c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (VO6_4.read (Elt F) VO6_4.junk), (VO6_5.read (Elt F) VO6_5.junk), (val6_B_s0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_B_s1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt6_C (c : Dev nD) (t : Fin cfg6.N) (h0 : ¬t.val % 10 = 0) (h1 : t.val % 10 = 9) :
    outsAt6 V c t.val t.isLt = ((val6_C_y c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_S c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_Q c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_s0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_s1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
          ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
          ∗ Pipeline.scopedRestBut (Ix := Unit) (Name := ℕ) (U := UR sig nD τ) (Lvl := ℕ) (Val := Elt F) spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
          ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The proof data of pipeline 6. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
        unfold Dat.leavesExact; rw [liveAt6_0 t], after6_0]
  rw [show (dat6 V c).leavesExact 1 t = owns (c : Thread nD τ) (ms6_1 t) fullShare ((dat6 V c).after 1 t) from by
        unfold Dat.leavesExact; rw [liveAt6_1 t], after6_1]
  rw [show (dat6 V c).leavesExact 2 t = owns (c : Thread nD τ) (ms6_2 t) fullShare ((dat6 V c).after 2 t) from by
        unfold Dat.leavesExact; rw [liveAt6_2 t], after6_2]
  rw [show (dat6 V c).leavesExact 3 t = owns (c : Thread nD τ) (ms6_3 t) fullShare ((dat6 V c).after 3 t) from by
        unfold Dat.leavesExact; rw [liveAt6_3 t], after6_3]
  by_cases h0 : t.val % 10 = 0
  · have h1 : ¬t.val % 10 = 9 := by omega
    have hz : t.val = 0 := by omega
    rw [Dat.leavesExact_idle (dat6 V c) 4 t (idleAt6_4 t (fun h => h1 ((hcond6_1 t).mp h))) (noFlush6_4 t (fun h => h1 ((hcond6_1 t).mp h))),
      Dat.leavesExact_idle (dat6 V c) 5 t (idleAt6_5 t (fun h => h1 ((hcond6_1 t).mp h))) (noFlush6_5 t (fun h => h1 ((hcond6_1 t).mp h)))]
    rw [outsAt6_A V c t h0 h1]
    unfold val6_A_y val6_A_s0 val6_A_s1; (try dsimp only)
    rw [PhiS6_castSucc V c t, PhiS6_zero V c _ _ hz, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%ey, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov6_A_s0 c _ _ _ _ _ _ _ _ _ _ _ _ _ _ _ _ _ _ _ _ _ _)
          unfold owns; iexists _; isplitr
          swap; · iexact HS1
          ipureintro; exact View.read_writes_of_cover _ _ _ _ _ (cov6_A_s1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cov6_A_y c _ _ _ _ _ _ _ _ _ _ _ _ _ _ _ _ _ _ _ _ _ _)
    isplitl [H4]; · iexists _; iexact H4
    iexists _; iexact H5
  · by_cases h1 : t.val % 10 = 9
    · have hz : t.val ≠ 0 := by omega
      rw [show (dat6 V c).leavesExact 4 t = owns (c : Thread nD τ) (ms6_4 t) fullShare ((dat6 V c).after 4 t) from by
        unfold Dat.leavesExact; rw [liveAt6_4_C t ((hcond6_1 t).mpr h1)], after6_4]
      rw [show (dat6 V c).leavesExact 5 t = owns (c : Thread nD τ) (ms6_5 t) fullShare ((dat6 V c).after 5 t) from by
        unfold Dat.leavesExact; rw [liveAt6_5_C t ((hcond6_1 t).mpr h1)], after6_5]
      rw [outsAt6_C V c t h0 h1]
      unfold val6_C_y val6_C_S val6_C_Q val6_C_s0 val6_C_s1; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%ey, H3⟩, ⟨%eS, H4⟩, ⟨%eQ, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov6_C_s0 c _ _ _ _ _ _ _ _ _ _ _ _ _ _ _ _ _ _ _ _ _ _ _ _)
            unfold owns; iexists _; isplitr
            swap; · iexact HS1
            ipureintro; exact View.read_writes_of_cover _ _ _ _ _ (cov6_C_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov6_C_y c _ _ _ _ _ _ _ _ _ _ _ _ _ _ _ _ _ _ _ _ _ _ _ _)
      isplitl [H4]
      · unfold owns; iexists _; isplitr
        swap; · iexact H4
        ipureintro; exact View.read_writes_of_cover _ _ _ _ _ (cov6_C_S c _ _ _ _ _ _ _ _ _ _ _ _ _ _ _ _ _ _ _ _ _ _ _ _)
      unfold owns; iexists _; isplitr
      swap; · iexact H5
      ipureintro; exact View.read_writes_of_cover _ _ _ _ _ (cov6_C_Q c _ _ _ _ _ _ _ _ _ _ _ _ _ _ _ _ _ _ _ _ _ _ _ _)
    · have hz : t.val ≠ 0 := by omega
      rw [Dat.leavesExact_idle (dat6 V c) 4 t (idleAt6_4 t (fun h => h1 ((hcond6_1 t).mp h))) (noFlush6_4 t (fun h => h1 ((hcond6_1 t).mp h))),
        Dat.leavesExact_idle (dat6 V c) 5 t (idleAt6_5 t (fun h => h1 ((hcond6_1 t).mp h))) (noFlush6_5 t (fun h => h1 ((hcond6_1 t).mp h)))]
      rw [outsAt6_B V c t h0 h1]
      unfold val6_B_y val6_B_s0 val6_B_s1; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%ey, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov6_B_s0 c _ _ _ _ _ _ _ _ _ _ _ _ _ _ _ _ _ _ _ _ _ _ _ _)
            unfold owns; iexists _; isplitr
            swap; · iexact HS1
            ipureintro; exact View.read_writes_of_cover _ _ _ _ _ (cov6_B_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov6_B_y c _ _ _ _ _ _ _ _ _ _ _ _ _ _ _ _ _ _ _ _ _ _ _ _)
      isplitl [H4]; · iexists _; iexact H4
      iexists _; iexact H5

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout6 (c : Dev nD) : (dat6 V c).Φ (Fin.last cfg6.N) ⊢ Pipeline.ΦA spec6 c :=
  Phi_out6 V c _ (by rw [Fin.val_last]; have : cfg6.N = 10 := N_6; omega)

end Cert.Kernel.Regions

end
-- ==== Proof.KB.Norm7.lean ====
/-
  Region 7: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output window's staging buffer after the body: its one store, over the whole block. -/
def out7_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k7_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover7_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out7_5` of the inputs. -/
theorem sound_kernel7 (c : Dev nD) (E : Set ℕ) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The proof data of pipeline 7: arrays as found; inputs left at their blocks, the output at `out7_5` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.Kernel.Regions

end
-- ==== Proof.KB.Final8.lean ====
/-
  Region 8: the last linear layer followed by a row-wise log-softmax, over one block of 10000 rows.  Its
  four windows are the activations h (a block of rows), the 128×10 weights and the 1×10 bias (the same at
  every grid point) and the output block.  After the body the output's staging buffer holds, row by row,
  z − log Σ exp z with z = (h·W + b) − max(h·W + b); the inputs are left as found.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The output window's staging buffer after the body: its one store, over the whole block. -/
def out8_3 (x0 : Vec F S10000x128 .f32) (x1 : Vec F S128x10 .f32) (x2 : Vec F S1x10 .f32) : Vec F S10000x10 .f32 :=
  View.canon [⟨(Rect.unit (s := S10000x10) ![0, 0] S10000x10.size inb_S10000x10_S10000x10_0_0), k8_pay1 (View.ld x0 (Rect.unit (s := S10000x128) ![0, 0] S10000x128.size inb_S10000x128_S10000x128_0_0)) (View.ld x1 (Rect.unit (s := S128x10) ![0, 0] S128x10.size inb_S128x10_S128x10_0_0)) (View.ld x2 (Rect.unit (s := S1x10) ![0, 0] S1x10.size inb_S1x10_S1x10_0_0))⟩]

theorem cover8_3 (p0 : Vec F S10000x10 .f32) (y : S10000x10.Idx) :
    ∃ pc ∈ ([⟨(Rect.unit (s := S10000x10) ![0, 0] S10000x10.size inb_S10000x10_S10000x10_0_0), p0⟩] : List (View.Piece (Elt F) S10000x10 .f32)), y ∈ pc.1.set :=
  View.cover_of_tiled [⟨(Rect.unit (s := S10000x10) ![0, 0] S10000x10.size inb_S10000x10_S10000x10_0_0), p0⟩] S10000x10.size (by rfl) y

set_option maxHeartbeats 4000000 in
/-- The body on whole staging memrefs: inputs kept, the output left at `out8_3` of the inputs. -/
theorem sound_kernel8 (c : Dev nD) (E : Set ℕ) (i : grid8.Coords) (arg1 : Memref sig .tc .vmem S10000x128 .f32) (harg1 : arg1.IsWhole) (arg2 : Memref sig .tc .vmem S128x10 .f32) (harg2 : arg2.IsWhole) (arg3 : Memref sig .tc .vmem S1x10 .f32) (harg3 : arg3.IsWhole) (arg4 : Memref sig .tc .vmem S10000x10 .f32) (harg4 : arg4.IsWhole)
    (x0 : Vec F S10000x128 .f32) (x1 : Vec F S128x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__final_kernel i arg1 harg1 arg2 harg2 arg3 harg3 arg4 harg4) K := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of pipeline 8: arrays as found; inputs left at their blocks, the output at `out8_3` of them. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t
    = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Regions

end
-- ==== Proof.KB.Run.lean ====
/-
  The whole run of the program: nine kernel regions among ten stretches of host operations.  The contents of
  every unscoped buffer at each boundary are a fold from the launch memory — a host stretch applies its
  operations, a region replaces its windows' arrays by what its write-backs leave and keeps every other
  buffer —, each region's proof data is taken at its entry contents, and the launch theorem for a list of
  segments gives: every weakly fair execution terminates without a fault, and every final memory holds each
  unscoped buffer at the last boundary's contents.  No host stretch and no region writes an argument array,
  so each reads back as launched; the result buffer reads back as the last region's output.
-/
import proofs.«110958_j70274254897753_1_alg».proof.Proof.Gen.Kernel.Launch
import proofs.«110958_j70274254897753_1_alg».proof.Proof.Gen.Kernel.Skeleton
import proofs.«110958_j70274254897753_1_alg».proof.Proof.Gen.Kernel.Points
import proofs.«110958_j70274254897753_1_alg».proof.Proof.KB.Stats0
import proofs.«110958_j70274254897753_1_alg».proof.Proof.KB.Norm1
import proofs.«110958_j70274254897753_1_alg».proof.Proof.KB.Stats2
import proofs.«110958_j70274254897753_1_alg».proof.Proof.KB.Norm3
import proofs.«110958_j70274254897753_1_alg».proof.Proof.KB.Stats4
import proofs.«110958_j70274254897753_1_alg».proof.Proof.KB.Norm5
import proofs.«110958_j70274254897753_1_alg».proof.Proof.KB.Stats6
import proofs.«110958_j70274254897753_1_alg».proof.Proof.KB.Norm7
import proofs.«110958_j70274254897753_1_alg».proof.Proof.KB.Final8
import proofs.«110958_j70274254897753_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
/-- After the host stretch before region 0: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4: region 4's entry contents. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5: region 5's entry contents. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6: region 6's entry contents. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch before region 7: region 7's entry contents. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch before region 8: region 8's entry contents. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-! ## The arguments end as launched, and the result is the last region's output -/

theorem W18_main_arg0 (c : Dev nD) : W18 m ρ c (Proc.devRef .tc main_arg0) = m ((c : Thread nD τ).loc main_arg0) :=
  (W18_of_ne m ρ c main_arg0 (by decide)).trans <| (StableHlo.after_of_writes_sub hostOps8 _ hostOps8_writes (by decide)).trans <| (W16_of_ne m ρ c main_arg0 (by decide)).trans <| (StableHlo.after_of_writes_sub hostOps7 _ hostOps7_writes (by decide)).trans <| (W14_of_ne m ρ c main_arg0 (by decide)).trans <| (StableHlo.after_of_writes_sub hostOps6 _ hostOps6_writes (by decide)).trans <| (W12_of_ne m ρ c main_arg0 (by decide)).trans <| (StableHlo.after_of_writes_sub hostOps5 _ hostOps5_writes (by decide)).trans <| (W10_of_ne m ρ c main_arg0 (by decide)).trans <| (StableHlo.after_of_writes_sub hostOps4 _ hostOps4_writes (by decide)).trans <| (W8_of_ne m ρ c main_arg0 (by decide)).trans <| (StableHlo.after_of_writes_sub hostOps3 _ hostOps3_writes (by decide)).trans <| (W6_of_ne m ρ c main_arg0 (by decide)).trans <| (StableHlo.after_of_writes_sub hostOps2 _ hostOps2_writes (by decide)).trans <| (W4_of_ne m ρ c main_arg0 (by decide)).trans <| (StableHlo.after_of_writes_sub hostOps1 _ hostOps1_writes (by decide)).trans <| ((W2_arr m ρ c 0).trans (((dat0 (V1 m ρ) c).arrAt_in 0 rfl _).trans (A_eq0 (V1 m ρ) c 0))).trans <| (StableHlo.after_of_writes_sub hostOps0 _ hostOps0_writes (by decide))
theorem W18_main_arg1 (c : Dev nD) : W18 m ρ c (Proc.devRef .tc main_arg1) = m ((c : Thread nD τ).loc main_arg1) :=
  (W18_of_ne m ρ c main_arg1 (by decide)).trans <| (StableHlo.after_of_writes_sub hostOps8 _ hostOps8_writes (by decide)).trans <| (W16_of_ne m ρ c main_arg1 (by decide)).trans <| (StableHlo.after_of_writes_sub hostOps7 _ hostOps7_writes (by decide)).trans <| (W14_of_ne m ρ c main_arg1 (by decide)).trans <| (StableHlo.after_of_writes_sub hostOps6 _ hostOps6_writes (by decide)).trans <| (W12_of_ne m ρ c main_arg1 (by decide)).trans <| (StableHlo.after_of_writes_sub hostOps5 _ hostOps5_writes (by decide)).trans <| (W10_of_ne m ρ c main_arg1 (by decide)).trans <| (StableHlo.after_of_writes_sub hostOps4 _ hostOps4_writes (by decide)).trans <| (W8_of_ne m ρ c main_arg1 (by decide)).trans <| (StableHlo.after_of_writes_sub hostOps3 _ hostOps3_writes (by decide)).trans <| (W6_of_ne m ρ c main_arg1 (by decide)).trans <| (StableHlo.after_of_writes_sub hostOps2 _ hostOps2_writes (by decide)).trans <| (W4_of_ne m ρ c main_arg1 (by decide)).trans <| (StableHlo.after_of_writes_sub hostOps1 _ hostOps1_writes (by decide)).trans <| (W2_of_ne m ρ c main_arg1 (by decide)).trans <| (StableHlo.after_of_writes_sub hostOps0 _ hostOps0_writes (by decide))
theorem W18_main_arg2 (c : Dev nD) : W18 m ρ c (Proc.devRef .tc main_arg2) = m ((c : Thread nD τ).loc main_arg2) :=
  (W18_of_ne m ρ c main_arg2 (by decide)).trans <| (StableHlo.after_of_writes_sub hostOps8 _ hostOps8_writes (by decide)).trans <| (W16_of_ne m ρ c main_arg2 (by decide)).trans <| (StableHlo.after_of_writes_sub hostOps7 _ hostOps7_writes (by decide)).trans <| (W14_of_ne m ρ c main_arg2 (by decide)).trans <| (StableHlo.after_of_writes_sub hostOps6 _ hostOps6_writes (by decide)).trans <| (W12_of_ne m ρ c main_arg2 (by decide)).trans <| (StableHlo.after_of_writes_sub hostOps5 _ hostOps5_writes (by decide)).trans <| (W10_of_ne m ρ c main_arg2 (by decide)).trans <| (StableHlo.after_of_writes_sub hostOps4 _ hostOps4_writes (by decide)).trans <| (W8_of_ne m ρ c main_arg2 (by decide)).trans <| (StableHlo.after_of_writes_sub hostOps3 _ hostOps3_writes (by decide)).trans <| (W6_of_ne m ρ c main_arg2 (by decide)).trans <| (StableHlo.after_of_writes_sub hostOps2 _ hostOps2_writes (by decide)).trans <| (W4_of_ne m ρ c main_arg2 (by decide)).trans <| (StableHlo.after_of_writes_sub hostOps1 _ hostOps1_writes (by decide)).trans <| ((W2_arr m ρ c 2).trans (((dat0 (V1 m ρ) c).arrAt_in 2 rfl _).trans (A_eq0 (V1 m ρ) c 2))).trans <| (StableHlo.after_of_writes_sub hostOps0 _ hostOps0_writes (by decide))
theorem W18_main_arg3 (c : Dev nD) : W18 m ρ c (Proc.devRef .tc main_arg3) = m ((c : Thread nD τ).loc main_arg3) :=
  (W18_of_ne m ρ c main_arg3 (by decide)).trans <| (StableHlo.after_of_writes_sub hostOps8 _ hostOps8_writes (by decide)).trans <| (W16_of_ne m ρ c main_arg3 (by decide)).trans <| (StableHlo.after_of_writes_sub hostOps7 _ hostOps7_writes (by decide)).trans <| (W14_of_ne m ρ c main_arg3 (by decide)).trans <| (StableHlo.after_of_writes_sub hostOps6 _ hostOps6_writes (by decide)).trans <| (W12_of_ne m ρ c main_arg3 (by decide)).trans <| (StableHlo.after_of_writes_sub hostOps5 _ hostOps5_writes (by decide)).trans <| (W10_of_ne m ρ c main_arg3 (by decide)).trans <| (StableHlo.after_of_writes_sub hostOps4 _ hostOps4_writes (by decide)).trans <| (W8_of_ne m ρ c main_arg3 (by decide)).trans <| (StableHlo.after_of_writes_sub hostOps3 _ hostOps3_writes (by decide)).trans <| (W6_of_ne m ρ c main_arg3 (by decide)).trans <| (StableHlo.after_of_writes_sub hostOps2 _ hostOps2_writes (by decide)).trans <| (W4_of_ne m ρ c main_arg3 (by decide)).trans <| (StableHlo.after_of_writes_sub hostOps1 _ hostOps1_writes (by decide)).trans <| (W2_of_ne m ρ c main_arg3 (by decide)).trans <| (StableHlo.after_of_writes_sub hostOps0 _ hostOps0_writes (by decide))
theorem W18_main_arg4 (c : Dev nD) : W18 m ρ c (Proc.devRef .tc main_arg4) = m ((c : Thread nD τ).loc main_arg4) :=
  (W18_of_ne m ρ c main_arg4 (by decide)).trans <| (StableHlo.after_of_writes_sub hostOps8 _ hostOps8_writes (by decide)).trans <| (W16_of_ne m ρ c main_arg4 (by decide)).trans <| (StableHlo.after_of_writes_sub hostOps7 _ hostOps7_writes (by decide)).trans <| (W14_of_ne m ρ c main_arg4 (by decide)).trans <| (StableHlo.after_of_writes_sub hostOps6 _ hostOps6_writes (by decide)).trans <| (W12_of_ne m ρ c main_arg4 (by decide)).trans <| (StableHlo.after_of_writes_sub hostOps5 _ hostOps5_writes (by decide)).trans <| (W10_of_ne m ρ c main_arg4 (by decide)).trans <| (StableHlo.after_of_writes_sub hostOps4 _ hostOps4_writes (by decide)).trans <| (W8_of_ne m ρ c main_arg4 (by decide)).trans <| (StableHlo.after_of_writes_sub hostOps3 _ hostOps3_writes (by decide)).trans <| (W6_of_ne m ρ c main_arg4 (by decide)).trans <| (StableHlo.after_of_writes_sub hostOps2 _ hostOps2_writes (by decide)).trans <| (W4_of_ne m ρ c main_arg4 (by decide)).trans <| (StableHlo.after_of_writes_sub hostOps1 _ hostOps1_writes (by decide)).trans <| (W2_of_ne m ρ c main_arg4 (by decide)).trans <| (StableHlo.after_of_writes_sub hostOps0 _ hostOps0_writes (by decide))
theorem W18_main_arg5 (c : Dev nD) : W18 m ρ c (Proc.devRef .tc main_arg5) = m ((c : Thread nD τ).loc main_arg5) :=
  (W18_of_ne m ρ c main_arg5 (by decide)).trans <| (StableHlo.after_of_writes_sub hostOps8 _ hostOps8_writes (by decide)).trans <| (W16_of_ne m ρ c main_arg5 (by decide)).trans <| (StableHlo.after_of_writes_sub hostOps7 _ hostOps7_writes (by decide)).trans <| (W14_of_ne m ρ c main_arg5 (by decide)).trans <| (StableHlo.after_of_writes_sub hostOps6 _ hostOps6_writes (by decide)).trans <| (W12_of_ne m ρ c main_arg5 (by decide)).trans <| (StableHlo.after_of_writes_sub hostOps5 _ hostOps5_writes (by decide)).trans <| (W10_of_ne m ρ c main_arg5 (by decide)).trans <| (StableHlo.after_of_writes_sub hostOps4 _ hostOps4_writes (by decide)).trans <| (W8_of_ne m ρ c main_arg5 (by decide)).trans <| (StableHlo.after_of_writes_sub hostOps3 _ hostOps3_writes (by decide)).trans <| (W6_of_ne m ρ c main_arg5 (by decide)).trans <| (StableHlo.after_of_writes_sub hostOps2 _ hostOps2_writes (by decide)).trans <| (W4_of_ne m ρ c main_arg5 (by decide)).trans <| (StableHlo.after_of_writes_sub hostOps1 _ hostOps1_writes (by decide)).trans <| (W2_of_ne m ρ c main_arg5 (by decide)).trans <| (StableHlo.after_of_writes_sub hostOps0 _ hostOps0_writes (by decide))
theorem W18_main_arg6 (c : Dev nD) : W18 m ρ c (Proc.devRef .tc main_arg6) = m ((c : Thread nD τ).loc main_arg6) :=
  (W18_of_ne m ρ c main_arg6 (by decide)).trans <| (StableHlo.after_of_writes_sub hostOps8 _ hostOps8_writes (by decide)).trans <| (W16_of_ne m ρ c main_arg6 (by decide)).trans <| (StableHlo.after_of_writes_sub hostOps7 _ hostOps7_writes (by decide)).trans <| (W14_of_ne m ρ c main_arg6 (by decide)).trans <| (StableHlo.after_of_writes_sub hostOps6 _ hostOps6_writes (by decide)).trans <| (W12_of_ne m ρ c main_arg6 (by decide)).trans <| (StableHlo.after_of_writes_sub hostOps5 _ hostOps5_writes (by decide)).trans <| (W10_of_ne m ρ c main_arg6 (by decide)).trans <| (StableHlo.after_of_writes_sub hostOps4 _ hostOps4_writes (by decide)).trans <| (W8_of_ne m ρ c main_arg6 (by decide)).trans <| (StableHlo.after_of_writes_sub hostOps3 _ hostOps3_writes (by decide)).trans <| ((W6_arr m ρ c 1).trans (((dat2 (V5 m ρ) c).arrAt_in 1 rfl _).trans (A_eq2 (V5 m ρ) c 1))).trans <| (StableHlo.after_of_writes_sub hostOps2 _ hostOps2_writes (by decide)).trans <| (W4_of_ne m ρ c main_arg6 (by decide)).trans <| (StableHlo.after_of_writes_sub hostOps1 _ hostOps1_writes (by decide)).trans <| (W2_of_ne m ρ c main_arg6 (by decide)).trans <| (StableHlo.after_of_writes_sub hostOps0 _ hostOps0_writes (by decide))
theorem W18_main_arg7 (c : Dev nD) : W18 m ρ c (Proc.devRef .tc main_arg7) = m ((c : Thread nD τ).loc main_arg7) :=
  (W18_of_ne m ρ c main_arg7 (by decide)).trans <| (StableHlo.after_of_writes_sub hostOps8 _ hostOps8_writes (by decide)).trans <| (W16_of_ne m ρ c main_arg7 (by decide)).trans <| (StableHlo.after_of_writes_sub hostOps7 _ hostOps7_writes (by decide)).trans <| (W14_of_ne m ρ c main_arg7 (by decide)).trans <| (StableHlo.after_of_writes_sub hostOps6 _ hostOps6_writes (by decide)).trans <| (W12_of_ne m ρ c main_arg7 (by decide)).trans <| (StableHlo.after_of_writes_sub hostOps5 _ hostOps5_writes (by decide)).trans <| (W10_of_ne m ρ c main_arg7 (by decide)).trans <| (StableHlo.after_of_writes_sub hostOps4 _ hostOps4_writes (by decide)).trans <| (W8_of_ne m ρ c main_arg7 (by decide)).trans <| (StableHlo.after_of_writes_sub hostOps3 _ hostOps3_writes (by decide)).trans <| (W6_of_ne m ρ c main_arg7 (by decide)).trans <| (StableHlo.after_of_writes_sub hostOps2 _ hostOps2_writes (by decide)).trans <| (W4_of_ne m ρ c main_arg7 (by decide)).trans <| (StableHlo.after_of_writes_sub hostOps1 _ hostOps1_writes (by decide)).trans <| (W2_of_ne m ρ c main_arg7 (by decide)).trans <| (StableHlo.after_of_writes_sub hostOps0 _ hostOps0_writes (by decide))
theorem W18_main_arg8 (c : Dev nD) : W18 m ρ c (Proc.devRef .tc main_arg8) = m ((c : Thread nD τ).loc main_arg8) :=
  (W18_of_ne m ρ c main_arg8 (by decide)).trans <| (StableHlo.after_of_writes_sub hostOps8 _ hostOps8_writes (by decide)).trans <| (W16_of_ne m ρ c main_arg8 (by decide)).trans <| (StableHlo.after_of_writes_sub hostOps7 _ hostOps7_writes (by decide)).trans <| (W14_of_ne m ρ c main_arg8 (by decide)).trans <| (StableHlo.after_of_writes_sub hostOps6 _ hostOps6_writes (by decide)).trans <| (W12_of_ne m ρ c main_arg8 (by decide)).trans <| (StableHlo.after_of_writes_sub hostOps5 _ hostOps5_writes (by decide)).trans <| (W10_of_ne m ρ c main_arg8 (by decide)).trans <| (StableHlo.after_of_writes_sub hostOps4 _ hostOps4_writes (by decide)).trans <| (W8_of_ne m ρ c main_arg8 (by decide)).trans <| (StableHlo.after_of_writes_sub hostOps3 _ hostOps3_writes (by decide)).trans <| (W6_of_ne m ρ c main_arg8 (by decide)).trans <| (StableHlo.after_of_writes_sub hostOps2 _ hostOps2_writes (by decide)).trans <| (W4_of_ne m ρ c main_arg8 (by decide)).trans <| (StableHlo.after_of_writes_sub hostOps1 _ hostOps1_writes (by decide)).trans <| (W2_of_ne m ρ c main_arg8 (by decide)).trans <| (StableHlo.after_of_writes_sub hostOps0 _ hostOps0_writes (by decide))
theorem W18_main_arg9 (c : Dev nD) : W18 m ρ c (Proc.devRef .tc main_arg9) = m ((c : Thread nD τ).loc main_arg9) :=
  (W18_of_ne m ρ c main_arg9 (by decide)).trans <| (StableHlo.after_of_writes_sub hostOps8 _ hostOps8_writes (by decide)).trans <| (W16_of_ne m ρ c main_arg9 (by decide)).trans <| (StableHlo.after_of_writes_sub hostOps7 _ hostOps7_writes (by decide)).trans <| (W14_of_ne m ρ c main_arg9 (by decide)).trans <| (StableHlo.after_of_writes_sub hostOps6 _ hostOps6_writes (by decide)).trans <| (W12_of_ne m ρ c main_arg9 (by decide)).trans <| (StableHlo.after_of_writes_sub hostOps5 _ hostOps5_writes (by decide)).trans <| (W10_of_ne m ρ c main_arg9 (by decide)).trans <| (StableHlo.after_of_writes_sub hostOps4 _ hostOps4_writes (by decide)).trans <| (W8_of_ne m ρ c main_arg9 (by decide)).trans <| (StableHlo.after_of_writes_sub hostOps3 _ hostOps3_writes (by decide)).trans <| (W6_of_ne m ρ c main_arg9 (by decide)).trans <| (StableHlo.after_of_writes_sub hostOps2 _ hostOps2_writes (by decide)).trans <| (W4_of_ne m ρ c main_arg9 (by decide)).trans <| (StableHlo.after_of_writes_sub hostOps1 _ hostOps1_writes (by decide)).trans <| (W2_of_ne m ρ c main_arg9 (by decide)).trans <| (StableHlo.after_of_writes_sub hostOps0 _ hostOps0_writes (by decide))
theorem W18_main_arg10 (c : Dev nD) : W18 m ρ c (Proc.devRef .tc main_arg10) = m ((c : Thread nD τ).loc main_arg10) :=
  (W18_of_ne m ρ c main_arg10 (by decide)).trans <| (StableHlo.after_of_writes_sub hostOps8 _ hostOps8_writes (by decide)).trans <| (W16_of_ne m ρ c main_arg10 (by decide)).trans <| (StableHlo.after_of_writes_sub hostOps7 _ hostOps7_writes (by decide)).trans <| (W14_of_ne m ρ c main_arg10 (by decide)).trans <| (StableHlo.after_of_writes_sub hostOps6 _ hostOps6_writes (by decide)).trans <| (W12_of_ne m ρ c main_arg10 (by decide)).trans <| (StableHlo.after_of_writes_sub hostOps5 _ hostOps5_writes (by decide)).trans <| ((W10_arr m ρ c 2).trans (((dat4 (V9 m ρ) c).arrAt_in 2 rfl _).trans (A_eq4 (V9 m ρ) c 2))).trans <| (StableHlo.after_of_writes_sub hostOps4 _ hostOps4_writes (by decide)).trans <| (W8_of_ne m ρ c main_arg10 (by decide)).trans <| (StableHlo.after_of_writes_sub hostOps3 _ hostOps3_writes (by decide)).trans <| (W6_of_ne m ρ c main_arg10 (by decide)).trans <| (StableHlo.after_of_writes_sub hostOps2 _ hostOps2_writes (by decide)).trans <| (W4_of_ne m ρ c main_arg10 (by decide)).trans <| (StableHlo.after_of_writes_sub hostOps1 _ hostOps1_writes (by decide)).trans <| (W2_of_ne m ρ c main_arg10 (by decide)).trans <| (StableHlo.after_of_writes_sub hostOps0 _ hostOps0_writes (by decide))
theorem W18_main_arg11 (c : Dev nD) : W18 m ρ c (Proc.devRef .tc main_arg11) = m ((c : Thread nD τ).loc main_arg11) :=
  (W18_of_ne m ρ c main_arg11 (by decide)).trans <| (StableHlo.after_of_writes_sub hostOps8 _ hostOps8_writes (by decide)).trans <| (W16_of_ne m ρ c main_arg11 (by decide)).trans <| (StableHlo.after_of_writes_sub hostOps7 _ hostOps7_writes (by decide)).trans <| (W14_of_ne m ρ c main_arg11 (by decide)).trans <| (StableHlo.after_of_writes_sub hostOps6 _ hostOps6_writes (by decide)).trans <| (W12_of_ne m ρ c main_arg11 (by decide)).trans <| (StableHlo.after_of_writes_sub hostOps5 _ hostOps5_writes (by decide)).trans <| (W10_of_ne m ρ c main_arg11 (by decide)).trans <| (StableHlo.after_of_writes_sub hostOps4 _ hostOps4_writes (by decide)).trans <| (W8_of_ne m ρ c main_arg11 (by decide)).trans <| (StableHlo.after_of_writes_sub hostOps3 _ hostOps3_writes (by decide)).trans <| (W6_of_ne m ρ c main_arg11 (by decide)).trans <| (StableHlo.after_of_writes_sub hostOps2 _ hostOps2_writes (by decide)).trans <| (W4_of_ne m ρ c main_arg11 (by decide)).trans <| (StableHlo.after_of_writes_sub hostOps1 _ hostOps1_writes (by decide)).trans <| (W2_of_ne m ρ c main_arg11 (by decide)).trans <| (StableHlo.after_of_writes_sub hostOps0 _ hostOps0_writes (by decide))
theorem W18_main_arg12 (c : Dev nD) : W18 m ρ c (Proc.devRef .tc main_arg12) = m ((c : Thread nD τ).loc main_arg12) :=
  (W18_of_ne m ρ c main_arg12 (by decide)).trans <| (StableHlo.after_of_writes_sub hostOps8 _ hostOps8_writes (by decide)).trans <| (W16_of_ne m ρ c main_arg12 (by decide)).trans <| (StableHlo.after_of_writes_sub hostOps7 _ hostOps7_writes (by decide)).trans <| (W14_of_ne m ρ c main_arg12 (by decide)).trans <| (StableHlo.after_of_writes_sub hostOps6 _ hostOps6_writes (by decide)).trans <| (W12_of_ne m ρ c main_arg12 (by decide)).trans <| (StableHlo.after_of_writes_sub hostOps5 _ hostOps5_writes (by decide)).trans <| (W10_of_ne m ρ c main_arg12 (by decide)).trans <| (StableHlo.after_of_writes_sub hostOps4 _ hostOps4_writes (by decide)).trans <| (W8_of_ne m ρ c main_arg12 (by decide)).trans <| (StableHlo.after_of_writes_sub hostOps3 _ hostOps3_writes (by decide)).trans <| (W6_of_ne m ρ c main_arg12 (by decide)).trans <| (StableHlo.after_of_writes_sub hostOps2 _ hostOps2_writes (by decide)).trans <| (W4_of_ne m ρ c main_arg12 (by decide)).trans <| (StableHlo.after_of_writes_sub hostOps1 _ hostOps1_writes (by decide)).trans <| (W2_of_ne m ρ c main_arg12 (by decide)).trans <| (StableHlo.after_of_writes_sub hostOps0 _ hostOps0_writes (by decide))
theorem W18_main_arg13 (c : Dev nD) : W18 m ρ c (Proc.devRef .tc main_arg13) = m ((c : Thread nD τ).loc main_arg13) :=
  (W18_of_ne m ρ c main_arg13 (by decide)).trans <| (StableHlo.after_of_writes_sub hostOps8 _ hostOps8_writes (by decide)).trans <| (W16_of_ne m ρ c main_arg13 (by decide)).trans <| (StableHlo.after_of_writes_sub hostOps7 _ hostOps7_writes (by decide)).trans <| (W14_of_ne m ρ c main_arg13 (by decide)).trans <| (StableHlo.after_of_writes_sub hostOps6 _ hostOps6_writes (by decide)).trans <| (W12_of_ne m ρ c main_arg13 (by decide)).trans <| (StableHlo.after_of_writes_sub hostOps5 _ hostOps5_writes (by decide)).trans <| (W10_of_ne m ρ c main_arg13 (by decide)).trans <| (StableHlo.after_of_writes_sub hostOps4 _ hostOps4_writes (by decide)).trans <| (W8_of_ne m ρ c main_arg13 (by decide)).trans <| (StableHlo.after_of_writes_sub hostOps3 _ hostOps3_writes (by decide)).trans <| (W6_of_ne m ρ c main_arg13 (by decide)).trans <| (StableHlo.after_of_writes_sub hostOps2 _ hostOps2_writes (by decide)).trans <| (W4_of_ne m ρ c main_arg13 (by decide)).trans <| (StableHlo.after_of_writes_sub hostOps1 _ hostOps1_writes (by decide)).trans <| (W2_of_ne m ρ c main_arg13 (by decide)).trans <| (StableHlo.after_of_writes_sub hostOps0 _ hostOps0_writes (by decide))
theorem W18_main_arg14 (c : Dev nD) : W18 m ρ c (Proc.devRef .tc main_arg14) = m ((c : Thread nD τ).loc main_arg14) :=
  (W18_of_ne m ρ c main_arg14 (by decide)).trans <| (StableHlo.after_of_writes_sub hostOps8 _ hostOps8_writes (by decide)).trans <| (W16_of_ne m ρ c main_arg14 (by decide)).trans <| (StableHlo.after_of_writes_sub hostOps7 _ hostOps7_writes (by decide)).trans <| ((W14_arr m ρ c 1).trans (((dat6 (V13 m ρ) c).arrAt_in 1 rfl _).trans (A_eq6 (V13 m ρ) c 1))).trans <| (StableHlo.after_of_writes_sub hostOps6 _ hostOps6_writes (by decide)).trans <| (W12_of_ne m ρ c main_arg14 (by decide)).trans <| (StableHlo.after_of_writes_sub hostOps5 _ hostOps5_writes (by decide)).trans <| (W10_of_ne m ρ c main_arg14 (by decide)).trans <| (StableHlo.after_of_writes_sub hostOps4 _ hostOps4_writes (by decide)).trans <| (W8_of_ne m ρ c main_arg14 (by decide)).trans <| (StableHlo.after_of_writes_sub hostOps3 _ hostOps3_writes (by decide)).trans <| (W6_of_ne m ρ c main_arg14 (by decide)).trans <| (StableHlo.after_of_writes_sub hostOps2 _ hostOps2_writes (by decide)).trans <| (W4_of_ne m ρ c main_arg14 (by decide)).trans <| (StableHlo.after_of_writes_sub hostOps1 _ hostOps1_writes (by decide)).trans <| (W2_of_ne m ρ c main_arg14 (by decide)).trans <| (StableHlo.after_of_writes_sub hostOps0 _ hostOps0_writes (by decide))
theorem W18_main_arg15 (c : Dev nD) : W18 m ρ c (Proc.devRef .tc main_arg15) = m ((c : Thread nD τ).loc main_arg15) :=
  (W18_of_ne m ρ c main_arg15 (by decide)).trans <| (StableHlo.after_of_writes_sub hostOps8 _ hostOps8_writes (by decide)).trans <| (W16_of_ne m ρ c main_arg15 (by decide)).trans <| (StableHlo.after_of_writes_sub hostOps7 _ hostOps7_writes (by decide)).trans <| (W14_of_ne m ρ c main_arg15 (by decide)).trans <| (StableHlo.after_of_writes_sub hostOps6 _ hostOps6_writes (by decide)).trans <| (W12_of_ne m ρ c main_arg15 (by decide)).trans <| (StableHlo.after_of_writes_sub hostOps5 _ hostOps5_writes (by decide)).trans <| (W10_of_ne m ρ c main_arg15 (by decide)).trans <| (StableHlo.after_of_writes_sub hostOps4 _ hostOps4_writes (by decide)).trans <| (W8_of_ne m ρ c main_arg15 (by decide)).trans <| (StableHlo.after_of_writes_sub hostOps3 _ hostOps3_writes (by decide)).trans <| (W6_of_ne m ρ c main_arg15 (by decide)).trans <| (StableHlo.after_of_writes_sub hostOps2 _ hostOps2_writes (by decide)).trans <| (W4_of_ne m ρ c main_arg15 (by decide)).trans <| (StableHlo.after_of_writes_sub hostOps1 _ hostOps1_writes (by decide)).trans <| (W2_of_ne m ρ c main_arg15 (by decide)).trans <| (StableHlo.after_of_writes_sub hostOps0 _ hostOps0_writes (by decide))
theorem W18_main_arg16 (c : Dev nD) : W18 m ρ c (Proc.devRef .tc main_arg16) = m ((c : Thread nD τ).loc main_arg16) :=
  (W18_of_ne m ρ c main_arg16 (by decide)).trans <| (StableHlo.after_of_writes_sub hostOps8 _ hostOps8_writes (by decide)).trans <| (W16_of_ne m ρ c main_arg16 (by decide)).trans <| (StableHlo.after_of_writes_sub hostOps7 _ hostOps7_writes (by decide)).trans <| (W14_of_ne m ρ c main_arg16 (by decide)).trans <| (StableHlo.after_of_writes_sub hostOps6 _ hostOps6_writes (by decide)).trans <| (W12_of_ne m ρ c main_arg16 (by decide)).trans <| (StableHlo.after_of_writes_sub hostOps5 _ hostOps5_writes (by decide)).trans <| (W10_of_ne m ρ c main_arg16 (by decide)).trans <| (StableHlo.after_of_writes_sub hostOps4 _ hostOps4_writes (by decide)).trans <| (W8_of_ne m ρ c main_arg16 (by decide)).trans <| (StableHlo.after_of_writes_sub hostOps3 _ hostOps3_writes (by decide)).trans <| (W6_of_ne m ρ c main_arg16 (by decide)).trans <| (StableHlo.after_of_writes_sub hostOps2 _ hostOps2_writes (by decide)).trans <| (W4_of_ne m ρ c main_arg16 (by decide)).trans <| (StableHlo.after_of_writes_sub hostOps1 _ hostOps1_writes (by decide)).trans <| (W2_of_ne m ρ c main_arg16 (by decide)).trans <| (StableHlo.after_of_writes_sub hostOps0 _ hostOps0_writes (by decide))
theorem W18_main_arg17 (c : Dev nD) : W18 m ρ c (Proc.devRef .tc main_arg17) = m ((c : Thread nD τ).loc main_arg17) :=
  (W18_of_ne m ρ c main_arg17 (by decide)).trans <| (StableHlo.after_of_writes_sub hostOps8 _ hostOps8_writes (by decide)).trans <| (W16_of_ne m ρ c main_arg17 (by decide)).trans <| (StableHlo.after_of_writes_sub hostOps7 _ hostOps7_writes (by decide)).trans <| (W14_of_ne m ρ c main_arg17 (by decide)).trans <| (StableHlo.after_of_writes_sub hostOps6 _ hostOps6_writes (by decide)).trans <| (W12_of_ne m ρ c main_arg17 (by decide)).trans <| (StableHlo.after_of_writes_sub hostOps5 _ hostOps5_writes (by decide)).trans <| (W10_of_ne m ρ c main_arg17 (by decide)).trans <| (StableHlo.after_of_writes_sub hostOps4 _ hostOps4_writes (by decide)).trans <| (W8_of_ne m ρ c main_arg17 (by decide)).trans <| (StableHlo.after_of_writes_sub hostOps3 _ hostOps3_writes (by decide)).trans <| (W6_of_ne m ρ c main_arg17 (by decide)).trans <| (StableHlo.after_of_writes_sub hostOps2 _ hostOps2_writes (by decide)).trans <| (W4_of_ne m ρ c main_arg17 (by decide)).trans <| (StableHlo.after_of_writes_sub hostOps1 _ hostOps1_writes (by decide)).trans <| (W2_of_ne m ρ c main_arg17 (by decide)).trans <| (StableHlo.after_of_writes_sub hostOps0 _ hostOps0_writes (by decide))
theorem W18_main_arg18 (c : Dev nD) : W18 m ρ c (Proc.devRef .tc main_arg18) = m ((c : Thread nD τ).loc main_arg18) :=
  ((W18_arr m ρ c 1).trans (((dat8 (V17 m ρ) c).arrAt_in 1 rfl _).trans (A_eq8 (V17 m ρ) c 1))).trans <| (StableHlo.after_of_writes_sub hostOps8 _ hostOps8_writes (by decide)).trans <| (W16_of_ne m ρ c main_arg18 (by decide)).trans <| (StableHlo.after_of_writes_sub hostOps7 _ hostOps7_writes (by decide)).trans <| (W14_of_ne m ρ c main_arg18 (by decide)).trans <| (StableHlo.after_of_writes_sub hostOps6 _ hostOps6_writes (by decide)).trans <| (W12_of_ne m ρ c main_arg18 (by decide)).trans <| (StableHlo.after_of_writes_sub hostOps5 _ hostOps5_writes (by decide)).trans <| (W10_of_ne m ρ c main_arg18 (by decide)).trans <| (StableHlo.after_of_writes_sub hostOps4 _ hostOps4_writes (by decide)).trans <| (W8_of_ne m ρ c main_arg18 (by decide)).trans <| (StableHlo.after_of_writes_sub hostOps3 _ hostOps3_writes (by decide)).trans <| (W6_of_ne m ρ c main_arg18 (by decide)).trans <| (StableHlo.after_of_writes_sub hostOps2 _ hostOps2_writes (by decide)).trans <| (W4_of_ne m ρ c main_arg18 (by decide)).trans <| (StableHlo.after_of_writes_sub hostOps1 _ hostOps1_writes (by decide)).trans <| (W2_of_ne m ρ c main_arg18 (by decide)).trans <| (StableHlo.after_of_writes_sub hostOps0 _ hostOps0_writes (by decide))
theorem W18_main_arg19 (c : Dev nD) : W18 m ρ c (Proc.devRef .tc main_arg19) = m ((c : Thread nD τ).loc main_arg19) :=
  (W18_of_ne m ρ c main_arg19 (by decide)).trans <| (StableHlo.after_of_writes_sub hostOps8 _ hostOps8_writes (by decide)).trans <| (W16_of_ne m ρ c main_arg19 (by decide)).trans <| (StableHlo.after_of_writes_sub hostOps7 _ hostOps7_writes (by decide)).trans <| (W14_of_ne m ρ c main_arg19 (by decide)).trans <| (StableHlo.after_of_writes_sub hostOps6 _ hostOps6_writes (by decide)).trans <| (W12_of_ne m ρ c main_arg19 (by decide)).trans <| (StableHlo.after_of_writes_sub hostOps5 _ hostOps5_writes (by decide)).trans <| (W10_of_ne m ρ c main_arg19 (by decide)).trans <| (StableHlo.after_of_writes_sub hostOps4 _ hostOps4_writes (by decide)).trans <| (W8_of_ne m ρ c main_arg19 (by decide)).trans <| (StableHlo.after_of_writes_sub hostOps3 _ hostOps3_writes (by decide)).trans <| (W6_of_ne m ρ c main_arg19 (by decide)).trans <| (StableHlo.after_of_writes_sub hostOps2 _ hostOps2_writes (by decide)).trans <| (W4_of_ne m ρ c main_arg19 (by decide)).trans <| (StableHlo.after_of_writes_sub hostOps1 _ hostOps1_writes (by decide)).trans <| (W2_of_ne m ρ c main_arg19 (by decide)).trans <| (StableHlo.after_of_writes_sub hostOps0 _ hostOps0_writes (by decide))
theorem W18_main_arg20 (c : Dev nD) : W18 m ρ c (Proc.devRef .tc main_arg20) = m ((c : Thread nD τ).loc main_arg20) :=
  (W18_of_ne m ρ c main_arg20 (by decide)).trans <| (StableHlo.after_of_writes_sub hostOps8 _ hostOps8_writes (by decide)).trans <| (W16_of_ne m ρ c main_arg20 (by decide)).trans <| (StableHlo.after_of_writes_sub hostOps7 _ hostOps7_writes (by decide)).trans <| (W14_of_ne m ρ c main_arg20 (by decide)).trans <| (StableHlo.after_of_writes_sub hostOps6 _ hostOps6_writes (by decide)).trans <| (W12_of_ne m ρ c main_arg20 (by decide)).trans <| (StableHlo.after_of_writes_sub hostOps5 _ hostOps5_writes (by decide)).trans <| (W10_of_ne m ρ c main_arg20 (by decide)).trans <| (StableHlo.after_of_writes_sub hostOps4 _ hostOps4_writes (by decide)).trans <| (W8_of_ne m ρ c main_arg20 (by decide)).trans <| (StableHlo.after_of_writes_sub hostOps3 _ hostOps3_writes (by decide)).trans <| (W6_of_ne m ρ c main_arg20 (by decide)).trans <| (StableHlo.after_of_writes_sub hostOps2 _ hostOps2_writes (by decide)).trans <| (W4_of_ne m ρ c main_arg20 (by decide)).trans <| (StableHlo.after_of_writes_sub hostOps1 _ hostOps1_writes (by decide)).trans <| (W2_of_ne m ρ c main_arg20 (by decide)).trans <| (StableHlo.after_of_writes_sub hostOps0 _ hostOps0_writes (by decide))

theorem W18_result (c : Dev nD) : W18 m ρ c (Proc.devRef .tc main_v69) = (dat8 (V17 m ρ) c).arrAt 3 cfg8.N :=
  W18_arr m ρ c 3

/-! ## The proof data family and the thread state -/

abbrev adm : (p : Fin 9) → (pcfgs (F := F) p).Adm := fun p => (cfgs p).toPCfg_adm
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m ρ 0 c).Φ 0 from hin0 (V1 m ρ) c)
    unfold Pipeline.ΦA
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec2 c ⊢ (pdats m ρ 2 c).Φ 0 from hin2 (V5 m ρ) c)
    unfold Pipeline.ΦA
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec4 c ⊢ (pdats m ρ 4 c).Φ 0 from hin4 (V9 m ρ) c)
    unfold Pipeline.ΦA
    isplitl [Hr]; · iexact Hr
    iexact Hp
  hout c := by
    rw [Pipeline.ownSems0_none]
    refine (show (pdats m ρ 4 c).Φ (Fin.last _) ⊢ Pipeline.ΦA spec4 c from hout4 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec6 c ⊢ (pdats m ρ 6 c).Φ 0 from hin6 (V13 m ρ) c)
    unfold Pipeline.ΦA
    isplitl [Hr]; · iexact Hr
    iexact Hp
  hout c := by
    rw [Pipeline.ownSems0_none]
    refine (show (pdats m ρ 6 c).Φ (Fin.last _) ⊢ Pipeline.ΦA spec6 c from hout6 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ) ]

theorem main_run (c : Dev nD) : main (F := F) c = Pipeline.Seg.run (segs m ρ) := (main_chain c).trans (by chain_rfl)

set_option backward.isDefEq.respectTransparency.types false in
/-- THE RUN: every weakly fair execution of @main terminates without a fault, and every final memory holds each
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W18 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c => h c)

end Cert.Kernel.Regions

end
-- ==== Proof.FrameKB.lean ====
/-
  The frame of the program as printed (word level): the whole run ends with every unscoped buffer at the last boundary's
  contents, and each argument array reads back there as launched.
-/
import proofs.«110958_j70274254897753_1_alg».proof.Defs
import proofs.«110958_j70274254897753_1_alg».proof.Proof.KB.Run
import proofs.«110958_j70274254897753_1_alg».proof.Proof.Gen.Kernel
import proofs.«110958_j70274254897753_1_alg».proof.Proof.Gen.Pre_finite_inputs

set_option maxRecDepth 16384

noncomputable section

namespace Cert.Proof.Frames

open Idealize.ShloMosaic Idealize.ShloMosaic.TcCoe Idealize.SL.Sem
open Cert.Kernel Cert.Kernel.Regions

theorem frame_Kernel : @Cert.frame_Kernel Cert.Kernel.Gen.facts Cert.Pre_finite_inputs.Gen.facts := fun m ρ _ =>
  (θ_run (Cert.Kernel.defs (F := Bits)) _ _).mono (fun _ h c => ⟨
      (h c _ (mem_uc main_arg0 (by decide))).trans (W18_main_arg0 m ρ c),
      (h c _ (mem_uc main_arg1 (by decide))).trans (W18_main_arg1 m ρ c),
      (h c _ (mem_uc main_arg2 (by decide))).trans (W18_main_arg2 m ρ c),
      (h c _ (mem_uc main_arg3 (by decide))).trans (W18_main_arg3 m ρ c),
      (h c _ (mem_uc main_arg4 (by decide))).trans (W18_main_arg4 m ρ c),
      (h c _ (mem_uc main_arg5 (by decide))).trans (W18_main_arg5 m ρ c),
      (h c _ (mem_uc main_arg6 (by decide))).trans (W18_main_arg6 m ρ c),
      (h c _ (mem_uc main_arg7 (by decide))).trans (W18_main_arg7 m ρ c),
      (h c _ (mem_uc main_arg8 (by decide))).trans (W18_main_arg8 m ρ c),
      (h c _ (mem_uc main_arg9 (by decide))).trans (W18_main_arg9 m ρ c),
      (h c _ (mem_uc main_arg10 (by decide))).trans (W18_main_arg10 m ρ c),
      (h c _ (mem_uc main_arg11 (by decide))).trans (W18_main_arg11 m ρ c),
      (h c _ (mem_uc main_arg12 (by decide))).trans (W18_main_arg12 m ρ c),
      (h c _ (mem_uc main_arg13 (by decide))).trans (W18_main_arg13 m ρ c),
      (h c _ (mem_uc main_arg14 (by decide))).trans (W18_main_arg14 m ρ c),
      (h c _ (mem_uc main_arg15 (by decide))).trans (W18_main_arg15 m ρ c),
      (h c _ (mem_uc main_arg16 (by decide))).trans (W18_main_arg16 m ρ c),
      (h c _ (mem_uc main_arg17 (by decide))).trans (W18_main_arg17 m ρ c),
      (h c _ (mem_uc main_arg18 (by decide))).trans (W18_main_arg18 m ρ c),
      (h c _ (mem_uc main_arg19 (by decide))).trans (W18_main_arg19 m ρ c),
      (h c _ (mem_uc main_arg20 (by decide))).trans (W18_main_arg20 m ρ c)⟩)
    (run_all (F := Bits) m ρ)

end Cert.Proof.Frames

end
-- ==== Proof.KI.Stats0Base.lean ====
/-
  Region 0, shared definitions: the linear layer with running column statistics over one block of 10000
  rows.  The body computes y = (x + agg)·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- "This is the first grid point": the body's first branch condition, from the grid coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the last grid point": the body's second branch condition. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the body stores nothing into statistics window 5, and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
/-- Away from the last point the body stores nothing into statistics window 6, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-- One staging buffer of each output window, through which its contents are stated. -/
abbrev VO0_4 : View sig .tc .vmem S10000x128 .f32 := (Memref.whole cc0_stg4_0 : Memref sig .tc .vmem S10000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
/-- The two scratch rows the kernel carries between points. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two scratch rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Regions

end
-- ==== Proof.KI.Stats0RunA.lean ====
/-
  Region 0, the body's run at the first grid point (the scratch rows are started from zero):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun0_A (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__add_linear_stats_kernel_eq_skeleton]; unfold cc0__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.KernelIdeal.Regions

end
-- ==== Proof.KI.Stats0RunB.lean ====
/-
  Region 0, the body's run at a middle grid point (the scratch rows carry on from the point before):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun0_B (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__add_linear_stats_kernel_eq_skeleton]; unfold cc0__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.KernelIdeal.Regions

end
-- ==== Proof.KI.Stats0RunC.lean ====
/-
  Region 0, the body's run at the last grid point (the scratch rows are copied to the two statistics outputs):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun0_C (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    Σ' (L4 : List (View.Piece (Elt F) S10000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__add_linear_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__add_linear_stats_kernel_eq_skeleton]; unfold cc0__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]; · iexists _; iexact HS
    isplitl [HQ]; · iexists _; iexact HQ
    isplitl [HS0]; · iexists _; iexact HS0
    iexists _; iexact HS1

end Cert.KernelIdeal.Regions

end
-- ==== Proof.KI.Stats0.lean ====
/-
  Region 0: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats0RunA
import proofs.«110958_j70274254897753_1_alg».proof.Proof.KI.Stats0RunB
import proofs.«110958_j70274254897753_1_alg».proof.Proof.KI.Stats0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms0_0 (t : Fin cfg0.N) : Memref sig .tc .vmem S10000x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

theorem cov0_A_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) (y : S10000x128.Idx) :
    ∃ pc ∈ (kernelRun0_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).1 S10000x128.size (by sl_kernel_rfl) y
/-- What this case leaves there: its pieces read back. -/
def val0_A_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) : Vec F S10000x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x0 x1 x2 x3).1)

theorem cov0_A_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.1 S1x128.size (by sl_kernel_rfl) y
/-- What this case leaves there: its pieces read back. -/
def val0_A_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3).2.1)

theorem cov0_A_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.1 S1x128.size (by sl_kernel_rfl) y
/-- What this case leaves there: its pieces read back. -/
def val0_A_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3).2.2.1)

theorem cov0_B_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) (y : S10000x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val0_B_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) : Vec F S10000x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x0 x1 x2 x3 xs0 xs1).1)

theorem cov0_B_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val0_B_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 xs0 xs1).2.1)

theorem cov0_B_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val0_B_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 xs0 xs1).2.2.1)

theorem cov0_C_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S10000x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val0_C_y (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S10000x128 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x0 x1 x2 x3 xs0 xs1).1)

theorem cov0_C_S (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val0_C_S (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 xs0 xs1).2.1)

theorem cov0_C_Q (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val0_C_Q (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 xs0 xs1).2.2.1)

theorem cov0_C_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y
/-- What this case leaves there: its pieces read back. -/
def val0_C_s0 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 xs0 xs1).2.2.2.1)

theorem cov0_C_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y
/-- What this case leaves there: its pieces read back. -/
def val0_C_s1 (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 xs0 xs1).2.2.2.2.1)

/-- THE ACCUMULATION: (block output, sum window, sum-of-squares window, scratch row 0, scratch row 1) after point `n`. -/
def outsAt0 (c : Dev nD) : (n : ℕ) → n < cfg0.N → Vec F S10000x128 .f32 × Vec F S1x128 .f32 × Vec F S1x128 .f32 × Vec F S1x128 .f32 × Vec F S1x128 .f32
  | 0, hn => ((val0_A_y c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)), (VO0_5.read (Elt F) VO0_5.junk), (VO0_6.read (Elt F) VO0_6.junk), (val0_A_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)), (val0_A_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)))
  | n + 1, hn =>
    have hN : n + 1 < 10 := lt_of_lt_of_eq hn (show cfg0.N = 10 from N_0)
    if h1 : (n + 1) % 10 = 9 then
      ((val0_C_y c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_S c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_Q c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_C_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2))
    else
      ((val0_B_y c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (VO0_5.read (Elt F) VO0_5.junk), (VO0_6.read (Elt F) VO0_6.junk), (val0_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2), (val0_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2))

theorem outsAt0_A (c : Dev nD) (t : Fin cfg0.N) (h0 : t.val % 10 = 0) (h1 : ¬t.val % 10 = 9) :
    outsAt0 V c t.val t.isLt = ((val0_A_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)), (VO0_5.read (Elt F) VO0_5.junk), (VO0_6.read (Elt F) VO0_6.junk), (val0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)), (val0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))) := by
  obtain ⟨n, hn⟩ := t
  cases n with
  | zero => exact rfl
  | succ n => exact (by exfalso; have hN : n + 1 < 10 := lt_of_lt_of_eq hn (show cfg0.N = 10 from N_0); (try dsimp only at h0); omega)

theorem outsAt0_B (c : Dev nD) (t : Fin cfg0.N) (h0 : ¬t.val % 10 = 0) (h1 : ¬t.val % 10 = 9) :
    outsAt0 V c t.val t.isLt = ((val0_B_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (VO0_5.read (Elt F) VO0_5.junk), (VO0_6.read (Elt F) VO0_6.junk), (val0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 10 = 0) (h1 : t.val % 10 = 9) :
    outsAt0 V c t.val t.isLt = ((val0_C_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_Q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2), (val0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
          ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  by_cases h0 : t.val % 10 = 0
  · have h1 : ¬t.val % 10 = 9 := by omega
    have hz : t.val = 0 := by omega
    rw [Dat.leavesExact_idle (dat0 V c) 5 t (idleAt0_5 t (fun h => h1 ((hcond0_1 t).mp h))) (noFlush0_5 t (fun h => h1 ((hcond0_1 t).mp h))),
      Dat.leavesExact_idle (dat0 V c) 6 t (idleAt0_6 t (fun h => h1 ((hcond0_1 t).mp h))) (noFlush0_6 t (fun h => h1 ((hcond0_1 t).mp h)))]
    rw [outsAt0_A V c t h0 h1]
    unfold val0_A_y val0_A_s0 val0_A_s1; (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%ey, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov0_A_s0 c _ _ _ _ _ _ _ _ _ _ _ _ _ _ _ _ _ _ _ _ _ _ _ _ _)
          unfold owns; iexists _; isplitr
          swap; · iexact HS1
          ipureintro; exact View.read_writes_of_cover _ _ _ _ _ (cov0_A_s1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cov0_A_y c _ _ _ _ _ _ _ _ _ _ _ _ _ _ _ _ _ _ _ _ _ _ _ _ _)
    isplitl [H5]; · iexists _; iexact H5
    iexists _; iexact H6
  · by_cases h1 : t.val % 10 = 9
    · have hz : t.val ≠ 0 := by omega
      rw [show (dat0 V c).leavesExact 5 t = owns (c : Thread nD τ) (ms0_5 t) fullShare ((dat0 V c).after 5 t) from by
        unfold Dat.leavesExact; rw [liveAt0_5_C t ((hcond0_1 t).mpr h1)], after0_5]
      rw [show (dat0 V c).leavesExact 6 t = owns (c : Thread nD τ) (ms0_6 t) fullShare ((dat0 V c).after 6 t) from by
        unfold Dat.leavesExact; rw [liveAt0_6_C t ((hcond0_1 t).mpr h1)], after0_6]
      rw [outsAt0_C V c t h0 h1]
      unfold val0_C_y val0_C_S val0_C_Q val0_C_s0 val0_C_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%ey, H4⟩, ⟨%eS, H5⟩, ⟨%eQ, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov0_C_s0 c _ _ _ _ _ _ _ _ _ _ _ _ _ _ _ _ _ _ _ _ _ _ _ _ _ _ _)
            unfold owns; iexists _; isplitr
            swap; · iexact HS1
            ipureintro; exact View.read_writes_of_cover _ _ _ _ _ (cov0_C_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov0_C_y c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cov0_C_S c _ _ _ _ _ _ _ _ _ _ _ _ _ _ _ _ _ _ _ _ _ _ _ _ _ _ _)
      unfold owns; iexists _; isplitr
      swap; · iexact H6
      ipureintro; exact View.read_writes_of_cover _ _ _ _ _ (cov0_C_Q c _ _ _ _ _ _ _ _ _ _ _ _ _ _ _ _ _ _ _ _ _ _ _ _ _ _ _)
    · have hz : t.val ≠ 0 := by omega
      rw [Dat.leavesExact_idle (dat0 V c) 5 t (idleAt0_5 t (fun h => h1 ((hcond0_1 t).mp h))) (noFlush0_5 t (fun h => h1 ((hcond0_1 t).mp h))),
        Dat.leavesExact_idle (dat0 V c) 6 t (idleAt0_6 t (fun h => h1 ((hcond0_1 t).mp h))) (noFlush0_6 t (fun h => h1 ((hcond0_1 t).mp h)))]
      rw [outsAt0_B V c t h0 h1]
      unfold val0_B_y val0_B_s0 val0_B_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%ey, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov0_B_s0 c _ _ _ _ _ _ _ _ _ _ _ _ _ _ _ _ _ _ _ _ _ _ _ _ _ _ _)
            unfold owns; iexists _; isplitr
            swap; · iexact HS1
            ipureintro; exact View.read_writes_of_cover _ _ _ _ _ (cov0_B_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov0_B_y c _ _ _ _ _ _ _ _ _ _ _ _ _ _ _ _ _ _ _ _ _ _ _ _ _ _ _)
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Regions

end
-- ==== Proof.KI.Norm1.lean ====
/-
  Region 1: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one store, over the whole block. -/
def out1_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k1_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover1_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out1_5` of the inputs. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1: arrays as found; inputs left at their blocks, the output at `out1_5` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KI.Stats2Base.lean ====
/-
  Region 2, shared definitions: the linear layer with running column statistics over one block of 10000
  rows.  The body computes y = x·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- "This is the first grid point": the body's first branch condition, from the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)
/-- "This is the last grid point": the body's second branch condition. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the body stores nothing into statistics window 4, and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4_C : ∀ t : Fin cfg2.N, cond2_1 (grid2.coords t) → cfg2.idle 4 (grid2.coords t) = false := by decide +kernel
/-- Away from the last point the body stores nothing into statistics window 5, and its block is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5_C : ∀ t : Fin cfg2.N, cond2_1 (grid2.coords t) → cfg2.idle 5 (grid2.coords t) = false := by decide +kernel

/-- One staging buffer of each output window, through which its contents are stated. -/
abbrev VO2_3 : View sig .tc .vmem S10000x128 .f32 := (Memref.whole cc2_stg3_0 : Memref sig .tc .vmem S10000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
/-- The two scratch rows the kernel carries between points. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Regions

end
-- ==== Proof.KI.Stats2RunA.lean ====
/-
  Region 2, the body's run at the first grid point (the scratch rows are started from zero):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hfS; obtain rfl := harg6.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.KernelIdeal.Regions

end
-- ==== Proof.KI.Stats2RunB.lean ====
/-
  Region 2, the body's run at a middle grid point (the scratch rows carry on from the point before):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfS; obtain rfl := harg6.eq_unread hfQ; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.KernelIdeal.Regions

end
-- ==== Proof.KI.Stats2RunC.lean ====
/-
  Region 2, the body's run at the last grid point (the scratch rows are copied to the two statistics outputs):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_C (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    Σ' (L3 : List (View.Piece (Elt F) S10000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]; · iexists _; iexact HS
    isplitl [HQ]; · iexists _; iexact HQ
    isplitl [HS0]; · iexists _; iexact HS0
    iexists _; iexact HS1

end Cert.KernelIdeal.Regions

end
-- ==== Proof.KI.Stats2.lean ====
/-
  Region 2: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats2RunA
import proofs.«110958_j70274254897753_1_alg».proof.Proof.KI.Stats2RunB
import proofs.«110958_j70274254897753_1_alg».proof.Proof.KI.Stats2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

theorem cov2_A_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) (y : S10000x128.Idx) :
    ∃ pc ∈ (kernelRun2_A c i arg1 harg1 arg2 harg2 arg3 harg3 arg4 harg4 arg5 harg5 arg6 harg6 arg7 harg7 arg8 harg8 hc0 hc1 x0 x1 x2).1, y ∈ pc.1.set :=
  View.cover_of_tiledL (kernelRun2_A c i arg1 harg1 arg2 harg2 arg3 harg3 arg4 harg4 arg5 harg5 arg6 harg6 arg7 harg7 arg8 harg8 hc0 hc1 x0 x1 x2).1 S10000x128.size (by sl_kernel_rfl) y
/-- What this case leaves there: its pieces read back. -/
def val2_A_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) : Vec F S10000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 x0 x1 x2).1)

theorem cov2_A_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.1, y ∈ pc.1.set :=
  View.cover_of_tiledL (kernelRun2_A c i arg1 harg1 arg2 harg2 arg3 harg3 arg4 harg4 arg5 harg5 arg6 harg6 arg7 harg7 arg8 harg8 hc0 hc1 x0 x1 x2).2.1 S1x128.size (by sl_kernel_rfl) y
/-- What this case leaves there: its pieces read back. -/
def val2_A_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2).2.1)

theorem cov2_A_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.2.1, y ∈ pc.1.set :=
  View.cover_of_tiledL (kernelRun2_A c i arg1 harg1 arg2 harg2 arg3 harg3 arg4 harg4 arg5 harg5 arg6 harg6 arg7 harg7 arg8 harg8 hc0 hc1 x0 x1 x2).2.2.1 S1x128.size (by sl_kernel_rfl) y
/-- What this case leaves there: its pieces read back. -/
def val2_A_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2).2.2.1)

theorem cov2_B_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) (y : S10000x128.Idx) :
    ∃ pc ∈ (kernelRun2_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val2_B_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) : Vec F S10000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 x0 x1 x2 xs0 xs1).1)

theorem cov2_B_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val2_B_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 xs0 xs1).2.1)

theorem cov2_B_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val2_B_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 xs0 xs1).2.2.1)

theorem cov2_C_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S10000x128.Idx) :
    ∃ pc ∈ (kernelRun2_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val2_C_y (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S10000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 x0 x1 x2 xs0 xs1).1)

theorem cov2_C_S (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val2_C_S (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 xs0 xs1).2.1)

theorem cov2_C_Q (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val2_C_Q (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 xs0 xs1).2.2.1)

theorem cov2_C_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.1 S1x128.size (by sl_kernel_rfl) y
/-- What this case leaves there: its pieces read back. -/
def val2_C_s0 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 xs0 xs1).2.2.2.1)

theorem cov2_C_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.2.1 S1x128.size (by sl_kernel_rfl) y
/-- What this case leaves there: its pieces read back. -/
def val2_C_s1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 xs0 xs1).2.2.2.2.1)

/-- THE ACCUMULATION: (block output, sum window, sum-of-squares window, scratch row 0, scratch row 1) after point `n`. -/
def outsAt2 (c : Dev nD) : (n : ℕ) → n < cfg2.N → Vec F S10000x128 .f32 × Vec F S1x128 .f32 × Vec F S1x128 .f32 × Vec F S1x128 .f32 × Vec F S1x128 .f32
  | 0, hn => ((val2_A_y c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)), (VO2_4.read (Elt F) VO2_4.junk), (VO2_5.read (Elt F) VO2_5.junk), (val2_A_s0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)), (val2_A_s1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)))
  | n + 1, hn =>
    have hN : n + 1 < 10 := lt_of_lt_of_eq hn (show cfg2.N = 10 from N_2)
    if h1 : (n + 1) % 10 = 9 then
      ((val2_C_y c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_S c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_Q c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_C_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2))
    else
      ((val2_B_y c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (VO2_4.read (Elt F) VO2_4.junk), (VO2_5.read (Elt F) VO2_5.junk), (val2_B_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2), (val2_B_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2))

theorem outsAt2_A (c : Dev nD) (t : Fin cfg2.N) (h0 : t.val % 10 = 0) (h1 : ¬t.val % 10 = 9) :
    outsAt2 V c t.val t.isLt = ((val2_A_y c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)), (VO2_4.read (Elt F) VO2_4.junk), (VO2_5.read (Elt F) VO2_5.junk), (val2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)), (val2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t))) := by
  obtain ⟨n, hn⟩ := t
  cases n with
  | zero => exact rfl
  | succ n => exact (by exfalso; have hN : n + 1 < 10 := lt_of_lt_of_eq hn (show cfg2.N = 10 from N_2); (try dsimp only at h0); omega)

theorem outsAt2_B (c : Dev nD) (t : Fin cfg2.N) (h0 : ¬t.val % 10 = 0) (h1 : ¬t.val % 10 = 9) :
    outsAt2 V c t.val t.isLt = ((val2_B_y c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (VO2_4.read (Elt F) VO2_4.junk), (VO2_5.read (Elt F) VO2_5.junk), (val2_B_s0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_B_s1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 10 = 0) (h1 : t.val % 10 = 9) :
    outsAt2 V c t.val t.isLt = ((val2_C_y c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_S c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_Q c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2), (val2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of pipeline 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  by_cases h0 : t.val % 10 = 0
  · have h1 : ¬t.val % 10 = 9 := by omega
    have hz : t.val = 0 := by omega
    rw [Dat.leavesExact_idle (dat2 V c) 4 t (idleAt2_4 t (fun h => h1 ((hcond2_1 t).mp h))) (noFlush2_4 t (fun h => h1 ((hcond2_1 t).mp h))),
      Dat.leavesExact_idle (dat2 V c) 5 t (idleAt2_5 t (fun h => h1 ((hcond2_1 t).mp h))) (noFlush2_5 t (fun h => h1 ((hcond2_1 t).mp h)))]
    rw [outsAt2_A V c t h0 h1]
    unfold val2_A_y val2_A_s0 val2_A_s1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%ey, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov2_A_s0 c _ _ _ _ _ _ _ _ _ _ _ _ _ _ _ _ _ _ _ _ _ _)
          unfold owns; iexists _; isplitr
          swap; · iexact HS1
          ipureintro; exact View.read_writes_of_cover _ _ _ _ _ (cov2_A_s1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cov2_A_y c _ _ _ _ _ _ _ _ _ _ _ _ _ _ _ _ _ _ _ _ _ _)
    isplitl [H4]; · iexists _; iexact H4
    iexists _; iexact H5
  · by_cases h1 : t.val % 10 = 9
    · have hz : t.val ≠ 0 := by omega
      rw [show (dat2 V c).leavesExact 4 t = owns (c : Thread nD τ) (ms2_4 t) fullShare ((dat2 V c).after 4 t) from by
        unfold Dat.leavesExact; rw [liveAt2_4_C t ((hcond2_1 t).mpr h1)], after2_4]
      rw [show (dat2 V c).leavesExact 5 t = owns (c : Thread nD τ) (ms2_5 t) fullShare ((dat2 V c).after 5 t) from by
        unfold Dat.leavesExact; rw [liveAt2_5_C t ((hcond2_1 t).mpr h1)], after2_5]
      rw [outsAt2_C V c t h0 h1]
      unfold val2_C_y val2_C_S val2_C_Q val2_C_s0 val2_C_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%ey, H3⟩, ⟨%eS, H4⟩, ⟨%eQ, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov2_C_s0 c _ _ _ _ _ _ _ _ _ _ _ _ _ _ _ _ _ _ _ _ _ _ _ _)
            unfold owns; iexists _; isplitr
            swap; · iexact HS1
            ipureintro; exact View.read_writes_of_cover _ _ _ _ _ (cov2_C_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov2_C_y c _ _ _ _ _ _ _ _ _ _ _ _ _ _ _ _ _ _ _ _ _ _ _ _)
      isplitl [H4]
      · unfold owns; iexists _; isplitr
        swap; · iexact H4
        ipureintro; exact View.read_writes_of_cover _ _ _ _ _ (cov2_C_S c _ _ _ _ _ _ _ _ _ _ _ _ _ _ _ _ _ _ _ _ _ _ _ _)
      unfold owns; iexists _; isplitr
      swap; · iexact H5
      ipureintro; exact View.read_writes_of_cover _ _ _ _ _ (cov2_C_Q c _ _ _ _ _ _ _ _ _ _ _ _ _ _ _ _ _ _ _ _ _ _ _ _)
    · have hz : t.val ≠ 0 := by omega
      rw [Dat.leavesExact_idle (dat2 V c) 4 t (idleAt2_4 t (fun h => h1 ((hcond2_1 t).mp h))) (noFlush2_4 t (fun h => h1 ((hcond2_1 t).mp h))),
        Dat.leavesExact_idle (dat2 V c) 5 t (idleAt2_5 t (fun h => h1 ((hcond2_1 t).mp h))) (noFlush2_5 t (fun h => h1 ((hcond2_1 t).mp h)))]
      rw [outsAt2_B V c t h0 h1]
      unfold val2_B_y val2_B_s0 val2_B_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%ey, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov2_B_s0 c _ _ _ _ _ _ _ _ _ _ _ _ _ _ _ _ _ _ _ _ _ _ _ _)
            unfold owns; iexists _; isplitr
            swap; · iexact HS1
            ipureintro; exact View.read_writes_of_cover _ _ _ _ _ (cov2_B_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov2_B_y c _ _ _ _ _ _ _ _ _ _ _ _ _ _ _ _ _ _ _ _ _ _ _ _)
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Regions

end
-- ==== Proof.KI.Norm3.lean ====
/-
  Region 3: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one store, over the whole block. -/
def out3_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k3_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover3_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out3_5` of the inputs. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3: arrays as found; inputs left at their blocks, the output at `out3_5` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.KI.Stats4Base.lean ====
/-
  Region 4, shared definitions: the linear layer with running column statistics over one block of 10000
  rows.  The body computes y = (x + agg)·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- "This is the first grid point": the body's first branch condition, from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- "This is the last grid point": the body's second branch condition. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Away from the last point the body stores nothing into statistics window 5, and its block is not written back. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5_C : ∀ t : Fin cfg4.N, cond4_1 (grid4.coords t) → cfg4.idle 5 (grid4.coords t) = false := by decide +kernel
/-- Away from the last point the body stores nothing into statistics window 6, and its block is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel

/-- One staging buffer of each output window, through which its contents are stated. -/
abbrev VO4_4 : View sig .tc .vmem S10000x128 .f32 := (Memref.whole cc4_stg4_0 : Memref sig .tc .vmem S10000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
/-- The two scratch rows the kernel carries between points. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Regions

end
-- ==== Proof.KI.Stats4RunA.lean ====
/-
  Region 4, the body's run at the first grid point (the scratch rows are started from zero):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun4_A (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__add_linear_stats_kernel_eq_skeleton]; unfold cc4__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.KernelIdeal.Regions

end
-- ==== Proof.KI.Stats4RunB.lean ====
/-
  Region 4, the body's run at a middle grid point (the scratch rows carry on from the point before):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun4_B (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) :
    Σ' (L4 : List (View.Piece (Elt F) S10000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__add_linear_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__add_linear_stats_kernel_eq_skeleton]; unfold cc4__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfS; obtain rfl := harg7.eq_unread hfQ; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]
    · iexists _; isplitr; · ipureintro; exact harg6.read_unread _
      iexact HS
    isplitl [HQ]
    · iexists _; isplitr; · ipureintro; exact harg7.read_unread _
      iexact HQ
    isplitl [HS0]; · iexists _; iexact HS0
    iexists _; iexact HS1

end Cert.KernelIdeal.Regions

end
-- ==== Proof.KI.Stats4RunC.lean ====
/-
  Region 4, the body's run at the last grid point (the scratch rows are copied to the two statistics outputs):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun4_C (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    Σ' (L4 : List (View.Piece (Elt F) S10000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__add_linear_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__add_linear_stats_kernel_eq_skeleton]; unfold cc4__add_linear_stats_kernel_skel
    unfold owns
    iintro ⟨⟨%f0, %hf0, H0⟩, ⟨%f1, %hf1, H1⟩, ⟨%f2, %hf2, H2⟩, ⟨%f3, %hf3, H3⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [Hy]; · iexists _; iexact Hy
    isplitl [HS]; · iexists _; iexact HS
    isplitl [HQ]; · iexists _; iexact HQ
    isplitl [HS0]; · iexists _; iexact HS0
    iexists _; iexact HS1

end Cert.KernelIdeal.Regions

end
-- ==== Proof.KI.Stats4.lean ====
/-
  Region 4: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats4RunA
import proofs.«110958_j70274254897753_1_alg».proof.Proof.KI.Stats4RunB
import proofs.«110958_j70274254897753_1_alg».proof.Proof.KI.Stats4RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S10000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

theorem cov4_A_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) (y : S10000x128.Idx) :
    ∃ pc ∈ (kernelRun4_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).1 S10000x128.size (by sl_kernel_rfl) y
/-- What this case leaves there: its pieces read back. -/
def val4_A_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) : Vec F S10000x128 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x0 x1 x2 x3).1)

theorem cov4_A_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.1 S1x128.size (by sl_kernel_rfl) y
/-- What this case leaves there: its pieces read back. -/
def val4_A_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3).2.1)

theorem cov4_A_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.1 S1x128.size (by sl_kernel_rfl) y
/-- What this case leaves there: its pieces read back. -/
def val4_A_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3).2.2.1)

theorem cov4_B_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) (y : S10000x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val4_B_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) : Vec F S10000x128 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x0 x1 x2 x3 xs0 xs1).1)

theorem cov4_B_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val4_B_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 xs0 xs1).2.1)

theorem cov4_B_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val4_B_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 xs0 xs1).2.2.1)

theorem cov4_C_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S10000x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).1 S10000x128.size (by sl_kernel_rfl) y
/-- What this case leaves there: its pieces read back. -/
def val4_C_y (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S10000x128 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x0 x1 x2 x3 xs0 xs1).1)

theorem cov4_C_S (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
/-- What this case leaves there: its pieces read back. -/
def val4_C_S (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x0 x1 x2 x3 xs0 xs1).2.1)

theorem cov4_C_Q (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
/-- What this case leaves there: its pieces read back. -/
def val4_C_Q (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 xs0 xs1).2.2.1)

theorem cov4_C_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y
/-- What this case leaves there: its pieces read back. -/
def val4_C_s0 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 xs0 xs1).2.2.2.1)

theorem cov4_C_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y
/-- What this case leaves there: its pieces read back. -/
def val4_C_s1 (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 xs0 xs1).2.2.2.2.1)

/-- THE ACCUMULATION: (block output, sum window, sum-of-squares window, scratch row 0, scratch row 1) after point `n`. -/
def outsAt4 (c : Dev nD) : (n : ℕ) → n < cfg4.N → Vec F S10000x128 .f32 × Vec F S1x128 .f32 × Vec F S1x128 .f32 × Vec F S1x128 .f32 × Vec F S1x128 .f32
  | 0, hn => ((val4_A_y c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)), (VO4_5.read (Elt F) VO4_5.junk), (VO4_6.read (Elt F) VO4_6.junk), (val4_A_s0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)), (val4_A_s1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)))
  | n + 1, hn =>
    have hN : n + 1 < 10 := lt_of_lt_of_eq hn (show cfg4.N = 10 from N_4)
    if h1 : (n + 1) % 10 = 9 then
      ((val4_C_y c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_S c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_Q c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_C_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2))
    else
      ((val4_B_y c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (VO4_5.read (Elt F) VO4_5.junk), (VO4_6.read (Elt F) VO4_6.junk), (val4_B_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2), (val4_B_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (fun h => by (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2))

theorem outsAt4_A (c : Dev nD) (t : Fin cfg4.N) (h0 : t.val % 10 = 0) (h1 : ¬t.val % 10 = 9) :
    outsAt4 V c t.val t.isLt = ((val4_A_y c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)), (VO4_5.read (Elt F) VO4_5.junk), (VO4_6.read (Elt F) VO4_6.junk), (val4_A_s0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)), (val4_A_s1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))) := by
  obtain ⟨n, hn⟩ := t
  cases n with
  | zero => exact rfl
  | succ n => exact (by exfalso; have hN : n + 1 < 10 := lt_of_lt_of_eq hn (show cfg4.N = 10 from N_4); (try dsimp only at h0); omega)

theorem outsAt4_B (c : Dev nD) (t : Fin cfg4.N) (h0 : ¬t.val % 10 = 0) (h1 : ¬t.val % 10 = 9) :
    outsAt4 V c t.val t.isLt = ((val4_B_y c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (VO4_5.read (Elt F) VO4_5.junk), (VO4_6.read (Elt F) VO4_6.junk), (val4_B_s0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_B_s1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 10 = 0) (h1 : t.val % 10 = 9) :
    outsAt4 V c t.val t.isLt = ((val4_C_y c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_S c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_Q c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_s0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2), (val4_C_s1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of pipeline 4. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  rw [show (dat4 V c).leavesExact 4 t = owns (c : Thread nD τ) (ms4_4 t) fullShare ((dat4 V c).after 4 t) from by
        unfold Dat.leavesExact; rw [liveAt4_4 t], after4_4]
  by_cases h0 : t.val % 10 = 0
  · have h1 : ¬t.val % 10 = 9 := by omega
    have hz : t.val = 0 := by omega
    rw [Dat.leavesExact_idle (dat4 V c) 5 t (idleAt4_5 t (fun h => h1 ((hcond4_1 t).mp h))) (noFlush4_5 t (fun h => h1 ((hcond4_1 t).mp h))),
      Dat.leavesExact_idle (dat4 V c) 6 t (idleAt4_6 t (fun h => h1 ((hcond4_1 t).mp h))) (noFlush4_6 t (fun h => h1 ((hcond4_1 t).mp h)))]
    rw [outsAt4_A V c t h0 h1]
    unfold val4_A_y val4_A_s0 val4_A_s1; (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%ey, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov4_A_s0 c _ _ _ _ _ _ _ _ _ _ _ _ _ _ _ _ _ _ _ _ _ _ _ _ _)
          unfold owns; iexists _; isplitr
          swap; · iexact HS1
          ipureintro; exact View.read_writes_of_cover _ _ _ _ _ (cov4_A_s1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cov4_A_y c _ _ _ _ _ _ _ _ _ _ _ _ _ _ _ _ _ _ _ _ _ _ _ _ _)
    isplitl [H5]; · iexists _; iexact H5
    iexists _; iexact H6
  · by_cases h1 : t.val % 10 = 9
    · have hz : t.val ≠ 0 := by omega
      rw [show (dat4 V c).leavesExact 5 t = owns (c : Thread nD τ) (ms4_5 t) fullShare ((dat4 V c).after 5 t) from by
        unfold Dat.leavesExact; rw [liveAt4_5_C t ((hcond4_1 t).mpr h1)], after4_5]
      rw [show (dat4 V c).leavesExact 6 t = owns (c : Thread nD τ) (ms4_6 t) fullShare ((dat4 V c).after 6 t) from by
        unfold Dat.leavesExact; rw [liveAt4_6_C t ((hcond4_1 t).mpr h1)], after4_6]
      rw [outsAt4_C V c t h0 h1]
      unfold val4_C_y val4_C_S val4_C_Q val4_C_s0 val4_C_s1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%ey, H4⟩, ⟨%eS, H5⟩, ⟨%eQ, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov4_C_s0 c _ _ _ _ _ _ _ _ _ _ _ _ _ _ _ _ _ _ _ _ _ _ _ _ _ _ _)
            unfold owns; iexists _; isplitr
            swap; · iexact HS1
            ipureintro; exact View.read_writes_of_cover _ _ _ _ _ (cov4_C_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov4_C_y c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cov4_C_S c _ _ _ _ _ _ _ _ _ _ _ _ _ _ _ _ _ _ _ _ _ _ _ _ _ _ _)
      unfold owns; iexists _; isplitr
      swap; · iexact H6
      ipureintro; exact View.read_writes_of_cover _ _ _ _ _ (cov4_C_Q c _ _ _ _ _ _ _ _ _ _ _ _ _ _ _ _ _ _ _ _ _ _ _ _ _ _ _)
    · have hz : t.val ≠ 0 := by omega
      rw [Dat.leavesExact_idle (dat4 V c) 5 t (idleAt4_5 t (fun h => h1 ((hcond4_1 t).mp h))) (noFlush4_5 t (fun h => h1 ((hcond4_1 t).mp h))),
        Dat.leavesExact_idle (dat4 V c) 6 t (idleAt4_6 t (fun h => h1 ((hcond4_1 t).mp h))) (noFlush4_6 t (fun h => h1 ((hcond4_1 t).mp h)))]
      rw [outsAt4_B V c t h0 h1]
      unfold val4_B_y val4_B_s0 val4_B_s1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%ey, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov4_B_s0 c _ _ _ _ _ _ _ _ _ _ _ _ _ _ _ _ _ _ _ _ _ _ _ _ _ _ _)
            unfold owns; iexists _; isplitr
            swap; · iexact HS1
            ipureintro; exact View.read_writes_of_cover _ _ _ _ _ (cov4_B_s1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cov4_B_y c _ _ _ _ _ _ _ _ _ _ _ _ _ _ _ _ _ _ _ _ _ _ _ _ _ _ _)
      isplitl [H5]; · iexists _; iexact H5
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Regions

end
-- ==== Proof.KI.Norm5.lean ====
/-
  Region 5: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body: its one store, over the whole block. -/
def out5_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k5_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover5_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out5_5` of the inputs. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5: arrays as found; inputs left at their blocks, the output at `out5_5` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Regions

end
-- ==== Proof.KI.Stats6Base.lean ====
/-
  Region 6, shared definitions: the linear layer with running column statistics over one block of 10000
  rows.  The body computes y = x·W + b for the block, stores it, and adds the block's column sums of y
  and of y² to two scratch rows that are carried from one grid point to the next; the first point starts the
  scratch rows from zero and the last point copies them to the two statistics outputs.  Here: the two
  branch conditions as functions of the grid point, where each statistics window is idle, the scratch rows as
  memrefs, and the region invariant with the two scratch rows taken out of the scoped rest.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- "This is the first grid point": the body's first branch condition, from the grid coordinates. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
/-- "This is the last grid point": the body's second branch condition. -/
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Away from the last point the body stores nothing into statistics window 4, and its block is not written back. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4_C : ∀ t : Fin cfg6.N, cond6_1 (grid6.coords t) → cfg6.idle 4 (grid6.coords t) = false := by decide +kernel
/-- Away from the last point the body stores nothing into statistics window 5, and its block is not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5_C : ∀ t : Fin cfg6.N, cond6_1 (grid6.coords t) → cfg6.idle 5 (grid6.coords t) = false := by decide +kernel

/-- One staging buffer of each output window, through which its contents are stated. -/
abbrev VO6_3 : View sig .tc .vmem S10000x128 .f32 := (Memref.whole cc6_stg3_0 : Memref sig .tc .vmem S10000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
/-- The two scratch rows the kernel carries between points. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-- The class invariant with the two scratch rows as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

end Cert.KernelIdeal.Regions

end
-- ==== Proof.KI.Stats6RunA.lean ====
/-
  Region 6, the body's run at the first grid point (the scratch rows are started from zero):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats6Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun6_A (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__linear_stats_kernel_eq_skeleton]; unfold cc6__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hfS; obtain rfl := harg6.eq_unread hfQ
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.KernelIdeal.Regions

end
-- ==== Proof.KI.Stats6RunB.lean ====
/-
  Region 6, the body's run at a middle grid point (the scratch rows carry on from the point before):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats6Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun6_B (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) :
    Σ' (L3 : List (View.Piece (Elt F) S10000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__linear_stats_kernel_eq_skeleton]; unfold cc6__linear_stats_kernel_skel
    unfold owns
    iintro ⟨⟨%f0, %hf0, H0⟩, ⟨%f1, %hf1, H1⟩, ⟨%f2, %hf2, H2⟩, ⟨%dy, %fy, -, Hy⟩, ⟨%fS, %hfS, HS⟩, ⟨%fQ, %hfQ, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfS; obtain rfl := harg6.eq_unread hfQ; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]
    · iexists _; isplitr; · ipureintro; exact harg5.read_unread _
      iexact HS
    isplitl [HQ]
    · iexists _; isplitr; · ipureintro; exact harg6.read_unread _
      iexact HQ
    isplitl [HS0]; · iexists _; iexact HS0
    iexists _; iexact HS1

end Cert.KernelIdeal.Regions

end
-- ==== Proof.KI.Stats6RunC.lean ====
/-
  Region 6, the body's run at the last grid point (the scratch rows are copied to the two statistics outputs):
  the pieces the stores leave in each buffer, found by running the body.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats6Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun6_C (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    Σ' (L3 : List (View.Piece (Elt F) S10000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__linear_stats_kernel_eq_skeleton]; unfold cc6__linear_stats_kernel_skel
    unfold owns
    iintro ⟨⟨%f0, %hf0, H0⟩, ⟨%f1, %hf1, H1⟩, ⟨%f2, %hf2, H2⟩, ⟨%dy, %fy, -, Hy⟩, ⟨%dS, %fS, -, HS⟩, ⟨%dQ, %fQ, -, HQ⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [Hy]; · iexists _; iexact Hy
    isplitl [HS]; · iexists _; iexact HS
    isplitl [HQ]; · iexists _; iexact HQ
    isplitl [HS0]; · iexists _; iexact HS0
    iexists _; iexact HS1

end Cert.KernelIdeal.Regions

end
-- ==== Proof.KI.Stats6.lean ====
/-
  Region 6: what its buffers hold after each grid point, and the body obligation.  After point n the block
  output holds that block's y; the two scratch rows hold the column sums of y and of y² over the blocks
  0 … n (by recursion on n: the first point starts from zero, every later one adds to what the point
  before left); the two statistics windows are untouched until the last point, which copies the scratch rows
  into them.  The region invariant carries the two scratch rows at exactly these contents from point to point.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats6RunA
import proofs.«110958_j70274254897753_1_alg».proof.Proof.KI.Stats6RunB
import proofs.«110958_j70274254897753_1_alg».proof.Proof.KI.Stats6RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it, and its wholeness. -/
abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S10000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)

theorem cov6_A_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) (y : S10000x128.Idx) :
    ∃ pc ∈ (kernelRun6_A c i arg1 harg1 arg2 harg2 arg3 harg3 arg4 harg4 arg5 harg5 arg6 harg6 arg7 harg7 arg8 harg8 hc0 hc1 x0 x1 x2).1, y ∈ pc.1.set :=
  View.cover_of_tiledL (kernelRun6_A c i arg1 harg1 arg2 harg2 arg3 harg3 arg4 harg4 arg5 harg5 arg6 harg6 arg7 harg7 arg8 harg8 hc0 hc1 x0 x1 x2).1 S10000x128.size (by sl_kernel_rfl) y
/-- What this case leaves there: its pieces read back. -/
def val6_A_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) : Vec F S10000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc0 hc1 x0 x1 x2).1)

theorem cov6_A_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.1, y ∈ pc.1.set :=
  View.cover_of_tiledL (kernelRun6_A c i arg1 harg1 arg2 harg2 arg3 harg3 arg4 harg4 arg5 harg5 arg6 harg6 arg7 harg7 arg8 harg8 hc0 hc1 x0 x1 x2).2.1 S1x128.size (by sl_kernel_rfl) y
/-- What this case leaves there: its pieces read back. -/
def val6_A_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2).2.1)

theorem cov6_A_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.2.1, y ∈ pc.1.set :=
  View.cover_of_tiledL (kernelRun6_A c i arg1 harg1 arg2 harg2 arg3 harg3 arg4 harg4 arg5 harg5 arg6 harg6 arg7 harg7 arg8 harg8 hc0 hc1 x0 x1 x2).2.2.1 S1x128.size (by sl_kernel_rfl) y
/-- What this case leaves there: its pieces read back. -/
def val6_A_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2).2.2.1)

theorem cov6_B_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) (y : S10000x128.Idx) :
    ∃ pc ∈ (kernelRun6_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val6_B_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) : Vec F S10000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc0 hc1 x0 x1 x2 xs0 xs1).1)

theorem cov6_B_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val6_B_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 xs0 xs1).2.1)

theorem cov6_B_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val6_B_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 xs0 xs1).2.2.1)

theorem cov6_C_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S10000x128.Idx) :
    ∃ pc ∈ (kernelRun6_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).1 S10000x128.size (by sl_kernel_rfl) y
/-- What this case leaves there: its pieces read back. -/
def val6_C_y (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S10000x128 .f32 :=
  VO6_3.read (Elt F) (VO6_3.writes (Elt F) VO6_3.junk (kernelRun6_C c i arg1 harg1 arg2 harg2 arg3 harg3 arg4 harg4 arg5 harg5 arg6 harg6 arg7 harg7 arg8 harg8 hc0 hc1 x0 x1 x2 xs0 xs1).1)

theorem cov6_C_S (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.1 S1x128.size (by sl_kernel_rfl) y
/-- What this case leaves there: its pieces read back. -/
def val6_C_S (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VO6_4.read (Elt F) (VO6_4.writes (Elt F) VO6_4.junk (kernelRun6_C c i arg1 harg1 arg2 harg2 arg3 harg3 arg4 harg4 arg5 harg5 arg6 harg6 arg7 harg7 arg8 harg8 hc0 hc1 x0 x1 x2 xs0 xs1).2.1)

theorem cov6_C_Q (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.1 S1x128.size (by sl_kernel_rfl) y
/-- What this case leaves there: its pieces read back. -/
def val6_C_Q (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 xs0 xs1).2.2.1)

theorem cov6_C_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.1 S1x128.size (by sl_kernel_rfl) y
/-- What this case leaves there: its pieces read back. -/
def val6_C_s0 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 xs0 xs1).2.2.2.1)

theorem cov6_C_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.2.1 S1x128.size (by sl_kernel_rfl) y
/-- What this case leaves there: its pieces read back. -/
def val6_C_s1 (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 xs0 xs1).2.2.2.2.1)

/-- THE ACCUMULATION: (block output, sum window, sum-of-squares window, scratch row 0, scratch row 1) after point `n`. -/
def outsAt6 (c : Dev nD) : (n : ℕ) → n < cfg6.N → Vec F S10000x128 .f32 × Vec F S1x128 .f32 × Vec F S1x128 .f32 × Vec F S1x128 .f32 × Vec F S1x128 .f32
  | 0, hn => ((val6_A_y c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩)), (VO6_4.read (Elt F) VO6_4.junk), (VO6_5.read (Elt F) VO6_5.junk), (val6_A_s0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩)), (val6_A_s1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩)))
  | n + 1, hn =>
    have hN : n + 1 < 10 := lt_of_lt_of_eq hn (show cfg6.N = 10 from N_6)
    if h1 : (n + 1) % 10 = 9 then
      ((val6_C_y c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_S c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_Q c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_s0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_C_s1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2))
    else
      ((val6_B_y c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (VO6_4.read (Elt F) VO6_4.junk), (VO6_5.read (Elt F) VO6_5.junk), (val6_B_s0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2), (val6_B_s1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => (fun h => by (try dsimp only at h); omega) ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2))

theorem outsAt6_A (c : Dev nD) (t : Fin cfg6.N) (h0 : t.val % 10 = 0) (h1 : ¬t.val % 10 = 9) :
    outsAt6 V c t.val t.isLt = ((val6_A_y c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)), (VO6_4.read (Elt F) VO6_4.junk), (VO6_5.read (Elt F) VO6_5.junk), (val6_A_s0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)), (val6_A_s1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t))) := by
  obtain ⟨n, hn⟩ := t
  cases n with
  | zero => exact rfl
  | succ n => exact (by exfalso; have hN : n + 1 < 10 := lt_of_lt_of_eq hn (show cfg6.N = 10 from N_6); (try dsimp only at h0); omega)

theorem outsAt6_B (c : Dev nD) (t : Fin cfg6.N) (h0 : ¬t.val % 10 = 0) (h1 : ¬t.val % 10 = 9) :
    outsAt6 V c t.val t.isLt = ((val6_B_y c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (VO6_4.read (Elt F) VO6_4.junk), (VO6_5.read (Elt F) VO6_5.junk), (val6_B_s0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_B_s1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h1).trans rfl

theorem outsAt6_C (c : Dev nD) (t : Fin cfg6.N) (h0 : ¬t.val % 10 = 0) (h1 : t.val % 10 = 9) :
    outsAt6 V c t.val t.isLt = ((val6_C_y c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_S c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_Q c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_s0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2), (val6_C_s1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_pos h1).trans rfl

/-- The region invariant before position `n`: the class's before the first point; afterwards the two scratch rows at
    what the point before left, the other scoped buffers at anything, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
          ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
          ∗ Pipeline.scopedRestBut (Ix := Unit) (Name := ℕ) (U := UR sig nD τ) (Lvl := ℕ) (Val := Elt F) spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
          ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The proof data of pipeline 6. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
        unfold Dat.leavesExact; rw [liveAt6_0 t], after6_0]
  rw [show (dat6 V c).leavesExact 1 t = owns (c : Thread nD τ) (ms6_1 t) fullShare ((dat6 V c).after 1 t) from by
        unfold Dat.leavesExact; rw [liveAt6_1 t], after6_1]
  rw [show (dat6 V c).leavesExact 2 t = owns (c : Thread nD τ) (ms6_2 t) fullShare ((dat6 V c).after 2 t) from by
        unfold Dat.leavesExact; rw [liveAt6_2 t], after6_2]
  rw [show (dat6 V c).leavesExact 3 t = owns (c : Thread nD τ) (ms6_3 t) fullShare ((dat6 V c).after 3 t) from by
        unfold Dat.leavesExact; rw [liveAt6_3 t], after6_3]
  by_cases h0 : t.val % 10 = 0
  · have h1 : ¬t.val % 10 = 9 := by omega
    have hz : t.val = 0 := by omega
    rw [Dat.leavesExact_idle (dat6 V c) 4 t (idleAt6_4 t (fun h => h1 ((hcond6_1 t).mp h))) (noFlush6_4 t (fun h => h1 ((hcond6_1 t).mp h))),
      Dat.leavesExact_idle (dat6 V c) 5 t (idleAt6_5 t (fun h => h1 ((hcond6_1 t).mp h))) (noFlush6_5 t (fun h => h1 ((hcond6_1 t).mp h)))]
    rw [outsAt6_A V c t h0 h1]
    unfold val6_A_y val6_A_s0 val6_A_s1; (try dsimp only)
    rw [PhiS6_castSucc V c t, PhiS6_zero V c _ _ hz, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%ey, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cov6_A_s0 c _ _ _ _ _ _ _ _ _ _ _ _ _ _ _ _ _ _ _ _ _ _)
          unfold owns; iexists _; isplitr
          swap; · iexact HS1
          ipureintro; exact View.read_writes_of_cover _ _ _ _ _ (cov6_A_s1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cov6_A_y c _ _ _ _ _ _ _ _ _ _ _ _ _ _ _ _ _ _ _ _ _ _)
    isplitl [H4]; · iexists _; iexact H4
    iexists _; iexact H5
  · by_cases h1 : t.val % 10 = 9
    · have hz : t.val ≠ 0 := by omega
      rw [show (dat6 V c).leavesExact 4 t = owns (c : Thread nD τ) (ms6_4 t) fullShare ((dat6 V c).after 4 t) from by
        unfold Dat.leavesExact; rw [liveAt6_4_C t ((hcond6_1 t).mpr h1)], after6_4]
      rw [show (dat6 V c).leavesExact 5 t = owns (c : Thread nD τ) (ms6_5 t) fullShare ((dat6 V c).after 5 t) from by
        unfold Dat.leavesExact; rw [liveAt6_5_C t ((hcond6_1 t).mpr h1)], after6_5]
      rw [outsAt6_C V c t h0 h1]
      unfold val6_C_y val6_C_S val6_C_Q val6_C_s0 val6_C_s1; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%ey, H3⟩, ⟨%eS, H4⟩, ⟨%eQ, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov6_C_s0 c _ _ _ _ _ _ _ _ _ _ _ _ _ _ _ _ _ _ _ _ _ _ _ _)
            unfold owns; iexists _; isplitr
            swap; · iexact HS1
            ipureintro; exact View.read_writes_of_cover _ _ _ _ _ (cov6_C_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov6_C_y c _ _ _ _ _ _ _ _ _ _ _ _ _ _ _ _ _ _ _ _ _ _ _ _)
      isplitl [H4]
      · unfold owns; iexists _; isplitr
        swap; · iexact H4
        ipureintro; exact View.read_writes_of_cover _ _ _ _ _ (cov6_C_S c _ _ _ _ _ _ _ _ _ _ _ _ _ _ _ _ _ _ _ _ _ _ _ _)
      unfold owns; iexists _; isplitr
      swap; · iexact H5
      ipureintro; exact View.read_writes_of_cover _ _ _ _ _ (cov6_C_Q c _ _ _ _ _ _ _ _ _ _ _ _ _ _ _ _ _ _ _ _ _ _ _ _)
    · have hz : t.val ≠ 0 := by omega
      rw [Dat.leavesExact_idle (dat6 V c) 4 t (idleAt6_4 t (fun h => h1 ((hcond6_1 t).mp h))) (noFlush6_4 t (fun h => h1 ((hcond6_1 t).mp h))),
        Dat.leavesExact_idle (dat6 V c) 5 t (idleAt6_5 t (fun h => h1 ((hcond6_1 t).mp h))) (noFlush6_5 t (fun h => h1 ((hcond6_1 t).mp h)))]
      rw [outsAt6_B V c t h0 h1]
      unfold val6_B_y val6_B_s0 val6_B_s1; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%ey, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cov6_B_s0 c _ _ _ _ _ _ _ _ _ _ _ _ _ _ _ _ _ _ _ _ _ _ _ _)
            unfold owns; iexists _; isplitr
            swap; · iexact HS1
            ipureintro; exact View.read_writes_of_cover _ _ _ _ _ (cov6_B_s1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cov6_B_y c _ _ _ _ _ _ _ _ _ _ _ _ _ _ _ _ _ _ _ _ _ _ _ _)
      isplitl [H4]; · iexists _; iexact H4
      iexists _; iexact H5

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout6 (c : Dev nD) : (dat6 V c).Φ (Fin.last cfg6.N) ⊢ Pipeline.ΦA spec6 c :=
  Phi_out6 V c _ (by rw [Fin.val_last]; have : cfg6.N = 10 := N_6; omega)

end Cert.KernelIdeal.Regions

end
-- ==== Proof.KI.Norm7.lean ====
/-
  Region 7: the normalise-scale-shift-clamp pass over one block of 10000 rows.  Its six windows are the
  activations y (a block of rows), the per-column mean, variance, scale and shift (one row each, the same
  at every grid point) and the output block.  After the body the output's staging buffer holds
  max(γ · ((y − mean) · rsqrt(var + ε)) + β, 0) of the five input blocks, entry by entry; the inputs are
  left as found.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output window's staging buffer after the body: its one store, over the whole block. -/
def out7_5 (x0 : Vec F S10000x128 .f32) (x1 : Vec F S1x128 .f32) (x2 : Vec F S1x128 .f32) (x3 : Vec F S1x128 .f32) (x4 : Vec F S1x128 .f32) : Vec F S10000x128 .f32 :=
  View.canon [⟨(Rect.unit (s := S10000x128) ![0, 0] S10000x128.size inb_S10000x128_S10000x128_0_0), k7_pay1 (View.ld x2 (Rect.unit (s := S1x128) ![0, 0] S1x128.size inb_S1x128_S1x128_0_0)) (View.ld x0 (Rect.unit (s := S10000x128) ![0, 0] S10000x128.size inb_S10000x128_S10000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover7_5 (p0 : Vec F S10000x128 .f32) (y : S10000x128.Idx) :
    ∃ pc ∈ ([⟨(Rect.unit (s := S10000x128) ![0, 0] S10000x128.size inb_S10000x128_S10000x128_0_0), p0⟩] : List (View.Piece (Elt F) S10000x128 .f32)), y ∈ pc.1.set :=
  View.cover_of_tiled [⟨(Rect.unit (s := S10000x128) ![0, 0] S10000x128.size inb_S10000x128_S10000x128_0_0), p0⟩] S10000x128.size (by rfl) y

set_option maxHeartbeats 4000000 in
/-- The body on whole staging memrefs: inputs kept, the output left at `out7_5` of the inputs. -/
theorem sound_kernel7 (c : Dev nD) (E : Set ℕ) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The proof data of pipeline 7: arrays as found; inputs left at their blocks, the output at `out7_5` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.KernelIdeal.Regions

end
-- ==== Proof.KI.Final8.lean ====
/-
  Region 8: the last linear layer followed by a row-wise log-softmax, over one block of 10000 rows.  Its
  four windows are the activations h (a block of rows), the 128×10 weights and the 1×10 bias (the same at
  every grid point) and the output block.  After the body the output's staging buffer holds, row by row,
  z − log Σ exp z with z = (h·W + b) − max(h·W + b); the inputs are left as found.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The output window's staging buffer after the body: its one store, over the whole block. -/
def out8_3 (x0 : Vec F S10000x128 .f32) (x1 : Vec F S128x10 .f32) (x2 : Vec F S1x10 .f32) : Vec F S10000x10 .f32 :=
  View.canon [⟨(Rect.unit (s := S10000x10) ![0, 0] S10000x10.size inb_S10000x10_S10000x10_0_0), k8_pay1 (View.ld x0 (Rect.unit (s := S10000x128) ![0, 0] S10000x128.size inb_S10000x128_S10000x128_0_0)) (View.ld x1 (Rect.unit (s := S128x10) ![0, 0] S128x10.size inb_S128x10_S128x10_0_0)) (View.ld x2 (Rect.unit (s := S1x10) ![0, 0] S1x10.size inb_S1x10_S1x10_0_0))⟩]

theorem cover8_3 (p0 : Vec F S10000x10 .f32) (y : S10000x10.Idx) :
    ∃ pc ∈ ([⟨(Rect.unit (s := S10000x10) ![0, 0] S10000x10.size inb_S10000x10_S10000x10_0_0), p0⟩] : List (View.Piece (Elt F) S10000x10 .f32)), y ∈ pc.1.set :=
  View.cover_of_tiled [⟨(Rect.unit (s := S10000x10) ![0, 0] S10000x10.size inb_S10000x10_S10000x10_0_0), p0⟩] S10000x10.size (by rfl) y

set_option maxHeartbeats 4000000 in
/-- The body on whole staging memrefs: inputs kept, the output left at `out8_3` of the inputs. -/
theorem sound_kernel8 (c : Dev nD) (E : Set ℕ) (i : grid8.Coords) (arg1 : Memref sig .tc .vmem S10000x128 .f32) (harg1 : arg1.IsWhole) (arg2 : Memref sig .tc .vmem S128x10 .f32) (harg2 : arg2.IsWhole) (arg3 : Memref sig .tc .vmem S1x10 .f32) (harg3 : arg3.IsWhole) (arg4 : Memref sig .tc .vmem S10000x10 .f32) (harg4 : arg4.IsWhole)
    (x0 : Vec F S10000x128 .f32) (x1 : Vec F S128x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__final_kernel i arg1 harg1 arg2 harg2 arg3 harg3 arg4 harg4) K := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of pipeline 8: arrays as found; inputs left at their blocks, the output at `out8_3` of them. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t
    = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Regions

end
-- ==== Proof.KI.Run.lean ====
/-
  The whole run of the program: nine kernel regions among ten stretches of host operations.  The contents of
  every unscoped buffer at each boundary are a fold from the launch memory — a host stretch applies its
  operations, a region replaces its windows' arrays by what its write-backs leave and keeps every other
  buffer —, each region's proof data is taken at its entry contents, and the launch theorem for a list of
  segments gives: every weakly fair execution terminates without a fault, and every final memory holds each
  unscoped buffer at the last boundary's contents.  No host stretch and no region writes an argument array,
  so each reads back as launched; the result buffer reads back as the last region's output.
-/
import proofs.«110958_j70274254897753_1_alg».proof.Proof.Gen.KernelIdeal.Launch
import proofs.«110958_j70274254897753_1_alg».proof.Proof.Gen.KernelIdeal.Skeleton
import proofs.«110958_j70274254897753_1_alg».proof.Proof.Gen.KernelIdeal.Points
import proofs.«110958_j70274254897753_1_alg».proof.Proof.KI.Stats0
import proofs.«110958_j70274254897753_1_alg».proof.Proof.KI.Norm1
import proofs.«110958_j70274254897753_1_alg».proof.Proof.KI.Stats2
import proofs.«110958_j70274254897753_1_alg».proof.Proof.KI.Norm3
import proofs.«110958_j70274254897753_1_alg».proof.Proof.KI.Stats4
import proofs.«110958_j70274254897753_1_alg».proof.Proof.KI.Norm5
import proofs.«110958_j70274254897753_1_alg».proof.Proof.KI.Stats6
import proofs.«110958_j70274254897753_1_alg».proof.Proof.KI.Norm7
import proofs.«110958_j70274254897753_1_alg».proof.Proof.KI.Final8
import proofs.«110958_j70274254897753_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
/-- After the host stretch before region 0: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4: region 4's entry contents. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5: region 5's entry contents. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6: region 6's entry contents. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch before region 7: region 7's entry contents. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch before region 8: region 8's entry contents. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-! ## The arguments end as launched, and the result is the last region's output -/

theorem W18_main_arg0 (c : Dev nD) : W18 m ρ c (Proc.devRef .tc main_arg0) = m ((c : Thread nD τ).loc main_arg0) :=
  (W18_of_ne m ρ c main_arg0 (by decide)).trans <| (StableHlo.after_of_writes_sub hostOps8 _ hostOps8_writes (by decide)).trans <| (W16_of_ne m ρ c main_arg0 (by decide)).trans <| (StableHlo.after_of_writes_sub hostOps7 _ hostOps7_writes (by decide)).trans <| (W14_of_ne m ρ c main_arg0 (by decide)).trans <| (StableHlo.after_of_writes_sub hostOps6 _ hostOps6_writes (by decide)).trans <| (W12_of_ne m ρ c main_arg0 (by decide)).trans <| (StableHlo.after_of_writes_sub hostOps5 _ hostOps5_writes (by decide)).trans <| (W10_of_ne m ρ c main_arg0 (by decide)).trans <| (StableHlo.after_of_writes_sub hostOps4 _ hostOps4_writes (by decide)).trans <| (W8_of_ne m ρ c main_arg0 (by decide)).trans <| (StableHlo.after_of_writes_sub hostOps3 _ hostOps3_writes (by decide)).trans <| (W6_of_ne m ρ c main_arg0 (by decide)).trans <| (StableHlo.after_of_writes_sub hostOps2 _ hostOps2_writes (by decide)).trans <| (W4_of_ne m ρ c main_arg0 (by decide)).trans <| (StableHlo.after_of_writes_sub hostOps1 _ hostOps1_writes (by decide)).trans <| ((W2_arr m ρ c 0).trans (((dat0 (V1 m ρ) c).arrAt_in 0 rfl _).trans (A_eq0 (V1 m ρ) c 0))).trans <| (StableHlo.after_of_writes_sub hostOps0 _ hostOps0_writes (by decide))
theorem W18_main_arg1 (c : Dev nD) : W18 m ρ c (Proc.devRef .tc main_arg1) = m ((c : Thread nD τ).loc main_arg1) :=
  (W18_of_ne m ρ c main_arg1 (by decide)).trans <| (StableHlo.after_of_writes_sub hostOps8 _ hostOps8_writes (by decide)).trans <| (W16_of_ne m ρ c main_arg1 (by decide)).trans <| (StableHlo.after_of_writes_sub hostOps7 _ hostOps7_writes (by decide)).trans <| (W14_of_ne m ρ c main_arg1 (by decide)).trans <| (StableHlo.after_of_writes_sub hostOps6 _ hostOps6_writes (by decide)).trans <| (W12_of_ne m ρ c main_arg1 (by decide)).trans <| (StableHlo.after_of_writes_sub hostOps5 _ hostOps5_writes (by decide)).trans <| (W10_of_ne m ρ c main_arg1 (by decide)).trans <| (StableHlo.after_of_writes_sub hostOps4 _ hostOps4_writes (by decide)).trans <| (W8_of_ne m ρ c main_arg1 (by decide)).trans <| (StableHlo.after_of_writes_sub hostOps3 _ hostOps3_writes (by decide)).trans <| (W6_of_ne m ρ c main_arg1 (by decide)).trans <| (StableHlo.after_of_writes_sub hostOps2 _ hostOps2_writes (by decide)).trans <| (W4_of_ne m ρ c main_arg1 (by decide)).trans <| (StableHlo.after_of_writes_sub hostOps1 _ hostOps1_writes (by decide)).trans <| (W2_of_ne m ρ c main_arg1 (by decide)).trans <| (StableHlo.after_of_writes_sub hostOps0 _ hostOps0_writes (by decide))
theorem W18_main_arg2 (c : Dev nD) : W18 m ρ c (Proc.devRef .tc main_arg2) = m ((c : Thread nD τ).loc main_arg2) :=
  (W18_of_ne m ρ c main_arg2 (by decide)).trans <| (StableHlo.after_of_writes_sub hostOps8 _ hostOps8_writes (by decide)).trans <| (W16_of_ne m ρ c main_arg2 (by decide)).trans <| (StableHlo.after_of_writes_sub hostOps7 _ hostOps7_writes (by decide)).trans <| (W14_of_ne m ρ c main_arg2 (by decide)).trans <| (StableHlo.after_of_writes_sub hostOps6 _ hostOps6_writes (by decide)).trans <| (W12_of_ne m ρ c main_arg2 (by decide)).trans <| (StableHlo.after_of_writes_sub hostOps5 _ hostOps5_writes (by decide)).trans <| (W10_of_ne m ρ c main_arg2 (by decide)).trans <| (StableHlo.after_of_writes_sub hostOps4 _ hostOps4_writes (by decide)).trans <| (W8_of_ne m ρ c main_arg2 (by decide)).trans <| (StableHlo.after_of_writes_sub hostOps3 _ hostOps3_writes (by decide)).trans <| (W6_of_ne m ρ c main_arg2 (by decide)).trans <| (StableHlo.after_of_writes_sub hostOps2 _ hostOps2_writes (by decide)).trans <| (W4_of_ne m ρ c main_arg2 (by decide)).trans <| (StableHlo.after_of_writes_sub hostOps1 _ hostOps1_writes (by decide)).trans <| ((W2_arr m ρ c 2).trans (((dat0 (V1 m ρ) c).arrAt_in 2 rfl _).trans (A_eq0 (V1 m ρ) c 2))).trans <| (StableHlo.after_of_writes_sub hostOps0 _ hostOps0_writes (by decide))
theorem W18_main_arg3 (c : Dev nD) : W18 m ρ c (Proc.devRef .tc main_arg3) = m ((c : Thread nD τ).loc main_arg3) :=
  (W18_of_ne m ρ c main_arg3 (by decide)).trans <| (StableHlo.after_of_writes_sub hostOps8 _ hostOps8_writes (by decide)).trans <| (W16_of_ne m ρ c main_arg3 (by decide)).trans <| (StableHlo.after_of_writes_sub hostOps7 _ hostOps7_writes (by decide)).trans <| (W14_of_ne m ρ c main_arg3 (by decide)).trans <| (StableHlo.after_of_writes_sub hostOps6 _ hostOps6_writes (by decide)).trans <| (W12_of_ne m ρ c main_arg3 (by decide)).trans <| (StableHlo.after_of_writes_sub hostOps5 _ hostOps5_writes (by decide)).trans <| (W10_of_ne m ρ c main_arg3 (by decide)).trans <| (StableHlo.after_of_writes_sub hostOps4 _ hostOps4_writes (by decide)).trans <| (W8_of_ne m ρ c main_arg3 (by decide)).trans <| (StableHlo.after_of_writes_sub hostOps3 _ hostOps3_writes (by decide)).trans <| (W6_of_ne m ρ c main_arg3 (by decide)).trans <| (StableHlo.after_of_writes_sub hostOps2 _ hostOps2_writes (by decide)).trans <| (W4_of_ne m ρ c main_arg3 (by decide)).trans <| (StableHlo.after_of_writes_sub hostOps1 _ hostOps1_writes (by decide)).trans <| (W2_of_ne m ρ c main_arg3 (by decide)).trans <| (StableHlo.after_of_writes_sub hostOps0 _ hostOps0_writes (by decide))
theorem W18_main_arg4 (c : Dev nD) : W18 m ρ c (Proc.devRef .tc main_arg4) = m ((c : Thread nD τ).loc main_arg4) :=
  (W18_of_ne m ρ c main_arg4 (by decide)).trans <| (StableHlo.after_of_writes_sub hostOps8 _ hostOps8_writes (by decide)).trans <| (W16_of_ne m ρ c main_arg4 (by decide)).trans <| (StableHlo.after_of_writes_sub hostOps7 _ hostOps7_writes (by decide)).trans <| (W14_of_ne m ρ c main_arg4 (by decide)).trans <| (StableHlo.after_of_writes_sub hostOps6 _ hostOps6_writes (by decide)).trans <| (W12_of_ne m ρ c main_arg4 (by decide)).trans <| (StableHlo.after_of_writes_sub hostOps5 _ hostOps5_writes (by decide)).trans <| (W10_of_ne m ρ c main_arg4 (by decide)).trans <| (StableHlo.after_of_writes_sub hostOps4 _ hostOps4_writes (by decide)).trans <| (W8_of_ne m ρ c main_arg4 (by decide)).trans <| (StableHlo.after_of_writes_sub hostOps3 _ hostOps3_writes (by decide)).trans <| (W6_of_ne m ρ c main_arg4 (by decide)).trans <| (StableHlo.after_of_writes_sub hostOps2 _ hostOps2_writes (by decide)).trans <| (W4_of_ne m ρ c main_arg4 (by decide)).trans <| (StableHlo.after_of_writes_sub hostOps1 _ hostOps1_writes (by decide)).trans <| (W2_of_ne m ρ c main_arg4 (by decide)).trans <| (StableHlo.after_of_writes_sub hostOps0 _ hostOps0_writes (by decide))
theorem W18_main_arg5 (c : Dev nD) : W18 m ρ c (Proc.devRef .tc main_arg5) = m ((c : Thread nD τ).loc main_arg5) :=
  (W18_of_ne m ρ c main_arg5 (by decide)).trans <| (StableHlo.after_of_writes_sub hostOps8 _ hostOps8_writes (by decide)).trans <| (W16_of_ne m ρ c main_arg5 (by decide)).trans <| (StableHlo.after_of_writes_sub hostOps7 _ hostOps7_writes (by decide)).trans <| (W14_of_ne m ρ c main_arg5 (by decide)).trans <| (StableHlo.after_of_writes_sub hostOps6 _ hostOps6_writes (by decide)).trans <| (W12_of_ne m ρ c main_arg5 (by decide)).trans <| (StableHlo.after_of_writes_sub hostOps5 _ hostOps5_writes (by decide)).trans <| (W10_of_ne m ρ c main_arg5 (by decide)).trans <| (StableHlo.after_of_writes_sub hostOps4 _ hostOps4_writes (by decide)).trans <| (W8_of_ne m ρ c main_arg5 (by decide)).trans <| (StableHlo.after_of_writes_sub hostOps3 _ hostOps3_writes (by decide)).trans <| (W6_of_ne m ρ c main_arg5 (by decide)).trans <| (StableHlo.after_of_writes_sub hostOps2 _ hostOps2_writes (by decide)).trans <| (W4_of_ne m ρ c main_arg5 (by decide)).trans <| (StableHlo.after_of_writes_sub hostOps1 _ hostOps1_writes (by decide)).trans <| (W2_of_ne m ρ c main_arg5 (by decide)).trans <| (StableHlo.after_of_writes_sub hostOps0 _ hostOps0_writes (by decide))
theorem W18_main_arg6 (c : Dev nD) : W18 m ρ c (Proc.devRef .tc main_arg6) = m ((c : Thread nD τ).loc main_arg6) :=
  (W18_of_ne m ρ c main_arg6 (by decide)).trans <| (StableHlo.after_of_writes_sub hostOps8 _ hostOps8_writes (by decide)).trans <| (W16_of_ne m ρ c main_arg6 (by decide)).trans <| (StableHlo.after_of_writes_sub hostOps7 _ hostOps7_writes (by decide)).trans <| (W14_of_ne m ρ c main_arg6 (by decide)).trans <| (StableHlo.after_of_writes_sub hostOps6 _ hostOps6_writes (by decide)).trans <| (W12_of_ne m ρ c main_arg6 (by decide)).trans <| (StableHlo.after_of_writes_sub hostOps5 _ hostOps5_writes (by decide)).trans <| (W10_of_ne m ρ c main_arg6 (by decide)).trans <| (StableHlo.after_of_writes_sub hostOps4 _ hostOps4_writes (by decide)).trans <| (W8_of_ne m ρ c main_arg6 (by decide)).trans <| (StableHlo.after_of_writes_sub hostOps3 _ hostOps3_writes (by decide)).trans <| ((W6_arr m ρ c 1).trans (((dat2 (V5 m ρ) c).arrAt_in 1 rfl _).trans (A_eq2 (V5 m ρ) c 1))).trans <| (StableHlo.after_of_writes_sub hostOps2 _ hostOps2_writes (by decide)).trans <| (W4_of_ne m ρ c main_arg6 (by decide)).trans <| (StableHlo.after_of_writes_sub hostOps1 _ hostOps1_writes (by decide)).trans <| (W2_of_ne m ρ c main_arg6 (by decide)).trans <| (StableHlo.after_of_writes_sub hostOps0 _ hostOps0_writes (by decide))
theorem W18_main_arg7 (c : Dev nD) : W18 m ρ c (Proc.devRef .tc main_arg7) = m ((c : Thread nD τ).loc main_arg7) :=
  (W18_of_ne m ρ c main_arg7 (by decide)).trans <| (StableHlo.after_of_writes_sub hostOps8 _ hostOps8_writes (by decide)).trans <| (W16_of_ne m ρ c main_arg7 (by decide)).trans <| (StableHlo.after_of_writes_sub hostOps7 _ hostOps7_writes (by decide)).trans <| (W14_of_ne m ρ c main_arg7 (by decide)).trans <| (StableHlo.after_of_writes_sub hostOps6 _ hostOps6_writes (by decide)).trans <| (W12_of_ne m ρ c main_arg7 (by decide)).trans <| (StableHlo.after_of_writes_sub hostOps5 _ hostOps5_writes (by decide)).trans <| (W10_of_ne m ρ c main_arg7 (by decide)).trans <| (StableHlo.after_of_writes_sub hostOps4 _ hostOps4_writes (by decide)).trans <| (W8_of_ne m ρ c main_arg7 (by decide)).trans <| (StableHlo.after_of_writes_sub hostOps3 _ hostOps3_writes (by decide)).trans <| (W6_of_ne m ρ c main_arg7 (by decide)).trans <| (StableHlo.after_of_writes_sub hostOps2 _ hostOps2_writes (by decide)).trans <| (W4_of_ne m ρ c main_arg7 (by decide)).trans <| (StableHlo.after_of_writes_sub hostOps1 _ hostOps1_writes (by decide)).trans <| (W2_of_ne m ρ c main_arg7 (by decide)).trans <| (StableHlo.after_of_writes_sub hostOps0 _ hostOps0_writes (by decide))
theorem W18_main_arg8 (c : Dev nD) : W18 m ρ c (Proc.devRef .tc main_arg8) = m ((c : Thread nD τ).loc main_arg8) :=
  (W18_of_ne m ρ c main_arg8 (by decide)).trans <| (StableHlo.after_of_writes_sub hostOps8 _ hostOps8_writes (by decide)).trans <| (W16_of_ne m ρ c main_arg8 (by decide)).trans <| (StableHlo.after_of_writes_sub hostOps7 _ hostOps7_writes (by decide)).trans <| (W14_of_ne m ρ c main_arg8 (by decide)).trans <| (StableHlo.after_of_writes_sub hostOps6 _ hostOps6_writes (by decide)).trans <| (W12_of_ne m ρ c main_arg8 (by decide)).trans <| (StableHlo.after_of_writes_sub hostOps5 _ hostOps5_writes (by decide)).trans <| (W10_of_ne m ρ c main_arg8 (by decide)).trans <| (StableHlo.after_of_writes_sub hostOps4 _ hostOps4_writes (by decide)).trans <| (W8_of_ne m ρ c main_arg8 (by decide)).trans <| (StableHlo.after_of_writes_sub hostOps3 _ hostOps3_writes (by decide)).trans <| (W6_of_ne m ρ c main_arg8 (by decide)).trans <| (StableHlo.after_of_writes_sub hostOps2 _ hostOps2_writes (by decide)).trans <| (W4_of_ne m ρ c main_arg8 (by decide)).trans <| (StableHlo.after_of_writes_sub hostOps1 _ hostOps1_writes (by decide)).trans <| (W2_of_ne m ρ c main_arg8 (by decide)).trans <| (StableHlo.after_of_writes_sub hostOps0 _ hostOps0_writes (by decide))
theorem W18_main_arg9 (c : Dev nD) : W18 m ρ c (Proc.devRef .tc main_arg9) = m ((c : Thread nD τ).loc main_arg9) :=
  (W18_of_ne m ρ c main_arg9 (by decide)).trans <| (StableHlo.after_of_writes_sub hostOps8 _ hostOps8_writes (by decide)).trans <| (W16_of_ne m ρ c main_arg9 (by decide)).trans <| (StableHlo.after_of_writes_sub hostOps7 _ hostOps7_writes (by decide)).trans <| (W14_of_ne m ρ c main_arg9 (by decide)).trans <| (StableHlo.after_of_writes_sub hostOps6 _ hostOps6_writes (by decide)).trans <| (W12_of_ne m ρ c main_arg9 (by decide)).trans <| (StableHlo.after_of_writes_sub hostOps5 _ hostOps5_writes (by decide)).trans <| (W10_of_ne m ρ c main_arg9 (by decide)).trans <| (StableHlo.after_of_writes_sub hostOps4 _ hostOps4_writes (by decide)).trans <| (W8_of_ne m ρ c main_arg9 (by decide)).trans <| (StableHlo.after_of_writes_sub hostOps3 _ hostOps3_writes (by decide)).trans <| (W6_of_ne m ρ c main_arg9 (by decide)).trans <| (StableHlo.after_of_writes_sub hostOps2 _ hostOps2_writes (by decide)).trans <| (W4_of_ne m ρ c main_arg9 (by decide)).trans <| (StableHlo.after_of_writes_sub hostOps1 _ hostOps1_writes (by decide)).trans <| (W2_of_ne m ρ c main_arg9 (by decide)).trans <| (StableHlo.after_of_writes_sub hostOps0 _ hostOps0_writes (by decide))
theorem W18_main_arg10 (c : Dev nD) : W18 m ρ c (Proc.devRef .tc main_arg10) = m ((c : Thread nD τ).loc main_arg10) :=
  (W18_of_ne m ρ c main_arg10 (by decide)).trans <| (StableHlo.after_of_writes_sub hostOps8 _ hostOps8_writes (by decide)).trans <| (W16_of_ne m ρ c main_arg10 (by decide)).trans <| (StableHlo.after_of_writes_sub hostOps7 _ hostOps7_writes (by decide)).trans <| (W14_of_ne m ρ c main_arg10 (by decide)).trans <| (StableHlo.after_of_writes_sub hostOps6 _ hostOps6_writes (by decide)).trans <| (W12_of_ne m ρ c main_arg10 (by decide)).trans <| (StableHlo.after_of_writes_sub hostOps5 _ hostOps5_writes (by decide)).trans <| ((W10_arr m ρ c 2).trans (((dat4 (V9 m ρ) c).arrAt_in 2 rfl _).trans (A_eq4 (V9 m ρ) c 2))).trans <| (StableHlo.after_of_writes_sub hostOps4 _ hostOps4_writes (by decide)).trans <| (W8_of_ne m ρ c main_arg10 (by decide)).trans <| (StableHlo.after_of_writes_sub hostOps3 _ hostOps3_writes (by decide)).trans <| (W6_of_ne m ρ c main_arg10 (by decide)).trans <| (StableHlo.after_of_writes_sub hostOps2 _ hostOps2_writes (by decide)).trans <| (W4_of_ne m ρ c main_arg10 (by decide)).trans <| (StableHlo.after_of_writes_sub hostOps1 _ hostOps1_writes (by decide)).trans <| (W2_of_ne m ρ c main_arg10 (by decide)).trans <| (StableHlo.after_of_writes_sub hostOps0 _ hostOps0_writes (by decide))
theorem W18_main_arg11 (c : Dev nD) : W18 m ρ c (Proc.devRef .tc main_arg11) = m ((c : Thread nD τ).loc main_arg11) :=
  (W18_of_ne m ρ c main_arg11 (by decide)).trans <| (StableHlo.after_of_writes_sub hostOps8 _ hostOps8_writes (by decide)).trans <| (W16_of_ne m ρ c main_arg11 (by decide)).trans <| (StableHlo.after_of_writes_sub hostOps7 _ hostOps7_writes (by decide)).trans <| (W14_of_ne m ρ c main_arg11 (by decide)).trans <| (StableHlo.after_of_writes_sub hostOps6 _ hostOps6_writes (by decide)).trans <| (W12_of_ne m ρ c main_arg11 (by decide)).trans <| (StableHlo.after_of_writes_sub hostOps5 _ hostOps5_writes (by decide)).trans <| (W10_of_ne m ρ c main_arg11 (by decide)).trans <| (StableHlo.after_of_writes_sub hostOps4 _ hostOps4_writes (by decide)).trans <| (W8_of_ne m ρ c main_arg11 (by decide)).trans <| (StableHlo.after_of_writes_sub hostOps3 _ hostOps3_writes (by decide)).trans <| (W6_of_ne m ρ c main_arg11 (by decide)).trans <| (StableHlo.after_of_writes_sub hostOps2 _ hostOps2_writes (by decide)).trans <| (W4_of_ne m ρ c main_arg11 (by decide)).trans <| (StableHlo.after_of_writes_sub hostOps1 _ hostOps1_writes (by decide)).trans <| (W2_of_ne m ρ c main_arg11 (by decide)).trans <| (StableHlo.after_of_writes_sub hostOps0 _ hostOps0_writes (by decide))
theorem W18_main_arg12 (c : Dev nD) : W18 m ρ c (Proc.devRef .tc main_arg12) = m ((c : Thread nD τ).loc main_arg12) :=
  (W18_of_ne m ρ c main_arg12 (by decide)).trans <| (StableHlo.after_of_writes_sub hostOps8 _ hostOps8_writes (by decide)).trans <| (W16_of_ne m ρ c main_arg12 (by decide)).trans <| (StableHlo.after_of_writes_sub hostOps7 _ hostOps7_writes (by decide)).trans <| (W14_of_ne m ρ c main_arg12 (by decide)).trans <| (StableHlo.after_of_writes_sub hostOps6 _ hostOps6_writes (by decide)).trans <| (W12_of_ne m ρ c main_arg12 (by decide)).trans <| (StableHlo.after_of_writes_sub hostOps5 _ hostOps5_writes (by decide)).trans <| (W10_of_ne m ρ c main_arg12 (by decide)).trans <| (StableHlo.after_of_writes_sub hostOps4 _ hostOps4_writes (by decide)).trans <| (W8_of_ne m ρ c main_arg12 (by decide)).trans <| (StableHlo.after_of_writes_sub hostOps3 _ hostOps3_writes (by decide)).trans <| (W6_of_ne m ρ c main_arg12 (by decide)).trans <| (StableHlo.after_of_writes_sub hostOps2 _ hostOps2_writes (by decide)).trans <| (W4_of_ne m ρ c main_arg12 (by decide)).trans <| (StableHlo.after_of_writes_sub hostOps1 _ hostOps1_writes (by decide)).trans <| (W2_of_ne m ρ c main_arg12 (by decide)).trans <| (StableHlo.after_of_writes_sub hostOps0 _ hostOps0_writes (by decide))
theorem W18_main_arg13 (c : Dev nD) : W18 m ρ c (Proc.devRef .tc main_arg13) = m ((c : Thread nD τ).loc main_arg13) :=
  (W18_of_ne m ρ c main_arg13 (by decide)).trans <| (StableHlo.after_of_writes_sub hostOps8 _ hostOps8_writes (by decide)).trans <| (W16_of_ne m ρ c main_arg13 (by decide)).trans <| (StableHlo.after_of_writes_sub hostOps7 _ hostOps7_writes (by decide)).trans <| (W14_of_ne m ρ c main_arg13 (by decide)).trans <| (StableHlo.after_of_writes_sub hostOps6 _ hostOps6_writes (by decide)).trans <| (W12_of_ne m ρ c main_arg13 (by decide)).trans <| (StableHlo.after_of_writes_sub hostOps5 _ hostOps5_writes (by decide)).trans <| (W10_of_ne m ρ c main_arg13 (by decide)).trans <| (StableHlo.after_of_writes_sub hostOps4 _ hostOps4_writes (by decide)).trans <| (W8_of_ne m ρ c main_arg13 (by decide)).trans <| (StableHlo.after_of_writes_sub hostOps3 _ hostOps3_writes (by decide)).trans <| (W6_of_ne m ρ c main_arg13 (by decide)).trans <| (StableHlo.after_of_writes_sub hostOps2 _ hostOps2_writes (by decide)).trans <| (W4_of_ne m ρ c main_arg13 (by decide)).trans <| (StableHlo.after_of_writes_sub hostOps1 _ hostOps1_writes (by decide)).trans <| (W2_of_ne m ρ c main_arg13 (by decide)).trans <| (StableHlo.after_of_writes_sub hostOps0 _ hostOps0_writes (by decide))
theorem W18_main_arg14 (c : Dev nD) : W18 m ρ c (Proc.devRef .tc main_arg14) = m ((c : Thread nD τ).loc main_arg14) :=
  (W18_of_ne m ρ c main_arg14 (by decide)).trans <| (StableHlo.after_of_writes_sub hostOps8 _ hostOps8_writes (by decide)).trans <| (W16_of_ne m ρ c main_arg14 (by decide)).trans <| (StableHlo.after_of_writes_sub hostOps7 _ hostOps7_writes (by decide)).trans <| ((W14_arr m ρ c 1).trans (((dat6 (V13 m ρ) c).arrAt_in 1 rfl _).trans (A_eq6 (V13 m ρ) c 1))).trans <| (StableHlo.after_of_writes_sub hostOps6 _ hostOps6_writes (by decide)).trans <| (W12_of_ne m ρ c main_arg14 (by decide)).trans <| (StableHlo.after_of_writes_sub hostOps5 _ hostOps5_writes (by decide)).trans <| (W10_of_ne m ρ c main_arg14 (by decide)).trans <| (StableHlo.after_of_writes_sub hostOps4 _ hostOps4_writes (by decide)).trans <| (W8_of_ne m ρ c main_arg14 (by decide)).trans <| (StableHlo.after_of_writes_sub hostOps3 _ hostOps3_writes (by decide)).trans <| (W6_of_ne m ρ c main_arg14 (by decide)).trans <| (StableHlo.after_of_writes_sub hostOps2 _ hostOps2_writes (by decide)).trans <| (W4_of_ne m ρ c main_arg14 (by decide)).trans <| (StableHlo.after_of_writes_sub hostOps1 _ hostOps1_writes (by decide)).trans <| (W2_of_ne m ρ c main_arg14 (by decide)).trans <| (StableHlo.after_of_writes_sub hostOps0 _ hostOps0_writes (by decide))
theorem W18_main_arg15 (c : Dev nD) : W18 m ρ c (Proc.devRef .tc main_arg15) = m ((c : Thread nD τ).loc main_arg15) :=
  (W18_of_ne m ρ c main_arg15 (by decide)).trans <| (StableHlo.after_of_writes_sub hostOps8 _ hostOps8_writes (by decide)).trans <| (W16_of_ne m ρ c main_arg15 (by decide)).trans <| (StableHlo.after_of_writes_sub hostOps7 _ hostOps7_writes (by decide)).trans <| (W14_of_ne m ρ c main_arg15 (by decide)).trans <| (StableHlo.after_of_writes_sub hostOps6 _ hostOps6_writes (by decide)).trans <| (W12_of_ne m ρ c main_arg15 (by decide)).trans <| (StableHlo.after_of_writes_sub hostOps5 _ hostOps5_writes (by decide)).trans <| (W10_of_ne m ρ c main_arg15 (by decide)).trans <| (StableHlo.after_of_writes_sub hostOps4 _ hostOps4_writes (by decide)).trans <| (W8_of_ne m ρ c main_arg15 (by decide)).trans <| (StableHlo.after_of_writes_sub hostOps3 _ hostOps3_writes (by decide)).trans <| (W6_of_ne m ρ c main_arg15 (by decide)).trans <| (StableHlo.after_of_writes_sub hostOps2 _ hostOps2_writes (by decide)).trans <| (W4_of_ne m ρ c main_arg15 (by decide)).trans <| (StableHlo.after_of_writes_sub hostOps1 _ hostOps1_writes (by decide)).trans <| (W2_of_ne m ρ c main_arg15 (by decide)).trans <| (StableHlo.after_of_writes_sub hostOps0 _ hostOps0_writes (by decide))
theorem W18_main_arg16 (c : Dev nD) : W18 m ρ c (Proc.devRef .tc main_arg16) = m ((c : Thread nD τ).loc main_arg16) :=
  (W18_of_ne m ρ c main_arg16 (by decide)).trans <| (StableHlo.after_of_writes_sub hostOps8 _ hostOps8_writes (by decide)).trans <| (W16_of_ne m ρ c main_arg16 (by decide)).trans <| (StableHlo.after_of_writes_sub hostOps7 _ hostOps7_writes (by decide)).trans <| (W14_of_ne m ρ c main_arg16 (by decide)).trans <| (StableHlo.after_of_writes_sub hostOps6 _ hostOps6_writes (by decide)).trans <| (W12_of_ne m ρ c main_arg16 (by decide)).trans <| (StableHlo.after_of_writes_sub hostOps5 _ hostOps5_writes (by decide)).trans <| (W10_of_ne m ρ c main_arg16 (by decide)).trans <| (StableHlo.after_of_writes_sub hostOps4 _ hostOps4_writes (by decide)).trans <| (W8_of_ne m ρ c main_arg16 (by decide)).trans <| (StableHlo.after_of_writes_sub hostOps3 _ hostOps3_writes (by decide)).trans <| (W6_of_ne m ρ c main_arg16 (by decide)).trans <| (StableHlo.after_of_writes_sub hostOps2 _ hostOps2_writes (by decide)).trans <| (W4_of_ne m ρ c main_arg16 (by decide)).trans <| (StableHlo.after_of_writes_sub hostOps1 _ hostOps1_writes (by decide)).trans <| (W2_of_ne m ρ c main_arg16 (by decide)).trans <| (StableHlo.after_of_writes_sub hostOps0 _ hostOps0_writes (by decide))
theorem W18_main_arg17 (c : Dev nD) : W18 m ρ c (Proc.devRef .tc main_arg17) = m ((c : Thread nD τ).loc main_arg17) :=
  (W18_of_ne m ρ c main_arg17 (by decide)).trans <| (StableHlo.after_of_writes_sub hostOps8 _ hostOps8_writes (by decide)).trans <| (W16_of_ne m ρ c main_arg17 (by decide)).trans <| (StableHlo.after_of_writes_sub hostOps7 _ hostOps7_writes (by decide)).trans <| (W14_of_ne m ρ c main_arg17 (by decide)).trans <| (StableHlo.after_of_writes_sub hostOps6 _ hostOps6_writes (by decide)).trans <| (W12_of_ne m ρ c main_arg17 (by decide)).trans <| (StableHlo.after_of_writes_sub hostOps5 _ hostOps5_writes (by decide)).trans <| (W10_of_ne m ρ c main_arg17 (by decide)).trans <| (StableHlo.after_of_writes_sub hostOps4 _ hostOps4_writes (by decide)).trans <| (W8_of_ne m ρ c main_arg17 (by decide)).trans <| (StableHlo.after_of_writes_sub hostOps3 _ hostOps3_writes (by decide)).trans <| (W6_of_ne m ρ c main_arg17 (by decide)).trans <| (StableHlo.after_of_writes_sub hostOps2 _ hostOps2_writes (by decide)).trans <| (W4_of_ne m ρ c main_arg17 (by decide)).trans <| (StableHlo.after_of_writes_sub hostOps1 _ hostOps1_writes (by decide)).trans <| (W2_of_ne m ρ c main_arg17 (by decide)).trans <| (StableHlo.after_of_writes_sub hostOps0 _ hostOps0_writes (by decide))
theorem W18_main_arg18 (c : Dev nD) : W18 m ρ c (Proc.devRef .tc main_arg18) = m ((c : Thread nD τ).loc main_arg18) :=
  ((W18_arr m ρ c 1).trans (((dat8 (V17 m ρ) c).arrAt_in 1 rfl _).trans (A_eq8 (V17 m ρ) c 1))).trans <| (StableHlo.after_of_writes_sub hostOps8 _ hostOps8_writes (by decide)).trans <| (W16_of_ne m ρ c main_arg18 (by decide)).trans <| (StableHlo.after_of_writes_sub hostOps7 _ hostOps7_writes (by decide)).trans <| (W14_of_ne m ρ c main_arg18 (by decide)).trans <| (StableHlo.after_of_writes_sub hostOps6 _ hostOps6_writes (by decide)).trans <| (W12_of_ne m ρ c main_arg18 (by decide)).trans <| (StableHlo.after_of_writes_sub hostOps5 _ hostOps5_writes (by decide)).trans <| (W10_of_ne m ρ c main_arg18 (by decide)).trans <| (StableHlo.after_of_writes_sub hostOps4 _ hostOps4_writes (by decide)).trans <| (W8_of_ne m ρ c main_arg18 (by decide)).trans <| (StableHlo.after_of_writes_sub hostOps3 _ hostOps3_writes (by decide)).trans <| (W6_of_ne m ρ c main_arg18 (by decide)).trans <| (StableHlo.after_of_writes_sub hostOps2 _ hostOps2_writes (by decide)).trans <| (W4_of_ne m ρ c main_arg18 (by decide)).trans <| (StableHlo.after_of_writes_sub hostOps1 _ hostOps1_writes (by decide)).trans <| (W2_of_ne m ρ c main_arg18 (by decide)).trans <| (StableHlo.after_of_writes_sub hostOps0 _ hostOps0_writes (by decide))
theorem W18_main_arg19 (c : Dev nD) : W18 m ρ c (Proc.devRef .tc main_arg19) = m ((c : Thread nD τ).loc main_arg19) :=
  (W18_of_ne m ρ c main_arg19 (by decide)).trans <| (StableHlo.after_of_writes_sub hostOps8 _ hostOps8_writes (by decide)).trans <| (W16_of_ne m ρ c main_arg19 (by decide)).trans <| (StableHlo.after_of_writes_sub hostOps7 _ hostOps7_writes (by decide)).trans <| (W14_of_ne m ρ c main_arg19 (by decide)).trans <| (StableHlo.after_of_writes_sub hostOps6 _ hostOps6_writes (by decide)).trans <| (W12_of_ne m ρ c main_arg19 (by decide)).trans <| (StableHlo.after_of_writes_sub hostOps5 _ hostOps5_writes (by decide)).trans <| (W10_of_ne m ρ c main_arg19 (by decide)).trans <| (StableHlo.after_of_writes_sub hostOps4 _ hostOps4_writes (by decide)).trans <| (W8_of_ne m ρ c main_arg19 (by decide)).trans <| (StableHlo.after_of_writes_sub hostOps3 _ hostOps3_writes (by decide)).trans <| (W6_of_ne m ρ c main_arg19 (by decide)).trans <| (StableHlo.after_of_writes_sub hostOps2 _ hostOps2_writes (by decide)).trans <| (W4_of_ne m ρ c main_arg19 (by decide)).trans <| (StableHlo.after_of_writes_sub hostOps1 _ hostOps1_writes (by decide)).trans <| (W2_of_ne m ρ c main_arg19 (by decide)).trans <| (StableHlo.after_of_writes_sub hostOps0 _ hostOps0_writes (by decide))
theorem W18_main_arg20 (c : Dev nD) : W18 m ρ c (Proc.devRef .tc main_arg20) = m ((c : Thread nD τ).loc main_arg20) :=
  (W18_of_ne m ρ c main_arg20 (by decide)).trans <| (StableHlo.after_of_writes_sub hostOps8 _ hostOps8_writes (by decide)).trans <| (W16_of_ne m ρ c main_arg20 (by decide)).trans <| (StableHlo.after_of_writes_sub hostOps7 _ hostOps7_writes (by decide)).trans <| (W14_of_ne m ρ c main_arg20 (by decide)).trans <| (StableHlo.after_of_writes_sub hostOps6 _ hostOps6_writes (by decide)).trans <| (W12_of_ne m ρ c main_arg20 (by decide)).trans <| (StableHlo.after_of_writes_sub hostOps5 _ hostOps5_writes (by decide)).trans <| (W10_of_ne m ρ c main_arg20 (by decide)).trans <| (StableHlo.after_of_writes_sub hostOps4 _ hostOps4_writes (by decide)).trans <| (W8_of_ne m ρ c main_arg20 (by decide)).trans <| (StableHlo.after_of_writes_sub hostOps3 _ hostOps3_writes (by decide)).trans <| (W6_of_ne m ρ c main_arg20 (by decide)).trans <| (StableHlo.after_of_writes_sub hostOps2 _ hostOps2_writes (by decide)).trans <| (W4_of_ne m ρ c main_arg20 (by decide)).trans <| (StableHlo.after_of_writes_sub hostOps1 _ hostOps1_writes (by decide)).trans <| (W2_of_ne m ρ c main_arg20 (by decide)).trans <| (StableHlo.after_of_writes_sub hostOps0 _ hostOps0_writes (by decide))

theorem W18_result (c : Dev nD) : W18 m ρ c (Proc.devRef .tc main_v69) = (dat8 (V17 m ρ) c).arrAt 3 cfg8.N :=
  W18_arr m ρ c 3

/-! ## The proof data family and the thread state -/

abbrev adm : (p : Fin 9) → (pcfgs (F := F) p).Adm := fun p => (cfgs p).toPCfg_adm
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m ρ 0 c).Φ 0 from hin0 (V1 m ρ) c)
    unfold Pipeline.ΦA
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec2 c ⊢ (pdats m ρ 2 c).Φ 0 from hin2 (V5 m ρ) c)
    unfold Pipeline.ΦA
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec4 c ⊢ (pdats m ρ 4 c).Φ 0 from hin4 (V9 m ρ) c)
    unfold Pipeline.ΦA
    isplitl [Hr]; · iexact Hr
    iexact Hp
  hout c := by
    rw [Pipeline.ownSems0_none]
    refine (show (pdats m ρ 4 c).Φ (Fin.last _) ⊢ Pipeline.ΦA spec4 c from hout4 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec6 c ⊢ (pdats m ρ 6 c).Φ 0 from hin6 (V13 m ρ) c)
    unfold Pipeline.ΦA
    isplitl [Hr]; · iexact Hr
    iexact Hp
  hout c := by
    rw [Pipeline.ownSems0_none]
    refine (show (pdats m ρ 6 c).Φ (Fin.last _) ⊢ Pipeline.ΦA spec6 c from hout6 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ) ]

theorem main_run (c : Dev nD) : main (F := F) c = Pipeline.Seg.run (segs m ρ) := (main_chain c).trans (by chain_rfl)

set_option backward.isDefEq.respectTransparency.types false in
/-- THE RUN: every weakly fair execution of @main terminates without a fault, and every final memory holds each
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W18 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c => h c)

end Cert.KernelIdeal.Regions

end
-- ==== Proof.FrameKI.lean ====
/-
  The frame of the program read at the ideal instance: the whole run ends with every unscoped buffer at the last boundary's
  contents, and each argument array reads back there as launched.
-/
import proofs.«110958_j70274254897753_1_alg».proof.Defs
import proofs.«110958_j70274254897753_1_alg».proof.Proof.KI.Run
import proofs.«110958_j70274254897753_1_alg».proof.Proof.Gen.KernelIdeal
import proofs.«110958_j70274254897753_1_alg».proof.Proof.Gen.Pre_finite_inputs

set_option maxRecDepth 16384

noncomputable section

namespace Cert.Proof.Frames

open Idealize.ShloMosaic Idealize.ShloMosaic.TcCoe Idealize.SL.Sem
open Cert.KernelIdeal Cert.KernelIdeal.Regions

theorem frame_KernelIdeal : @Cert.frame_KernelIdeal Cert.KernelIdeal.Gen.facts Cert.Pre_finite_inputs.Gen.facts := fun m ρ _ =>
  (θ_run (Cert.KernelIdeal.defs (F := Ideal)) _ _).mono (fun _ h c => ⟨
      (h c _ (mem_uc main_arg0 (by decide))).trans (W18_main_arg0 m ρ c),
      (h c _ (mem_uc main_arg1 (by decide))).trans (W18_main_arg1 m ρ c),
      (h c _ (mem_uc main_arg2 (by decide))).trans (W18_main_arg2 m ρ c),
      (h c _ (mem_uc main_arg3 (by decide))).trans (W18_main_arg3 m ρ c),
      (h c _ (mem_uc main_arg4 (by decide))).trans (W18_main_arg4 m ρ c),
      (h c _ (mem_uc main_arg5 (by decide))).trans (W18_main_arg5 m ρ c),
      (h c _ (mem_uc main_arg6 (by decide))).trans (W18_main_arg6 m ρ c),
      (h c _ (mem_uc main_arg7 (by decide))).trans (W18_main_arg7 m ρ c),
      (h c _ (mem_uc main_arg8 (by decide))).trans (W18_main_arg8 m ρ c),
      (h c _ (mem_uc main_arg9 (by decide))).trans (W18_main_arg9 m ρ c),
      (h c _ (mem_uc main_arg10 (by decide))).trans (W18_main_arg10 m ρ c),
      (h c _ (mem_uc main_arg11 (by decide))).trans (W18_main_arg11 m ρ c),
      (h c _ (mem_uc main_arg12 (by decide))).trans (W18_main_arg12 m ρ c),
      (h c _ (mem_uc main_arg13 (by decide))).trans (W18_main_arg13 m ρ c),
      (h c _ (mem_uc main_arg14 (by decide))).trans (W18_main_arg14 m ρ c),
      (h c _ (mem_uc main_arg15 (by decide))).trans (W18_main_arg15 m ρ c),
      (h c _ (mem_uc main_arg16 (by decide))).trans (W18_main_arg16 m ρ c),
      (h c _ (mem_uc main_arg17 (by decide))).trans (W18_main_arg17 m ρ c),
      (h c _ (mem_uc main_arg18 (by decide))).trans (W18_main_arg18 m ρ c),
      (h c _ (mem_uc main_arg19 (by decide))).trans (W18_main_arg19 m ρ c),
      (h c _ (mem_uc main_arg20 (by decide))).trans (W18_main_arg20 m ρ c)⟩)
    (run_all (F := Ideal) m ρ)

end Cert.Proof.Frames

end
-- ==== Proof.Ref.Ops.lean ====
/-
  The reference program's @main as the list of its host operations, in order (a called function's operations
  stand at its call site), and its run: @main IS the sequence of these operations, none of them touches a
  scoped buffer or allocates one, so every weakly fair execution terminates and every final memory holds each
  buffer at the fold of the operations' results over the launch contents.  The argument arrays are written by
  no operation, so they read back as launched; the result is kept as that fold at the result buffer and is
  read layer by layer elsewhere.
-/
import proofs.«110958_j70274254897753_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 209 operations, in order (a called function's operations stand in its call's place, spelt `TRef.…`). -/
abbrev ops : List (HloOp τ sig (Elt F)) :=
  [ unary main_arg20 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg20 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)),
    nullary main_cst (constant S_ .f32 0x00000000#32),
    unary main_cst main_v11 (broadcastInDim S100000x10 ![] bcast_S_S100000x10 : (⟨S_, .f32⟩ : BufTy).Contents (Elt F) → (⟨S100000x10, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)),
    binary main_arg0 main_v13 main_v14 (addf : (⟨S100000x10, .f32⟩ : BufTy).Contents (Elt F) → (⟨S100000x10, .f32⟩ : BufTy).Contents (Elt F) → (⟨S100000x10, .f32⟩ : BufTy).Contents (Elt F)),
    binary main_v14 main_arg2 main_v15 ((fun l r => Host.dotGeneral dot_S100000x10_S10x128_S100000x128_1_0_0_1_n_n none l r) : (⟨S100000x10, .f32⟩ : BufTy).Contents (Elt F) → (⟨S10x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v20 (broadcastInDim S128 ![] bcast_S_S128 : (⟨S_, .f32⟩ : BufTy).Contents (Elt F) → (⟨S128, .f32⟩ : BufTy).Contents (Elt F)),
    binary main_v19 main_v20 main_v21 (Host.divf : (⟨S128, .f32⟩ : BufTy).Contents (Elt F) → (⟨S128, .f32⟩ : BufTy).Contents (Elt F) → (⟨S128, .f32⟩ : BufTy).Contents (Elt F)),
    unary main_v21 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v18 main_v23 main_v24 (subf : (⟨S100000x128, .f32⟩ : BufTy).Contents (Elt F) → (⟨S100000x128, .f32⟩ : BufTy).Contents (Elt F) → (⟨S100000x128, .f32⟩ : BufTy).Contents (Elt F)),
    binary main_v24 main_v24 main_v25 (mulf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v25 main_cst_3 main_v26 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    unary main_v21 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v18 main_v30 main_v31 (subf : (⟨S100000x128, .f32⟩ : BufTy).Contents (Elt F) → (⟨S100000x128, .f32⟩ : BufTy).Contents (Elt F) → (⟨S100000x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v33 main_v31 main_v34 (mulf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v35 (broadcastInDim S128 ![] bcast_S_S128 : (⟨S_, .f32⟩ : BufTy).Contents (Elt F) → (⟨S128, .f32⟩ : BufTy).Contents (Elt F)),
    binary main_v28 main_v35 main_v36 (addf : (⟨S128, .f32⟩ : BufTy).Contents (Elt F) → (⟨S128, .f32⟩ : BufTy).Contents (Elt F) → (⟨S128, .f32⟩ : BufTy).Contents (Elt F)),
    unary main_v36 main_v37 (Host.sqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v34 main_v39 main_v40 (Host.divf : (⟨S100000x128, .f32⟩ : BufTy).Contents (Elt F) → (⟨S100000x128, .f32⟩ : BufTy).Contents (Elt F) → (⟨S100000x128, .f32⟩ : BufTy).Contents (Elt F)),
    unary main_arg5 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf,
    binary main_v44 main_arg6 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v48 main_cst_6 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v55 main_cst_8 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    unary main_arg8 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v65 (broadcastInDim S128 ![] bcast_S_S128 : (⟨S_, .f32⟩ : BufTy).Contents (Elt F) → (⟨S128, .f32⟩ : BufTy).Contents (Elt F)),
    binary main_v58 main_v65 main_v66 (addf : (⟨S128, .f32⟩ : BufTy).Contents (Elt F) → (⟨S128, .f32⟩ : BufTy).Contents (Elt F) → (⟨S128, .f32⟩ : BufTy).Contents (Elt F)),
    unary main_v66 main_v67 (Host.sqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (Host.divf : (⟨S100000x128, .f32⟩ : BufTy).Contents (Elt F) → (⟨S100000x128, .f32⟩ : BufTy).Contents (Elt F) → (⟨S100000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v73) (TRef.of (T := ⟨S100000x128, .f32⟩) main_call1_v0) (TRef.of (T := ⟨S100000x128, .f32⟩) main_v74) maximumf,
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v74) (TRef.of (T := ⟨S100000x128, .f32⟩) main_call2_v0) (TRef.of (T := ⟨S100000x128, .f32⟩) main_v75) maximumf,
    unary main_arg20 main_v76 ((extractStridedSlice S1x1600000 ![0, 0] · slices_S2x1600000_S1x1600000_0_0) : (⟨S2x1600000, .i32⟩ : BufTy).Contents (Elt F) → (⟨S1x1600000, .i32⟩ : BufTy).Contents (Elt F)),
    reshape main_v76 main_v77 rfl shapeCasts_S1x1600000_S1600000,
    unary main_arg20 main_v78 ((extractStridedSlice S1x1600000 ![1, 0] · slices_S2x1600000_S1x1600000_1_0) : (⟨S2x1600000, .i32⟩ : BufTy).Contents (Elt F) → (⟨S1x1600000, .i32⟩ : BufTy).Contents (Elt F)),
    reshape main_v78 main_v79 rfl shapeCasts_S1x1600000_S1600000,
    nullary main_c_11 (constantI S_ 32 0#32),
    unary main_c_11 main_v80 (broadcastInDim S1600000 ![] bcast_S_S1600000 : (⟨S_, .i32⟩ : BufTy).Contents (Elt F) → (⟨S1600000, .i32⟩ : BufTy).Contents (Elt F)),
    binary main_v77 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v82 (broadcastInDim S1600000 ![] bcast_S_S1600000 : (⟨S_, .i32⟩ : BufTy).Contents (Elt F) → (⟨S1600000, .i32⟩ : BufTy).Contents (Elt F)),
    binary main_v77 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v77 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v75 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v87 (broadcastInDim S100000x128 ![] bcast_S_S100000x128 : (⟨S_, .f32⟩ : BufTy).Contents (Elt F) → (⟨S100000x128, .f32⟩ : BufTy).Contents (Elt F)),
    unary main_v79 main_v88 (broadcastInDim S1600000x1 ![0] bcast_S1600000_S1600000x1_0 : (⟨S1600000, .i32⟩ : BufTy).Contents (Elt F) → (⟨S1600000x1, .i32⟩ : BufTy).Contents (Elt F)),
    ternary main_v87 main_v88 main_v86 main_v89 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v75 main_v89 main_v90 (addf : (⟨S100000x128, .f32⟩ : BufTy).Contents (Elt F) → (⟨S100000x128, .f32⟩ : BufTy).Contents (Elt F) → (⟨S100000x128, .f32⟩ : BufTy).Contents (Elt F)),
    binary main_v90 main_arg10 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    binary main_v94 main_cst_14 main_v95 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_15 (constant S_ .f32 0x47C35000#32),
    unary main_cst_15 main_v96 (broadcastInDim S128 ![] bcast_S_S128 : (⟨S_, .f32⟩ : BufTy).Contents (Elt F) → (⟨S128, .f32⟩ : BufTy).Contents (Elt F)),
    binary main_v95 main_v96 main_v97 (Host.divf : (⟨S128, .f32⟩ : BufTy).Contents (Elt F) → (⟨S128, .f32⟩ : BufTy).Contents (Elt F) → (⟨S128, .f32⟩ : BufTy).Contents (Elt F)),
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S100000x128 ![0, 1] bcast_S1x128_S100000x128_0_1 : (⟨S1x128, .f32⟩ : BufTy).Contents (Elt F) → (⟨S100000x128, .f32⟩ : BufTy).Contents (Elt F)),
    binary main_v94 main_v99 main_v100 (subf : (⟨S100000x128, .f32⟩ : BufTy).Contents (Elt F) → (⟨S100000x128, .f32⟩ : BufTy).Contents (Elt F) → (⟨S100000x128, .f32⟩ : BufTy).Contents (Elt F)),
    binary main_v100 main_v100 main_v101 (mulf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v101 main_cst_16 main_v102 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v103 (broadcastInDim S128 ![] bcast_S_S128 : (⟨S_, .f32⟩ : BufTy).Contents (Elt F) → (⟨S128, .f32⟩ : BufTy).Contents (Elt F)),
    binary main_v102 main_v103 main_v104 (Host.divf : (⟨S128, .f32⟩ : BufTy).Contents (Elt F) → (⟨S128, .f32⟩ : BufTy).Contents (Elt F) → (⟨S128, .f32⟩ : BufTy).Contents (Elt F)),
    unary main_v97 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v94 main_v106 main_v107 (subf : (⟨S100000x128, .f32⟩ : BufTy).Contents (Elt F) → (⟨S100000x128, .f32⟩ : BufTy).Contents (Elt F) → (⟨S100000x128, .f32⟩ : BufTy).Contents (Elt F)),
    unary main_arg12 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v109 main_v107 main_v110 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v111 (broadcastInDim S128 ![] bcast_S_S128 : (⟨S_, .f32⟩ : BufTy).Contents (Elt F) → (⟨S128, .f32⟩ : BufTy).Contents (Elt F)),
    binary main_v104 main_v111 main_v112 (addf : (⟨S128, .f32⟩ : BufTy).Contents (Elt F) → (⟨S128, .f32⟩ : BufTy).Contents (Elt F) → (⟨S128, .f32⟩ : BufTy).Contents (Elt F)),
    unary main_v112 main_v113 (Host.sqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v110 main_v115 main_v116 (Host.divf : (⟨S100000x128, .f32⟩ : BufTy).Contents (Elt F) → (⟨S100000x128, .f32⟩ : BufTy).Contents (Elt F) → (⟨S100000x128, .f32⟩ : BufTy).Contents (Elt F)),
    unary main_arg13 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v116 main_v118 main_v119 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v119) (TRef.of (T := ⟨S100000x128, .f32⟩) main_call3_v0) (TRef.of (T := ⟨S100000x128, .f32⟩) main_v120) maximumf,
    binary main_v120 main_arg14 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v121 main_v123 main_v124 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v124 main_cst_19 main_v125 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v126 (broadcastInDim S128 ![] bcast_S_S128 : (⟨S_, .f32⟩ : BufTy).Contents (Elt F) → (⟨S128, .f32⟩ : BufTy).Contents (Elt F)),
    binary main_v125 main_v126 main_v127 (Host.divf : (⟨S128, .f32⟩ : BufTy).Contents (Elt F) → (⟨S128, .f32⟩ : BufTy).Contents (Elt F) → (⟨S128, .f32⟩ : BufTy).Contents (Elt F)),
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v124 main_v129 main_v130 (subf : (⟨S100000x128, .f32⟩ : BufTy).Contents (Elt F) → (⟨S100000x128, .f32⟩ : BufTy).Contents (Elt F) → (⟨S100000x128, .f32⟩ : BufTy).Contents (Elt F)),
    binary main_v130 main_v130 main_v131 (mulf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x00000000#32),
    binary main_v131 main_cst_21 main_v132 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_22 (constant S_ .f32 0x47C35000#32),
    unary main_cst_22 main_v133 (broadcastInDim S128 ![] bcast_S_S128 : (⟨S_, .f32⟩ : BufTy).Contents (Elt F) → (⟨S128, .f32⟩ : BufTy).Contents (Elt F)),
    binary main_v132 main_v133 main_v134 (Host.divf : (⟨S128, .f32⟩ : BufTy).Contents (Elt F) → (⟨S128, .f32⟩ : BufTy).Contents (Elt F) → (⟨S128, .f32⟩ : BufTy).Contents (Elt F)),
    unary main_v127 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v124 main_v136 main_v137 (subf : (⟨S100000x128, .f32⟩ : BufTy).Contents (Elt F) → (⟨S100000x128, .f32⟩ : BufTy).Contents (Elt F) → (⟨S100000x128, .f32⟩ : BufTy).Contents (Elt F)),
    unary main_arg16 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v139 main_v137 main_v140 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v141 (broadcastInDim S128 ![] bcast_S_S128 : (⟨S_, .f32⟩ : BufTy).Contents (Elt F) → (⟨S128, .f32⟩ : BufTy).Contents (Elt F)),
    binary main_v134 main_v141 main_v142 (addf : (⟨S128, .f32⟩ : BufTy).Contents (Elt F) → (⟨S128, .f32⟩ : BufTy).Contents (Elt F) → (⟨S128, .f32⟩ : BufTy).Contents (Elt F)),
    unary main_v142 main_v143 (Host.sqrt : (⟨S128, .f32⟩ : BufTy).Contents (Elt F) → (⟨S128, .f32⟩ : BufTy).Contents (Elt F)),
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S100000x128 ![0, 1] bcast_S1x128_S100000x128_0_1 : (⟨S1x128, .f32⟩ : BufTy).Contents (Elt F) → (⟨S100000x128, .f32⟩ : BufTy).Contents (Elt F)),
    binary main_v140 main_v145 main_v146 (Host.divf : (⟨S100000x128, .f32⟩ : BufTy).Contents (Elt F) → (⟨S100000x128, .f32⟩ : BufTy).Contents (Elt F) → (⟨S100000x128, .f32⟩ : BufTy).Contents (Elt F)),
    unary main_arg17 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v146 main_v148 main_v149 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v149) (TRef.of (T := ⟨S100000x128, .f32⟩) main_call4_v0) (TRef.of (T := ⟨S100000x128, .f32⟩) main_v150) maximumf,
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v150) (TRef.of (T := ⟨S100000x128, .f32⟩) main_call5_v0) (TRef.of (T := ⟨S100000x128, .f32⟩) main_v151) maximumf,
    binary main_v151 main_arg18 main_v152 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg19 main_v153 (broadcastInDim S1x10 ![1] bcast_S10_S1x10_1 : (⟨S10, .f32⟩ : BufTy).Contents (Elt F) → (⟨S1x10, .f32⟩ : BufTy).Contents (Elt F)),
    unary main_v153 main_v154 (broadcastInDim S100000x10 ![0, 1] bcast_S1x10_S100000x10_0_1 : (⟨S1x10, .f32⟩ : BufTy).Contents (Elt F) → (⟨S100000x10, .f32⟩ : BufTy).Contents (Elt F)),
    binary main_v152 main_v154 main_v155 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call6_cst) (constant S_ .f32 0xFF800000#32),
    TRef.binary (TRef.of (T := ⟨S100000x10, .f32⟩) main_v155) (TRef.of (T := ⟨S_, .f32⟩) main_call6_cst) (TRef.of (T := ⟨S100000, .f32⟩) main_call6_v0) (fun x v => Host.reduce FloatOps.maximumf x v reducesTo_S100000x10_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x10, .f32⟩) main_call6_v4) (broadcastInDim S100000x10 ![0, 1] bcast_S100000x1_S100000x10_0_1),
    TRef.binary (TRef.of (T := ⟨S100000x10, .f32⟩) main_v155) (TRef.of (T := ⟨S100000x10, .f32⟩) main_call6_v4) (TRef.of (T := ⟨S100000x10, .f32⟩) main_call6_v5) subf,
    TRef.unary (TRef.of (T := ⟨S100000x10, .f32⟩) main_call6_v5) (TRef.of (T := ⟨S100000x10, .f32⟩) main_call6_v6) Host.exp,
    TRef.nullary (TRef.of (T := ⟨S_, .f32⟩) main_call6_cst_1) (constant S_ .f32 0x00000000#32),
    TRef.binary (TRef.of (T := ⟨S100000x10, .f32⟩) main_call6_v6) (TRef.of (T := ⟨S_, .f32⟩) main_call6_cst_1) (TRef.of (T := ⟨S100000, .f32⟩) main_call6_v7) (fun x v => Host.reduceAdd x v reducesTo_S100000x10_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x10, .f32⟩) main_call6_v10) (broadcastInDim S100000x10 ![0, 1] bcast_S100000x1_S100000x10_0_1),
    TRef.binary (TRef.of (T := ⟨S100000x10, .f32⟩) main_call6_v5) (TRef.of (T := ⟨S100000x10, .f32⟩) main_call6_v10) (TRef.of (T := ⟨S100000x10, .f32⟩) main_v156) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The result buffer after the run: the operations' results folded over the launch contents. -/
def result (m : (ℓ : Loc nD τ sig) → Buf (Elt F) ℓ) (c : Dev nD) : Buf (Elt F) ((c.tc : Thread nD τ).loc main_v156) :=
  after ops (launchContents m c) (Proc.devRef .tc main_v156)

set_option maxRecDepth 8192 in
set_option maxHeartbeats 83600000 in
/-- Every weakly fair execution of @main terminates with the result buffer at `result` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v156) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v156,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl)⟩)
    (run_seq scopedRefs_eq scopedSems_eq defs main (fun _ => ops) main_eq (fun _ => ops_sub) m ρ)

end Cert.ReferenceIdeal.RefValue

end
-- ==== Proof.FrameRef.lean ====
/-
  The frame of the reference: its run with the result dropped.
-/
import proofs.«110958_j70274254897753_1_alg».proof.Defs
import proofs.«110958_j70274254897753_1_alg».proof.Proof.Ref.Ops
import proofs.«110958_j70274254897753_1_alg».proof.Proof.Gen.ReferenceIdeal
import proofs.«110958_j70274254897753_1_alg».proof.Proof.Gen.Pre_finite_inputs

noncomputable section

namespace Cert.Proof.Frames

open Idealize.ShloMosaic Idealize.ShloMosaic.TcCoe Idealize.SL.Sem

theorem frame_ReferenceIdeal : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.RefValue.run (F := Ideal) m ρ)

end Cert.Proof.Frames

end
-- ==== Proof.Spec.lean ====
/-
  The network both programs compute, written once as plain formulas on extended reals, entry by entry.
  Activations are matrices `Fin r → Fin d → EReal`.  A layer is: a neighbour sum S (the same gather and
  scatter-add on both sides, kept abstract here), a linear map x·W + b, a batch normalisation over the rows,
  and a clamp at zero.  The two programs differ in how they normalise:
    * the kernel uses the one-pass variance  E[y²] − E[y]²  and multiplies by the reciprocal square root;
    * the reference uses the two-pass variance  E[(y − E[y])²]  and divides by the square root.
  `netK` and `netR` below are the two spellings; they agree on finite inputs.
-/
import Idealize.ShloMosaic.PureOps.Ideal
import Mathlib.Algebra.BigOperators.Group.Finset.Basic

noncomputable section

namespace Cert.Spec

open Idealize.ShloMosaic

/-- A matrix of extended reals. -/
abbrev Mat (r d : ℕ) : Type := Fin r → Fin d → EReal
abbrev Row (d : ℕ) : Type := Fin d → EReal

/-- The float literals of the two programs, as the extended reals they denote. -/
def eps : EReal := Ideal.ofBits .f32 0x3727C5AC#32
def cnt : EReal := Ideal.ofBits .f32 0x47C35000#32
def zer : EReal := Ideal.ofBits .f32 0x00000000#32
def ninf : EReal := Ideal.ofBits .f32 0xFF800000#32

variable {r k d : ℕ}

/-- x·W + b. -/
def lin (h : Mat r k) (w : Mat k d) (b : Row d) : Mat r d := fun i j => (∑ c : Fin k, h i c * w c j) + b j
/-- Column sums, column mean, and the two variances. -/
def colSum (y : Mat r d) : Row d := fun j => ∑ i : Fin r, y i j
def colSumSq (y : Mat r d) : Row d := fun j => ∑ i : Fin r, y i j * y i j
def mean (y : Mat r d) : Row d := fun j => Ideal.div (colSum y j) cnt
def varK (y : Mat r d) : Row d := fun j => Ideal.div (colSumSq y j) cnt - mean y j * mean y j
def varR (y : Mat r d) : Row d := fun j => Ideal.div (∑ i : Fin r, (y i j - mean y j) * (y i j - mean y j)) cnt
/-- Normalise, scale, shift, clamp — the kernel's spelling and the reference's. -/
def bnK (y : Mat r d) (g t : Row d) : Mat r d :=
  fun i j => max (g j * ((y i j - mean y j) * Ideal.rsqrt (varK y j + eps)) + t j) zer
def bnR (y : Mat r d) (g t : Row d) : Mat r d :=
  fun i j => max (Ideal.div (g j * (y i j - mean y j)) (Ideal.sqrt (varR y j + eps)) + t j) zer
/-- Row-wise log-softmax: z − log Σ exp z with z the row shifted by its maximum. -/
def rowMax (z : Mat r d) : Fin r → EReal := fun i => (Finset.univ : Finset (Fin d)).fold max ninf (fun j => z i j)
def lsm (z : Mat r d) : Mat r d :=
  fun i j => (z i j - rowMax z i) - Ideal.log (∑ c : Fin d, Ideal.exp (z i c - rowMax z i))

/-- One two-layer block in the kernel's spelling: h ↦ relu(bn(relu(bn((h + S h)·W₁ + b₁))·W₂ + b₂)). -/
def convK {din : ℕ} (S : Mat r din → Mat r din) (h : Mat r din) (w1 : Mat din d) (b1 g1 t1 : Row d)
    (w2 : Mat d d) (b2 g2 t2 : Row d) : Mat r d :=
  bnK (lin (bnK (lin (fun i j => h i j + S h i j) w1 b1) g1 t1) w2 b2) g2 t2
/-- The same in the reference's spelling, with its extra (idempotent) clamp at the end. -/
def convR {din : ℕ} (S : Mat r din → Mat r din) (h : Mat r din) (w1 : Mat din d) (b1 g1 t1 : Row d)
    (w2 : Mat d d) (b2 g2 t2 : Row d) : Mat r d :=
  fun i j => max (bnR (lin (bnR (lin (fun i j => h i j + S h i j) w1 b1) g1 t1) w2 b2) g2 t2 i j) zer

/-- The whole network, both spellings. -/
def netK {din dh dout : ℕ} (S1 : Mat r din → Mat r din) (S2 : Mat r dh → Mat r dh) (x : Mat r din)
    (w11 : Mat din dh) (b11 g11 t11 : Row dh) (w12 : Mat dh dh) (b12 g12 t12 : Row dh)
    (w21 : Mat dh dh) (b21 g21 t21 : Row dh) (w22 : Mat dh dh) (b22 g22 t22 : Row dh)
    (wf : Mat dh dout) (bf : Row dout) : Mat r dout :=
  lsm (lin (convK S2 (convK S1 x w11 b11 g11 t11 w12 b12 g12 t12) w21 b21 g21 t21 w22 b22 g22 t22) wf bf)
def netR {din dh dout : ℕ} (S1 : Mat r din → Mat r din) (S2 : Mat r dh → Mat r dh) (x : Mat r din)
    (w11 : Mat din dh) (b11 g11 t11 : Row dh) (w12 : Mat dh dh) (b12 g12 t12 : Row dh)
    (w21 : Mat dh dh) (b21 g21 t21 : Row dh) (w22 : Mat dh dh) (b22 g22 t22 : Row dh)
    (wf : Mat dh dout) (bf : Row dout) : Mat r dout :=
  lsm (lin (convR S2 (convR S1 x w11 b11 g11 t11 w12 b12 g12 t12) w21 b21 g21 t21 w22 b22 g22 t22) wf bf)

/-- An extended real that is a real number. -/
def Fin' (x : EReal) : Prop := ∃ a : ℝ, x = (a : EReal)

end Cert.Spec

end
-- ==== Proof.Seg.lean ====
/-
  The neighbour sum of the graph network, as a function on matrices of extended reals.

  The edge list is an integer array of two rows and 1,600,000 columns: row 0 holds each edge's source node,
  row 1 its destination node.  The neighbour sum of a node matrix `x` (100,000 rows, `D` columns) is the
  matrix whose row `n` is the sum of the rows `x[src e]` over the edges `e` whose destination is `n`:
  a gather of the source rows (a negative source index first wrapped by adding the number of nodes, then
  clamped into range by the gather), and a scatter-add of the gathered rows into a matrix of zeros at the
  destination rows (a destination outside the matrix drops its row).  It is spelt here with the same
  operations, in the same order and with the same dimension numbers as both programs spell it, so that each
  program's own chain of operations is this function by unfolding.
-/
import Idealize.ShloMosaic.PureOps.Ideal
import Idealize.ShloMosaic.Lib.ValueIdx

noncomputable section

namespace Cert.Seg

open Idealize.ShloMosaic Idealize.ShloMosaic.ValueIdx

/-! ## Shapes -/

/-- The edge array: two rows (sources, destinations) of 1,600,000 entries. -/
abbrev SEdge : Shape := ⟨2, ![2, 1600000]⟩
/-- One row of it, still of rank two. -/
abbrev SRow : Shape := ⟨2, ![1, 1600000]⟩
/-- The same row as a vector. -/
abbrev SVec : Shape := ⟨1, ![1600000]⟩
/-- The vector as a column of one-entry index vectors. -/
abbrev SCol : Shape := ⟨2, ![1600000, 1]⟩
/-- The scalar shape. -/
abbrev SScalar : Shape := ⟨0, ![]⟩
/-- A node matrix of `D` columns. -/
abbrev SNode (D : ℕ) : Shape := ⟨2, ![100000, D]⟩
/-- A message matrix of `D` columns: one row per edge. -/
abbrev SMsg (D : ℕ) : Shape := ⟨2, ![1600000, D]⟩

/-! ## The shape relations the operations ask for -/

theorem slices0 : SEdge.Slices ![0, 0] SRow := by decide
theorem slices1 : SEdge.Slices ![1, 0] SRow := by decide
theorem casts : SRow.ShapeCasts SVec := by decide
theorem bcastScalarVec : SScalar.BroadcastsInDim SVec (![] : Fin 0 → Fin SVec.rank) := by decide
theorem bcastVecCol : SVec.BroadcastsInDim SCol (![0] : Fin 1 → Fin SCol.rank) := by decide

/-- The relations that mention the number of columns; decided at each width used. -/
class Width (D : ℕ) : Prop where
  bcastZero : SScalar.BroadcastsInDim (SNode D) (![] : Fin 0 → Fin (SNode D).rank)
  gather_wf : GatherDims.WF (SNode D) SCol (SMsg D) [1] [0] [] [0] [] 1 ![1, D]
  scatter_wf : ScatterDims.WF (SNode D) SCol (SMsg D) [1] [0] [0] 1

instance width10 : Width 10 := ⟨by decide, by decide, by decide⟩
instance width128 : Width 128 := ⟨by decide, by decide, by decide⟩

/-- The gather of whole rows: index vector of one entry naming the row, the row kept entire. -/
def gatherDims (D : ℕ) [Width D] : GatherDims (SNode D) SCol (SMsg D) where
  offsetDims := [1]
  collapsedSliceDims := [0]
  operandBatchingDims := []
  startIndicesBatchingDims := []
  startIndexMap := [0]
  indexVectorDim := 1
  sliceSizes := ![1, D]
  wf := Width.gather_wf

/-- The scatter of whole rows: index vector of one entry naming the row the update row is added to. -/
def scatterDims (D : ℕ) [Width D] : ScatterDims (SNode D) SCol (SMsg D) where
  updateWindowDims := [1]
  insertedWindowDims := [0]
  scatterDimsToOperandDims := [0]
  indexVectorDim := 1
  wf := Width.scatter_wf

/-! ## The two index columns -/

/-- Row `r` of the edge array as a vector. -/
def edgeRow0 (edge : IVec SEdge 32) : IVec SVec 32 :=
  shapeCast SVec (extractStridedSlice SRow ![0, 0] edge slices0) casts
def edgeRow1 (edge : IVec SEdge 32) : IVec SVec 32 :=
  shapeCast SVec (extractStridedSlice SRow ![1, 0] edge slices1) casts

/-- The source indices, a negative one wrapped by adding the number of nodes. -/
def srcWrapped (edge : IVec SEdge 32) : IVec SVec 32 :=
  select (cmpi .slt (edgeRow0 edge) (broadcastInDim SVec ![] bcastScalarVec (constantI SScalar 32 0#32)))
    (addi (edgeRow0 edge) (broadcastInDim SVec ![] bcastScalarVec (constantI SScalar 32 100000#32)))
    (edgeRow0 edge)

/-- The source indices as the gather's column of index vectors. -/
def src (edge : IVec SEdge 32) : IVec SCol 32 := broadcastInDim SCol ![0] bcastVecCol (srcWrapped edge)
/-- The destination indices as the scatter's column of index vectors. -/
def dst (edge : IVec SEdge 32) : IVec SCol 32 := broadcastInDim SCol ![0] bcastVecCol (edgeRow1 edge)

/-! ## The neighbour sum -/

/-- A matrix as the array of its entries, and back. -/
def toArr {D : ℕ} (x : Fin 100000 → Fin D → EReal) : FVec Ideal (SNode D) .f32 := fun p => x (p 0) (p 1)
def ofArr {D : ℕ} (a : FVec Ideal (SNode D) .f32) : Fin 100000 → Fin D → EReal := fun i j => a (ix2 i j)

theorem toArr_ix2 {D : ℕ} (x : Fin 100000 → Fin D → EReal) (i : Fin 100000) (j : Fin D) : toArr x (ix2 i j) = x i j := rfl
theorem ofArr_toArr {D : ℕ} (x : Fin 100000 → Fin D → EReal) : ofArr (toArr x) = x := rfl
theorem toArr_ofArr {D : ℕ} (a : FVec Ideal (SNode D) .f32) : toArr (ofArr a) = a := by
  funext p; exact congrArg a (eq_ix2 p).symm

/-- The neighbour sum on arrays: gather the source rows, scatter-add them into zeros at the destination rows. -/
def segArr (D : ℕ) [Width D] (edge : IVec SEdge 32) (a : FVec Ideal (SNode D) .f32) : FVec Ideal (SNode D) .f32 :=
  Host.scatterAdd (F := Ideal) (scatterDims D)
    (broadcastInDim (SNode D) ![] Width.bcastZero (constant (F := Ideal) SScalar .f32 0x00000000#32))
    (dst edge)
    (Host.gather (gatherDims D) a (src edge))

/-- The neighbour sum on matrices. -/
def S (D : ℕ) [Width D] (edge : IVec SEdge 32) (x : Fin 100000 → Fin D → EReal) : Fin 100000 → Fin D → EReal :=
  ofArr (segArr D edge (toArr x))

theorem S_apply (D : ℕ) [Width D] (edge : IVec SEdge 32) (x : Fin 100000 → Fin D → EReal) (i : Fin 100000) (j : Fin D) :
    S D edge x i j = segArr D edge (toArr x) (ix2 i j) := rfl

/-- On an array read as a matrix, the neighbour sum is the array operation read at an index. -/
theorem S_ofArr (D : ℕ) [Width D] (edge : IVec SEdge 32) (a : FVec Ideal (SNode D) .f32) (i : Fin 100000) (j : Fin D) :
    S D edge (ofArr a) i j = segArr D edge a (ix2 i j) := by
  rw [S_apply, toArr_ofArr]

end Cert.Seg

end
-- ==== Proof.Glue.lean ====
/-
  The two spellings of the network applied to the programs' argument arrays.  An argument array is a function
  on the library's index type of its shape; the network is stated on matrices indexed by pairs, so each array is
  read through its coordinates (rank 2: (i, k); rank 1: q).  The edge array feeds the neighbour sum.
-/
import proofs.«110958_j70274254897753_1_alg».proof.Proof.Spec
import proofs.«110958_j70274254897753_1_alg».proof.Proof.Seg
import Idealize.ShloMosaic.Lib.ValueIdx

noncomputable section

namespace Cert.Glue

open Idealize.ShloMosaic Idealize.ShloMosaic.ValueIdx Cert.Spec

/-- A rank-2 array as a matrix, a rank-1 array as a row. -/
def mat {r d : ℕ} (a : (⟨2, ![r, d]⟩ : Shape).Idx → EReal) : Mat r d := fun i k => a (ix2 i k)
def row {d : ℕ} (a : (⟨1, ![d]⟩ : Shape).Idx → EReal) : Row d := fun q => a (ix1 q)

variable (edge : (⟨2, ![2, 1600000]⟩ : Shape).Idx → BitVec 32)
  (a0 : (⟨2, ![100000, 10]⟩ : Shape).Idx → EReal)
  (a2 : (⟨2, ![10, 128]⟩ : Shape).Idx → EReal) (a3 a4 a5 : (⟨1, ![128]⟩ : Shape).Idx → EReal)
  (a6 : (⟨2, ![128, 128]⟩ : Shape).Idx → EReal) (a7 a8 a9 : (⟨1, ![128]⟩ : Shape).Idx → EReal)
  (a10 : (⟨2, ![128, 128]⟩ : Shape).Idx → EReal) (a11 a12 a13 : (⟨1, ![128]⟩ : Shape).Idx → EReal)
  (a14 : (⟨2, ![128, 128]⟩ : Shape).Idx → EReal) (a15 a16 a17 : (⟨1, ![128]⟩ : Shape).Idx → EReal)
  (a18 : (⟨2, ![128, 10]⟩ : Shape).Idx → EReal) (a19 : (⟨1, ![10]⟩ : Shape).Idx → EReal)

/-- The kernel's spelling of the network, of the argument arrays (in @main's order; argument 1 is unused). -/
def netKOf : Mat 100000 10 :=
  netK (Cert.Seg.S 10 edge) (Cert.Seg.S 128 edge) (mat a0) (mat a2) (row a3) (row a4) (row a5) (mat a6) (row a7) (row a8) (row a9)
    (mat a10) (row a11) (row a12) (row a13) (mat a14) (row a15) (row a16) (row a17) (mat a18) (row a19)
/-- The reference's spelling. -/
def netROf : Mat 100000 10 :=
  netR (Cert.Seg.S 10 edge) (Cert.Seg.S 128 edge) (mat a0) (mat a2) (row a3) (row a4) (row a5) (mat a6) (row a7) (row a8) (row a9)
    (mat a10) (row a11) (row a12) (row a13) (mat a14) (row a15) (row a16) (row a17) (mat a18) (row a19)

end Cert.Glue

end
-- ==== Proof.Math.NetEq.lean ====
/-
  The two spellings of the network agree on finite inputs.

  Both programs compute, layer by layer, a neighbour sum, a linear map, a batch normalisation over the rows and a
  clamp at zero.  They differ only in the normalisation.  For a column y₁ … y_r of real numbers with mean
  m = (Σ yᵢ)/r the kernel takes the variance as (Σ yᵢ²)/r − m² and multiplies the centred entry by the reciprocal
  square root of variance + ε; the reference takes it as (Σ (yᵢ − m)²)/r and divides by the square root.

    * Expanding the square, Σ (yᵢ − m)² = Σ yᵢ² − 2m Σ yᵢ + r m² = Σ yᵢ² − r m², because Σ yᵢ = r m.  So the
      two variances are one real number v, and v ≥ 0 since it is a mean of squares.
    * ε is a positive real, so v + ε > 0, its square root s is a positive real, and a / s = a · s⁻¹: the
      quotient by the square root is the product with the reciprocal square root.
    * max (max a 0) 0 = max a 0 removes the reference's second clamp.

  All of this holds in the real numbers; in the extended reals it holds as soon as every entry involved is a real
  number.  Hence the bookkeeping below: sums, products, differences and maxima of reals are reals, a quotient of a
  real by the row count r ≠ 0 is a real, and so every layer maps finite matrices to finite matrices.  The final
  linear map and the log-softmax are the same function on both sides, so the networks agree by congruence.
-/
import Mathlib.Tactic
import Idealize.ShloMosaic.PureOps.Ideal
import proofs.«110958_j70274254897753_1_alg».proof.Proof.Spec

noncomputable section

namespace Cert.Spec

open Idealize.ShloMosaic

/-! ### The literals -/

theorem zer_eq : zer = 0 := by
  unfold zer; simp [Ideal.ofBits, Ideal.ieee]

theorem ninf_eq : ninf = ⊥ := by
  unfold ninf; simp [Ideal.ofBits, Ideal.ieee]

theorem cnt_eq : cnt = ((100000 : ℝ) : EReal) := by
  unfold cnt; simp [Ideal.ofBits, Ideal.ieee, -EReal.coe_mul]; norm_num

theorem eps_eq : eps = (((10995116 : ℝ) * (2 : ℝ) ^ (-40 : ℤ) : ℝ) : EReal) := by
  unfold eps; simp [Ideal.ofBits, Ideal.ieee, -EReal.coe_mul]

theorem eps_pos : ∃ e : ℝ, 0 < e ∧ eps = (e : EReal) :=
  ⟨_, by positivity, eps_eq⟩

/-- The row count at the size of the two programs. -/
theorem cnt_eq_natCast : cnt = (((100000 : ℕ) : ℝ) : EReal) := by
  rw [cnt_eq]; norm_num

/-! ### Real numbers inside the extended reals -/

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.coe (a : ℝ) : Fin' (a : EReal) := ⟨a, rfl⟩

theorem Fin'.zero : Fin' (0 : EReal) := ⟨0, EReal.coe_zero.symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sub {x y : EReal} (hx : Fin' x) (hy : Fin' y) : Fin' (x - y) := by
  obtain ⟨a, rfl⟩ := hx; obtain ⟨b, rfl⟩ := hy; exact ⟨a - b, (EReal.coe_sub a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.max {x y : EReal} (hx : Fin' x) (hy : Fin' y) : Fin' (Max.max x y) := by
  rcases le_total x y with h | h
  · rwa [max_eq_right h]
  · rwa [max_eq_left h]

theorem Fin'.sum {ι : Type*} (s : Finset ι) {f : ι → EReal} (h : ∀ i, Fin' (f i)) :
    Fin' (∑ i ∈ s, f i) := by
  choose g hg using h
  refine ⟨∑ i ∈ s, g i, ?_⟩
  rw [coe_finset_sum]
  exact Finset.sum_congr rfl (fun i _ => hg i)

/-- A matrix of finite entries is the coercion of a real matrix. -/
theorem Fin'.exists_mat {r d : ℕ} {y : Mat r d} (h : ∀ i j, Fin' (y i j)) :
    ∃ Y : Fin r → Fin d → ℝ, y = fun i j => (Y i j : EReal) := by
  choose Y hY using h
  exact ⟨Y, funext fun i => funext fun j => hY i j⟩

/-- The quotient of two reals, the divisor not zero, is the real quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-- Dividing by the square root of a positive real is multiplying by its reciprocal square root. -/
theorem div_sqrt_eq_mul_rsqrt (x : EReal) {v : ℝ} (hv : 0 < v) :
    Ideal.div x (Ideal.sqrt (v : EReal)) = x * Ideal.rsqrt (v : EReal) := by
  have hs : Real.sqrt v ≠ 0 := (Real.sqrt_pos.2 hv).ne'
  rw [Ideal.sqrt_coe, Ideal.rsqrt_coe, if_neg (not_lt.2 hv.le), if_neg (not_lt.2 hv.le), if_neg hv.ne',
    Ideal.div_coe hs, one_div]

theorem fin_rsqrt {v : ℝ} (hv : 0 < v) : Fin' (Ideal.rsqrt (v : EReal)) :=
  ⟨(Real.sqrt v)⁻¹, by rw [Ideal.rsqrt_coe, if_neg (not_lt.2 hv.le), if_neg hv.ne']⟩

/-! ### Column statistics of a real matrix -/

section Stats
variable {r d : ℕ}

/-- The column mean of a real matrix. -/
def rmean (Y : Fin r → Fin d → ℝ) (j : Fin d) : ℝ := (∑ i, Y i j) / r
/-- The column variance of a real matrix, as the mean of the squared deviations. -/
def rvar (Y : Fin r → Fin d → ℝ) (j : Fin d) : ℝ :=
  (∑ i, (Y i j - rmean Y j) * (Y i j - rmean Y j)) / r

theorem rvar_nonneg (Y : Fin r → Fin d → ℝ) (j : Fin d) : 0 ≤ rvar Y j :=
  div_nonneg (Finset.sum_nonneg fun _ _ => mul_self_nonneg _) (Nat.cast_nonneg r)

/-- The mean of the squared deviations is the mean of the squares less the squared mean. -/
theorem rvar_eq (hr : 0 < r) (Y : Fin r → Fin d → ℝ) (j : Fin d) :
    rvar Y j = (∑ i, Y i j * Y i j) / r - rmean Y j * rmean Y j := by
  have hR : (r : ℝ) ≠ 0 := Nat.cast_ne_zero.2 hr.ne'
  have hs : ∑ i, Y i j = r * rmean Y j := by unfold rmean; field_simp
  have hexp : ∑ i, (Y i j - rmean Y j) * (Y i j - rmean Y j)
      = (∑ i, Y i j * Y i j) - 2 * rmean Y j * (∑ i, Y i j) + r * (rmean Y j * rmean Y j) := by
    have : ∀ i, (Y i j - rmean Y j) * (Y i j - rmean Y j)
        = Y i j * Y i j - 2 * rmean Y j * Y i j + rmean Y j * rmean Y j := fun i => by ring
    simp only [this, Finset.sum_add_distrib, Finset.sum_sub_distrib, ← Finset.mul_sum, Finset.sum_const,
      Finset.card_univ, Fintype.card_fin, nsmul_eq_mul]
    ring
  unfold rvar
  rw [hexp, hs]
  field_simp
  ring

variable (hr : 0 < r) (hcnt : cnt = ((r : ℝ) : EReal))
include hr hcnt

theorem mean_coe (Y : Fin r → Fin d → ℝ) (j : Fin d) :
    mean (fun i j => (Y i j : EReal)) j = (rmean Y j : EReal) := by
  have hR : (r : ℝ) ≠ 0 := Nat.cast_ne_zero.2 hr.ne'
  show Ideal.div (∑ i, ((Y i j : ℝ) : EReal)) cnt = _
  rw [hcnt, ← coe_finset_sum, div_coe_coe _ hR]
  rfl

theorem varR_coe (Y : Fin r → Fin d → ℝ) (j : Fin d) :
    varR (fun i j => (Y i j : EReal)) j = (rvar Y j : EReal) := by
  have hR : (r : ℝ) ≠ 0 := Nat.cast_ne_zero.2 hr.ne'
  show Ideal.div (∑ i, (((Y i j : ℝ) : EReal) - mean (fun i j => (Y i j : EReal)) j)
      * (((Y i j : ℝ) : EReal) - mean (fun i j => (Y i j : EReal)) j)) cnt = _
  rw [mean_coe hr hcnt]
  simp only [← EReal.coe_sub, ← EReal.coe_mul]
  rw [← coe_finset_sum, hcnt, div_coe_coe _ hR]
  rfl

theorem varK_coe (Y : Fin r → Fin d → ℝ) (j : Fin d) :
    varK (fun i j => (Y i j : EReal)) j = (rvar Y j : EReal) := by
  have hR : (r : ℝ) ≠ 0 := Nat.cast_ne_zero.2 hr.ne'
  show Ideal.div (∑ i, ((Y i j : ℝ) : EReal) * ((Y i j : ℝ) : EReal)) cnt
      - mean (fun i j => (Y i j : EReal)) j * mean (fun i j => (Y i j : EReal)) j = _
  rw [mean_coe hr hcnt]
  simp only [← EReal.coe_mul]
  rw [← coe_finset_sum, hcnt, div_coe_coe _ hR, ← EReal.coe_sub, rvar_eq hr]

end Stats

/-! ### Finiteness is preserved, and the two normalisations agree -/

section Layers
variable {r : ℕ}

theorem fin_lin {k d : ℕ} {h : Mat r k} {w : Mat k d} {b : Row d} (hh : ∀ i c, Fin' (h i c))
    (hw : ∀ c j, Fin' (w c j)) (hb : ∀ j, Fin' (b j)) : ∀ i j, Fin' (lin h w b i j) :=
  fun i j => (Fin'.sum _ fun c => (hh i c).mul (hw c j)).add (hb j)

/-- The kernel's clamp absorbs a second clamp. -/
theorem bnK_clamp {d : ℕ} (y : Mat r d) (g t : Row d) (i : Fin r) (j : Fin d) :
    max (bnK y g t i j) zer = bnK y g t i j := by
  show max (max _ zer) zer = max _ zer
  rw [max_assoc, max_self]

variable (hr : 0 < r) (hcnt : cnt = ((r : ℝ) : EReal))
include hr hcnt

theorem fin_mean {d : ℕ} {y : Mat r d} (hy : ∀ i j, Fin' (y i j)) : ∀ j, Fin' (mean y j) := by
  obtain ⟨Y, rfl⟩ := Fin'.exists_mat hy
  exact fun j => ⟨_, mean_coe hr hcnt Y j⟩

/-- On a finite matrix the reference's normalisation is the kernel's: the two variances are one real number,
    not negative, so with the positive ε added its square root is a positive real, and dividing by that is
    multiplying by its reciprocal. -/
theorem bnR_eq_bnK {d : ℕ} {y : Mat r d} (hy : ∀ i j, Fin' (y i j)) (g t : Row d) : bnR y g t = bnK y g t := by
  obtain ⟨Y, rfl⟩ := Fin'.exists_mat hy
  obtain ⟨e, he, hE⟩ := eps_pos
  funext i j
  unfold bnR bnK
  rw [varR_coe hr hcnt, varK_coe hr hcnt, hE, ← EReal.coe_add,
    div_sqrt_eq_mul_rsqrt _ (add_pos_of_nonneg_of_pos (rvar_nonneg Y j) he), mul_assoc]

theorem fin_bnK {d : ℕ} {y : Mat r d} (hy : ∀ i j, Fin' (y i j)) {g t : Row d} (hg : ∀ j, Fin' (g j))
    (ht : ∀ j, Fin' (t j)) : ∀ i j, Fin' (bnK y g t i j) := by
  obtain ⟨Y, rfl⟩ := Fin'.exists_mat hy
  obtain ⟨e, he, hE⟩ := eps_pos
  intro i j
  unfold bnK
  rw [varK_coe hr hcnt, mean_coe hr hcnt, hE, ← EReal.coe_add, zer_eq]
  exact (((hg j).mul (((Fin'.coe _).sub (Fin'.coe _)).mul
    (fin_rsqrt (add_pos_of_nonneg_of_pos (rvar_nonneg Y j) he)))).add (ht j)).max Fin'.zero

variable {din d : ℕ} {S : Mat r din → Mat r din}
  (hS : ∀ x, (∀ i j, Fin' (x i j)) → ∀ i j, Fin' (S x i j))
  {h : Mat r din} (hh : ∀ i j, Fin' (h i j))
  {w1 : Mat din d} {b1 g1 t1 : Row d} {w2 : Mat d d} {b2 g2 t2 : Row d}
  (hw1 : ∀ i j, Fin' (w1 i j)) (hb1 : ∀ j, Fin' (b1 j)) (hg1 : ∀ j, Fin' (g1 j)) (ht1 : ∀ j, Fin' (t1 j))
  (hw2 : ∀ i j, Fin' (w2 i j)) (hb2 : ∀ j, Fin' (b2 j)) (hg2 : ∀ j, Fin' (g2 j)) (ht2 : ∀ j, Fin' (t2 j))
include hS hh hw1 hb1 hg1 ht1 hw2 hb2 hg2 ht2

/-- A block keeps finite activations finite. -/
theorem fin_convK : ∀ i j, Fin' (convK S h w1 b1 g1 t1 w2 b2 g2 t2 i j) :=
  fin_bnK hr hcnt (fin_lin (fin_bnK hr hcnt (fin_lin (fun i j => (hh i j).add (hS h hh i j)) hw1 hb1) hg1 ht1)
    hw2 hb2) hg2 ht2

/-- On finite activations and parameters a block in the reference's spelling is the block in the kernel's. -/
theorem convR_eq_convK : convR S h w1 b1 g1 t1 w2 b2 g2 t2 = convK S h w1 b1 g1 t1 w2 b2 g2 t2 := by
  have h1 := fin_lin (fun i j => (hh i j).add (hS h hh i j)) hw1 hb1
  have h2 := fin_lin (fin_bnK hr hcnt h1 hg1 ht1) hw2 hb2
  funext i j
  unfold convR convK
  rw [bnR_eq_bnK hr hcnt h1 g1 t1, bnR_eq_bnK hr hcnt h2 g2 t2]
  exact bnK_clamp _ _ _ _ _

end Layers

/-! ### The whole network -/

/-- On finite inputs and parameters the reference's network is the kernel's. -/
theorem net_eq {r din dh dout : ℕ} (hr : 0 < r) (hcnt : cnt = ((r : ℝ) : EReal))
    (S1 : Mat r din → Mat r din) (S2 : Mat r dh → Mat r dh)
    (hS1 : ∀ x, (∀ i j, Fin' (x i j)) → ∀ i j, Fin' (S1 x i j))
    (hS2 : ∀ x, (∀ i j, Fin' (x i j)) → ∀ i j, Fin' (S2 x i j))
    (x : Mat r din)
    (w11 : Mat din dh) (b11 g11 t11 : Row dh) (w12 : Mat dh dh) (b12 g12 t12 : Row dh)
    (w21 : Mat dh dh) (b21 g21 t21 : Row dh) (w22 : Mat dh dh) (b22 g22 t22 : Row dh)
    (wf : Mat dh dout) (bf : Row dout)
    (hx : ∀ i j, Fin' (x i j))
    (hw11 : ∀ i j, Fin' (w11 i j)) (hb11 : ∀ j, Fin' (b11 j)) (hg11 : ∀ j, Fin' (g11 j)) (ht11 : ∀ j, Fin' (t11 j))
    (hw12 : ∀ i j, Fin' (w12 i j)) (hb12 : ∀ j, Fin' (b12 j)) (hg12 : ∀ j, Fin' (g12 j)) (ht12 : ∀ j, Fin' (t12 j))
    (hw21 : ∀ i j, Fin' (w21 i j)) (hb21 : ∀ j, Fin' (b21 j)) (hg21 : ∀ j, Fin' (g21 j)) (ht21 : ∀ j, Fin' (t21 j))
    (hw22 : ∀ i j, Fin' (w22 i j)) (hb22 : ∀ j, Fin' (b22 j)) (hg22 : ∀ j, Fin' (g22 j)) (ht22 : ∀ j, Fin' (t22 j))
    (_hwf : ∀ i j, Fin' (wf i j)) (_hbf : ∀ j, Fin' (bf j)) :
    netR S1 S2 x w11 b11 g11 t11 w12 b12 g12 t12 w21 b21 g21 t21 w22 b22 g22 t22 wf bf
      = netK S1 S2 x w11 b11 g11 t11 w12 b12 g12 t12 w21 b21 g21 t21 w22 b22 g22 t22 wf bf := by
  have c1 := convR_eq_convK hr hcnt hS1 hx hw11 hb11 hg11 ht11 hw12 hb12 hg12 ht12
  have f1 := fin_convK hr hcnt hS1 hx hw11 hb11 hg11 ht11 hw12 hb12 hg12 ht12
  have c2 := convR_eq_convK hr hcnt hS2 f1 hw21 hb21 hg21 ht21 hw22 hb22 hg22 ht22
  unfold netR netK
  rw [c1, c2]

end Cert.Spec

end
-- ==== Proof.Math.SegFin.lean ====
/-
  The neighbour sum keeps finite matrices finite.

  Row n of the neighbour sum of a node matrix x is the sum of the rows x[src e] over the edges e whose
  destination is n.  It is computed by gathering the source rows and scatter-adding them into a matrix of
  zeros.  The gather only reads entries of x again, so every gathered entry is an entry of x.  On the extended
  reals the scatter-add is exact: an entry of its result is the operand's entry, here zero, plus the sum of the
  finitely many gathered entries that land on it.  A sum of finitely many real numbers is a real number, so
  when every entry of x is a real number every entry of the neighbour sum is one too.
-/
import Idealize.ShloMosaic.PureOps.Ideal
import Idealize.ShloMosaic.Lib.ValueIdx
import proofs.«110958_j70274254897753_1_alg».proof.Proof.Spec
import proofs.«110958_j70274254897753_1_alg».proof.Proof.Seg
import proofs.«110958_j70274254897753_1_alg».proof.Proof.Math.NetEq

noncomputable section

namespace Cert.Seg

open Idealize.ShloMosaic Idealize.ShloMosaic.ValueIdx

/-- The scatter-add of finite updates into a finite operand is finite: each entry is the operand's entry plus a
    finite sum of update entries. -/
theorem fin_hostScatterAdd {s si su : Shape} (d : ScatterDims s si su) {w : ℕ} (x : s.Idx → EReal) (idx : IVec si w)
    (upd : su.Idx → EReal) (hx : ∀ i, Spec.Fin' (x i)) (hu : ∀ j, Spec.Fin' (upd j)) :
    ∀ i, Spec.Fin' (Ideal.hostScatterAdd d x idx upd i) :=
  fun i => (hx i).add (Spec.Fin'.sum _ fun j => hu j)

/-- On the extended reals the accumulating scatter is the exact sum. -/
theorem scatterAdd_eq {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The neighbour sum on arrays, spelt out. -/
theorem segArr_eq (D : ℕ) [Width D] (edge : IVec SEdge 32) (a : FVec Ideal (SNode D) .f32) :
    segArr D edge a = Host.scatterAdd (F := Ideal) (scatterDims D)
      (broadcastInDim (SNode D) ![] Width.bcastZero (constant (F := Ideal) SScalar .f32 0x00000000#32))
      (dst edge) (Host.gather (gatherDims D) a (src edge)) := rfl

/-- The matrix of zeros the sums are added into is finite. -/
theorem fin_zeros (D : ℕ) [Width D] (p : (SNode D).Idx) :
    Spec.Fin' (broadcastInDim (SNode D) ![] Width.bcastZero (constant (F := Ideal) SScalar .f32 0x00000000#32) p) := by
  show Spec.Fin' Spec.zer
  rw [Spec.zer_eq]; exact Spec.Fin'.zero

/-- The gathered rows are entries of the matrix read again, so they are finite when the matrix is. -/
theorem fin_gather (D : ℕ) [Width D] (edge : IVec SEdge 32) (x : Spec.Mat 100000 D)
    (hx : ∀ i j, Spec.Fin' (x i j)) (p : (SMsg D).Idx) :
    Spec.Fin' (Host.gather (gatherDims D) (toArr x) (src edge) p) :=
  hx _ _

/-- The neighbour sum of a finite matrix is finite: each entry is zero plus a finite sum of entries of the matrix,
    the gather re-reading entries and the scatter-add summing the gathered entries that land on the entry. -/
theorem S_fin (D : ℕ) [Width D] (edge : IVec SEdge 32) (x : Spec.Mat 100000 D)
    (hx : ∀ i j, Spec.Fin' (x i j)) : ∀ i j, Spec.Fin' (S D edge x i j) := by
  intro i j
  rw [S_apply, segArr_eq, scatterAdd_eq]
  exact fin_hostScatterAdd (scatterDims D) _ (dst edge) _ (fin_zeros D) (fin_gather D edge x hx) (ix2 i j)

end Cert.Seg

end
-- ==== Proof.Math.PreFin.lean ====
/-
  From the precondition to "every entry is a real number".

  The precondition of both programs is one truth value: for each of the twenty float argument arrays, "the
  absolute value of every entry is below +∞", all twenty joined by "and".  If the whole is true every conjunct
  is true, and a conjunction over an array is true only if it is true at every index.  In the extended reals
  |x| = max x (−x), and both infinities have absolute value +∞, which is not below +∞; so an entry that passes
  is neither infinity, that is, it is a real number.  The integer edge array takes no part.
-/
import Idealize.ShloMosaic.PureOps.Ideal
import Idealize.ShloMosaic.Lib.ReduceAll
import Idealize.ShloMosaic.Lib.ValueIdx
import proofs.«110958_j70274254897753_1_alg».proof.Proof.Spec
import proofs.«110958_j70274254897753_1_alg».proof.Defs

noncomputable section

namespace Cert.PreFin

open Idealize.ShloMosaic Idealize.ShloMosaic.ValueIdx

/-- An extended real whose absolute value is below +∞ is a real number: the absolute value of either infinity
    is +∞. -/
theorem fin_of_abs_lt_inf (x : EReal)
    (h : Ideal.cmp .olt (max x (-x)) (Ideal.ofBits .f32 0x7F800000#32) = 1#1) : Spec.Fin' x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton (⟨0, ![]⟩ : Shape).Idx := ⟨fun _ _ => funext fun d => d.elim0⟩

/-- If "|x| < +∞" holds at every index of an array (the conjunction over the whole array is true), every entry of
    the array is a real number. -/
theorem fin_of_all {s : Shape} {axes : List (Fin s.rank)}
    (hb : (⟨0, ![]⟩ : Shape).BroadcastsInDim s (![] : Fin 0 → Fin s.rank))
    (hr : s.ReducesTo axes ⟨0, ![]⟩) (hS : 0 < (⟨0, ![]⟩ : Shape).numel) (x : FVec Ideal s .f32)
    (h : Host.reduce IntOp.andi
        (cmpf .olt (Host.absf x) (broadcastInDim s ![] hb (constant (F := Ideal) ⟨0, ![]⟩ .f32 0x7F800000#32)))
        (constantI ⟨0, ![]⟩ 1 1#1) hr hS ix0 = 1#1) (i : s.Idx) : Spec.Fin' (x i) :=
  fin_of_abs_lt_inf (x i) (Host.reduce_andi_all _ _ hr hS ix0 h i)

variable [Cert.Pre_finite_inputs.Facts]

/-- Under the precondition every float argument array holds real numbers only: the precondition is the
    conjunction, over the float arguments, of "|x| < +∞ at every index". -/
theorem fin_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Spec.Fin' ((m ((c.tc : Thread Cert.KernelIdeal.nD Cert.KernelIdeal.τ).loc Cert.KernelIdeal.main_arg0)) i)) ∧
    (∀ i, Spec.Fin' ((m ((c.tc : Thread Cert.KernelIdeal.nD Cert.KernelIdeal.τ).loc Cert.KernelIdeal.main_arg1)) i)) ∧
    (∀ i, Spec.Fin' ((m ((c.tc : Thread Cert.KernelIdeal.nD Cert.KernelIdeal.τ).loc Cert.KernelIdeal.main_arg2)) i)) ∧
    (∀ i, Spec.Fin' ((m ((c.tc : Thread Cert.KernelIdeal.nD Cert.KernelIdeal.τ).loc Cert.KernelIdeal.main_arg3)) i)) ∧
    (∀ i, Spec.Fin' ((m ((c.tc : Thread Cert.KernelIdeal.nD Cert.KernelIdeal.τ).loc Cert.KernelIdeal.main_arg4)) i)) ∧
    (∀ i, Spec.Fin' ((m ((c.tc : Thread Cert.KernelIdeal.nD Cert.KernelIdeal.τ).loc Cert.KernelIdeal.main_arg5)) i)) ∧
    (∀ i, Spec.Fin' ((m ((c.tc : Thread Cert.KernelIdeal.nD Cert.KernelIdeal.τ).loc Cert.KernelIdeal.main_arg6)) i)) ∧
    (∀ i, Spec.Fin' ((m ((c.tc : Thread Cert.KernelIdeal.nD Cert.KernelIdeal.τ).loc Cert.KernelIdeal.main_arg7)) i)) ∧
    (∀ i, Spec.Fin' ((m ((c.tc : Thread Cert.KernelIdeal.nD Cert.KernelIdeal.τ).loc Cert.KernelIdeal.main_arg8)) i)) ∧
    (∀ i, Spec.Fin' ((m ((c.tc : Thread Cert.KernelIdeal.nD Cert.KernelIdeal.τ).loc Cert.KernelIdeal.main_arg9)) i)) ∧
    (∀ i, Spec.Fin' ((m ((c.tc : Thread Cert.KernelIdeal.nD Cert.KernelIdeal.τ).loc Cert.KernelIdeal.main_arg10)) i)) ∧
    (∀ i, Spec.Fin' ((m ((c.tc : Thread Cert.KernelIdeal.nD Cert.KernelIdeal.τ).loc Cert.KernelIdeal.main_arg11)) i)) ∧
    (∀ i, Spec.Fin' ((m ((c.tc : Thread Cert.KernelIdeal.nD Cert.KernelIdeal.τ).loc Cert.KernelIdeal.main_arg12)) i)) ∧
    (∀ i, Spec.Fin' ((m ((c.tc : Thread Cert.KernelIdeal.nD Cert.KernelIdeal.τ).loc Cert.KernelIdeal.main_arg13)) i)) ∧
    (∀ i, Spec.Fin' ((m ((c.tc : Thread Cert.KernelIdeal.nD Cert.KernelIdeal.τ).loc Cert.KernelIdeal.main_arg14)) i)) ∧
    (∀ i, Spec.Fin' ((m ((c.tc : Thread Cert.KernelIdeal.nD Cert.KernelIdeal.τ).loc Cert.KernelIdeal.main_arg15)) i)) ∧
    (∀ i, Spec.Fin' ((m ((c.tc : Thread Cert.KernelIdeal.nD Cert.KernelIdeal.τ).loc Cert.KernelIdeal.main_arg16)) i)) ∧
    (∀ i, Spec.Fin' ((m ((c.tc : Thread Cert.KernelIdeal.nD Cert.KernelIdeal.τ).loc Cert.KernelIdeal.main_arg17)) i)) ∧
    (∀ i, Spec.Fin' ((m ((c.tc : Thread Cert.KernelIdeal.nD Cert.KernelIdeal.τ).loc Cert.KernelIdeal.main_arg18)) i)) ∧
    (∀ i, Spec.Fin' ((m ((c.tc : Thread Cert.KernelIdeal.nD Cert.KernelIdeal.τ).loc Cert.KernelIdeal.main_arg19)) i)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h0, r19⟩ := IntOp.andi_eq_one.1 h0
  obtain ⟨h0, r18⟩ := IntOp.andi_eq_one.1 h0
  obtain ⟨h0, r17⟩ := IntOp.andi_eq_one.1 h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨fin_of_all _ _ _ _ r0,
    fin_of_all _ _ _ _ r1,
    fin_of_all _ _ _ _ r2,
    fin_of_all _ _ _ _ r3,
    fin_of_all _ _ _ _ r4,
    fin_of_all _ _ _ _ r5,
    fin_of_all _ _ _ _ r6,
    fin_of_all _ _ _ _ r7,
    fin_of_all _ _ _ _ r8,
    fin_of_all _ _ _ _ r9,
    fin_of_all _ _ _ _ r10,
    fin_of_all _ _ _ _ r11,
    fin_of_all _ _ _ _ r12,
    fin_of_all _ _ _ _ r13,
    fin_of_all _ _ _ _ r14,
    fin_of_all _ _ _ _ r15,
    fin_of_all _ _ _ _ r16,
    fin_of_all _ _ _ _ r17,
    fin_of_all _ _ _ _ r18,
    fin_of_all _ _ _ _ r19⟩

theorem fin_arg0 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg0)) i) := (fin_args m h c).1 i
theorem fin_arg1 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg1)) i) := (fin_args m h c).2.1 i
theorem fin_arg2 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg2)) i) := (fin_args m h c).2.2.1 i
theorem fin_arg3 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg3)) i) := (fin_args m h c).2.2.2.1 i
theorem fin_arg4 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg4)) i) := (fin_args m h c).2.2.2.2.1 i
theorem fin_arg5 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg5)) i) := (fin_args m h c).2.2.2.2.2.1 i
theorem fin_arg6 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg6)) i) := (fin_args m h c).2.2.2.2.2.2.1 i
theorem fin_arg7 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg7)) i) := (fin_args m h c).2.2.2.2.2.2.2.1 i
theorem fin_arg8 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg8)) i) := (fin_args m h c).2.2.2.2.2.2.2.2.1 i
theorem fin_arg9 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg9)) i) := (fin_args m h c).2.2.2.2.2.2.2.2.2.1 i
theorem fin_arg10 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg10)) i) := (fin_args m h c).2.2.2.2.2.2.2.2.2.2.1 i
theorem fin_arg11 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg11)) i) := (fin_args m h c).2.2.2.2.2.2.2.2.2.2.2.1 i
theorem fin_arg12 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg12)) i) := (fin_args m h c).2.2.2.2.2.2.2.2.2.2.2.2.1 i
theorem fin_arg13 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg13)) i) := (fin_args m h c).2.2.2.2.2.2.2.2.2.2.2.2.2.1 i
theorem fin_arg14 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg14)) i) := (fin_args m h c).2.2.2.2.2.2.2.2.2.2.2.2.2.2.1 i
theorem fin_arg15 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg15)) i) := (fin_args m h c).2.2.2.2.2.2.2.2.2.2.2.2.2.2.2.1 i
theorem fin_arg16 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg16)) i) := (fin_args m h c).2.2.2.2.2.2.2.2.2.2.2.2.2.2.2.2.1 i
theorem fin_arg17 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg17)) i) := (fin_args m h c).2.2.2.2.2.2.2.2.2.2.2.2.2.2.2.2.2.1 i
theorem fin_arg18 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg18)) i) := (fin_args m h c).2.2.2.2.2.2.2.2.2.2.2.2.2.2.2.2.2.2.1 i
theorem fin_arg19 (m : (ℓ : Loc Cert.KernelIdeal.nD Cert.KernelIdeal.τ Cert.KernelIdeal.sig) → Buf (Elt Ideal) ℓ) (h : Cert.Pre_KernelIdeal m)
    (c : Dev Cert.KernelIdeal.nD) (i) : Spec.Fin' ((m ((c.tc : Thread Cert.KernelIdeal.nD Cert.KernelIdeal.τ).loc Cert.KernelIdeal.main_arg19)) i) := (fin_args m h c).2.2.2.2.2.2.2.2.2.2.2.2.2.2.2.2.2.2.2 i

end Cert.PreFin

end
-- ==== Proof.Algebraic.lean ====
/-
  The two programs compute the same result from the same arguments.

  The kernel's result array is the kernel's spelling of the network applied to its argument arrays, and the
  reference's result array is the reference's spelling applied to its own.  The two memories agree on the
  arguments, the precondition makes every float argument a real number, the neighbour sum keeps real matrices
  real, and on real inputs and parameters the two spellings are one function.  So the two result arrays are
  equal entry by entry; the arguments are left as they were by both runs.
-/
import proofs.«110958_j70274254897753_1_alg».proof.Defs
import proofs.«110958_j70274254897753_1_alg».proof.Proof.Glue
import proofs.«110958_j70274254897753_1_alg».proof.Proof.Math.NetEq
import proofs.«110958_j70274254897753_1_alg».proof.Proof.Math.SegFin
import proofs.«110958_j70274254897753_1_alg».proof.Proof.Math.PreFin
import proofs.«110958_j70274254897753_1_alg».proof.Proof.KI.Run
import proofs.«110958_j70274254897753_1_alg».proof.Proof.Ref.Ops
import proofs.«110958_j70274254897753_1_alg».proof.Proof.Gen.KernelIdeal
import proofs.«110958_j70274254897753_1_alg».proof.Proof.Gen.ReferenceIdeal
import proofs.«110958_j70274254897753_1_alg».proof.Proof.Gen.Pre_finite_inputs

set_option maxRecDepth 16384

noncomputable section

namespace Cert.Proof.Algebraic

open Idealize.ShloMosaic Idealize.ShloMosaic.TcCoe Idealize.SL.Sem

/-- The two spellings of the network agree on the kernel's argument arrays, once these are finite. -/
theorem net_args_eq (m : (ℓ : Loc Cert.KernelIdeal.nD Cert.KernelIdeal.τ Cert.KernelIdeal.sig) → Buf (Elt Ideal) ℓ) (hpre : @Cert.Pre_KernelIdeal Cert.Pre_finite_inputs.Gen.facts m)
    (c : Dev Cert.KernelIdeal.nD) (i : Fin 100000) (j : Fin 10) :
    Cert.Glue.netROf
            (m ((c.tc : Thread Cert.KernelIdeal.nD Cert.KernelIdeal.τ).loc Cert.KernelIdeal.main_arg20))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19)) i j
      = Cert.Glue.netKOf
            (m ((c.tc : Thread Cert.KernelIdeal.nD Cert.KernelIdeal.τ).loc Cert.KernelIdeal.main_arg20))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19)) i j := by
  obtain ⟨f0, f1, f2, f3, f4, f5, f6, f7, f8, f9, f10, f11, f12, f13, f14, f15, f16, f17, f18, f19⟩ := @Cert.PreFin.fin_args Cert.Pre_finite_inputs.Gen.facts m hpre c
  unfold Cert.Glue.netROf Cert.Glue.netKOf
  exact congrFun (congrFun (Cert.Spec.net_eq (by norm_num) Cert.Spec.cnt_eq_natCast _ _
    (fun x hx => Cert.Seg.S_fin 10 _ x hx) (fun x hx => Cert.Seg.S_fin 128 _ x hx)
    _ _ _ _ _ _ _ _ _ _ _ _ _ _ _ _ _ _ _
    (fun i j => f0 (ValueIdx.ix2 i j))
    (fun i j => f2 (ValueIdx.ix2 i j))
    (fun j => f3 (ValueIdx.ix1 j))
    (fun j => f4 (ValueIdx.ix1 j))
    (fun j => f5 (ValueIdx.ix1 j))
    (fun i j => f6 (ValueIdx.ix2 i j))
    (fun j => f7 (ValueIdx.ix1 j))
    (fun j => f8 (ValueIdx.ix1 j))
    (fun j => f9 (ValueIdx.ix1 j))
    (fun i j => f10 (ValueIdx.ix2 i j))
    (fun j => f11 (ValueIdx.ix1 j))
    (fun j => f12 (ValueIdx.ix1 j))
    (fun j => f13 (ValueIdx.ix1 j))
    (fun i j => f14 (ValueIdx.ix2 i j))
    (fun j => f15 (ValueIdx.ix1 j))
    (fun j => f16 (ValueIdx.ix1 j))
    (fun j => f17 (ValueIdx.ix1 j))
    (fun i j => f18 (ValueIdx.ix2 i j))
    (fun j => f19 (ValueIdx.ix1 j))) i) j

set_option maxHeartbeats 1000000 in
/-- The reference's result array is the kernel's, entry by entry: the reference's is its spelling of the network of
    its arguments, these are the kernel's arguments, on them the two spellings agree, and the kernel's spelling of
    the network of its arguments is the kernel's result array. -/
theorem result_eq
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (i : Fin 100000) (j : Fin 10),
        Cert.KernelIdeal.Regions.W18 (F := Ideal) m ρ c (Proc.devRef .tc Cert.KernelIdeal.main_v69) (ValueIdx.ix2 i j)
          = Cert.Glue.netKOf
            (m ((c.tc : Thread Cert.KernelIdeal.nD Cert.KernelIdeal.τ).loc Cert.KernelIdeal.main_arg20))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19)) i j)
    (hR : ∀ (m' : (ℓ : Loc Cert.ReferenceIdeal.nD Cert.ReferenceIdeal.τ Cert.ReferenceIdeal.sig) → Buf (Elt Ideal) ℓ) (c : Dev Cert.ReferenceIdeal.nD) (i : Fin 100000) (j : Fin 10),
        Cert.ReferenceIdeal.RefValue.result (F := Ideal) m' c (ValueIdx.ix2 i j)
          = Cert.Glue.netROf
            (m' ((c.tc : Thread Cert.ReferenceIdeal.nD Cert.ReferenceIdeal.τ).loc Cert.ReferenceIdeal.main_arg20))
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))
            (m' ((c.tc : Thread Cert.ReferenceIdeal.nD Cert.ReferenceIdeal.τ).loc Cert.ReferenceIdeal.main_arg15))
            (m' ((c.tc : Thread Cert.ReferenceIdeal.nD Cert.ReferenceIdeal.τ).loc Cert.ReferenceIdeal.main_arg16))
            (m' ((c.tc : Thread Cert.ReferenceIdeal.nD Cert.ReferenceIdeal.τ).loc Cert.ReferenceIdeal.main_arg17))
            (m' ((c.tc : Thread Cert.ReferenceIdeal.nD Cert.ReferenceIdeal.τ).loc Cert.ReferenceIdeal.main_arg18))
            (m' ((c.tc : Thread Cert.ReferenceIdeal.nD Cert.ReferenceIdeal.τ).loc Cert.ReferenceIdeal.main_arg19)) i j)
    (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (hpre : @Cert.Pre_KernelIdeal Cert.Pre_finite_inputs.Gen.facts m) (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20)))
    (p : (⟨2, ![100000, 10]⟩ : Shape).Idx) :
    Cert.ReferenceIdeal.RefValue.result (F := Ideal) m' c p
      = Cert.KernelIdeal.Regions.W18 (F := Ideal) m ρ c (Proc.devRef .tc Cert.KernelIdeal.main_v69) p := by
  obtain ⟨e0, e1, e2, e3, e4, e5, e6, e7, e8, e9, e10, e11, e12, e13, e14, e15, e16, e17, e18, e19, e20⟩ := hagree
  obtain ⟨i, j, rfl⟩ : ∃ i j, p = ValueIdx.ix2 i j := ⟨p 0, p 1, ValueIdx.eq_ix2 p⟩
  rw [hR m' c i j, hK m ρ c i j,
    e20, e0, e2, e3, e4, e5, e6, e7, e8, e9, e10, e11, e12, e13, e14, e15, e16, e17, e18, e19]
  exact net_args_eq m hpre c i j

set_option maxHeartbeats 1000000 in
/-- From the two value facts — the kernel's result array is the kernel's spelling of the network of its arguments,
    the reference's is the reference's spelling of its own — to the claim: both programs run, leave their arguments
    unchanged, and end with equal result arrays. -/
theorem algebraic_of
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (i : Fin 100000) (j : Fin 10),
        Cert.KernelIdeal.Regions.W18 (F := Ideal) m ρ c (Proc.devRef .tc Cert.KernelIdeal.main_v69) (ValueIdx.ix2 i j)
          = Cert.Glue.netKOf
            (m ((c.tc : Thread Cert.KernelIdeal.nD Cert.KernelIdeal.τ).loc Cert.KernelIdeal.main_arg20))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19)) i j)
    (hR : ∀ (m' : (ℓ : Loc Cert.ReferenceIdeal.nD Cert.ReferenceIdeal.τ Cert.ReferenceIdeal.sig) → Buf (Elt Ideal) ℓ) (c : Dev Cert.ReferenceIdeal.nD) (i : Fin 100000) (j : Fin 10),
        Cert.ReferenceIdeal.RefValue.result (F := Ideal) m' c (ValueIdx.ix2 i j)
          = Cert.Glue.netROf
            (m' ((c.tc : Thread Cert.ReferenceIdeal.nD Cert.ReferenceIdeal.τ).loc Cert.ReferenceIdeal.main_arg20))
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))
            (m' ((c.tc : Thread Cert.ReferenceIdeal.nD Cert.ReferenceIdeal.τ).loc Cert.ReferenceIdeal.main_arg15))
            (m' ((c.tc : Thread Cert.ReferenceIdeal.nD Cert.ReferenceIdeal.τ).loc Cert.ReferenceIdeal.main_arg16))
            (m' ((c.tc : Thread Cert.ReferenceIdeal.nD Cert.ReferenceIdeal.τ).loc Cert.ReferenceIdeal.main_arg17))
            (m' ((c.tc : Thread Cert.ReferenceIdeal.nD Cert.ReferenceIdeal.τ).loc Cert.ReferenceIdeal.main_arg18))
            (m' ((c.tc : Thread Cert.ReferenceIdeal.nD Cert.ReferenceIdeal.τ).loc Cert.ReferenceIdeal.main_arg19)) i j) :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Regions.W18 (F := Ideal) m ρ c (Proc.devRef .tc Cert.KernelIdeal.main_v69), ?_, ?_⟩
  · exact (θ_run (Cert.KernelIdeal.defs (F := Ideal)) _ _).mono (fun _ h c => ⟨
      h c _ (Cert.KernelIdeal.Regions.mem_uc Cert.KernelIdeal.main_v69 (by decide)),
      (h c _ (Cert.KernelIdeal.Regions.mem_uc Cert.KernelIdeal.main_arg0 (by decide))).trans (Cert.KernelIdeal.Regions.W18_main_arg0 m ρ c),
      (h c _ (Cert.KernelIdeal.Regions.mem_uc Cert.KernelIdeal.main_arg1 (by decide))).trans (Cert.KernelIdeal.Regions.W18_main_arg1 m ρ c),
      (h c _ (Cert.KernelIdeal.Regions.mem_uc Cert.KernelIdeal.main_arg2 (by decide))).trans (Cert.KernelIdeal.Regions.W18_main_arg2 m ρ c),
      (h c _ (Cert.KernelIdeal.Regions.mem_uc Cert.KernelIdeal.main_arg3 (by decide))).trans (Cert.KernelIdeal.Regions.W18_main_arg3 m ρ c),
      (h c _ (Cert.KernelIdeal.Regions.mem_uc Cert.KernelIdeal.main_arg4 (by decide))).trans (Cert.KernelIdeal.Regions.W18_main_arg4 m ρ c),
      (h c _ (Cert.KernelIdeal.Regions.mem_uc Cert.KernelIdeal.main_arg5 (by decide))).trans (Cert.KernelIdeal.Regions.W18_main_arg5 m ρ c),
      (h c _ (Cert.KernelIdeal.Regions.mem_uc Cert.KernelIdeal.main_arg6 (by decide))).trans (Cert.KernelIdeal.Regions.W18_main_arg6 m ρ c),
      (h c _ (Cert.KernelIdeal.Regions.mem_uc Cert.KernelIdeal.main_arg7 (by decide))).trans (Cert.KernelIdeal.Regions.W18_main_arg7 m ρ c),
      (h c _ (Cert.KernelIdeal.Regions.mem_uc Cert.KernelIdeal.main_arg8 (by decide))).trans (Cert.KernelIdeal.Regions.W18_main_arg8 m ρ c),
      (h c _ (Cert.KernelIdeal.Regions.mem_uc Cert.KernelIdeal.main_arg9 (by decide))).trans (Cert.KernelIdeal.Regions.W18_main_arg9 m ρ c),
      (h c _ (Cert.KernelIdeal.Regions.mem_uc Cert.KernelIdeal.main_arg10 (by decide))).trans (Cert.KernelIdeal.Regions.W18_main_arg10 m ρ c),
      (h c _ (Cert.KernelIdeal.Regions.mem_uc Cert.KernelIdeal.main_arg11 (by decide))).trans (Cert.KernelIdeal.Regions.W18_main_arg11 m ρ c),
      (h c _ (Cert.KernelIdeal.Regions.mem_uc Cert.KernelIdeal.main_arg12 (by decide))).trans (Cert.KernelIdeal.Regions.W18_main_arg12 m ρ c),
      (h c _ (Cert.KernelIdeal.Regions.mem_uc Cert.KernelIdeal.main_arg13 (by decide))).trans (Cert.KernelIdeal.Regions.W18_main_arg13 m ρ c),
      (h c _ (Cert.KernelIdeal.Regions.mem_uc Cert.KernelIdeal.main_arg14 (by decide))).trans (Cert.KernelIdeal.Regions.W18_main_arg14 m ρ c),
      (h c _ (Cert.KernelIdeal.Regions.mem_uc Cert.KernelIdeal.main_arg15 (by decide))).trans (Cert.KernelIdeal.Regions.W18_main_arg15 m ρ c),
      (h c _ (Cert.KernelIdeal.Regions.mem_uc Cert.KernelIdeal.main_arg16 (by decide))).trans (Cert.KernelIdeal.Regions.W18_main_arg16 m ρ c),
      (h c _ (Cert.KernelIdeal.Regions.mem_uc Cert.KernelIdeal.main_arg17 (by decide))).trans (Cert.KernelIdeal.Regions.W18_main_arg17 m ρ c),
      (h c _ (Cert.KernelIdeal.Regions.mem_uc Cert.KernelIdeal.main_arg18 (by decide))).trans (Cert.KernelIdeal.Regions.W18_main_arg18 m ρ c),
      (h c _ (Cert.KernelIdeal.Regions.mem_uc Cert.KernelIdeal.main_arg19 (by decide))).trans (Cert.KernelIdeal.Regions.W18_main_arg19 m ρ c),
      (h c _ (Cert.KernelIdeal.Regions.mem_uc Cert.KernelIdeal.main_arg20 (by decide))).trans (Cert.KernelIdeal.Regions.W18_main_arg20 m ρ c)⟩)
      (Cert.KernelIdeal.Regions.run_all (F := Ideal) m ρ)
  · exact (θ_run (Cert.ReferenceIdeal.defs (F := Ideal)) _ _).mono
      (fun _ h c => ⟨(h c).1.trans (funext fun p => result_eq hK hR m ρ m' hpre c (hagree c) p), (h c).2⟩)
      (Cert.ReferenceIdeal.RefValue.run (F := Ideal) m' ρ')

end Cert.Proof.Algebraic

end
-- ==== Proof.Ref.Stretches.lean ====
/-
  The reference's 209 operations cut into its layers: the first neighbour sum, (linear, batch normalisation
  with clamp) twice, the extra clamp, the second neighbour sum, (linear, batch normalisation with clamp) twice,
  the extra clamp, the last linear map, the log-softmax.  The list of all operations is the concatenation of the
  stretches; running a concatenation is running its parts in turn; and each stretch writes only its own
  result buffers, so every other buffer (the arguments in particular) passes through it unchanged.
-/
import proofs.«110958_j70274254897753_1_alg».proof.Proof.Ref.Ops

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-! ## Running a concatenation, and buffers a stretch does not write -/

/-- Running two lists of operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- An operation whose one result buffer is in a list writes inside that list. -/
theorem writes_sub_of_mem {Val : EltTy → Type} {op : HloOp τ sig Val} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-! ## The stretches -/

/-- Operations 0 to 17. -/
abbrev seg1Ops : List (HloOp τ sig (Elt F)) :=
  [ unary main_arg20 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg20 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)),
    nullary main_cst (constant S_ .f32 0x00000000#32),
    unary main_cst main_v11 (broadcastInDim S100000x10 ![] bcast_S_S100000x10 : (⟨S_, .f32⟩ : BufTy).Contents (Elt F) → (⟨S100000x10, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)),
    binary main_arg0 main_v13 main_v14 (addf : (⟨S100000x10, .f32⟩ : BufTy).Contents (Elt F) → (⟨S100000x10, .f32⟩ : BufTy).Contents (Elt F) → (⟨S100000x10, .f32⟩ : BufTy).Contents (Elt F)) ]

/-- Operations 18 to 21. -/
abbrev lin1Ops : List (HloOp τ sig (Elt F)) :=
  [ binary main_v14 main_arg2 main_v15 ((fun l r => Host.dotGeneral dot_S100000x10_S10x128_S100000x128_1_0_0_1_n_n none l r) : (⟨S100000x10, .f32⟩ : BufTy).Contents (Elt F) → (⟨S10x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)) ]

/-- Operations 22 to 54. -/
abbrev bn1Ops : List (HloOp τ sig (Elt F)) :=
  [ nullary main_cst_1 (constant S_ .f32 0x00000000#32),
    binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v20 (broadcastInDim S128 ![] bcast_S_S128 : (⟨S_, .f32⟩ : BufTy).Contents (Elt F) → (⟨S128, .f32⟩ : BufTy).Contents (Elt F)),
    binary main_v19 main_v20 main_v21 (Host.divf : (⟨S128, .f32⟩ : BufTy).Contents (Elt F) → (⟨S128, .f32⟩ : BufTy).Contents (Elt F) → (⟨S128, .f32⟩ : BufTy).Contents (Elt F)),
    unary main_v21 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v18 main_v23 main_v24 (subf : (⟨S100000x128, .f32⟩ : BufTy).Contents (Elt F) → (⟨S100000x128, .f32⟩ : BufTy).Contents (Elt F) → (⟨S100000x128, .f32⟩ : BufTy).Contents (Elt F)),
    binary main_v24 main_v24 main_v25 (mulf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v25 main_cst_3 main_v26 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    unary main_v21 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v18 main_v30 main_v31 (subf : (⟨S100000x128, .f32⟩ : BufTy).Contents (Elt F) → (⟨S100000x128, .f32⟩ : BufTy).Contents (Elt F) → (⟨S100000x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v33 main_v31 main_v34 (mulf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v35 (broadcastInDim S128 ![] bcast_S_S128 : (⟨S_, .f32⟩ : BufTy).Contents (Elt F) → (⟨S128, .f32⟩ : BufTy).Contents (Elt F)),
    binary main_v28 main_v35 main_v36 (addf : (⟨S128, .f32⟩ : BufTy).Contents (Elt F) → (⟨S128, .f32⟩ : BufTy).Contents (Elt F) → (⟨S128, .f32⟩ : BufTy).Contents (Elt F)),
    unary main_v36 main_v37 (Host.sqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v34 main_v39 main_v40 (Host.divf : (⟨S100000x128, .f32⟩ : BufTy).Contents (Elt F) → (⟨S100000x128, .f32⟩ : BufTy).Contents (Elt F) → (⟨S100000x128, .f32⟩ : BufTy).Contents (Elt F)),
    unary main_arg5 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf ]

/-- Operations 55 to 58. -/
abbrev lin2Ops : List (HloOp τ sig (Elt F)) :=
  [ binary main_v44 main_arg6 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- Operations 59 to 91. -/
abbrev bn2Ops : List (HloOp τ sig (Elt F)) :=
  [ nullary main_cst_6 (constant S_ .f32 0x00000000#32),
    binary main_v48 main_cst_6 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v55 main_cst_8 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    unary main_arg8 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v65 (broadcastInDim S128 ![] bcast_S_S128 : (⟨S_, .f32⟩ : BufTy).Contents (Elt F) → (⟨S128, .f32⟩ : BufTy).Contents (Elt F)),
    binary main_v58 main_v65 main_v66 (addf : (⟨S128, .f32⟩ : BufTy).Contents (Elt F) → (⟨S128, .f32⟩ : BufTy).Contents (Elt F) → (⟨S128, .f32⟩ : BufTy).Contents (Elt F)),
    unary main_v66 main_v67 (Host.sqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (Host.divf : (⟨S100000x128, .f32⟩ : BufTy).Contents (Elt F) → (⟨S100000x128, .f32⟩ : BufTy).Contents (Elt F) → (⟨S100000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v73) (TRef.of (T := ⟨S100000x128, .f32⟩) main_call1_v0) (TRef.of (T := ⟨S100000x128, .f32⟩) main_v74) maximumf ]

/-- Operations 92 to 94. -/
abbrev relu1Ops : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v74) (TRef.of (T := ⟨S100000x128, .f32⟩) main_call2_v0) (TRef.of (T := ⟨S100000x128, .f32⟩) main_v75) maximumf ]

/-- Operations 95 to 112. -/
abbrev seg2Ops : List (HloOp τ sig (Elt F)) :=
  [ unary main_arg20 main_v76 ((extractStridedSlice S1x1600000 ![0, 0] · slices_S2x1600000_S1x1600000_0_0) : (⟨S2x1600000, .i32⟩ : BufTy).Contents (Elt F) → (⟨S1x1600000, .i32⟩ : BufTy).Contents (Elt F)),
    reshape main_v76 main_v77 rfl shapeCasts_S1x1600000_S1600000,
    unary main_arg20 main_v78 ((extractStridedSlice S1x1600000 ![1, 0] · slices_S2x1600000_S1x1600000_1_0) : (⟨S2x1600000, .i32⟩ : BufTy).Contents (Elt F) → (⟨S1x1600000, .i32⟩ : BufTy).Contents (Elt F)),
    reshape main_v78 main_v79 rfl shapeCasts_S1x1600000_S1600000,
    nullary main_c_11 (constantI S_ 32 0#32),
    unary main_c_11 main_v80 (broadcastInDim S1600000 ![] bcast_S_S1600000 : (⟨S_, .i32⟩ : BufTy).Contents (Elt F) → (⟨S1600000, .i32⟩ : BufTy).Contents (Elt F)),
    binary main_v77 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v82 (broadcastInDim S1600000 ![] bcast_S_S1600000 : (⟨S_, .i32⟩ : BufTy).Contents (Elt F) → (⟨S1600000, .i32⟩ : BufTy).Contents (Elt F)),
    binary main_v77 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v77 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v75 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v87 (broadcastInDim S100000x128 ![] bcast_S_S100000x128 : (⟨S_, .f32⟩ : BufTy).Contents (Elt F) → (⟨S100000x128, .f32⟩ : BufTy).Contents (Elt F)),
    unary main_v79 main_v88 (broadcastInDim S1600000x1 ![0] bcast_S1600000_S1600000x1_0 : (⟨S1600000, .i32⟩ : BufTy).Contents (Elt F) → (⟨S1600000x1, .i32⟩ : BufTy).Contents (Elt F)),
    ternary main_v87 main_v88 main_v86 main_v89 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v75 main_v89 main_v90 (addf : (⟨S100000x128, .f32⟩ : BufTy).Contents (Elt F) → (⟨S100000x128, .f32⟩ : BufTy).Contents (Elt F) → (⟨S100000x128, .f32⟩ : BufTy).Contents (Elt F)) ]

/-- Operations 113 to 116. -/
abbrev lin3Ops : List (HloOp τ sig (Elt F)) :=
  [ binary main_v90 main_arg10 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)) ]

/-- Operations 117 to 149. -/
abbrev bn3Ops : List (HloOp τ sig (Elt F)) :=
  [ nullary main_cst_14 (constant S_ .f32 0x00000000#32),
    binary main_v94 main_cst_14 main_v95 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_15 (constant S_ .f32 0x47C35000#32),
    unary main_cst_15 main_v96 (broadcastInDim S128 ![] bcast_S_S128 : (⟨S_, .f32⟩ : BufTy).Contents (Elt F) → (⟨S128, .f32⟩ : BufTy).Contents (Elt F)),
    binary main_v95 main_v96 main_v97 (Host.divf : (⟨S128, .f32⟩ : BufTy).Contents (Elt F) → (⟨S128, .f32⟩ : BufTy).Contents (Elt F) → (⟨S128, .f32⟩ : BufTy).Contents (Elt F)),
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S100000x128 ![0, 1] bcast_S1x128_S100000x128_0_1 : (⟨S1x128, .f32⟩ : BufTy).Contents (Elt F) → (⟨S100000x128, .f32⟩ : BufTy).Contents (Elt F)),
    binary main_v94 main_v99 main_v100 (subf : (⟨S100000x128, .f32⟩ : BufTy).Contents (Elt F) → (⟨S100000x128, .f32⟩ : BufTy).Contents (Elt F) → (⟨S100000x128, .f32⟩ : BufTy).Contents (Elt F)),
    binary main_v100 main_v100 main_v101 (mulf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v101 main_cst_16 main_v102 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v103 (broadcastInDim S128 ![] bcast_S_S128 : (⟨S_, .f32⟩ : BufTy).Contents (Elt F) → (⟨S128, .f32⟩ : BufTy).Contents (Elt F)),
    binary main_v102 main_v103 main_v104 (Host.divf : (⟨S128, .f32⟩ : BufTy).Contents (Elt F) → (⟨S128, .f32⟩ : BufTy).Contents (Elt F) → (⟨S128, .f32⟩ : BufTy).Contents (Elt F)),
    unary main_v97 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v94 main_v106 main_v107 (subf : (⟨S100000x128, .f32⟩ : BufTy).Contents (Elt F) → (⟨S100000x128, .f32⟩ : BufTy).Contents (Elt F) → (⟨S100000x128, .f32⟩ : BufTy).Contents (Elt F)),
    unary main_arg12 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v109 main_v107 main_v110 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v111 (broadcastInDim S128 ![] bcast_S_S128 : (⟨S_, .f32⟩ : BufTy).Contents (Elt F) → (⟨S128, .f32⟩ : BufTy).Contents (Elt F)),
    binary main_v104 main_v111 main_v112 (addf : (⟨S128, .f32⟩ : BufTy).Contents (Elt F) → (⟨S128, .f32⟩ : BufTy).Contents (Elt F) → (⟨S128, .f32⟩ : BufTy).Contents (Elt F)),
    unary main_v112 main_v113 (Host.sqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v110 main_v115 main_v116 (Host.divf : (⟨S100000x128, .f32⟩ : BufTy).Contents (Elt F) → (⟨S100000x128, .f32⟩ : BufTy).Contents (Elt F) → (⟨S100000x128, .f32⟩ : BufTy).Contents (Elt F)),
    unary main_arg13 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v116 main_v118 main_v119 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v119) (TRef.of (T := ⟨S100000x128, .f32⟩) main_call3_v0) (TRef.of (T := ⟨S100000x128, .f32⟩) main_v120) maximumf ]

/-- Operations 150 to 153. -/
abbrev lin4Ops : List (HloOp τ sig (Elt F)) :=
  [ binary main_v120 main_arg14 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v121 main_v123 main_v124 (addf : (⟨S100000x128, .f32⟩ : BufTy).Contents (Elt F) → (⟨S100000x128, .f32⟩ : BufTy).Contents (Elt F) → (⟨S100000x128, .f32⟩ : BufTy).Contents (Elt F)) ]

/-- Operations 154 to 186. -/
abbrev bn4Ops : List (HloOp τ sig (Elt F)) :=
  [ nullary main_cst_19 (constant S_ .f32 0x00000000#32),
    binary main_v124 main_cst_19 main_v125 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v126 (broadcastInDim S128 ![] bcast_S_S128 : (⟨S_, .f32⟩ : BufTy).Contents (Elt F) → (⟨S128, .f32⟩ : BufTy).Contents (Elt F)),
    binary main_v125 main_v126 main_v127 (Host.divf : (⟨S128, .f32⟩ : BufTy).Contents (Elt F) → (⟨S128, .f32⟩ : BufTy).Contents (Elt F) → (⟨S128, .f32⟩ : BufTy).Contents (Elt F)),
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v124 main_v129 main_v130 (subf : (⟨S100000x128, .f32⟩ : BufTy).Contents (Elt F) → (⟨S100000x128, .f32⟩ : BufTy).Contents (Elt F) → (⟨S100000x128, .f32⟩ : BufTy).Contents (Elt F)),
    binary main_v130 main_v130 main_v131 (mulf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x00000000#32),
    binary main_v131 main_cst_21 main_v132 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_22 (constant S_ .f32 0x47C35000#32),
    unary main_cst_22 main_v133 (broadcastInDim S128 ![] bcast_S_S128 : (⟨S_, .f32⟩ : BufTy).Contents (Elt F) → (⟨S128, .f32⟩ : BufTy).Contents (Elt F)),
    binary main_v132 main_v133 main_v134 (Host.divf : (⟨S128, .f32⟩ : BufTy).Contents (Elt F) → (⟨S128, .f32⟩ : BufTy).Contents (Elt F) → (⟨S128, .f32⟩ : BufTy).Contents (Elt F)),
    unary main_v127 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v124 main_v136 main_v137 (subf : (⟨S100000x128, .f32⟩ : BufTy).Contents (Elt F) → (⟨S100000x128, .f32⟩ : BufTy).Contents (Elt F) → (⟨S100000x128, .f32⟩ : BufTy).Contents (Elt F)),
    unary main_arg16 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v139 main_v137 main_v140 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v141 (broadcastInDim S128 ![] bcast_S_S128 : (⟨S_, .f32⟩ : BufTy).Contents (Elt F) → (⟨S128, .f32⟩ : BufTy).Contents (Elt F)),
    binary main_v134 main_v141 main_v142 (addf : (⟨S128, .f32⟩ : BufTy).Contents (Elt F) → (⟨S128, .f32⟩ : BufTy).Contents (Elt F) → (⟨S128, .f32⟩ : BufTy).Contents (Elt F)),
    unary main_v142 main_v143 (Host.sqrt : (⟨S128, .f32⟩ : BufTy).Contents (Elt F) → (⟨S128, .f32⟩ : BufTy).Contents (Elt F)),
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S100000x128 ![0, 1] bcast_S1x128_S100000x128_0_1 : (⟨S1x128, .f32⟩ : BufTy).Contents (Elt F) → (⟨S100000x128, .f32⟩ : BufTy).Contents (Elt F)),
    binary main_v140 main_v145 main_v146 (Host.divf : (⟨S100000x128, .f32⟩ : BufTy).Contents (Elt F) → (⟨S100000x128, .f32⟩ : BufTy).Contents (Elt F) → (⟨S100000x128, .f32⟩ : BufTy).Contents (Elt F)),
    unary main_arg17 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v146 main_v148 main_v149 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v149) (TRef.of (T := ⟨S100000x128, .f32⟩) main_call4_v0) (TRef.of (T := ⟨S100000x128, .f32⟩) main_v150) maximumf ]

/-- Operations 187 to 189. -/
abbrev relu2Ops : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v150) (TRef.of (T := ⟨S100000x128, .f32⟩) main_call5_v0) (TRef.of (T := ⟨S100000x128, .f32⟩) main_v151) maximumf ]

/-- Operations 190 to 193. -/
abbrev lin5Ops : List (HloOp τ sig (Elt F)) :=
  [ binary main_v151 main_arg18 main_v152 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg19 main_v153 (broadcastInDim S1x10 ![1] bcast_S10_S1x10_1 : (⟨S10, .f32⟩ : BufTy).Contents (Elt F) → (⟨S1x10, .f32⟩ : BufTy).Contents (Elt F)),
    unary main_v153 main_v154 (broadcastInDim S100000x10 ![0, 1] bcast_S1x10_S100000x10_0_1 : (⟨S1x10, .f32⟩ : BufTy).Contents (Elt F) → (⟨S100000x10, .f32⟩ : BufTy).Contents (Elt F)),
    binary main_v152 main_v154 main_v155 (addf : (⟨S100000x10, .f32⟩ : BufTy).Contents (Elt F) → (⟨S100000x10, .f32⟩ : BufTy).Contents (Elt F) → (⟨S100000x10, .f32⟩ : BufTy).Contents (Elt F)) ]

/-- Operations 194 to 208. -/
abbrev lsmOps : List (HloOp τ sig (Elt F)) :=
  [ TRef.nullary (TRef.of (T := ⟨S_, .f32⟩) main_call6_cst) (constant S_ .f32 0xFF800000#32),
    TRef.binary (TRef.of (T := ⟨S100000x10, .f32⟩) main_v155) (TRef.of (T := ⟨S_, .f32⟩) main_call6_cst) (TRef.of (T := ⟨S100000, .f32⟩) main_call6_v0) (fun x v => Host.reduce FloatOps.maximumf x v reducesTo_S100000x10_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x10, .f32⟩) main_call6_v4) (broadcastInDim S100000x10 ![0, 1] bcast_S100000x1_S100000x10_0_1),
    TRef.binary (TRef.of (T := ⟨S100000x10, .f32⟩) main_v155) (TRef.of (T := ⟨S100000x10, .f32⟩) main_call6_v4) (TRef.of (T := ⟨S100000x10, .f32⟩) main_call6_v5) subf,
    TRef.unary (TRef.of (T := ⟨S100000x10, .f32⟩) main_call6_v5) (TRef.of (T := ⟨S100000x10, .f32⟩) main_call6_v6) Host.exp,
    TRef.nullary (TRef.of (T := ⟨S_, .f32⟩) main_call6_cst_1) (constant S_ .f32 0x00000000#32),
    TRef.binary (TRef.of (T := ⟨S100000x10, .f32⟩) main_call6_v6) (TRef.of (T := ⟨S_, .f32⟩) main_call6_cst_1) (TRef.of (T := ⟨S100000, .f32⟩) main_call6_v7) (fun x v => Host.reduceAdd x v reducesTo_S100000x10_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x10, .f32⟩) main_call6_v10) (broadcastInDim S100000x10 ![0, 1] bcast_S100000x1_S100000x10_0_1),
    TRef.binary (TRef.of (T := ⟨S100000x10, .f32⟩) main_call6_v5) (TRef.of (T := ⟨S100000x10, .f32⟩) main_call6_v10) (TRef.of (T := ⟨S100000x10, .f32⟩) main_v156) subf ]

/-- The program's operations are the stretches in order. -/
theorem ops_split : (RefValue.ops : List (HloOp τ sig (Elt F))) =
    seg1Ops ++ lin1Ops ++ bn1Ops ++ lin2Ops ++ bn2Ops ++ relu1Ops ++ seg2Ops ++ lin3Ops ++ bn3Ops ++ lin4Ops ++ bn4Ops ++ relu2Ops ++ lin5Ops ++ lsmOps := rfl

/-! ## What each stretch writes -/

/-- The buffers `seg1Ops` writes. -/
abbrev seg1OpsW : List (Ref sig .tc) := [main_v0, main_v1, main_v2, main_v3, main_c, main_v4, main_v5, main_c_0, main_v6, main_v7, main_v8, main_v9, main_v10, main_cst, main_v11, main_v12, main_v13, main_v14]
theorem seg1Ops_writes : (seg1Ops : List (HloOp τ sig (Elt F))).Forall fun op => op.writes ⊆ ((seg1OpsW).map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_c rfl (by decide),
   writes_sub_of_mem main_v4 rfl (by decide),
   writes_sub_of_mem main_v5 rfl (by decide),
   writes_sub_of_mem main_c_0 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_cst rfl (by decide),
   writes_sub_of_mem main_v11 rfl (by decide),
   writes_sub_of_mem main_v12 rfl (by decide),
   writes_sub_of_mem main_v13 rfl (by decide),
   writes_sub_of_mem main_v14 rfl (by decide)⟩
/-- A buffer `seg1Ops` does not write passes through it. -/
theorem seg1Ops_keep (V : Valuation τ sig (Elt F)) {r : Ref sig .tc} (hr : r ∉ seg1OpsW) :
    after seg1Ops V (Proc.devRef .tc r) = V (Proc.devRef .tc r) :=
  after_of_writes_sub seg1Ops V seg1Ops_writes hr

/-- The buffers `lin1Ops` writes. -/
abbrev lin1OpsW : List (Ref sig .tc) := [main_v15, main_v16, main_v17, main_v18]
theorem lin1Ops_writes : (lin1Ops : List (HloOp τ sig (Elt F))).Forall fun op => op.writes ⊆ ((lin1OpsW).map (Proc.devRef (τ := τ) .tc)).toFinset :=
  ⟨writes_sub_of_mem main_v15 rfl (by decide),
   writes_sub_of_mem main_v16 rfl (by decide),
   writes_sub_of_mem main_v17 rfl (by decide),
   writes_sub_of_mem main_v18 rfl (by decide)⟩
/-- A buffer `lin1Ops` does not write passes through it. -/
theorem lin1Ops_keep (V : Valuation τ sig (Elt F)) {r : Ref sig .tc} (hr : r ∉ lin1OpsW) :
    after lin1Ops V (Proc.devRef .tc r) = V (Proc.devRef .tc r) :=
  after_of_writes_sub lin1Ops V lin1Ops_writes hr

/-- The buffers `bn1Ops` writes. -/
abbrev bn1OpsW : List (Ref sig .tc) := [main_cst_1, main_v19, main_cst_2, main_v20, main_v21, main_v22, main_v23, main_v24, main_v25, main_cst_3, main_v26, main_cst_4, main_v27, main_v28, main_v29, main_v30, main_v31, main_v32, main_v33, main_v34, main_cst_5, main_v35, main_v36, main_v37, main_v38, main_v39, main_v40, main_v41, main_v42, main_v43, main_call0_cst, main_call0_v0, main_v44]
theorem bn1Ops_writes : (bn1Ops : List (HloOp τ sig (Elt F))).Forall fun op => op.writes ⊆ ((bn1OpsW).map (Proc.devRef (τ := τ) .tc)).toFinset :=
  ⟨writes_sub_of_mem main_cst_1 rfl (by decide),
   writes_sub_of_mem main_v19 rfl (by decide),
   writes_sub_of_mem main_cst_2 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_v25 rfl (by decide),
   writes_sub_of_mem main_cst_3 rfl (by decide),
   writes_sub_of_mem main_v26 rfl (by decide),
   writes_sub_of_mem main_cst_4 rfl (by decide),
   writes_sub_of_mem main_v27 rfl (by decide),
   writes_sub_of_mem main_v28 rfl (by decide),
   writes_sub_of_mem main_v29 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_cst_5 rfl (by decide),
   writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_call0_cst rfl (by decide),
   writes_sub_of_mem main_call0_v0 rfl (by decide),
   writes_sub_of_mem main_v44 rfl (by decide)⟩
/-- A buffer `bn1Ops` does not write passes through it. -/
theorem bn1Ops_keep (V : Valuation τ sig (Elt F)) {r : Ref sig .tc} (hr : r ∉ bn1OpsW) :
    after bn1Ops V (Proc.devRef .tc r) = V (Proc.devRef .tc r) :=
  after_of_writes_sub bn1Ops V bn1Ops_writes hr

/-- The buffers `lin2Ops` writes. -/
abbrev lin2OpsW : List (Ref sig .tc) := [main_v45, main_v46, main_v47, main_v48]
theorem lin2Ops_writes : (lin2Ops : List (HloOp τ sig (Elt F))).Forall fun op => op.writes ⊆ ((lin2OpsW).map (Proc.devRef (τ := τ) .tc)).toFinset :=
  ⟨writes_sub_of_mem main_v45 rfl (by decide),
   writes_sub_of_mem main_v46 rfl (by decide),
   writes_sub_of_mem main_v47 rfl (by decide),
   writes_sub_of_mem main_v48 rfl (by decide)⟩
/-- A buffer `lin2Ops` does not write passes through it. -/
theorem lin2Ops_keep (V : Valuation τ sig (Elt F)) {r : Ref sig .tc} (hr : r ∉ lin2OpsW) :
    after lin2Ops V (Proc.devRef .tc r) = V (Proc.devRef .tc r) :=
  after_of_writes_sub lin2Ops V lin2Ops_writes hr

/-- The buffers `bn2Ops` writes. -/
abbrev bn2OpsW : List (Ref sig .tc) := [main_cst_6, main_v49, main_cst_7, main_v50, main_v51, main_v52, main_v53, main_v54, main_v55, main_cst_8, main_v56, main_cst_9, main_v57, main_v58, main_v59, main_v60, main_v61, main_v62, main_v63, main_v64, main_cst_10, main_v65, main_v66, main_v67, main_v68, main_v69, main_v70, main_v71, main_v72, main_v73, main_call1_cst, main_call1_v0, main_v74]
theorem bn2Ops_writes : (bn2Ops : List (HloOp τ sig (Elt F))).Forall fun op => op.writes ⊆ ((bn2OpsW).map (Proc.devRef (τ := τ) .tc)).toFinset :=
  ⟨writes_sub_of_mem main_cst_6 rfl (by decide),
   writes_sub_of_mem main_v49 rfl (by decide),
   writes_sub_of_mem main_cst_7 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_cst_8 rfl (by decide),
   writes_sub_of_mem main_v56 rfl (by decide),
   writes_sub_of_mem main_cst_9 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_cst_10 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide),
   writes_sub_of_mem main_call1_cst rfl (by decide),
   writes_sub_of_mem main_call1_v0 rfl (by decide),
   writes_sub_of_mem main_v74 rfl (by decide)⟩
/-- A buffer `bn2Ops` does not write passes through it. -/
theorem bn2Ops_keep (V : Valuation τ sig (Elt F)) {r : Ref sig .tc} (hr : r ∉ bn2OpsW) :
    after bn2Ops V (Proc.devRef .tc r) = V (Proc.devRef .tc r) :=
  after_of_writes_sub bn2Ops V bn2Ops_writes hr

/-- The buffers `relu1Ops` writes. -/
abbrev relu1OpsW : List (Ref sig .tc) := [main_call2_cst, main_call2_v0, main_v75]
theorem relu1Ops_writes : (relu1Ops : List (HloOp τ sig (Elt F))).Forall fun op => op.writes ⊆ ((relu1OpsW).map (Proc.devRef (τ := τ) .tc)).toFinset :=
  ⟨writes_sub_of_mem main_call2_cst rfl (by decide),
   writes_sub_of_mem main_call2_v0 rfl (by decide),
   writes_sub_of_mem main_v75 rfl (by decide)⟩
/-- A buffer `relu1Ops` does not write passes through it. -/
theorem relu1Ops_keep (V : Valuation τ sig (Elt F)) {r : Ref sig .tc} (hr : r ∉ relu1OpsW) :
    after relu1Ops V (Proc.devRef .tc r) = V (Proc.devRef .tc r) :=
  after_of_writes_sub relu1Ops V relu1Ops_writes hr

/-- The buffers `seg2Ops` writes. -/
abbrev seg2OpsW : List (Ref sig .tc) := [main_v76, main_v77, main_v78, main_v79, main_c_11, main_v80, main_v81, main_c_12, main_v82, main_v83, main_v84, main_v85, main_v86, main_cst_13, main_v87, main_v88, main_v89, main_v90]
theorem seg2Ops_writes : (seg2Ops : List (HloOp τ sig (Elt F))).Forall fun op => op.writes ⊆ ((seg2OpsW).map (Proc.devRef (τ := τ) .tc)).toFinset :=
  ⟨writes_sub_of_mem main_v76 rfl (by decide),
   writes_sub_of_mem main_v77 rfl (by decide),
   writes_sub_of_mem main_v78 rfl (by decide),
   writes_sub_of_mem main_v79 rfl (by decide),
   writes_sub_of_mem main_c_11 rfl (by decide),
   writes_sub_of_mem main_v80 rfl (by decide),
   writes_sub_of_mem main_v81 rfl (by decide),
   writes_sub_of_mem main_c_12 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_cst_13 rfl (by decide),
   writes_sub_of_mem main_v87 rfl (by decide),
   writes_sub_of_mem main_v88 rfl (by decide),
   writes_sub_of_mem main_v89 rfl (by decide),
   writes_sub_of_mem main_v90 rfl (by decide)⟩
/-- A buffer `seg2Ops` does not write passes through it. -/
theorem seg2Ops_keep (V : Valuation τ sig (Elt F)) {r : Ref sig .tc} (hr : r ∉ seg2OpsW) :
    after seg2Ops V (Proc.devRef .tc r) = V (Proc.devRef .tc r) :=
  after_of_writes_sub seg2Ops V seg2Ops_writes hr

/-- The buffers `lin3Ops` writes. -/
abbrev lin3OpsW : List (Ref sig .tc) := [main_v91, main_v92, main_v93, main_v94]
theorem lin3Ops_writes : (lin3Ops : List (HloOp τ sig (Elt F))).Forall fun op => op.writes ⊆ ((lin3OpsW).map (Proc.devRef (τ := τ) .tc)).toFinset :=
  ⟨writes_sub_of_mem main_v91 rfl (by decide),
   writes_sub_of_mem main_v92 rfl (by decide),
   writes_sub_of_mem main_v93 rfl (by decide),
   writes_sub_of_mem main_v94 rfl (by decide)⟩
/-- A buffer `lin3Ops` does not write passes through it. -/
theorem lin3Ops_keep (V : Valuation τ sig (Elt F)) {r : Ref sig .tc} (hr : r ∉ lin3OpsW) :
    after lin3Ops V (Proc.devRef .tc r) = V (Proc.devRef .tc r) :=
  after_of_writes_sub lin3Ops V lin3Ops_writes hr

/-- The buffers `bn3Ops` writes. -/
abbrev bn3OpsW : List (Ref sig .tc) := [main_cst_14, main_v95, main_cst_15, main_v96, main_v97, main_v98, main_v99, main_v100, main_v101, main_cst_16, main_v102, main_cst_17, main_v103, main_v104, main_v105, main_v106, main_v107, main_v108, main_v109, main_v110, main_cst_18, main_v111, main_v112, main_v113, main_v114, main_v115, main_v116, main_v117, main_v118, main_v119, main_call3_cst, main_call3_v0, main_v120]
theorem bn3Ops_writes : (bn3Ops : List (HloOp τ sig (Elt F))).Forall fun op => op.writes ⊆ ((bn3OpsW).map (Proc.devRef (τ := τ) .tc)).toFinset :=
  ⟨writes_sub_of_mem main_cst_14 rfl (by decide),
   writes_sub_of_mem main_v95 rfl (by decide),
   writes_sub_of_mem main_cst_15 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_cst_16 rfl (by decide),
   writes_sub_of_mem main_v102 rfl (by decide),
   writes_sub_of_mem main_cst_17 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide),
   writes_sub_of_mem main_v109 rfl (by decide),
   writes_sub_of_mem main_v110 rfl (by decide),
   writes_sub_of_mem main_cst_18 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_v118 rfl (by decide),
   writes_sub_of_mem main_v119 rfl (by decide),
   writes_sub_of_mem main_call3_cst rfl (by decide),
   writes_sub_of_mem main_call3_v0 rfl (by decide),
   writes_sub_of_mem main_v120 rfl (by decide)⟩
/-- A buffer `bn3Ops` does not write passes through it. -/
theorem bn3Ops_keep (V : Valuation τ sig (Elt F)) {r : Ref sig .tc} (hr : r ∉ bn3OpsW) :
    after bn3Ops V (Proc.devRef .tc r) = V (Proc.devRef .tc r) :=
  after_of_writes_sub bn3Ops V bn3Ops_writes hr

/-- The buffers `lin4Ops` writes. -/
abbrev lin4OpsW : List (Ref sig .tc) := [main_v121, main_v122, main_v123, main_v124]
theorem lin4Ops_writes : (lin4Ops : List (HloOp τ sig (Elt F))).Forall fun op => op.writes ⊆ ((lin4OpsW).map (Proc.devRef (τ := τ) .tc)).toFinset :=
  ⟨writes_sub_of_mem main_v121 rfl (by decide),
   writes_sub_of_mem main_v122 rfl (by decide),
   writes_sub_of_mem main_v123 rfl (by decide),
   writes_sub_of_mem main_v124 rfl (by decide)⟩
/-- A buffer `lin4Ops` does not write passes through it. -/
theorem lin4Ops_keep (V : Valuation τ sig (Elt F)) {r : Ref sig .tc} (hr : r ∉ lin4OpsW) :
    after lin4Ops V (Proc.devRef .tc r) = V (Proc.devRef .tc r) :=
  after_of_writes_sub lin4Ops V lin4Ops_writes hr

/-- The buffers `bn4Ops` writes. -/
abbrev bn4OpsW : List (Ref sig .tc) := [main_cst_19, main_v125, main_cst_20, main_v126, main_v127, main_v128, main_v129, main_v130, main_v131, main_cst_21, main_v132, main_cst_22, main_v133, main_v134, main_v135, main_v136, main_v137, main_v138, main_v139, main_v140, main_cst_23, main_v141, main_v142, main_v143, main_v144, main_v145, main_v146, main_v147, main_v148, main_v149, main_call4_cst, main_call4_v0, main_v150]
theorem bn4Ops_writes : (bn4Ops : List (HloOp τ sig (Elt F))).Forall fun op => op.writes ⊆ ((bn4OpsW).map (Proc.devRef (τ := τ) .tc)).toFinset :=
  ⟨writes_sub_of_mem main_cst_19 rfl (by decide),
   writes_sub_of_mem main_v125 rfl (by decide),
   writes_sub_of_mem main_cst_20 rfl (by decide),
   writes_sub_of_mem main_v126 rfl (by decide),
   writes_sub_of_mem main_v127 rfl (by decide),
   writes_sub_of_mem main_v128 rfl (by decide),
   writes_sub_of_mem main_v129 rfl (by decide),
   writes_sub_of_mem main_v130 rfl (by decide),
   writes_sub_of_mem main_v131 rfl (by decide),
   writes_sub_of_mem main_cst_21 rfl (by decide),
   writes_sub_of_mem main_v132 rfl (by decide),
   writes_sub_of_mem main_cst_22 rfl (by decide),
   writes_sub_of_mem main_v133 rfl (by decide),
   writes_sub_of_mem main_v134 rfl (by decide),
   writes_sub_of_mem main_v135 rfl (by decide),
   writes_sub_of_mem main_v136 rfl (by decide),
   writes_sub_of_mem main_v137 rfl (by decide),
   writes_sub_of_mem main_v138 rfl (by decide),
   writes_sub_of_mem main_v139 rfl (by decide),
   writes_sub_of_mem main_v140 rfl (by decide),
   writes_sub_of_mem main_cst_23 rfl (by decide),
   writes_sub_of_mem main_v141 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_v147 rfl (by decide),
   writes_sub_of_mem main_v148 rfl (by decide),
   writes_sub_of_mem main_v149 rfl (by decide),
   writes_sub_of_mem main_call4_cst rfl (by decide),
   writes_sub_of_mem main_call4_v0 rfl (by decide),
   writes_sub_of_mem main_v150 rfl (by decide)⟩
/-- A buffer `bn4Ops` does not write passes through it. -/
theorem bn4Ops_keep (V : Valuation τ sig (Elt F)) {r : Ref sig .tc} (hr : r ∉ bn4OpsW) :
    after bn4Ops V (Proc.devRef .tc r) = V (Proc.devRef .tc r) :=
  after_of_writes_sub bn4Ops V bn4Ops_writes hr

/-- The buffers `relu2Ops` writes. -/
abbrev relu2OpsW : List (Ref sig .tc) := [main_call5_cst, main_call5_v0, main_v151]
theorem relu2Ops_writes : (relu2Ops : List (HloOp τ sig (Elt F))).Forall fun op => op.writes ⊆ ((relu2OpsW).map (Proc.devRef (τ := τ) .tc)).toFinset :=
  ⟨writes_sub_of_mem main_call5_cst rfl (by decide),
   writes_sub_of_mem main_call5_v0 rfl (by decide),
   writes_sub_of_mem main_v151 rfl (by decide)⟩
/-- A buffer `relu2Ops` does not write passes through it. -/
theorem relu2Ops_keep (V : Valuation τ sig (Elt F)) {r : Ref sig .tc} (hr : r ∉ relu2OpsW) :
    after relu2Ops V (Proc.devRef .tc r) = V (Proc.devRef .tc r) :=
  after_of_writes_sub relu2Ops V relu2Ops_writes hr

/-- The buffers `lin5Ops` writes. -/
abbrev lin5OpsW : List (Ref sig .tc) := [main_v152, main_v153, main_v154, main_v155]
theorem lin5Ops_writes : (lin5Ops : List (HloOp τ sig (Elt F))).Forall fun op => op.writes ⊆ ((lin5OpsW).map (Proc.devRef (τ := τ) .tc)).toFinset :=
  ⟨writes_sub_of_mem main_v152 rfl (by decide),
   writes_sub_of_mem main_v153 rfl (by decide),
   writes_sub_of_mem main_v154 rfl (by decide),
   writes_sub_of_mem main_v155 rfl (by decide)⟩
/-- A buffer `lin5Ops` does not write passes through it. -/
theorem lin5Ops_keep (V : Valuation τ sig (Elt F)) {r : Ref sig .tc} (hr : r ∉ lin5OpsW) :
    after lin5Ops V (Proc.devRef .tc r) = V (Proc.devRef .tc r) :=
  after_of_writes_sub lin5Ops V lin5Ops_writes hr

/-- The buffers `lsmOps` writes. -/
abbrev lsmOpsW : List (Ref sig .tc) := [main_call6_cst, main_call6_v0, main_call6_cst_0, main_call6_v1, main_call6_v2, main_call6_v3, main_call6_v4, main_call6_v5, main_call6_v6, main_call6_cst_1, main_call6_v7, main_call6_v8, main_call6_v9, main_call6_v10, main_v156]
theorem lsmOps_writes : (lsmOps : List (HloOp τ sig (Elt F))).Forall fun op => op.writes ⊆ ((lsmOpsW).map (Proc.devRef (τ := τ) .tc)).toFinset :=
  ⟨writes_sub_of_mem main_call6_cst rfl (by decide),
   writes_sub_of_mem main_call6_v0 rfl (by decide),
   writes_sub_of_mem main_call6_cst_0 rfl (by decide),
   writes_sub_of_mem main_call6_v1 rfl (by decide),
   writes_sub_of_mem main_call6_v2 rfl (by decide),
   writes_sub_of_mem main_call6_v3 rfl (by decide),
   writes_sub_of_mem main_call6_v4 rfl (by decide),
   writes_sub_of_mem main_call6_v5 rfl (by decide),
   writes_sub_of_mem main_call6_v6 rfl (by decide),
   writes_sub_of_mem main_call6_cst_1 rfl (by decide),
   writes_sub_of_mem main_call6_v7 rfl (by decide),
   writes_sub_of_mem main_call6_v8 rfl (by decide),
   writes_sub_of_mem main_call6_v9 rfl (by decide),
   writes_sub_of_mem main_call6_v10 rfl (by decide),
   writes_sub_of_mem main_v156 rfl (by decide)⟩
/-- A buffer `lsmOps` does not write passes through it. -/
theorem lsmOps_keep (V : Valuation τ sig (Elt F)) {r : Ref sig .tc} (hr : r ∉ lsmOpsW) :
    after lsmOps V (Proc.devRef .tc r) = V (Proc.devRef .tc r) :=
  after_of_writes_sub lsmOps V lsmOps_writes hr

end Cert.ReferenceIdeal.RefRead

end
-- ==== Proof.Ref.Pure.lean ====
/-
  The reference's layers as functions on arrays, each read entry by entry.

  Every layer of the reference is a short composition of array operations.  Here each composition is a
  definition over arbitrary input arrays, and a lemma reads it at an index (i, j) as the corresponding formula
  of the specification on the matrices of the arrays' entries:
    * x·W + b                       (a matrix product, the bias row broadcast down the rows),
    * the batch normalisation with its clamp at zero (two-pass variance, division by the square root),
    * the clamp at zero alone,
    * the row-wise log-softmax.
  The sums over rows are the exact sums of extended reals; the row maximum is a fold of `max`.
-/
import proofs.«110958_j70274254897753_1_alg».proof.Proof.Spec
import Idealize.ShloMosaic.Lib.StackMember
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefRead

open Idealize.ShloMosaic Idealize.ShloMosaic.ValueIdx Idealize.ShloMosaic.StackMember Cert.Spec

/-! ## Shapes, and arrays as matrices -/

abbrev SN (D : ℕ) : Shape := ⟨2, ![100000, D]⟩
abbrev SW (K M : ℕ) : Shape := ⟨2, ![K, M]⟩
abbrev SV (M : ℕ) : Shape := ⟨1, ![M]⟩
abbrev SR (M : ℕ) : Shape := ⟨2, ![1, M]⟩
abbrev S0 : Shape := ⟨0, ![]⟩
abbrev SC : Shape := ⟨1, ![100000]⟩
abbrev SC1 : Shape := ⟨2, ![100000, 1]⟩

/-- The matrix of an array's entries. -/
def mat {r d : ℕ} (a : FVec Ideal ⟨2, ![r, d]⟩ .f32) : Mat r d := fun i j => a (ix2 i j)
/-- The row of a vector's entries. -/
def row {d : ℕ} (a : FVec Ideal ⟨1, ![d]⟩ .f32) : Row d := fun j => a (ix1 j)

theorem mat_apply {r d : ℕ} (a : FVec Ideal ⟨2, ![r, d]⟩ .f32) (i : Fin r) (j : Fin d) : mat a i j = a (ix2 i j) := rfl
theorem row_apply {d : ℕ} (a : FVec Ideal ⟨1, ![d]⟩ .f32) (j : Fin d) : row a j = a (ix1 j) := rfl

/-- The host's one-operand operations at an index, at the extended reals. -/
theorem hsqrt_apply {s : Shape} (x : FVec Ideal s .f32) (i : s.Idx) : Host.sqrt x i = Ideal.sqrt (x i) := rfl
theorem hexp_apply {s : Shape} (x : FVec Ideal s .f32) (i : s.Idx) : Host.exp x i = Ideal.exp (x i) := rfl
theorem hlog_apply {s : Shape} (x : FVec Ideal s .f32) (i : s.Idx) : Host.log x i = Ideal.log (x i) := rfl

/-! ## A vector broadcast down the rows -/

/-- A vector of `M` entries as a matrix of one row, then repeated down 100000 rows, reads the vector's entry of the column. -/
theorem rowBcast_apply {M : ℕ} (h1 : (SV M).BroadcastsInDim (SR M) (![1] : Fin 1 → Fin (SR M).rank))
    (h2 : (SR M).BroadcastsInDim (SN M) (![0, 1] : Fin 2 → Fin (SN M).rank))
    (b : FVec Ideal (SV M) .f32) (i : Fin 100000) (j : Fin M) :
    broadcastInDim (SN M) ![0, 1] h2 (broadcastInDim (SR M) ![1] h1 b) (ix2 i j) = b (ix1 j) := by
  have hj : j.val = if M = 1 then 0 else j.val := by
    split_ifs with h
    · have := j.isLt; omega
    · rfl
  have e2 : broadcastInDim (SN M) ![0, 1] h2 (broadcastInDim (SR M) ![1] h1 b) (ix2 i j)
      = broadcastInDim (SR M) ![1] h1 b (ix2 (⟨0, Nat.one_pos⟩ : Fin 1) j) :=
    broadcastInDim_apply (![0, 1] : Fin 2 → Fin (SN M).rank) h2 _ (ix2 i j) (ix2 (⟨0, Nat.one_pos⟩ : Fin 1) j) (fun a => by
      match a with
      | ⟨0, _⟩ => show 0 = if (1 : ℕ) = 1 then 0 else i.val; rw [if_pos rfl]
      | ⟨1, _⟩ => show j.val = if M = 1 then 0 else j.val; exact hj)
  have e1 : broadcastInDim (SR M) ![1] h1 b (ix2 (⟨0, Nat.one_pos⟩ : Fin 1) j) = b (ix1 j) :=
    broadcastInDim_apply (![1] : Fin 1 → Fin (SR M).rank) h1 b (ix2 (⟨0, Nat.one_pos⟩ : Fin 1) j) (ix1 j) (fun a => by
      match a with
      | ⟨0, _⟩ => show j.val = if M = 1 then 0 else j.val; exact hj)
  rw [e2, e1]

/-! ## x·W + b -/

/-- The linear layer on arrays: the plain matrix product, plus the bias broadcast down the rows. -/
def linArr {K M : ℕ} (h1 : (SV M).BroadcastsInDim (SR M) (![1] : Fin 1 → Fin (SR M).rank))
    (h2 : (SR M).BroadcastsInDim (SN M) (![0, 1] : Fin 2 → Fin (SN M).rank))
    (x : FVec Ideal (SN K) .f32) (w : FVec Ideal (SW K M) .f32) (b : FVec Ideal (SV M) .f32) : FVec Ideal (SN M) .f32 :=
  addf (Host.dotGeneral (DotDims.plain 100000 K M) none x w) (broadcastInDim (SN M) ![0, 1] h2 (broadcastInDim (SR M) ![1] h1 b))

theorem linArr_apply {K M : ℕ} (h1 : (SV M).BroadcastsInDim (SR M) (![1] : Fin 1 → Fin (SR M).rank))
    (h2 : (SR M).BroadcastsInDim (SN M) (![0, 1] : Fin 2 → Fin (SN M).rank))
    (x : FVec Ideal (SN K) .f32) (w : FVec Ideal (SW K M) .f32) (b : FVec Ideal (SV M) .f32) (i : Fin 100000) (j : Fin M) :
    linArr h1 h2 x w b (ix2 i j) = lin (mat x) (mat w) (row b) i j := by
  unfold linArr lin
  rw [addf_apply, dotGeneral_plain_apply, rowBcast_apply]
  rfl

/-! ## The batch normalisation with its clamp -/

theorem red0 : (SN 128).ReducesTo [0] (SV 128) := by decide
theorem red0' : (SN 128).Reduces [0] (SV 128) := by decide
theorem pos0 : 0 < S0.numel := by decide
theorem bc0V : S0.BroadcastsInDim (SV 128) (![] : Fin 0 → Fin (SV 128).rank) := by decide
theorem bcVR : (SV 128).BroadcastsInDim (SR 128) (![1] : Fin 1 → Fin (SR 128).rank) := by decide
theorem bcRN : (SR 128).BroadcastsInDim (SN 128) (![0, 1] : Fin 2 → Fin (SN 128).rank) := by decide
theorem bc0N : S0.BroadcastsInDim (SN 128) (![] : Fin 0 → Fin (SN 128).rank) := by decide

/-- The column sums of a matrix divided by the number of rows. -/
def colMeanArr (y : FVec Ideal (SN 128) .f32) : FVec Ideal (SV 128) .f32 :=
  Host.divf (Host.reduceAdd y (constant (F := Ideal) S0 .f32 0x00000000#32) red0 pos0)
    (broadcastInDim (SV 128) ![] bc0V (constant (F := Ideal) S0 .f32 0x47C35000#32))

/-- A vector repeated down the rows. -/
def rowsOf (v : FVec Ideal (SV 128) .f32) : FVec Ideal (SN 128) .f32 :=
  broadcastInDim (SN 128) ![0, 1] bcRN (broadcastInDim (SR 128) ![1] bcVR v)

/-- A matrix less its column means. -/
def centred (y : FVec Ideal (SN 128) .f32) : FVec Ideal (SN 128) .f32 := subf y (rowsOf (colMeanArr y))

/-- The clamp at zero. -/
def reluArr (y : FVec Ideal (SN 128) .f32) : FVec Ideal (SN 128) .f32 :=
  maximumf y (broadcastInDim (SN 128) ![] bc0N (constant (F := Ideal) S0 .f32 0x00000000#32))

/-- The square root of the two-pass variance plus ε, per column. -/
def stdArr (y : FVec Ideal (SN 128) .f32) : FVec Ideal (SV 128) .f32 :=
  Host.sqrt (addf (colMeanArr (mulf (centred y) (centred y)))
    (broadcastInDim (SV 128) ![] bc0V (constant (F := Ideal) S0 .f32 0x3727C5AC#32)))

/-- Normalise by the two-pass variance, scale, shift, clamp. -/
def bnArr (y : FVec Ideal (SN 128) .f32) (g t : FVec Ideal (SV 128) .f32) : FVec Ideal (SN 128) .f32 :=
  reluArr (addf (Host.divf (mulf (rowsOf g) (centred y)) (rowsOf (stdArr y))) (rowsOf t))

theorem colMeanArr_apply (y : FVec Ideal (SN 128) .f32) (j : Fin 128) :
    colMeanArr y (ix1 j) = Ideal.div (∑ i : Fin 100000, y (ix2 i j)) cnt := by
  unfold colMeanArr
  rw [hostDivf_apply, hostReduceAdd_apply, Ideal.hostReduceAdd_single red0 red0', broadcastInDim_scalar_apply,
    constant_apply, constant_apply, Ideal.ofBits_zero_f32, zero_add]
  have hk : ∀ k : Fin 100000, red0'.lift (ix1 j) k = ix2 k j := fun k => funext fun a => Fin.ext (by
    match a with
    | ⟨0, _⟩ => rfl
    | ⟨1, _⟩ => rfl)
  show Ideal.div (∑ k : Fin 100000, y (red0'.lift (ix1 j) k)) cnt = _
  simp only [hk]

theorem rowsOf_apply (v : FVec Ideal (SV 128) .f32) (i : Fin 100000) (j : Fin 128) : rowsOf v (ix2 i j) = v (ix1 j) :=
  rowBcast_apply bcVR bcRN v i j

theorem mean_eq (y : FVec Ideal (SN 128) .f32) (j : Fin 128) : colMeanArr y (ix1 j) = mean (mat y) j := by
  rw [colMeanArr_apply]; rfl

theorem centred_apply (y : FVec Ideal (SN 128) .f32) (i : Fin 100000) (j : Fin 128) :
    centred y (ix2 i j) = mat y i j - mean (mat y) j := by
  unfold centred
  rw [subf_apply, rowsOf_apply, mean_eq]; rfl

theorem reluArr_apply (y : FVec Ideal (SN 128) .f32) (i : Fin 100000) (j : Fin 128) :
    reluArr y (ix2 i j) = max (y (ix2 i j)) zer := by
  unfold reluArr
  rw [maximumf_apply, broadcastInDim_scalar_apply, constant_apply]; rfl

theorem var_eq (y : FVec Ideal (SN 128) .f32) (j : Fin 128) :
    colMeanArr (mulf (centred y) (centred y)) (ix1 j) = varR (mat y) j := by
  rw [colMeanArr_apply]
  unfold varR
  simp only [mulf_apply, centred_apply]

theorem stdArr_apply (y : FVec Ideal (SN 128) .f32) (j : Fin 128) :
    stdArr y (ix1 j) = Ideal.sqrt (varR (mat y) j + eps) := by
  unfold stdArr
  rw [hsqrt_apply, addf_apply, var_eq, broadcastInDim_scalar_apply, constant_apply]
  rfl

theorem bnArr_apply (y : FVec Ideal (SN 128) .f32) (g t : FVec Ideal (SV 128) .f32) (i : Fin 100000) (j : Fin 128) :
    bnArr y g t (ix2 i j) = bnR (mat y) (row g) (row t) i j := by
  unfold bnArr bnR
  rw [reluArr_apply, addf_apply, hostDivf_apply, mulf_apply, rowsOf_apply, rowsOf_apply, rowsOf_apply, centred_apply,
    stdArr_apply]
  rfl

/-- The clamp read on matrices. -/
theorem reluArr_mat (y : FVec Ideal (SN 128) .f32) (i : Fin 100000) (j : Fin 128) :
    reluArr y (ix2 i j) = max (mat y i j) zer := reluArr_apply y i j

/-! ## The row-wise log-softmax -/

theorem red1 : (SN 10).ReducesTo [1] SC := by decide
theorem red1' : (SN 10).Reduces [1] SC := by decide
theorem bc0C : S0.BroadcastsInDim SC (![] : Fin 0 → Fin SC.rank) := by decide
theorem bcC1 : SC.BroadcastsInDim SC1 (![0] : Fin 1 → Fin SC1.rank) := by decide
theorem bc1N : SC1.BroadcastsInDim (SN 10) (![0, 1] : Fin 2 → Fin (SN 10).rank) := by decide

/-- A column read along the rows. -/
theorem bc1N_apply (v : FVec Ideal SC1 .f32) (i : Fin 100000) (j : Fin 10) :
    broadcastInDim (SN 10) ![0, 1] bc1N v (ix2 i j) = v (ix2 i (⟨0, Nat.one_pos⟩ : Fin 1)) :=
  broadcastInDim_apply (![0, 1] : Fin 2 → Fin (SN 10).rank) bc1N v (ix2 i j) (ix2 i (⟨0, Nat.one_pos⟩ : Fin 1)) (fun a => by
    match a with
    | ⟨0, _⟩ => show i.val = if (100000 : ℕ) = 1 then 0 else i.val; rw [if_neg (by decide)]
    | ⟨1, _⟩ => show 0 = if (1 : ℕ) = 1 then 0 else j.val; rw [if_pos rfl])

/-- A vector as a column. -/
theorem bcC1_apply (v : FVec Ideal SC .f32) (i : Fin 100000) :
    broadcastInDim SC1 ![0] bcC1 v (ix2 i (⟨0, Nat.one_pos⟩ : Fin 1)) = v (ix1 i) :=
  broadcastInDim_apply (![0] : Fin 1 → Fin SC1.rank) bcC1 v (ix2 i (⟨0, Nat.one_pos⟩ : Fin 1)) (ix1 i) (fun a => by
    match a with
    | ⟨0, _⟩ => show i.val = if (100000 : ℕ) = 1 then 0 else i.val; rw [if_neg (by decide)])

/-- A vector of one entry per row repeated along the rows. -/
def colsOf (v : FVec Ideal SC .f32) : FVec Ideal (SN 10) .f32 :=
  broadcastInDim (SN 10) ![0, 1] bc1N (broadcastInDim SC1 ![0] bcC1 v)

theorem colsOf_apply (v : FVec Ideal SC .f32) (i : Fin 100000) (j : Fin 10) : colsOf v (ix2 i j) = v (ix1 i) := by
  unfold colsOf
  rw [bc1N_apply, bcC1_apply]

/-- The row maxima: the fold of the maximum from −∞ along each row, then once more against −∞. -/
def rowMaxArr (z : FVec Ideal (SN 10) .f32) : FVec Ideal SC .f32 :=
  maximumf (broadcastInDim SC ![] bc0C (constant (F := Ideal) S0 .f32 0xFF800000#32))
    (Host.reduce (FloatOps.maximumf (F := Ideal) (φ := .f32)) z (constant (F := Ideal) S0 .f32 0xFF800000#32) red1 pos0)

/-- The rows less their maxima. -/
def shifted (z : FVec Ideal (SN 10) .f32) : FVec Ideal (SN 10) .f32 := subf z (colsOf (rowMaxArr z))

/-- The row sums of the exponentials of the shifted rows. -/
def expSumArr (z : FVec Ideal (SN 10) .f32) : FVec Ideal SC .f32 :=
  Host.reduceAdd (Host.exp (shifted z)) (constant (F := Ideal) S0 .f32 0x00000000#32) red1 pos0

/-- z − max − log Σ exp (z − max). -/
def lsmArr (z : FVec Ideal (SN 10) .f32) : FVec Ideal (SN 10) .f32 :=
  subf (shifted z) (broadcastInDim (SN 10) ![0, 1] bc1N (Host.log (broadcastInDim SC1 ![0] bcC1 (expSumArr z))))

/-- An index of the matrix from its row and the coordinate along the row. -/
theorem lift1 (i : Fin 100000) (k : Fin 10) : red1'.lift (ix1 i) k = ix2 i k := funext fun a => Fin.ext (by
  match a with
  | ⟨0, _⟩ => rfl
  | ⟨1, _⟩ => rfl)

theorem rowMaxArr_apply (z : FVec Ideal (SN 10) .f32) (i : Fin 100000) : rowMaxArr z (ix1 i) = rowMax (mat z) i := by
  unfold rowMaxArr rowMax
  rw [maximumf_apply, broadcastInDim_scalar_apply, constant_apply]
  have hf : Host.reduce (FloatOps.maximumf (F := Ideal) (φ := .f32)) z (constant (F := Ideal) S0 .f32 0xFF800000#32) red1 pos0 (ix1 i)
      = (Finset.univ : Finset (Fin 10)).fold max ninf (fun j => mat z i j) := by
    show Host.reduce (max : EReal → EReal → EReal) z _ red1 pos0 (ix1 i) = _
    rw [Host.reduce_eq_fold_single (max : EReal → EReal → EReal) z _ red1 red1' pos0 (ix1 i)]
    have hk : ∀ k : Fin 10, red1'.lift (ix1 i) k = ix2 i k := fun k => lift1 i k
    show (Finset.univ : Finset (Fin 10)).fold max ninf (fun k => z (red1'.lift (ix1 i) k)) = _
    exact Finset.fold_congr (fun k _ => congrArg z (hk k))
  rw [hf]
  exact max_eq_right ((Finset.le_fold_max _).2 (Or.inl le_rfl))

theorem shifted_apply (z : FVec Ideal (SN 10) .f32) (i : Fin 100000) (j : Fin 10) :
    shifted z (ix2 i j) = mat z i j - rowMax (mat z) i := by
  unfold shifted
  rw [subf_apply, colsOf_apply, rowMaxArr_apply]; rfl

theorem expSumArr_apply (z : FVec Ideal (SN 10) .f32) (i : Fin 100000) :
    expSumArr z (ix1 i) = ∑ c : Fin 10, Ideal.exp (mat z i c - rowMax (mat z) i) := by
  unfold expSumArr
  rw [hostReduceAdd_apply, Ideal.hostReduceAdd_single red1 red1', constant_apply, Ideal.ofBits_zero_f32, zero_add]
  have hk : ∀ k : Fin 10, red1'.lift (ix1 i) k = ix2 i k := fun k => lift1 i k
  show ∑ k : Fin 10, Host.exp (shifted z) (red1'.lift (ix1 i) k) = _
  simp only [hk, hexp_apply, shifted_apply]

theorem logSum_apply (z : FVec Ideal (SN 10) .f32) (i : Fin 100000) (j : Fin 10) :
    broadcastInDim (SN 10) ![0, 1] bc1N (Host.log (broadcastInDim SC1 ![0] bcC1 (expSumArr z))) (ix2 i j)
      = Ideal.log (∑ c : Fin 10, Ideal.exp (mat z i c - rowMax (mat z) i)) :=
  (bc1N_apply _ i j).trans ((hlog_apply _ _).trans
    (congrArg Ideal.log ((bcC1_apply (expSumArr z) i).trans (expSumArr_apply z i))))

theorem lsmArr_apply (z : FVec Ideal (SN 10) .f32) (i : Fin 100000) (j : Fin 10) :
    lsmArr z (ix2 i j) = lsm (mat z) i j :=
  congrArg₂ (· - ·) (shifted_apply z i j) (logSum_apply z i j)

end Cert.ReferenceIdeal.RefRead

end
-- ==== Proof.Ref.Result.lean ====
/-
  The reference's result, read layer by layer.

  The reference's run leaves in its result buffer the fold of its 209 operations over the launch memory.  The
  operations are cut into the network's layers (Stretches); each layer's result buffer is, as an array, one of
  the array functions of Pure (or the neighbour sum of Seg) of the buffers it reads; read entry by entry those
  are the specification's formulas on matrices.  Chaining the layers, with the argument buffers passing through
  every layer unchanged, the result buffer read at (i, j) is the specification's reference spelling `netR` of the
  network at the arguments as launched.
-/
import proofs.«110958_j70274254897753_1_alg».proof.Proof.Ref.Stretches
import proofs.«110958_j70274254897753_1_alg».proof.Proof.Ref.Pure
import proofs.«110958_j70274254897753_1_alg».proof.Proof.Seg

noncomputable section

namespace Cert.ReferenceIdeal.RefRead

open Cert.ReferenceIdeal Cert.ReferenceIdeal.Gen Idealize.ShloMosaic Idealize.ShloMosaic.TcCoe Idealize.SL.Sem Idealize.ShloMosaic.StableHlo
open Idealize.ShloMosaic.ValueIdx Cert.Spec

theorem bcVR10 : (SV 10).BroadcastsInDim (SR 10) (![1] : Fin 1 → Fin (SR 10).rank) := by decide
theorem bcRN10 : (SR 10).BroadcastsInDim (SN 10) (![0, 1] : Fin 2 → Fin (SN 10).rank) := by decide

/-! ## Each layer's result buffer as an array function of the buffers it reads -/

theorem seg1_read (V : Valuation τ sig (Elt Ideal)) :
    (after (seg1Ops (F := Ideal)) V (Proc.devRef .tc main_v14) : FVec Ideal (SN 10) .f32) = addf (V (Proc.devRef .tc main_arg0)) (Cert.Seg.segArr 10 (V (Proc.devRef .tc main_arg20)) (V (Proc.devRef .tc main_arg0))) := by
  after_results_simp
  rfl

theorem lin1_read (V : Valuation τ sig (Elt Ideal)) :
    (after (lin1Ops (F := Ideal)) V (Proc.devRef .tc main_v18) : FVec Ideal (SN 128) .f32) = linArr (K := 10) (M := 128) bcVR bcRN (V (Proc.devRef .tc main_v14)) (V (Proc.devRef .tc main_arg2)) (V (Proc.devRef .tc main_arg3)) := by
  after_results_simp
  rfl

theorem bn1_read (V : Valuation τ sig (Elt Ideal)) :
    (after (bn1Ops (F := Ideal)) V (Proc.devRef .tc main_v44) : FVec Ideal (SN 128) .f32) = bnArr (V (Proc.devRef .tc main_v18)) (V (Proc.devRef .tc main_arg4)) (V (Proc.devRef .tc main_arg5)) := by
  after_results_simp
  rfl

theorem lin2_read (V : Valuation τ sig (Elt Ideal)) :
    (after (lin2Ops (F := Ideal)) V (Proc.devRef .tc main_v48) : FVec Ideal (SN 128) .f32) = linArr (K := 128) (M := 128) bcVR bcRN (V (Proc.devRef .tc main_v44)) (V (Proc.devRef .tc main_arg6)) (V (Proc.devRef .tc main_arg7)) := by
  after_results_simp
  rfl

theorem bn2_read (V : Valuation τ sig (Elt Ideal)) :
    (after (bn2Ops (F := Ideal)) V (Proc.devRef .tc main_v74) : FVec Ideal (SN 128) .f32) = bnArr (V (Proc.devRef .tc main_v48)) (V (Proc.devRef .tc main_arg8)) (V (Proc.devRef .tc main_arg9)) := by
  after_results_simp
  rfl

theorem relu1_read (V : Valuation τ sig (Elt Ideal)) :
    (after (relu1Ops (F := Ideal)) V (Proc.devRef .tc main_v75) : FVec Ideal (SN 128) .f32) = reluArr (V (Proc.devRef .tc main_v74)) := by
  after_results_simp
  rfl

theorem seg2_read (V : Valuation τ sig (Elt Ideal)) :
    (after (seg2Ops (F := Ideal)) V (Proc.devRef .tc main_v90) : FVec Ideal (SN 128) .f32) = addf (V (Proc.devRef .tc main_v75)) (Cert.Seg.segArr 128 (V (Proc.devRef .tc main_arg20)) (V (Proc.devRef .tc main_v75))) := by
  after_results_simp
  rfl

theorem lin3_read (V : Valuation τ sig (Elt Ideal)) :
    (after (lin3Ops (F := Ideal)) V (Proc.devRef .tc main_v94) : FVec Ideal (SN 128) .f32) = linArr (K := 128) (M := 128) bcVR bcRN (V (Proc.devRef .tc main_v90)) (V (Proc.devRef .tc main_arg10)) (V (Proc.devRef .tc main_arg11)) := by
  after_results_simp
  rfl

theorem bn3_read (V : Valuation τ sig (Elt Ideal)) :
    (after (bn3Ops (F := Ideal)) V (Proc.devRef .tc main_v120) : FVec Ideal (SN 128) .f32) = bnArr (V (Proc.devRef .tc main_v94)) (V (Proc.devRef .tc main_arg12)) (V (Proc.devRef .tc main_arg13)) := by
  after_results_simp
  rfl

theorem lin4_read (V : Valuation τ sig (Elt Ideal)) :
    (after (lin4Ops (F := Ideal)) V (Proc.devRef .tc main_v124) : FVec Ideal (SN 128) .f32) = linArr (K := 128) (M := 128) bcVR bcRN (V (Proc.devRef .tc main_v120)) (V (Proc.devRef .tc main_arg14)) (V (Proc.devRef .tc main_arg15)) := by
  after_results_simp
  rfl

theorem bn4_read (V : Valuation τ sig (Elt Ideal)) :
    (after (bn4Ops (F := Ideal)) V (Proc.devRef .tc main_v150) : FVec Ideal (SN 128) .f32) = bnArr (V (Proc.devRef .tc main_v124)) (V (Proc.devRef .tc main_arg16)) (V (Proc.devRef .tc main_arg17)) := by
  after_results_simp
  rfl

theorem relu2_read (V : Valuation τ sig (Elt Ideal)) :
    (after (relu2Ops (F := Ideal)) V (Proc.devRef .tc main_v151) : FVec Ideal (SN 128) .f32) = reluArr (V (Proc.devRef .tc main_v150)) := by
  after_results_simp
  rfl

theorem lin5_read (V : Valuation τ sig (Elt Ideal)) :
    (after (lin5Ops (F := Ideal)) V (Proc.devRef .tc main_v155) : FVec Ideal (SN 10) .f32) = linArr (K := 128) (M := 10) bcVR10 bcRN10 (V (Proc.devRef .tc main_v151)) (V (Proc.devRef .tc main_arg18)) (V (Proc.devRef .tc main_arg19)) := by
  after_results_simp
  rfl

/-! ## The log-softmax stretch, in five parts

Its result is read part by part: the fold of the maximum along each row; that fold once more against −∞; the rows
less their maxima; the row sums of the exponentials; the shifted rows less the logarithms of those sums. -/

abbrev lsmA1Ops {F : FTy → Type} [FloatOps F] : List (HloOp τ sig (Elt F)) :=
  [ TRef.nullary (TRef.of (T := ⟨S_, .f32⟩) main_call6_cst) (constant S_ .f32 0xFF800000#32),
    TRef.binary (TRef.of (T := ⟨S100000x10, .f32⟩) main_v155) (TRef.of (T := ⟨S_, .f32⟩) main_call6_cst) (TRef.of (T := ⟨S100000, .f32⟩) main_call6_v0) (fun x v => Host.reduce FloatOps.maximumf x v reducesTo_S100000x10_S100000_d1 h_S_) ]

abbrev lsmA2Ops {F : FTy → Type} [FloatOps F] : List (HloOp τ sig (Elt F)) :=
  [ TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf ]

abbrev lsmBOps {F : FTy → Type} [FloatOps F] : List (HloOp τ sig (Elt F)) :=
  [ TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x10, .f32⟩) main_call6_v4) (broadcastInDim S100000x10 ![0, 1] bcast_S100000x1_S100000x10_0_1),
    TRef.binary (TRef.of (T := ⟨S100000x10, .f32⟩) main_v155) (TRef.of (T := ⟨S100000x10, .f32⟩) main_call6_v4) (TRef.of (T := ⟨S100000x10, .f32⟩) main_call6_v5) subf ]

abbrev lsmCOps {F : FTy → Type} [FloatOps F] : List (HloOp τ sig (Elt F)) :=
  [ TRef.unary (TRef.of (T := ⟨S100000x10, .f32⟩) main_call6_v5) (TRef.of (T := ⟨S100000x10, .f32⟩) main_call6_v6) Host.exp,
    TRef.nullary (TRef.of (T := ⟨S_, .f32⟩) main_call6_cst_1) (constant S_ .f32 0x00000000#32),
    TRef.binary (TRef.of (T := ⟨S100000x10, .f32⟩) main_call6_v6) (TRef.of (T := ⟨S_, .f32⟩) main_call6_cst_1) (TRef.of (T := ⟨S100000, .f32⟩) main_call6_v7) (fun x v => Host.reduceAdd x v reducesTo_S100000x10_S100000_d1 h_S_) ]

abbrev lsmDOps {F : FTy → Type} [FloatOps F] : List (HloOp τ sig (Elt F)) :=
  [ TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x10, .f32⟩) main_call6_v10) (broadcastInDim S100000x10 ![0, 1] bcast_S100000x1_S100000x10_0_1),
    TRef.binary (TRef.of (T := ⟨S100000x10, .f32⟩) main_call6_v5) (TRef.of (T := ⟨S100000x10, .f32⟩) main_call6_v10) (TRef.of (T := ⟨S100000x10, .f32⟩) main_v156) subf ]

theorem lsmOps_split : (lsmOps (F := Ideal) : List (HloOp τ sig (Elt Ideal)))
    = lsmA1Ops (F := Ideal) ++ lsmA2Ops (F := Ideal) ++ lsmBOps (F := Ideal) ++ lsmCOps (F := Ideal) ++ lsmDOps (F := Ideal) := rfl

theorem lsmA1_read (V : Valuation τ sig (Elt Ideal)) :
    (after (lsmA1Ops (F := Ideal)) V (Proc.devRef .tc main_call6_v0) : FVec Ideal SC .f32)
      = Host.reduce (FloatOps.maximumf (F := Ideal) (φ := .f32)) (V (Proc.devRef .tc main_v155)) (constant (F := Ideal) S0 .f32 0xFF800000#32) red1 pos0 := by
  after_results_simp
  simp only [TRef.toBuf, TRef.ofBuf, cast_eq]
theorem lsmA1_keep (V : Valuation τ sig (Elt Ideal)) :
    after (lsmA1Ops (F := Ideal)) V (Proc.devRef .tc main_v155) = V (Proc.devRef .tc main_v155) := by
  after_results_simp
theorem lsmA2_read (V : Valuation τ sig (Elt Ideal)) :
    (after (lsmA2Ops (F := Ideal)) V (Proc.devRef .tc main_call6_v2) : FVec Ideal SC .f32)
      = maximumf (F := Ideal) (s := SC) (φ := .f32) (broadcastInDim SC ![] bc0C (constant (F := Ideal) S0 .f32 0xFF800000#32)) (V (Proc.devRef .tc main_call6_v0)) := by
  after_results_simp
  rfl
theorem lsmA2_keep (V : Valuation τ sig (Elt Ideal)) :
    after (lsmA2Ops (F := Ideal)) V (Proc.devRef .tc main_v155) = V (Proc.devRef .tc main_v155) := by
  after_results_simp
theorem lsmB_read (V : Valuation τ sig (Elt Ideal)) :
    (after (lsmBOps (F := Ideal)) V (Proc.devRef .tc main_call6_v5) : FVec Ideal (SN 10) .f32)
      = subf (F := Ideal) (s := SN 10) (φ := .f32) (V (Proc.devRef .tc main_v155)) (colsOf (V (Proc.devRef .tc main_call6_v2))) := by
  after_results_simp
  rfl
theorem lsmC_read (V : Valuation τ sig (Elt Ideal)) :
    (after (lsmCOps (F := Ideal)) V (Proc.devRef .tc main_call6_v7) : FVec Ideal SC .f32)
      = Host.reduceAdd (F := Ideal) (φ := .f32) (Host.exp (F := Ideal) (s := SN 10) (φ := .f32) (V (Proc.devRef .tc main_call6_v5))) (constant (F := Ideal) S0 .f32 0x00000000#32) red1 pos0 := by
  after_results_simp
  rfl
theorem lsmC_keep (V : Valuation τ sig (Elt Ideal)) :
    after (lsmCOps (F := Ideal)) V (Proc.devRef .tc main_call6_v5) = V (Proc.devRef .tc main_call6_v5) := by
  after_results_simp
theorem lsmD_read (V : Valuation τ sig (Elt Ideal)) :
    (after (lsmDOps (F := Ideal)) V (Proc.devRef .tc main_v156) : FVec Ideal (SN 10) .f32)
      = subf (F := Ideal) (s := SN 10) (φ := .f32) (V (Proc.devRef .tc main_call6_v5))
          (broadcastInDim (SN 10) ![0, 1] bc1N (Host.log (F := Ideal) (s := SC1) (φ := .f32) (broadcastInDim SC1 ![0] bcC1 (V (Proc.devRef .tc main_call6_v7))))) := by
  after_results_simp
  rfl

theorem lsm_read (V : Valuation τ sig (Elt Ideal)) :
    (after (lsmOps (F := Ideal)) V (Proc.devRef .tc main_v156) : FVec Ideal (SN 10) .f32) = lsmArr (V (Proc.devRef .tc main_v155)) := by
  rw [lsmOps_split]
  simp only [after_append]
  rw [lsmD_read, lsmC_read, lsmC_keep, lsmB_read, lsmA2_keep, lsmA1_keep, lsmA2_read, lsmA1_read]
  unfold lsmArr shifted expSumArr colsOf rowMaxArr
  rfl

/-! ## The same on matrices: the specification's formulas -/

/-- The neighbour sum of the matrix of an array is the array operation read at an index. -/
theorem S_mat (D : ℕ) [Cert.Seg.Width D] (e : IVec Cert.Seg.SEdge 32) (a : FVec Ideal (SN D) .f32) (i : Fin 100000) (j : Fin D) :
    Cert.Seg.S D e (mat (r := 100000) (d := D) a) i j = Cert.Seg.segArr D e a (ix2 i j) := Cert.Seg.S_ofArr D e a i j

theorem seg1_mat (V : Valuation τ sig (Elt Ideal)) :
    mat (r := 100000) (d := 10) (after (seg1Ops (F := Ideal)) V (Proc.devRef .tc main_v14)) = fun i j => mat (r := 100000) (d := 10) (V (Proc.devRef .tc main_arg0)) i j + Cert.Seg.S 10 (V (Proc.devRef .tc main_arg20)) (mat (r := 100000) (d := 10) (V (Proc.devRef .tc main_arg0))) i j := by
  funext i j
  rw [mat_apply, seg1_read, addf_apply, S_mat, mat_apply]

theorem lin1_mat (V : Valuation τ sig (Elt Ideal)) :
    mat (r := 100000) (d := 128) (after (lin1Ops (F := Ideal)) V (Proc.devRef .tc main_v18)) = lin (mat (r := 100000) (d := 10) (V (Proc.devRef .tc main_v14))) (mat (r := 10) (d := 128) (V (Proc.devRef .tc main_arg2))) (row (d := 128) (V (Proc.devRef .tc main_arg3))) := by
  funext i j
  rw [mat_apply, lin1_read, linArr_apply]

theorem bn1_mat (V : Valuation τ sig (Elt Ideal)) :
    mat (r := 100000) (d := 128) (after (bn1Ops (F := Ideal)) V (Proc.devRef .tc main_v44)) = bnR (mat (r := 100000) (d := 128) (V (Proc.devRef .tc main_v18))) (row (d := 128) (V (Proc.devRef .tc main_arg4))) (row (d := 128) (V (Proc.devRef .tc main_arg5))) := by
  funext i j
  rw [mat_apply, bn1_read, bnArr_apply]

theorem lin2_mat (V : Valuation τ sig (Elt Ideal)) :
    mat (r := 100000) (d := 128) (after (lin2Ops (F := Ideal)) V (Proc.devRef .tc main_v48)) = lin (mat (r := 100000) (d := 128) (V (Proc.devRef .tc main_v44))) (mat (r := 128) (d := 128) (V (Proc.devRef .tc main_arg6))) (row (d := 128) (V (Proc.devRef .tc main_arg7))) := by
  funext i j
  rw [mat_apply, lin2_read, linArr_apply]

theorem bn2_mat (V : Valuation τ sig (Elt Ideal)) :
    mat (r := 100000) (d := 128) (after (bn2Ops (F := Ideal)) V (Proc.devRef .tc main_v74)) = bnR (mat (r := 100000) (d := 128) (V (Proc.devRef .tc main_v48))) (row (d := 128) (V (Proc.devRef .tc main_arg8))) (row (d := 128) (V (Proc.devRef .tc main_arg9))) := by
  funext i j
  rw [mat_apply, bn2_read, bnArr_apply]

theorem relu1_mat (V : Valuation τ sig (Elt Ideal)) :
    mat (r := 100000) (d := 128) (after (relu1Ops (F := Ideal)) V (Proc.devRef .tc main_v75)) = fun i j => max (mat (r := 100000) (d := 128) (V (Proc.devRef .tc main_v74)) i j) zer := by
  funext i j
  rw [mat_apply, relu1_read, reluArr_mat]

theorem seg2_mat (V : Valuation τ sig (Elt Ideal)) :
    mat (r := 100000) (d := 128) (after (seg2Ops (F := Ideal)) V (Proc.devRef .tc main_v90)) = fun i j => mat (r := 100000) (d := 128) (V (Proc.devRef .tc main_v75)) i j + Cert.Seg.S 128 (V (Proc.devRef .tc main_arg20)) (mat (r := 100000) (d := 128) (V (Proc.devRef .tc main_v75))) i j := by
  funext i j
  rw [mat_apply, seg2_read, addf_apply, S_mat, mat_apply]

theorem lin3_mat (V : Valuation τ sig (Elt Ideal)) :
    mat (r := 100000) (d := 128) (after (lin3Ops (F := Ideal)) V (Proc.devRef .tc main_v94)) = lin (mat (r := 100000) (d := 128) (V (Proc.devRef .tc main_v90))) (mat (r := 128) (d := 128) (V (Proc.devRef .tc main_arg10))) (row (d := 128) (V (Proc.devRef .tc main_arg11))) := by
  funext i j
  rw [mat_apply, lin3_read, linArr_apply]

theorem bn3_mat (V : Valuation τ sig (Elt Ideal)) :
    mat (r := 100000) (d := 128) (after (bn3Ops (F := Ideal)) V (Proc.devRef .tc main_v120)) = bnR (mat (r := 100000) (d := 128) (V (Proc.devRef .tc main_v94))) (row (d := 128) (V (Proc.devRef .tc main_arg12))) (row (d := 128) (V (Proc.devRef .tc main_arg13))) := by
  funext i j
  rw [mat_apply, bn3_read, bnArr_apply]

theorem lin4_mat (V : Valuation τ sig (Elt Ideal)) :
    mat (r := 100000) (d := 128) (after (lin4Ops (F := Ideal)) V (Proc.devRef .tc main_v124)) = lin (mat (r := 100000) (d := 128) (V (Proc.devRef .tc main_v120))) (mat (r := 128) (d := 128) (V (Proc.devRef .tc main_arg14))) (row (d := 128) (V (Proc.devRef .tc main_arg15))) := by
  funext i j
  rw [mat_apply, lin4_read, linArr_apply]

theorem bn4_mat (V : Valuation τ sig (Elt Ideal)) :
    mat (r := 100000) (d := 128) (after (bn4Ops (F := Ideal)) V (Proc.devRef .tc main_v150)) = bnR (mat (r := 100000) (d := 128) (V (Proc.devRef .tc main_v124))) (row (d := 128) (V (Proc.devRef .tc main_arg16))) (row (d := 128) (V (Proc.devRef .tc main_arg17))) := by
  funext i j
  rw [mat_apply, bn4_read, bnArr_apply]

theorem relu2_mat (V : Valuation τ sig (Elt Ideal)) :
    mat (r := 100000) (d := 128) (after (relu2Ops (F := Ideal)) V (Proc.devRef .tc main_v151)) = fun i j => max (mat (r := 100000) (d := 128) (V (Proc.devRef .tc main_v150)) i j) zer := by
  funext i j
  rw [mat_apply, relu2_read, reluArr_mat]

theorem lin5_mat (V : Valuation τ sig (Elt Ideal)) :
    mat (r := 100000) (d := 10) (after (lin5Ops (F := Ideal)) V (Proc.devRef .tc main_v155)) = lin (mat (r := 100000) (d := 128) (V (Proc.devRef .tc main_v151))) (mat (r := 128) (d := 10) (V (Proc.devRef .tc main_arg18))) (row (d := 10) (V (Proc.devRef .tc main_arg19))) := by
  funext i j
  rw [mat_apply, lin5_read, linArr_apply]

theorem lsm_mat (V : Valuation τ sig (Elt Ideal)) :
    mat (r := 100000) (d := 10) (after (lsmOps (F := Ideal)) V (Proc.devRef .tc main_v156)) = lsm (mat (r := 100000) (d := 10) (V (Proc.devRef .tc main_v155))) := by
  funext i j
  rw [mat_apply, lsm_read, lsmArr_apply]

/-! ## The memory after each layer, and the arguments passing through -/

/-- The argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem seg1_args : ∀ r ∈ argRefs, r ∉ seg1OpsW := by decide
theorem lin1_args : ∀ r ∈ argRefs, r ∉ lin1OpsW := by decide
theorem bn1_args : ∀ r ∈ argRefs, r ∉ bn1OpsW := by decide
theorem lin2_args : ∀ r ∈ argRefs, r ∉ lin2OpsW := by decide
theorem bn2_args : ∀ r ∈ argRefs, r ∉ bn2OpsW := by decide
theorem relu1_args : ∀ r ∈ argRefs, r ∉ relu1OpsW := by decide
theorem seg2_args : ∀ r ∈ argRefs, r ∉ seg2OpsW := by decide
theorem lin3_args : ∀ r ∈ argRefs, r ∉ lin3OpsW := by decide
theorem bn3_args : ∀ r ∈ argRefs, r ∉ bn3OpsW := by decide
theorem lin4_args : ∀ r ∈ argRefs, r ∉ lin4OpsW := by decide
theorem bn4_args : ∀ r ∈ argRefs, r ∉ bn4OpsW := by decide
theorem relu2_args : ∀ r ∈ argRefs, r ∉ relu2OpsW := by decide
theorem lin5_args : ∀ r ∈ argRefs, r ∉ lin5OpsW := by decide

/-- The memory after the first `k` layers, from the memory `V` at the launch. -/
def mem1 (V : Valuation τ sig (Elt Ideal)) : Valuation τ sig (Elt Ideal) := after (seg1Ops (F := Ideal)) V
def mem2 (V : Valuation τ sig (Elt Ideal)) : Valuation τ sig (Elt Ideal) := after (lin1Ops (F := Ideal)) (mem1 V)
def mem3 (V : Valuation τ sig (Elt Ideal)) : Valuation τ sig (Elt Ideal) := after (bn1Ops (F := Ideal)) (mem2 V)
def mem4 (V : Valuation τ sig (Elt Ideal)) : Valuation τ sig (Elt Ideal) := after (lin2Ops (F := Ideal)) (mem3 V)
def mem5 (V : Valuation τ sig (Elt Ideal)) : Valuation τ sig (Elt Ideal) := after (bn2Ops (F := Ideal)) (mem4 V)
def mem6 (V : Valuation τ sig (Elt Ideal)) : Valuation τ sig (Elt Ideal) := after (relu1Ops (F := Ideal)) (mem5 V)
def mem7 (V : Valuation τ sig (Elt Ideal)) : Valuation τ sig (Elt Ideal) := after (seg2Ops (F := Ideal)) (mem6 V)
def mem8 (V : Valuation τ sig (Elt Ideal)) : Valuation τ sig (Elt Ideal) := after (lin3Ops (F := Ideal)) (mem7 V)
def mem9 (V : Valuation τ sig (Elt Ideal)) : Valuation τ sig (Elt Ideal) := after (bn3Ops (F := Ideal)) (mem8 V)
def mem10 (V : Valuation τ sig (Elt Ideal)) : Valuation τ sig (Elt Ideal) := after (lin4Ops (F := Ideal)) (mem9 V)
def mem11 (V : Valuation τ sig (Elt Ideal)) : Valuation τ sig (Elt Ideal) := after (bn4Ops (F := Ideal)) (mem10 V)
def mem12 (V : Valuation τ sig (Elt Ideal)) : Valuation τ sig (Elt Ideal) := after (relu2Ops (F := Ideal)) (mem11 V)
def mem13 (V : Valuation τ sig (Elt Ideal)) : Valuation τ sig (Elt Ideal) := after (lin5Ops (F := Ideal)) (mem12 V)

/-- An argument buffer is unchanged after any number of layers. -/
theorem mem1_arg (V : Valuation τ sig (Elt Ideal)) {r : Ref sig .tc} (hr : r ∈ argRefs) :
    mem1 V (Proc.devRef .tc r) = V (Proc.devRef .tc r) :=
  seg1Ops_keep _ (seg1_args r hr)
theorem mem2_arg (V : Valuation τ sig (Elt Ideal)) {r : Ref sig .tc} (hr : r ∈ argRefs) :
    mem2 V (Proc.devRef .tc r) = V (Proc.devRef .tc r) :=
  (lin1Ops_keep _ (lin1_args r hr)).trans (mem1_arg V hr)
theorem mem3_arg (V : Valuation τ sig (Elt Ideal)) {r : Ref sig .tc} (hr : r ∈ argRefs) :
    mem3 V (Proc.devRef .tc r) = V (Proc.devRef .tc r) :=
  (bn1Ops_keep _ (bn1_args r hr)).trans (mem2_arg V hr)
theorem mem4_arg (V : Valuation τ sig (Elt Ideal)) {r : Ref sig .tc} (hr : r ∈ argRefs) :
    mem4 V (Proc.devRef .tc r) = V (Proc.devRef .tc r) :=
  (lin2Ops_keep _ (lin2_args r hr)).trans (mem3_arg V hr)
theorem mem5_arg (V : Valuation τ sig (Elt Ideal)) {r : Ref sig .tc} (hr : r ∈ argRefs) :
    mem5 V (Proc.devRef .tc r) = V (Proc.devRef .tc r) :=
  (bn2Ops_keep _ (bn2_args r hr)).trans (mem4_arg V hr)
theorem mem6_arg (V : Valuation τ sig (Elt Ideal)) {r : Ref sig .tc} (hr : r ∈ argRefs) :
    mem6 V (Proc.devRef .tc r) = V (Proc.devRef .tc r) :=
  (relu1Ops_keep _ (relu1_args r hr)).trans (mem5_arg V hr)
theorem mem7_arg (V : Valuation τ sig (Elt Ideal)) {r : Ref sig .tc} (hr : r ∈ argRefs) :
    mem7 V (Proc.devRef .tc r) = V (Proc.devRef .tc r) :=
  (seg2Ops_keep _ (seg2_args r hr)).trans (mem6_arg V hr)
theorem mem8_arg (V : Valuation τ sig (Elt Ideal)) {r : Ref sig .tc} (hr : r ∈ argRefs) :
    mem8 V (Proc.devRef .tc r) = V (Proc.devRef .tc r) :=
  (lin3Ops_keep _ (lin3_args r hr)).trans (mem7_arg V hr)
theorem mem9_arg (V : Valuation τ sig (Elt Ideal)) {r : Ref sig .tc} (hr : r ∈ argRefs) :
    mem9 V (Proc.devRef .tc r) = V (Proc.devRef .tc r) :=
  (bn3Ops_keep _ (bn3_args r hr)).trans (mem8_arg V hr)
theorem mem10_arg (V : Valuation τ sig (Elt Ideal)) {r : Ref sig .tc} (hr : r ∈ argRefs) :
    mem10 V (Proc.devRef .tc r) = V (Proc.devRef .tc r) :=
  (lin4Ops_keep _ (lin4_args r hr)).trans (mem9_arg V hr)
theorem mem11_arg (V : Valuation τ sig (Elt Ideal)) {r : Ref sig .tc} (hr : r ∈ argRefs) :
    mem11 V (Proc.devRef .tc r) = V (Proc.devRef .tc r) :=
  (bn4Ops_keep _ (bn4_args r hr)).trans (mem10_arg V hr)
theorem mem12_arg (V : Valuation τ sig (Elt Ideal)) {r : Ref sig .tc} (hr : r ∈ argRefs) :
    mem12 V (Proc.devRef .tc r) = V (Proc.devRef .tc r) :=
  (relu2Ops_keep _ (relu2_args r hr)).trans (mem11_arg V hr)
theorem mem13_arg (V : Valuation τ sig (Elt Ideal)) {r : Ref sig .tc} (hr : r ∈ argRefs) :
    mem13 V (Proc.devRef .tc r) = V (Proc.devRef .tc r) :=
  (lin5Ops_keep _ (lin5_args r hr)).trans (mem12_arg V hr)

/-! ## The arguments, and the network's layers on them -/

/-- The edge array, as launched. -/
def aE (V : Valuation τ sig (Elt Ideal)) : IVec Cert.Seg.SEdge 32 := V (Proc.devRef .tc main_arg20)
def aX (V : Valuation τ sig (Elt Ideal)) : Mat 100000 10 := mat (r := 100000) (d := 10) (V (Proc.devRef .tc main_arg0))
def aW11 (V : Valuation τ sig (Elt Ideal)) : Mat 10 128 := mat (r := 10) (d := 128) (V (Proc.devRef .tc main_arg2))
def ab11 (V : Valuation τ sig (Elt Ideal)) : Row 128 := row (d := 128) (V (Proc.devRef .tc main_arg3))
def ag11 (V : Valuation τ sig (Elt Ideal)) : Row 128 := row (d := 128) (V (Proc.devRef .tc main_arg4))
def at11 (V : Valuation τ sig (Elt Ideal)) : Row 128 := row (d := 128) (V (Proc.devRef .tc main_arg5))
def aW12 (V : Valuation τ sig (Elt Ideal)) : Mat 128 128 := mat (r := 128) (d := 128) (V (Proc.devRef .tc main_arg6))
def ab12 (V : Valuation τ sig (Elt Ideal)) : Row 128 := row (d := 128) (V (Proc.devRef .tc main_arg7))
def ag12 (V : Valuation τ sig (Elt Ideal)) : Row 128 := row (d := 128) (V (Proc.devRef .tc main_arg8))
def at12 (V : Valuation τ sig (Elt Ideal)) : Row 128 := row (d := 128) (V (Proc.devRef .tc main_arg9))
def aW21 (V : Valuation τ sig (Elt Ideal)) : Mat 128 128 := mat (r := 128) (d := 128) (V (Proc.devRef .tc main_arg10))
def ab21 (V : Valuation τ sig (Elt Ideal)) : Row 128 := row (d := 128) (V (Proc.devRef .tc main_arg11))
def ag21 (V : Valuation τ sig (Elt Ideal)) : Row 128 := row (d := 128) (V (Proc.devRef .tc main_arg12))
def at21 (V : Valuation τ sig (Elt Ideal)) : Row 128 := row (d := 128) (V (Proc.devRef .tc main_arg13))
def aW22 (V : Valuation τ sig (Elt Ideal)) : Mat 128 128 := mat (r := 128) (d := 128) (V (Proc.devRef .tc main_arg14))
def ab22 (V : Valuation τ sig (Elt Ideal)) : Row 128 := row (d := 128) (V (Proc.devRef .tc main_arg15))
def ag22 (V : Valuation τ sig (Elt Ideal)) : Row 128 := row (d := 128) (V (Proc.devRef .tc main_arg16))
def at22 (V : Valuation τ sig (Elt Ideal)) : Row 128 := row (d := 128) (V (Proc.devRef .tc main_arg17))
def aWf (V : Valuation τ sig (Elt Ideal)) : Mat 128 10 := mat (r := 128) (d := 10) (V (Proc.devRef .tc main_arg18))
def abf (V : Valuation τ sig (Elt Ideal)) : Row 10 := row (d := 10) (V (Proc.devRef .tc main_arg19))

/-- The layers' values, in the specification's terms: the inputs to the two blocks with their neighbour sums
    added, the pre-activations, the normalised activations, each block's clamped output, the logits. -/
def h1 (V : Valuation τ sig (Elt Ideal)) : Mat 100000 10 := fun i j => aX V i j + Cert.Seg.S 10 (aE V) (aX V) i j
def y1 (V : Valuation τ sig (Elt Ideal)) : Mat 100000 128 := lin (h1 V) (aW11 V) (ab11 V)
def n1 (V : Valuation τ sig (Elt Ideal)) : Mat 100000 128 := bnR (y1 V) (ag11 V) (at11 V)
def y2 (V : Valuation τ sig (Elt Ideal)) : Mat 100000 128 := lin (n1 V) (aW12 V) (ab12 V)
def n2 (V : Valuation τ sig (Elt Ideal)) : Mat 100000 128 := bnR (y2 V) (ag12 V) (at12 V)
def c1 (V : Valuation τ sig (Elt Ideal)) : Mat 100000 128 := fun i j => max (n2 V i j) zer
def h2 (V : Valuation τ sig (Elt Ideal)) : Mat 100000 128 := fun i j => c1 V i j + Cert.Seg.S 128 (aE V) (c1 V) i j
def y3 (V : Valuation τ sig (Elt Ideal)) : Mat 100000 128 := lin (h2 V) (aW21 V) (ab21 V)
def n3 (V : Valuation τ sig (Elt Ideal)) : Mat 100000 128 := bnR (y3 V) (ag21 V) (at21 V)
def y4 (V : Valuation τ sig (Elt Ideal)) : Mat 100000 128 := lin (n3 V) (aW22 V) (ab22 V)
def n4 (V : Valuation τ sig (Elt Ideal)) : Mat 100000 128 := bnR (y4 V) (ag22 V) (at22 V)
def c2 (V : Valuation τ sig (Elt Ideal)) : Mat 100000 128 := fun i j => max (n4 V i j) zer
def z5 (V : Valuation τ sig (Elt Ideal)) : Mat 100000 10 := lin (c2 V) (aWf V) (abf V)

/-- They are the specification's network in the reference's spelling. -/
theorem netR_eq (V : Valuation τ sig (Elt Ideal)) :
    netR (Cert.Seg.S 10 (aE V)) (Cert.Seg.S 128 (aE V)) (aX V) (aW11 V) (ab11 V) (ag11 V) (at11 V) (aW12 V) (ab12 V) (ag12 V) (at12 V)
      (aW21 V) (ab21 V) (ag21 V) (at21 V) (aW22 V) (ab22 V) (ag22 V) (at22 V) (aWf V) (abf V) = lsm (z5 V) := rfl

/-! ## Each layer's buffer after the run so far is the layer's value -/

theorem out1 (V : Valuation τ sig (Elt Ideal)) :
    mat (r := 100000) (d := 10) (mem1 V (Proc.devRef .tc main_v14)) = h1 V := seg1_mat V

theorem out2 (V : Valuation τ sig (Elt Ideal)) :
    mat (r := 100000) (d := 128) (mem2 V (Proc.devRef .tc main_v18)) = y1 V :=
  (lin1_mat (mem1 V)).trans (by
    rw [out1 V,
      mem1_arg V (r := main_arg2) (by decide),
      mem1_arg V (r := main_arg3) (by decide)]
    rfl)

theorem out3 (V : Valuation τ sig (Elt Ideal)) :
    mat (r := 100000) (d := 128) (mem3 V (Proc.devRef .tc main_v44)) = n1 V :=
  (bn1_mat (mem2 V)).trans (by
    rw [out2 V,
      mem2_arg V (r := main_arg4) (by decide),
      mem2_arg V (r := main_arg5) (by decide)]
    rfl)

theorem out4 (V : Valuation τ sig (Elt Ideal)) :
    mat (r := 100000) (d := 128) (mem4 V (Proc.devRef .tc main_v48)) = y2 V :=
  (lin2_mat (mem3 V)).trans (by
    rw [out3 V,
      mem3_arg V (r := main_arg6) (by decide),
      mem3_arg V (r := main_arg7) (by decide)]
    rfl)

theorem out5 (V : Valuation τ sig (Elt Ideal)) :
    mat (r := 100000) (d := 128) (mem5 V (Proc.devRef .tc main_v74)) = n2 V :=
  (bn2_mat (mem4 V)).trans (by
    rw [out4 V,
      mem4_arg V (r := main_arg8) (by decide),
      mem4_arg V (r := main_arg9) (by decide)]
    rfl)

theorem out6 (V : Valuation τ sig (Elt Ideal)) :
    mat (r := 100000) (d := 128) (mem6 V (Proc.devRef .tc main_v75)) = c1 V :=
  (relu1_mat (mem5 V)).trans (by
    rw [out5 V]
    rfl)

theorem out7 (V : Valuation τ sig (Elt Ideal)) :
    mat (r := 100000) (d := 128) (mem7 V (Proc.devRef .tc main_v90)) = h2 V :=
  (seg2_mat (mem6 V)).trans (by
    rw [out6 V,
      mem6_arg V (r := main_arg20) (by decide)]
    rfl)

theorem out8 (V : Valuation τ sig (Elt Ideal)) :
    mat (r := 100000) (d := 128) (mem8 V (Proc.devRef .tc main_v94)) = y3 V :=
  (lin3_mat (mem7 V)).trans (by
    rw [out7 V,
      mem7_arg V (r := main_arg10) (by decide),
      mem7_arg V (r := main_arg11) (by decide)]
    rfl)

theorem out9 (V : Valuation τ sig (Elt Ideal)) :
    mat (r := 100000) (d := 128) (mem9 V (Proc.devRef .tc main_v120)) = n3 V :=
  (bn3_mat (mem8 V)).trans (by
    rw [out8 V,
      mem8_arg V (r := main_arg12) (by decide),
      mem8_arg V (r := main_arg13) (by decide)]
    rfl)

theorem out10 (V : Valuation τ sig (Elt Ideal)) :
    mat (r := 100000) (d := 128) (mem10 V (Proc.devRef .tc main_v124)) = y4 V :=
  (lin4_mat (mem9 V)).trans (by
    rw [out9 V,
      mem9_arg V (r := main_arg14) (by decide),
      mem9_arg V (r := main_arg15) (by decide)]
    rfl)

theorem out11 (V : Valuation τ sig (Elt Ideal)) :
    mat (r := 100000) (d := 128) (mem11 V (Proc.devRef .tc main_v150)) = n4 V :=
  (bn4_mat (mem10 V)).trans (by
    rw [out10 V,
      mem10_arg V (r := main_arg16) (by decide),
      mem10_arg V (r := main_arg17) (by decide)]
    rfl)

theorem out12 (V : Valuation τ sig (Elt Ideal)) :
    mat (r := 100000) (d := 128) (mem12 V (Proc.devRef .tc main_v151)) = c2 V :=
  (relu2_mat (mem11 V)).trans (by
    rw [out11 V]
    rfl)

theorem out13 (V : Valuation τ sig (Elt Ideal)) :
    mat (r := 100000) (d := 10) (mem13 V (Proc.devRef .tc main_v155)) = z5 V :=
  (lin5_mat (mem12 V)).trans (by
    rw [out12 V,
      mem12_arg V (r := main_arg18) (by decide),
      mem12_arg V (r := main_arg19) (by decide)]
    rfl)

/-! ## The result -/

/-- The result buffer is the log-softmax stretch run on the memory after the thirteen layers before it. -/
theorem result_unfold (m : (ℓ : Loc nD τ sig) → Buf (Elt Ideal) ℓ) (c : Dev nD) :
    RefValue.result (F := Ideal) m c
      = after (lsmOps (F := Ideal)) (mem13 (launchContents m c)) (Proc.devRef .tc main_v156) := by
  unfold RefValue.result
  rw [ops_split]
  simp only [after_append]
  rfl

/-- The result buffer, as a matrix, is the row-wise log-softmax of the logits. -/
theorem result_mat (m : (ℓ : Loc nD τ sig) → Buf (Elt Ideal) ℓ) (c : Dev nD) :
    mat (r := 100000) (d := 10) (RefValue.result (F := Ideal) m c) = lsm (z5 (launchContents m c)) := by
  rw [result_unfold, lsm_mat, out13]

/-- The reference's result at (i, j) is the specification's network, in the reference's spelling, of the arguments as
    launched: the node features, the edge array through the two neighbour sums, and the eighteen parameter arrays. -/
theorem result_eq (m : (ℓ : Loc nD τ sig) → Buf (Elt Ideal) ℓ) (c : Dev nD) (i : Fin 100000) (j : Fin 10) :
    RefValue.result (F := Ideal) m c (ix2 i j)
      = netR (Cert.Seg.S 10 (aE (launchContents m c))) (Cert.Seg.S 128 (aE (launchContents m c))) (aX (launchContents m c))
          (aW11 (launchContents m c)) (ab11 (launchContents m c)) (ag11 (launchContents m c)) (at11 (launchContents m c))
          (aW12 (launchContents m c)) (ab12 (launchContents m c)) (ag12 (launchContents m c)) (at12 (launchContents m c))
          (aW21 (launchContents m c)) (ab21 (launchContents m c)) (ag21 (launchContents m c)) (at21 (launchContents m c))
          (aW22 (launchContents m c)) (ab22 (launchContents m c)) (ag22 (launchContents m c)) (at22 (launchContents m c))
          (aWf (launchContents m c)) (abf (launchContents m c)) i j := by
  rw [netR_eq]
  exact congrFun (congrFun (result_mat m c) i) j

/-- The same with the arguments written as the launch memory's buffers read entry by entry. -/
theorem result_eq' (m : (ℓ : Loc nD τ sig) → Buf (Elt Ideal) ℓ) (c : Dev nD) (i : Fin 100000) (j : Fin 10) :
    RefValue.result (F := Ideal) m c (ix2 i j)
      = netR (Cert.Seg.S 10 (m ((c.tc : Thread nD τ).loc main_arg20))) (Cert.Seg.S 128 (m ((c.tc : Thread nD τ).loc main_arg20)))
          (mat (r := 100000) (d := 10) (m ((c.tc : Thread nD τ).loc main_arg0)))
          (mat (r := 10) (d := 128) (m ((c.tc : Thread nD τ).loc main_arg2)))
          (row (d := 128) (m ((c.tc : Thread nD τ).loc main_arg3)))
          (row (d := 128) (m ((c.tc : Thread nD τ).loc main_arg4)))
          (row (d := 128) (m ((c.tc : Thread nD τ).loc main_arg5)))
          (mat (r := 128) (d := 128) (m ((c.tc : Thread nD τ).loc main_arg6)))
          (row (d := 128) (m ((c.tc : Thread nD τ).loc main_arg7)))
          (row (d := 128) (m ((c.tc : Thread nD τ).loc main_arg8)))
          (row (d := 128) (m ((c.tc : Thread nD τ).loc main_arg9)))
          (mat (r := 128) (d := 128) (m ((c.tc : Thread nD τ).loc main_arg10)))
          (row (d := 128) (m ((c.tc : Thread nD τ).loc main_arg11)))
          (row (d := 128) (m ((c.tc : Thread nD τ).loc main_arg12)))
          (row (d := 128) (m ((c.tc : Thread nD τ).loc main_arg13)))
          (mat (r := 128) (d := 128) (m ((c.tc : Thread nD τ).loc main_arg14)))
          (row (d := 128) (m ((c.tc : Thread nD τ).loc main_arg15)))
          (row (d := 128) (m ((c.tc : Thread nD τ).loc main_arg16)))
          (row (d := 128) (m ((c.tc : Thread nD τ).loc main_arg17)))
          (mat (r := 128) (d := 10) (m ((c.tc : Thread nD τ).loc main_arg18)))
          (row (d := 10) (m ((c.tc : Thread nD τ).loc main_arg19))) i j :=
  result_eq m c i j

/-- The arguments are the launch memory's buffers read entry by entry. -/
theorem aX_apply (m : (ℓ : Loc nD τ sig) → Buf (Elt Ideal) ℓ) (c : Dev nD) (i : Fin 100000) (k : Fin 10) :
    aX (launchContents m c) i k = m ((c.tc : Thread nD τ).loc main_arg0) (ix2 i k) := rfl
theorem aE_eq (m : (ℓ : Loc nD τ sig) → Buf (Elt Ideal) ℓ) (c : Dev nD) :
    aE (launchContents m c) = m ((c.tc : Thread nD τ).loc main_arg20) := rfl

end Cert.ReferenceIdeal.RefRead

end
-- ==== Proof.RefAdapter.lean ====
/-
  The reference's result, entry by entry, in the shared spelling of the argument arrays.
-/
import proofs.«110958_j70274254897753_1_alg».proof.Proof.Ref.Result
import proofs.«110958_j70274254897753_1_alg».proof.Proof.Glue

noncomputable section

namespace Cert.Proof.Values

open Idealize.ShloMosaic Idealize.ShloMosaic.TcCoe Idealize.SL.Sem

set_option maxHeartbeats 1000000 in
theorem hR (m' : (ℓ : Loc Cert.ReferenceIdeal.nD Cert.ReferenceIdeal.τ Cert.ReferenceIdeal.sig) → Buf (Elt Ideal) ℓ) (c : Dev Cert.ReferenceIdeal.nD) (i : Fin 100000) (j : Fin 10) :
    Cert.ReferenceIdeal.RefValue.result (F := Ideal) m' c (ValueIdx.ix2 i j)
      = Cert.Glue.netROf
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19)) i j :=
  (Cert.ReferenceIdeal.RefRead.result_eq' m' c i j).trans rfl

end Cert.Proof.Values

end
-- ==== Proof.KI.Host.lean ====
/-
  What each stretch of host operations between two kernel regions leaves in the buffers a later region reads,
  read at an index, for arbitrary contents W of the buffers before the stretch.

  * The first stretch slices the edge array into its source and destination rows and forms the neighbour sum
    of the ten input features: a gather of the source rows and a scatter-add into zeros at the destination
    rows.  It is the function Seg.S, operation for operation.
  * The fifth stretch forms the neighbour sum of the 128 hidden features over the same two edge rows.
  * After each linear layer a stretch turns the two running column sums Σ y and Σ y² into the mean
    (Σ y)/N and the one-pass variance (Σ y²)/N − ((Σ y)/N)², N = 100000, and views the scale and shift
    vectors as rows.
  * The remaining stretches view one bias vector as a row.
  A buffer a stretch does not write keeps its contents.
-/
import Idealize.ShloMosaic.Lib.StableHlo.Run
import Idealize.ShloMosaic.Lib.ValueIdx
import Idealize.ShloMosaic.Lib.ValueLayout
import Idealize.ShloMosaic.Lib.Pipeline.Value
import proofs.«110958_j70274254897753_1_alg».proof.Proof.Spec
import proofs.«110958_j70274254897753_1_alg».proof.Proof.Seg
import proofs.«110958_j70274254897753_1_alg».proof.Proof.Gen.KernelIdeal.Launch
import proofs.«110958_j70274254897753_1_alg».proof.Proof.Gen.KernelIdeal.Regions

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.ShloMosaic.StableHlo

variable (W : Valuation τ sig (Elt Ideal))

/-! ## Rows -/

/-- A [128] vector viewed as a [1,128] row, read at (0, q), is the vector at q. -/
theorem row128_at (x : FVec Ideal S128 .f32) (q : Fin 128) :
    shapeCast S1x128 x shapeCasts_S128_S1x128 (ix2 0 q) = x (ix1 q) := by
  refine (shapeCast_addUnit_apply ![128] x shapeCasts_S128_S1x128 (ix2 0 q)).trans (congrArg x ?_)
  funext a
  match a with
  | ⟨0, _⟩ => rfl

/-- A [10] vector viewed as a [1,10] row, read at (0, q), is the vector at q. -/
theorem row10_at (x : FVec Ideal S10 .f32) (q : Fin 10) :
    shapeCast S1x10 x shapeCasts_S10_S1x10 (ix2 0 q) = x (ix1 q) := by
  refine (shapeCast_addUnit_apply ![10] x shapeCasts_S10_S1x10 (ix2 0 q)).trans (congrArg x ?_)
  funext a
  match a with
  | ⟨0, _⟩ => rfl

/-! ## The neighbour sum over the two edge rows -/

/-- The neighbour sum spelt over the two rows of the edge array taken separately: the source row (a negative
    index wrapped by adding the number of nodes) names the rows gathered, the destination row names the rows
    of the zero matrix they are added into. -/
def segRows (D : ℕ) [Cert.Seg.Width D] (r0 r1 : IVec Cert.Seg.SVec 32) (a : FVec Ideal (Cert.Seg.SNode D) .f32) :
    FVec Ideal (Cert.Seg.SNode D) .f32 :=
  Host.scatterAdd (F := Ideal) (Cert.Seg.scatterDims D)
    (broadcastInDim (Cert.Seg.SNode D) ![] Cert.Seg.Width.bcastZero (constant (F := Ideal) Cert.Seg.SScalar .f32 0x00000000#32))
    (broadcastInDim Cert.Seg.SCol ![0] Cert.Seg.bcastVecCol r1)
    (Host.gather (Cert.Seg.gatherDims D) a
      (broadcastInDim Cert.Seg.SCol ![0] Cert.Seg.bcastVecCol
        (select (cmpi .slt r0 (broadcastInDim Cert.Seg.SVec ![] Cert.Seg.bcastScalarVec (constantI Cert.Seg.SScalar 32 0#32)))
          (addi r0 (broadcastInDim Cert.Seg.SVec ![] Cert.Seg.bcastScalarVec (constantI Cert.Seg.SScalar 32 100000#32)))
          r0)))

/-- On the two rows of one edge array it is the neighbour sum of that edge array. -/
theorem segRows_edge (D : ℕ) [Cert.Seg.Width D] (edge : IVec Cert.Seg.SEdge 32) (a : FVec Ideal (Cert.Seg.SNode D) .f32) :
    segRows D (Cert.Seg.edgeRow0 edge) (Cert.Seg.edgeRow1 edge) a = Cert.Seg.segArr D edge a := rfl

/-! ## Stretch 0: the edge rows, the neighbour sum of the input features, and the first bias row -/

/-- The source row of the edge array. -/
theorem h0_src : (StableHlo.after (hostOps0 (F := Ideal)) W (Proc.devRef .tc main_v1) : S1600000.Idx → BitVec 32)
    = Cert.Seg.edgeRow0 (W main_arg20) := by
  simp only [hostOps0]
  after_results_simp
  rfl

/-- The destination row of the edge array. -/
theorem h0_dst : (StableHlo.after (hostOps0 (F := Ideal)) W (Proc.devRef .tc main_v3) : S1600000.Idx → BitVec 32)
    = Cert.Seg.edgeRow1 (W main_arg20) := by
  simp only [hostOps0]
  after_results_simp
  rfl

set_option maxHeartbeats 2000000 in
/-- The neighbour sum of the input features, as an array. -/
theorem h0_sum_arr : (StableHlo.after (hostOps0 (F := Ideal)) W (Proc.devRef .tc main_v13) : S100000x10.Idx → EReal)
    = Cert.Seg.segArr 10 (W main_arg20) (W main_arg0) := by
  simp only [hostOps0]
  after_results_simp
  rfl

/-- The neighbour sum of the input features, entry by entry. -/
theorem h0_sum (i : Fin 100000) (k : Fin 10) :
    (StableHlo.after (hostOps0 (F := Ideal)) W (Proc.devRef .tc main_v13) : S100000x10.Idx → EReal) (ix2 i k)
      = Cert.Seg.S 10 (W main_arg20) (fun i k => (W main_arg0 : S100000x10.Idx → EReal) (ix2 i k)) i k := by
  rw [h0_sum_arr]
  exact (Cert.Seg.S_ofArr 10 (W main_arg20) (W main_arg0) i k).symm

/-- The bias row is the bias argument. -/
theorem h0_bias (q : Fin 128) :
    (StableHlo.after (hostOps0 (F := Ideal)) W (Proc.devRef .tc main_v14) : S1x128.Idx → EReal) (ix2 0 q)
      = (W main_arg3 : S128.Idx → EReal) (ix1 q) := by
  have e : (StableHlo.after (hostOps0 (F := Ideal)) W (Proc.devRef .tc main_v14) : S1x128.Idx → EReal)
      = shapeCast S1x128 (W main_arg3 : S128.Idx → EReal) shapeCasts_S128_S1x128 := by
    simp only [hostOps0]
    after_results_simp
    rfl
  rw [e, row128_at]

/-- A buffer the stretch does not write keeps its contents. -/
theorem h0_keep (r : Ref sig .tc) (h : r ∉ hostOps0_W) :
    StableHlo.after (hostOps0 (F := Ideal)) W (Proc.devRef .tc r) = W (Proc.devRef .tc r) :=
  StableHlo.after_of_writes_sub hostOps0 W hostOps0_writes h

/-! ## Stretch 1: the column mean and the one-pass variance from the two running sums, and the scale and shift rows -/

/-- The mean row: the column sums divided by the number of rows. -/
theorem h1_mean (q : Fin 128) :
    (StableHlo.after (hostOps1 (F := Ideal)) W (Proc.devRef .tc main_v17) : S1x128.Idx → EReal) (ix2 0 q)
      = Ideal.div ((W main_v15_1 : S1x128.Idx → EReal) (ix2 0 q)) (Ideal.ofBits .f32 0x47C35000#32) := by
  have e : (StableHlo.after (hostOps1 (F := Ideal)) W (Proc.devRef .tc main_v17) : S1x128.Idx → EReal)
      = Host.divf (F := Ideal) (W main_v15_1) (broadcastInDim S1x128 ![] bcast_S_S1x128 (constant (F := Ideal) S_ .f32 0x47C35000#32)) := by
    simp only [hostOps1]
    after_results
  rw [e]
  rfl

/-- The variance row: the mean of the squares minus the square of the mean. -/
theorem h1_var (q : Fin 128) :
    (StableHlo.after (hostOps1 (F := Ideal)) W (Proc.devRef .tc main_v21) : S1x128.Idx → EReal) (ix2 0 q)
      = Ideal.div ((W main_v15_2 : S1x128.Idx → EReal) (ix2 0 q)) (Ideal.ofBits .f32 0x47C35000#32)
        - Ideal.div ((W main_v15_1 : S1x128.Idx → EReal) (ix2 0 q)) (Ideal.ofBits .f32 0x47C35000#32)
          * Ideal.div ((W main_v15_1 : S1x128.Idx → EReal) (ix2 0 q)) (Ideal.ofBits .f32 0x47C35000#32) := by
  have e : (StableHlo.after (hostOps1 (F := Ideal)) W (Proc.devRef .tc main_v21) : S1x128.Idx → EReal)
      = subf (Host.divf (F := Ideal) (W main_v15_2) (broadcastInDim S1x128 ![] bcast_S_S1x128 (constant (F := Ideal) S_ .f32 0x47C35000#32)))
          (mulf (Host.divf (F := Ideal) (W main_v15_1) (broadcastInDim S1x128 ![] bcast_S_S1x128 (constant (F := Ideal) S_ .f32 0x47C35000#32)))
                (Host.divf (F := Ideal) (W main_v15_1) (broadcastInDim S1x128 ![] bcast_S_S1x128 (constant (F := Ideal) S_ .f32 0x47C35000#32)))) := by
    simp only [hostOps1]
    after_results
  rw [e]
  rfl

/-- The scale row is the scale argument. -/
theorem h1_scale (q : Fin 128) :
    (StableHlo.after (hostOps1 (F := Ideal)) W (Proc.devRef .tc main_v22) : S1x128.Idx → EReal) (ix2 0 q)
      = (W main_arg4 : S128.Idx → EReal) (ix1 q) := by
  have e : (StableHlo.after (hostOps1 (F := Ideal)) W (Proc.devRef .tc main_v22) : S1x128.Idx → EReal)
      = shapeCast S1x128 (W main_arg4 : S128.Idx → EReal) shapeCasts_S128_S1x128 := by
    simp only [hostOps1]
    after_results
    rfl
  rw [e, row128_at]

/-- The shift row is the shift argument. -/
theorem h1_shift (q : Fin 128) :
    (StableHlo.after (hostOps1 (F := Ideal)) W (Proc.devRef .tc main_v23) : S1x128.Idx → EReal) (ix2 0 q)
      = (W main_arg5 : S128.Idx → EReal) (ix1 q) := by
  have e : (StableHlo.after (hostOps1 (F := Ideal)) W (Proc.devRef .tc main_v23) : S1x128.Idx → EReal)
      = shapeCast S1x128 (W main_arg5 : S128.Idx → EReal) shapeCasts_S128_S1x128 := by
    simp only [hostOps1]
    after_results
    rfl
  rw [e, row128_at]

/-- A buffer the stretch does not write keeps its contents. -/
theorem h1_keep (r : Ref sig .tc) (h : r ∉ hostOps1_W) :
    StableHlo.after (hostOps1 (F := Ideal)) W (Proc.devRef .tc r) = W (Proc.devRef .tc r) :=
  StableHlo.after_of_writes_sub hostOps1 W hostOps1_writes h

/-! ## Stretch 2: one bias row -/

/-- The bias row is the bias argument. -/
theorem h2_bias (q : Fin 128) :
    (StableHlo.after (hostOps2 (F := Ideal)) W (Proc.devRef .tc main_v25) : S1x128.Idx → EReal) (ix2 0 q)
      = (W main_arg7 : S128.Idx → EReal) (ix1 q) := by
  have e : (StableHlo.after (hostOps2 (F := Ideal)) W (Proc.devRef .tc main_v25) : S1x128.Idx → EReal)
      = shapeCast S1x128 (W main_arg7 : S128.Idx → EReal) shapeCasts_S128_S1x128 := by
    simp only [hostOps2]
    after_results
    rfl
  rw [e, row128_at]

/-- A buffer the stretch does not write keeps its contents. -/
theorem h2_keep (r : Ref sig .tc) (h : r ∉ hostOps2_W) :
    StableHlo.after (hostOps2 (F := Ideal)) W (Proc.devRef .tc r) = W (Proc.devRef .tc r) :=
  StableHlo.after_of_writes_sub hostOps2 W hostOps2_writes h

/-! ## Stretch 3: the column mean and the one-pass variance from the two running sums, and the scale and shift rows -/

/-- The mean row: the column sums divided by the number of rows. -/
theorem h3_mean (q : Fin 128) :
    (StableHlo.after (hostOps3 (F := Ideal)) W (Proc.devRef .tc main_v28) : S1x128.Idx → EReal) (ix2 0 q)
      = Ideal.div ((W main_v26_1 : S1x128.Idx → EReal) (ix2 0 q)) (Ideal.ofBits .f32 0x47C35000#32) := by
  have e : (StableHlo.after (hostOps3 (F := Ideal)) W (Proc.devRef .tc main_v28) : S1x128.Idx → EReal)
      = Host.divf (F := Ideal) (W main_v26_1) (broadcastInDim S1x128 ![] bcast_S_S1x128 (constant (F := Ideal) S_ .f32 0x47C35000#32)) := by
    simp only [hostOps3]
    after_results
  rw [e]
  rfl

/-- The variance row: the mean of the squares minus the square of the mean. -/
theorem h3_var (q : Fin 128) :
    (StableHlo.after (hostOps3 (F := Ideal)) W (Proc.devRef .tc main_v32) : S1x128.Idx → EReal) (ix2 0 q)
      = Ideal.div ((W main_v26_2 : S1x128.Idx → EReal) (ix2 0 q)) (Ideal.ofBits .f32 0x47C35000#32)
        - Ideal.div ((W main_v26_1 : S1x128.Idx → EReal) (ix2 0 q)) (Ideal.ofBits .f32 0x47C35000#32)
          * Ideal.div ((W main_v26_1 : S1x128.Idx → EReal) (ix2 0 q)) (Ideal.ofBits .f32 0x47C35000#32) := by
  have e : (StableHlo.after (hostOps3 (F := Ideal)) W (Proc.devRef .tc main_v32) : S1x128.Idx → EReal)
      = subf (Host.divf (F := Ideal) (W main_v26_2) (broadcastInDim S1x128 ![] bcast_S_S1x128 (constant (F := Ideal) S_ .f32 0x47C35000#32)))
          (mulf (Host.divf (F := Ideal) (W main_v26_1) (broadcastInDim S1x128 ![] bcast_S_S1x128 (constant (F := Ideal) S_ .f32 0x47C35000#32)))
                (Host.divf (F := Ideal) (W main_v26_1) (broadcastInDim S1x128 ![] bcast_S_S1x128 (constant (F := Ideal) S_ .f32 0x47C35000#32)))) := by
    simp only [hostOps3]
    after_results
  rw [e]
  rfl

/-- The scale row is the scale argument. -/
theorem h3_scale (q : Fin 128) :
    (StableHlo.after (hostOps3 (F := Ideal)) W (Proc.devRef .tc main_v33) : S1x128.Idx → EReal) (ix2 0 q)
      = (W main_arg8 : S128.Idx → EReal) (ix1 q) := by
  have e : (StableHlo.after (hostOps3 (F := Ideal)) W (Proc.devRef .tc main_v33) : S1x128.Idx → EReal)
      = shapeCast S1x128 (W main_arg8 : S128.Idx → EReal) shapeCasts_S128_S1x128 := by
    simp only [hostOps3]
    after_results
    rfl
  rw [e, row128_at]

/-- The shift row is the shift argument. -/
theorem h3_shift (q : Fin 128) :
    (StableHlo.after (hostOps3 (F := Ideal)) W (Proc.devRef .tc main_v34) : S1x128.Idx → EReal) (ix2 0 q)
      = (W main_arg9 : S128.Idx → EReal) (ix1 q) := by
  have e : (StableHlo.after (hostOps3 (F := Ideal)) W (Proc.devRef .tc main_v34) : S1x128.Idx → EReal)
      = shapeCast S1x128 (W main_arg9 : S128.Idx → EReal) shapeCasts_S128_S1x128 := by
    simp only [hostOps3]
    after_results
    rfl
  rw [e, row128_at]

/-- A buffer the stretch does not write keeps its contents. -/
theorem h3_keep (r : Ref sig .tc) (h : r ∉ hostOps3_W) :
    StableHlo.after (hostOps3 (F := Ideal)) W (Proc.devRef .tc r) = W (Proc.devRef .tc r) :=
  StableHlo.after_of_writes_sub hostOps3 W hostOps3_writes h

/-! ## Stretch 4: the neighbour sum of the hidden features over the same edge rows, and a bias row -/

set_option maxHeartbeats 2000000 in
/-- The neighbour sum of the hidden features, as an array, over the two edge rows as they stand. -/
theorem h4_sum_arr : (StableHlo.after (hostOps4 (F := Ideal)) W (Proc.devRef .tc main_v45) : S100000x128.Idx → EReal)
    = segRows 128 (W main_v1) (W main_v3) (W main_v35) := by
  simp only [hostOps4]
  after_results_simp
  rfl

/-- When the two rows are those of an edge array, it is that edge array's neighbour sum, entry by entry. -/
theorem h4_sum (edge : IVec Cert.Seg.SEdge 32)
    (h1 : (W main_v1 : S1600000.Idx → BitVec 32) = Cert.Seg.edgeRow0 edge)
    (h3 : (W main_v3 : S1600000.Idx → BitVec 32) = Cert.Seg.edgeRow1 edge) (i : Fin 100000) (k : Fin 128) :
    (StableHlo.after (hostOps4 (F := Ideal)) W (Proc.devRef .tc main_v45) : S100000x128.Idx → EReal) (ix2 i k)
      = Cert.Seg.S 128 edge (fun i k => (W main_v35 : S100000x128.Idx → EReal) (ix2 i k)) i k := by
  rw [h4_sum_arr, h1, h3, segRows_edge]
  exact (Cert.Seg.S_ofArr 128 edge (W main_v35) i k).symm

/-- The bias row is the bias argument. -/
theorem h4_bias (q : Fin 128) :
    (StableHlo.after (hostOps4 (F := Ideal)) W (Proc.devRef .tc main_v46) : S1x128.Idx → EReal) (ix2 0 q)
      = (W main_arg11 : S128.Idx → EReal) (ix1 q) := by
  have e : (StableHlo.after (hostOps4 (F := Ideal)) W (Proc.devRef .tc main_v46) : S1x128.Idx → EReal)
      = shapeCast S1x128 (W main_arg11 : S128.Idx → EReal) shapeCasts_S128_S1x128 := by
    simp only [hostOps4]
    after_results_simp
    rfl
  rw [e, row128_at]

/-- A buffer the stretch does not write keeps its contents. -/
theorem h4_keep (r : Ref sig .tc) (h : r ∉ hostOps4_W) :
    StableHlo.after (hostOps4 (F := Ideal)) W (Proc.devRef .tc r) = W (Proc.devRef .tc r) :=
  StableHlo.after_of_writes_sub hostOps4 W hostOps4_writes h

/-! ## Stretch 5: the column mean and the one-pass variance from the two running sums, and the scale and shift rows -/

/-- The mean row: the column sums divided by the number of rows. -/
theorem h5_mean (q : Fin 128) :
    (StableHlo.after (hostOps5 (F := Ideal)) W (Proc.devRef .tc main_v49) : S1x128.Idx → EReal) (ix2 0 q)
      = Ideal.div ((W main_v47_1 : S1x128.Idx → EReal) (ix2 0 q)) (Ideal.ofBits .f32 0x47C35000#32) := by
  have e : (StableHlo.after (hostOps5 (F := Ideal)) W (Proc.devRef .tc main_v49) : S1x128.Idx → EReal)
      = Host.divf (F := Ideal) (W main_v47_1) (broadcastInDim S1x128 ![] bcast_S_S1x128 (constant (F := Ideal) S_ .f32 0x47C35000#32)) := by
    simp only [hostOps5]
    after_results
  rw [e]
  rfl

/-- The variance row: the mean of the squares minus the square of the mean. -/
theorem h5_var (q : Fin 128) :
    (StableHlo.after (hostOps5 (F := Ideal)) W (Proc.devRef .tc main_v53) : S1x128.Idx → EReal) (ix2 0 q)
      = Ideal.div ((W main_v47_2 : S1x128.Idx → EReal) (ix2 0 q)) (Ideal.ofBits .f32 0x47C35000#32)
        - Ideal.div ((W main_v47_1 : S1x128.Idx → EReal) (ix2 0 q)) (Ideal.ofBits .f32 0x47C35000#32)
          * Ideal.div ((W main_v47_1 : S1x128.Idx → EReal) (ix2 0 q)) (Ideal.ofBits .f32 0x47C35000#32) := by
  have e : (StableHlo.after (hostOps5 (F := Ideal)) W (Proc.devRef .tc main_v53) : S1x128.Idx → EReal)
      = subf (Host.divf (F := Ideal) (W main_v47_2) (broadcastInDim S1x128 ![] bcast_S_S1x128 (constant (F := Ideal) S_ .f32 0x47C35000#32)))
          (mulf (Host.divf (F := Ideal) (W main_v47_1) (broadcastInDim S1x128 ![] bcast_S_S1x128 (constant (F := Ideal) S_ .f32 0x47C35000#32)))
                (Host.divf (F := Ideal) (W main_v47_1) (broadcastInDim S1x128 ![] bcast_S_S1x128 (constant (F := Ideal) S_ .f32 0x47C35000#32)))) := by
    simp only [hostOps5]
    after_results
  rw [e]
  rfl

/-- The scale row is the scale argument. -/
theorem h5_scale (q : Fin 128) :
    (StableHlo.after (hostOps5 (F := Ideal)) W (Proc.devRef .tc main_v54) : S1x128.Idx → EReal) (ix2 0 q)
      = (W main_arg12 : S128.Idx → EReal) (ix1 q) := by
  have e : (StableHlo.after (hostOps5 (F := Ideal)) W (Proc.devRef .tc main_v54) : S1x128.Idx → EReal)
      = shapeCast S1x128 (W main_arg12 : S128.Idx → EReal) shapeCasts_S128_S1x128 := by
    simp only [hostOps5]
    after_results
    rfl
  rw [e, row128_at]

/-- The shift row is the shift argument. -/
theorem h5_shift (q : Fin 128) :
    (StableHlo.after (hostOps5 (F := Ideal)) W (Proc.devRef .tc main_v55) : S1x128.Idx → EReal) (ix2 0 q)
      = (W main_arg13 : S128.Idx → EReal) (ix1 q) := by
  have e : (StableHlo.after (hostOps5 (F := Ideal)) W (Proc.devRef .tc main_v55) : S1x128.Idx → EReal)
      = shapeCast S1x128 (W main_arg13 : S128.Idx → EReal) shapeCasts_S128_S1x128 := by
    simp only [hostOps5]
    after_results
    rfl
  rw [e, row128_at]

/-- A buffer the stretch does not write keeps its contents. -/
theorem h5_keep (r : Ref sig .tc) (h : r ∉ hostOps5_W) :
    StableHlo.after (hostOps5 (F := Ideal)) W (Proc.devRef .tc r) = W (Proc.devRef .tc r) :=
  StableHlo.after_of_writes_sub hostOps5 W hostOps5_writes h

/-! ## Stretch 6: one bias row -/

/-- The bias row is the bias argument. -/
theorem h6_bias (q : Fin 128) :
    (StableHlo.after (hostOps6 (F := Ideal)) W (Proc.devRef .tc main_v57) : S1x128.Idx → EReal) (ix2 0 q)
      = (W main_arg15 : S128.Idx → EReal) (ix1 q) := by
  have e : (StableHlo.after (hostOps6 (F := Ideal)) W (Proc.devRef .tc main_v57) : S1x128.Idx → EReal)
      = shapeCast S1x128 (W main_arg15 : S128.Idx → EReal) shapeCasts_S128_S1x128 := by
    simp only [hostOps6]
    after_results
    rfl
  rw [e, row128_at]

/-- A buffer the stretch does not write keeps its contents. -/
theorem h6_keep (r : Ref sig .tc) (h : r ∉ hostOps6_W) :
    StableHlo.after (hostOps6 (F := Ideal)) W (Proc.devRef .tc r) = W (Proc.devRef .tc r) :=
  StableHlo.after_of_writes_sub hostOps6 W hostOps6_writes h

/-! ## Stretch 7: the column mean and the one-pass variance from the two running sums, and the scale and shift rows -/

/-- The mean row: the column sums divided by the number of rows. -/
theorem h7_mean (q : Fin 128) :
    (StableHlo.after (hostOps7 (F := Ideal)) W (Proc.devRef .tc main_v60) : S1x128.Idx → EReal) (ix2 0 q)
      = Ideal.div ((W main_v58_1 : S1x128.Idx → EReal) (ix2 0 q)) (Ideal.ofBits .f32 0x47C35000#32) := by
  have e : (StableHlo.after (hostOps7 (F := Ideal)) W (Proc.devRef .tc main_v60) : S1x128.Idx → EReal)
      = Host.divf (F := Ideal) (W main_v58_1) (broadcastInDim S1x128 ![] bcast_S_S1x128 (constant (F := Ideal) S_ .f32 0x47C35000#32)) := by
    simp only [hostOps7]
    after_results
  rw [e]
  rfl

/-- The variance row: the mean of the squares minus the square of the mean. -/
theorem h7_var (q : Fin 128) :
    (StableHlo.after (hostOps7 (F := Ideal)) W (Proc.devRef .tc main_v64) : S1x128.Idx → EReal) (ix2 0 q)
      = Ideal.div ((W main_v58_2 : S1x128.Idx → EReal) (ix2 0 q)) (Ideal.ofBits .f32 0x47C35000#32)
        - Ideal.div ((W main_v58_1 : S1x128.Idx → EReal) (ix2 0 q)) (Ideal.ofBits .f32 0x47C35000#32)
          * Ideal.div ((W main_v58_1 : S1x128.Idx → EReal) (ix2 0 q)) (Ideal.ofBits .f32 0x47C35000#32) := by
  have e : (StableHlo.after (hostOps7 (F := Ideal)) W (Proc.devRef .tc main_v64) : S1x128.Idx → EReal)
      = subf (Host.divf (F := Ideal) (W main_v58_2) (broadcastInDim S1x128 ![] bcast_S_S1x128 (constant (F := Ideal) S_ .f32 0x47C35000#32)))
          (mulf (Host.divf (F := Ideal) (W main_v58_1) (broadcastInDim S1x128 ![] bcast_S_S1x128 (constant (F := Ideal) S_ .f32 0x47C35000#32)))
                (Host.divf (F := Ideal) (W main_v58_1) (broadcastInDim S1x128 ![] bcast_S_S1x128 (constant (F := Ideal) S_ .f32 0x47C35000#32)))) := by
    simp only [hostOps7]
    after_results
  rw [e]
  rfl

/-- The scale row is the scale argument. -/
theorem h7_scale (q : Fin 128) :
    (StableHlo.after (hostOps7 (F := Ideal)) W (Proc.devRef .tc main_v65) : S1x128.Idx → EReal) (ix2 0 q)
      = (W main_arg16 : S128.Idx → EReal) (ix1 q) := by
  have e : (StableHlo.after (hostOps7 (F := Ideal)) W (Proc.devRef .tc main_v65) : S1x128.Idx → EReal)
      = shapeCast S1x128 (W main_arg16 : S128.Idx → EReal) shapeCasts_S128_S1x128 := by
    simp only [hostOps7]
    after_results
    rfl
  rw [e, row128_at]

/-- The shift row is the shift argument. -/
theorem h7_shift (q : Fin 128) :
    (StableHlo.after (hostOps7 (F := Ideal)) W (Proc.devRef .tc main_v66) : S1x128.Idx → EReal) (ix2 0 q)
      = (W main_arg17 : S128.Idx → EReal) (ix1 q) := by
  have e : (StableHlo.after (hostOps7 (F := Ideal)) W (Proc.devRef .tc main_v66) : S1x128.Idx → EReal)
      = shapeCast S1x128 (W main_arg17 : S128.Idx → EReal) shapeCasts_S128_S1x128 := by
    simp only [hostOps7]
    after_results
    rfl
  rw [e, row128_at]

/-- A buffer the stretch does not write keeps its contents. -/
theorem h7_keep (r : Ref sig .tc) (h : r ∉ hostOps7_W) :
    StableHlo.after (hostOps7 (F := Ideal)) W (Proc.devRef .tc r) = W (Proc.devRef .tc r) :=
  StableHlo.after_of_writes_sub hostOps7 W hostOps7_writes h

/-! ## Stretch 8: the last bias row, ten classes wide -/

/-- The bias row is the bias argument. -/
theorem h8_bias (q : Fin 10) :
    (StableHlo.after (hostOps8 (F := Ideal)) W (Proc.devRef .tc main_v68) : S1x10.Idx → EReal) (ix2 0 q)
      = (W main_arg19 : S10.Idx → EReal) (ix1 q) := by
  have e : (StableHlo.after (hostOps8 (F := Ideal)) W (Proc.devRef .tc main_v68) : S1x10.Idx → EReal)
      = shapeCast S1x10 (W main_arg19 : S10.Idx → EReal) shapeCasts_S10_S1x10 := by
    simp only [hostOps8]
    after_results
    rfl
  rw [e, row10_at]

/-- A buffer the stretch does not write keeps its contents. -/
theorem h8_keep (r : Ref sig .tc) (h : r ∉ hostOps8_W) :
    StableHlo.after (hostOps8 (F := Ideal)) W (Proc.devRef .tc r) = W (Proc.devRef .tc r) :=
  StableHlo.after_of_writes_sub hostOps8 W hostOps8_writes h

end Cert.KernelIdeal.HostRead

end
-- ==== Proof.KI.LinF.lean ====
/-
  The linear layers as whole-array functions, entry by entry: (x [+ a])·W + b over the program's array shapes.
-/
import proofs.«110958_j70274254897753_1_alg».proof.Proof.Gen.KernelIdeal
import Idealize.ShloMosaic.Lib.ValueIdx
import Idealize.ShloMosaic.PureOps.Ideal

noncomputable section

namespace Cert.KernelIdeal.Regions

open Cert.KernelIdeal Idealize.ShloMosaic Idealize.ShloMosaic.ValueIdx

def linF0 (x a : S100000x10.Idx → EReal) (w : S10x128.Idx → EReal) (b : S1x128.Idx → EReal) : S100000x128.Idx → EReal :=
  fun i => (∑ cc : Fin 10, (x (ix2 (i 0) cc) + a (ix2 (i 0) cc)) * w (ix2 cc (i 1))) + b (ix2 0 (i 1))
def linF2 (x : S100000x128.Idx → EReal) (w : S128x128.Idx → EReal) (b : S1x128.Idx → EReal) : S100000x128.Idx → EReal :=
  fun i => (∑ cc : Fin 128, x (ix2 (i 0) cc) * w (ix2 cc (i 1))) + b (ix2 0 (i 1))
def linF4 (x a : S100000x128.Idx → EReal) (w : S128x128.Idx → EReal) (b : S1x128.Idx → EReal) : S100000x128.Idx → EReal :=
  fun i => (∑ cc : Fin 128, (x (ix2 (i 0) cc) + a (ix2 (i 0) cc)) * w (ix2 cc (i 1))) + b (ix2 0 (i 1))
def linF6 (x : S100000x128.Idx → EReal) (w : S128x128.Idx → EReal) (b : S1x128.Idx → EReal) : S100000x128.Idx → EReal :=
  fun i => (∑ cc : Fin 128, x (ix2 (i 0) cc) * w (ix2 cc (i 1))) + b (ix2 0 (i 1))

end Cert.KernelIdeal.Regions

end
-- ==== Proof.KI.StageLin.lean ====
/-
  The linear stages of the kernel's value chain.  Each linear region leaves three arrays: the layer's output y and
  the two running column sums Σ y and Σ y² over all 100000 rows.  Given that the region leaves the whole-array linear
  function of its entry arrays and its two column sums, and reading the entry arrays back through the host stretch in
  front of the region (the arguments as launched, the neighbour sum, the bias row), the three arrays are the network's
  x·W + b, its column sums and its column sums of squares.
-/
import proofs.«110958_j70274254897753_1_alg».proof.Proof.KI.Run
import proofs.«110958_j70274254897753_1_alg».proof.Proof.KI.Host
import proofs.«110958_j70274254897753_1_alg».proof.Proof.KI.LinF
import proofs.«110958_j70274254897753_1_alg».proof.Proof.Glue
import proofs.«110958_j70274254897753_1_alg».proof.Proof.Spec
import proofs.«110958_j70274254897753_1_alg».proof.Proof.Seg
import Idealize.ShloMosaic.Lib.ValueIdx

set_option maxRecDepth 16384

noncomputable section

namespace Cert.KernelIdeal.Regions

open Cert.KernelIdeal Cert.KernelIdeal.Gen Cert.KernelIdeal.HostRead
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The linear functions read at (i, q), and the three facts over any arrays -/

theorem linF0_at (x a : S100000x10.Idx → EReal) (w : S10x128.Idx → EReal) (b : S1x128.Idx → EReal) (i : Fin 100000) (q : Fin 128) :
    linF0 x a w b (ix2 i q) = (∑ cc : Fin 10, (x (ix2 i cc) + a (ix2 i cc)) * w (ix2 cc q)) + b (ix2 0 q) := rfl
theorem linF2_at (x : S100000x128.Idx → EReal) (w : S128x128.Idx → EReal) (b : S1x128.Idx → EReal) (i : Fin 100000) (q : Fin 128) :
    linF2 x w b (ix2 i q) = (∑ cc : Fin 128, x (ix2 i cc) * w (ix2 cc q)) + b (ix2 0 q) := rfl
theorem linF4_at (x a : S100000x128.Idx → EReal) (w : S128x128.Idx → EReal) (b : S1x128.Idx → EReal) (i : Fin 100000) (q : Fin 128) :
    linF4 x a w b (ix2 i q) = (∑ cc : Fin 128, (x (ix2 i cc) + a (ix2 i cc)) * w (ix2 cc q)) + b (ix2 0 q) := rfl
theorem linF6_at (x : S100000x128.Idx → EReal) (w : S128x128.Idx → EReal) (b : S1x128.Idx → EReal) (i : Fin 100000) (q : Fin 128) :
    linF6 x w b (ix2 i q) = (∑ cc : Fin 128, x (ix2 i cc) * w (ix2 cc q)) + b (ix2 0 q) := rfl

/-- (x + a)·W + b over arrays whose entries are those of matrices X, A, W, B is the network's linear layer of X + A. -/
theorem linF0_spec (x a : S100000x10.Idx → EReal) (w : S10x128.Idx → EReal) (b : S1x128.Idx → EReal)
    (X A : Cert.Spec.Mat 100000 10) (Wm : Cert.Spec.Mat 10 128) (B : Cert.Spec.Row 128)
    (hx : ∀ i cc, x (ix2 i cc) = X i cc) (ha : ∀ i cc, a (ix2 i cc) = A i cc)
    (hw : ∀ cc q, w (ix2 cc q) = Wm cc q) (hb : ∀ q, b (ix2 0 q) = B q) (i : Fin 100000) (q : Fin 128) :
    linF0 x a w b (ix2 i q) = Cert.Spec.lin (fun i k => X i k + A i k) Wm B i q := by
  rw [linF0_at]
  simp only [hx, ha, hw, hb]
  rfl
theorem linF4_spec (x a : S100000x128.Idx → EReal) (w : S128x128.Idx → EReal) (b : S1x128.Idx → EReal)
    (X A : Cert.Spec.Mat 100000 128) (Wm : Cert.Spec.Mat 128 128) (B : Cert.Spec.Row 128)
    (hx : ∀ i cc, x (ix2 i cc) = X i cc) (ha : ∀ i cc, a (ix2 i cc) = A i cc)
    (hw : ∀ cc q, w (ix2 cc q) = Wm cc q) (hb : ∀ q, b (ix2 0 q) = B q) (i : Fin 100000) (q : Fin 128) :
    linF4 x a w b (ix2 i q) = Cert.Spec.lin (fun i k => X i k + A i k) Wm B i q := by
  rw [linF4_at]
  simp only [hx, ha, hw, hb]
  rfl
theorem linF2_spec (x : S100000x128.Idx → EReal) (w : S128x128.Idx → EReal) (b : S1x128.Idx → EReal)
    (X : Cert.Spec.Mat 100000 128) (Wm : Cert.Spec.Mat 128 128) (B : Cert.Spec.Row 128)
    (hx : ∀ i cc, x (ix2 i cc) = X i cc)
    (hw : ∀ cc q, w (ix2 cc q) = Wm cc q) (hb : ∀ q, b (ix2 0 q) = B q) (i : Fin 100000) (q : Fin 128) :
    linF2 x w b (ix2 i q) = Cert.Spec.lin X Wm B i q := by
  rw [linF2_at]
  simp only [hx, hw, hb]
  rfl
theorem linF6_spec (x : S100000x128.Idx → EReal) (w : S128x128.Idx → EReal) (b : S1x128.Idx → EReal)
    (X : Cert.Spec.Mat 100000 128) (Wm : Cert.Spec.Mat 128 128) (B : Cert.Spec.Row 128)
    (hx : ∀ i cc, x (ix2 i cc) = X i cc)
    (hw : ∀ cc q, w (ix2 cc q) = Wm cc q) (hb : ∀ q, b (ix2 0 q) = B q) (i : Fin 100000) (q : Fin 128) :
    linF6 x w b (ix2 i q) = Cert.Spec.lin X Wm B i q := by
  rw [linF6_at]
  simp only [hx, hw, hb]
  rfl

/-- The three facts about a linear region's outputs, over any arrays: if the region leaves L in y and the column sums
    and column sums of squares of L (from the zero row) in s and sq, and L is the matrix Y entry by entry, then y is Y and
    s, sq are zero plus Y's column sums and column sums of squares. -/
theorem stage_of (y : S100000x128.Idx → EReal) (s sq : S1x128.Idx → EReal) (L : S100000x128.Idx → EReal)
    (Y : Cert.Spec.Mat 100000 128) (hL : ∀ i q, L (ix2 i q) = Y i q) (hY : y = L)
    (hS : ∀ q : Fin 128, s (ix2 0 q) = Ideal.ofBits .f32 0x00000000#32 + ∑ i : Fin 100000, L (ix2 i q))
    (hQ : ∀ q : Fin 128, sq (ix2 0 q) = Ideal.ofBits .f32 0x00000000#32 + ∑ i : Fin 100000, L (ix2 i q) * L (ix2 i q)) :
    (∀ i q, y (ix2 i q) = Y i q)
    ∧ (∀ q, s (ix2 0 q) = Cert.Spec.zer + Cert.Spec.colSum Y q)
    ∧ (∀ q, sq (ix2 0 q) = Cert.Spec.zer + Cert.Spec.colSumSq Y q) := by
  refine ⟨fun i q => ?_, fun q => ?_, fun q => ?_⟩
  · rw [hY, hL]
  · rw [hS q]
    simp only [hL]
    rfl
  · rw [hQ q]
    simp only [hL]
    rfl

/-! ## Region 0 -/

/-- Region 0's entry arrays: the features as launched. -/
theorem in0_x (c : Dev nD) (i : Fin 100000) (cc : Fin 10) :
    (V1 m ρ c main_arg0 : S100000x10.Idx → EReal) (ix2 i cc)
      = Cert.Glue.mat (m ((c : Thread nD τ).loc main_arg0) : S100000x10.Idx → EReal) i cc :=
  congrFun (h0_keep (W0 m ρ c) main_arg0 (by decide)) (ix2 i cc)

/-- The weights as launched. -/
theorem in0_w (c : Dev nD) (cc : Fin 10) (q : Fin 128) :
    (V1 m ρ c main_arg2 : S10x128.Idx → EReal) (ix2 cc q)
      = Cert.Glue.mat (m ((c : Thread nD τ).loc main_arg2) : S10x128.Idx → EReal) cc q :=
  congrFun (h0_keep (W0 m ρ c) main_arg2 (by decide)) (ix2 cc q)

/-- The neighbour sum of the features. -/
theorem in0_a (c : Dev nD) (i : Fin 100000) (cc : Fin 10) :
    (V1 m ρ c main_v13 : S100000x10.Idx → EReal) (ix2 i cc)
      = Cert.Seg.S 10 (m ((c : Thread nD τ).loc main_arg20))
          (Cert.Glue.mat (m ((c : Thread nD τ).loc main_arg0) : S100000x10.Idx → EReal)) i cc :=
  h0_sum (W0 m ρ c) i cc

/-- The bias row. -/
theorem in0_b (c : Dev nD) (q : Fin 128) :
    (V1 m ρ c main_v14 : S1x128.Idx → EReal) (ix2 0 q)
      = Cert.Glue.row (m ((c : Thread nD τ).loc main_arg3) : S128.Idx → EReal) q :=
  h0_bias (W0 m ρ c) q

/-- Region 0's linear function of its entry arrays, at (i, q), is the network's first linear layer. -/
theorem lin0_at (c : Dev nD) (i : Fin 100000) (q : Fin 128) :
    linF0 (V1 m ρ c main_arg0) (V1 m ρ c main_v13) (V1 m ρ c main_arg2) (V1 m ρ c main_v14) (ix2 i q)
      = Cert.Spec.lin
          (fun i k => Cert.Glue.mat (m ((c : Thread nD τ).loc main_arg0) : S100000x10.Idx → EReal) i k
            + Cert.Seg.S 10 (m ((c : Thread nD τ).loc main_arg20))
                (Cert.Glue.mat (m ((c : Thread nD τ).loc main_arg0) : S100000x10.Idx → EReal)) i k)
          (Cert.Glue.mat (m ((c : Thread nD τ).loc main_arg2) : S10x128.Idx → EReal))
          (Cert.Glue.row (m ((c : Thread nD τ).loc main_arg3) : S128.Idx → EReal)) i q :=
  linF0_spec (V1 m ρ c main_arg0) (V1 m ρ c main_v13) (V1 m ρ c main_arg2) (V1 m ρ c main_v14)
    (Cert.Glue.mat (m ((c : Thread nD τ).loc main_arg0) : S100000x10.Idx → EReal))
    (Cert.Seg.S 10 (m ((c : Thread nD τ).loc main_arg20))
      (Cert.Glue.mat (m ((c : Thread nD τ).loc main_arg0) : S100000x10.Idx → EReal)))
    (Cert.Glue.mat (m ((c : Thread nD τ).loc main_arg2) : S10x128.Idx → EReal))
    (Cert.Glue.row (m ((c : Thread nD τ).loc main_arg3) : S128.Idx → EReal))
    (in0_x m ρ c) (in0_a m ρ c) (in0_w m ρ c) (in0_b m ρ c) i q

theorem stage0 (c : Dev nD)
    (hY : (dat0 (V1 m ρ) c).arrAt 4 cfg0.N
      = linF0 (V1 m ρ c main_arg0) (V1 m ρ c main_v13) (V1 m ρ c main_arg2) (V1 m ρ c main_v14))
    (hS : ∀ q : Fin 128, ((dat0 (V1 m ρ) c).arrAt 5 cfg0.N : S1x128.Idx → EReal) (ix2 0 q)
      = Ideal.ofBits .f32 0x00000000#32
        + ∑ i : Fin 100000, linF0 (V1 m ρ c main_arg0) (V1 m ρ c main_v13) (V1 m ρ c main_arg2) (V1 m ρ c main_v14) (ix2 i q))
    (hQ : ∀ q : Fin 128, ((dat0 (V1 m ρ) c).arrAt 6 cfg0.N : S1x128.Idx → EReal) (ix2 0 q)
      = Ideal.ofBits .f32 0x00000000#32
        + ∑ i : Fin 100000, linF0 (V1 m ρ c main_arg0) (V1 m ρ c main_v13) (V1 m ρ c main_arg2) (V1 m ρ c main_v14) (ix2 i q)
            * linF0 (V1 m ρ c main_arg0) (V1 m ρ c main_v13) (V1 m ρ c main_arg2) (V1 m ρ c main_v14) (ix2 i q)) :
    let X := Cert.Glue.mat (m ((c : Thread nD τ).loc main_arg0) : S100000x10.Idx → EReal)
    let Y := Cert.Spec.lin (fun i k => X i k + Cert.Seg.S 10 (m ((c : Thread nD τ).loc main_arg20)) X i k)
      (Cert.Glue.mat (m ((c : Thread nD τ).loc main_arg2) : S10x128.Idx → EReal))
      (Cert.Glue.row (m ((c : Thread nD τ).loc main_arg3) : S128.Idx → EReal))
    (∀ i q, (W2 m ρ c (Proc.devRef .tc main_v15_0) : S100000x128.Idx → EReal) (ix2 i q) = Y i q)
    ∧ (∀ q, (W2 m ρ c (Proc.devRef .tc main_v15_1) : S1x128.Idx → EReal) (ix2 0 q) = Cert.Spec.zer + Cert.Spec.colSum Y q)
    ∧ (∀ q, (W2 m ρ c (Proc.devRef .tc main_v15_2) : S1x128.Idx → EReal) (ix2 0 q) = Cert.Spec.zer + Cert.Spec.colSumSq Y q) :=
  stage_of (W2 m ρ c (Proc.devRef .tc main_v15_0)) (W2 m ρ c (Proc.devRef .tc main_v15_1)) (W2 m ρ c (Proc.devRef .tc main_v15_2))
    (linF0 (V1 m ρ c main_arg0) (V1 m ρ c main_v13) (V1 m ρ c main_arg2) (V1 m ρ c main_v14))
    (Cert.Spec.lin
      (fun i k => Cert.Glue.mat (m ((c : Thread nD τ).loc main_arg0) : S100000x10.Idx → EReal) i k
        + Cert.Seg.S 10 (m ((c : Thread nD τ).loc main_arg20))
            (Cert.Glue.mat (m ((c : Thread nD τ).loc main_arg0) : S100000x10.Idx → EReal)) i k)
      (Cert.Glue.mat (m ((c : Thread nD τ).loc main_arg2) : S10x128.Idx → EReal))
      (Cert.Glue.row (m ((c : Thread nD τ).loc main_arg3) : S128.Idx → EReal)))
    (lin0_at m ρ c)
    ((W2_arr m ρ c 4).trans hY)
    (fun q => (congrFun (W2_arr m ρ c 5) (ix2 0 q)).trans (hS q))
    (fun q => (congrFun (W2_arr m ρ c 6) (ix2 0 q)).trans (hQ q))

/-! ## Region 2 -/

theorem W5_main_arg6 (c : Dev nD) : W5 m ρ c (Proc.devRef .tc main_arg6) = m ((c : Thread nD τ).loc main_arg6) :=
  (h2_keep (W4 m ρ c) main_arg6 (by decide)).trans <| (W4_of_ne m ρ c main_arg6 (by decide)).trans <| (h1_keep (W2 m ρ c) main_arg6 (by decide)).trans <| (W2_of_ne m ρ c main_arg6 (by decide)).trans <| (h0_keep (W0 m ρ c) main_arg6 (by decide))

theorem W4_main_arg7 (c : Dev nD) : W4 m ρ c (Proc.devRef .tc main_arg7) = m ((c : Thread nD τ).loc main_arg7) :=
  (W4_of_ne m ρ c main_arg7 (by decide)).trans <| (h1_keep (W2 m ρ c) main_arg7 (by decide)).trans <| (W2_of_ne m ρ c main_arg7 (by decide)).trans <| (h0_keep (W0 m ρ c) main_arg7 (by decide))

/-- Region 2's entry arrays: the activations found in region 1's output, the weights as launched, the bias row. -/
theorem in2_x (c : Dev nD) (Z : Cert.Spec.Mat 100000 128)
    (hz : ∀ i q, (W4 m ρ c (Proc.devRef .tc main_v24) : S100000x128.Idx → EReal) (ix2 i q) = Z i q)
    (i : Fin 100000) (cc : Fin 128) :
    (V5 m ρ c main_v24 : S100000x128.Idx → EReal) (ix2 i cc) = Z i cc :=
  (congrFun (h2_keep (W4 m ρ c) main_v24 (by decide)) (ix2 i cc)).trans (hz i cc)

theorem in2_w (c : Dev nD) (cc : Fin 128) (q : Fin 128) :
    (V5 m ρ c main_arg6 : S128x128.Idx → EReal) (ix2 cc q)
      = Cert.Glue.mat (m ((c : Thread nD τ).loc main_arg6) : S128x128.Idx → EReal) cc q :=
  congrFun (W5_main_arg6 m ρ c) (ix2 cc q)

theorem in2_b (c : Dev nD) (q : Fin 128) :
    (V5 m ρ c main_v25 : S1x128.Idx → EReal) (ix2 0 q)
      = Cert.Glue.row (m ((c : Thread nD τ).loc main_arg7) : S128.Idx → EReal) q :=
  (h2_bias (W4 m ρ c) q).trans (congrFun (W4_main_arg7 m ρ c) (ix1 q))

theorem stage2 (c : Dev nD) (Z : Cert.Spec.Mat 100000 128)
    (hz : ∀ i q, (W4 m ρ c (Proc.devRef .tc main_v24) : S100000x128.Idx → EReal) (ix2 i q) = Z i q)
    (hY : (dat2 (V5 m ρ) c).arrAt 3 cfg2.N
      = linF2 (V5 m ρ c main_v24) (V5 m ρ c main_arg6) (V5 m ρ c main_v25))
    (hS : ∀ q : Fin 128, ((dat2 (V5 m ρ) c).arrAt 4 cfg2.N : S1x128.Idx → EReal) (ix2 0 q)
      = Ideal.ofBits .f32 0x00000000#32
        + ∑ i : Fin 100000, linF2 (V5 m ρ c main_v24) (V5 m ρ c main_arg6) (V5 m ρ c main_v25) (ix2 i q))
    (hQ : ∀ q : Fin 128, ((dat2 (V5 m ρ) c).arrAt 5 cfg2.N : S1x128.Idx → EReal) (ix2 0 q)
      = Ideal.ofBits .f32 0x00000000#32
        + ∑ i : Fin 100000, linF2 (V5 m ρ c main_v24) (V5 m ρ c main_arg6) (V5 m ρ c main_v25) (ix2 i q)
            * linF2 (V5 m ρ c main_v24) (V5 m ρ c main_arg6) (V5 m ρ c main_v25) (ix2 i q)) :
    let Y := Cert.Spec.lin Z (Cert.Glue.mat (m ((c : Thread nD τ).loc main_arg6) : S128x128.Idx → EReal))
      (Cert.Glue.row (m ((c : Thread nD τ).loc main_arg7) : S128.Idx → EReal))
    (∀ i q, (W6 m ρ c (Proc.devRef .tc main_v26_0) : S100000x128.Idx → EReal) (ix2 i q) = Y i q)
    ∧ (∀ q, (W6 m ρ c (Proc.devRef .tc main_v26_1) : S1x128.Idx → EReal) (ix2 0 q) = Cert.Spec.zer + Cert.Spec.colSum Y q)
    ∧ (∀ q, (W6 m ρ c (Proc.devRef .tc main_v26_2) : S1x128.Idx → EReal) (ix2 0 q) = Cert.Spec.zer + Cert.Spec.colSumSq Y q) :=
  stage_of (W6 m ρ c (Proc.devRef .tc main_v26_0)) (W6 m ρ c (Proc.devRef .tc main_v26_1)) (W6 m ρ c (Proc.devRef .tc main_v26_2))
    (linF2 (V5 m ρ c main_v24) (V5 m ρ c main_arg6) (V5 m ρ c main_v25))
    (Cert.Spec.lin Z (Cert.Glue.mat (m ((c : Thread nD τ).loc main_arg6) : S128x128.Idx → EReal))
      (Cert.Glue.row (m ((c : Thread nD τ).loc main_arg7) : S128.Idx → EReal)))
    (linF2_spec (V5 m ρ c main_v24) (V5 m ρ c main_arg6) (V5 m ρ c main_v25) Z
      (Cert.Glue.mat (m ((c : Thread nD τ).loc main_arg6) : S128x128.Idx → EReal))
      (Cert.Glue.row (m ((c : Thread nD τ).loc main_arg7) : S128.Idx → EReal))
      (in2_x m ρ c Z hz) (in2_w m ρ c) (in2_b m ρ c))
    ((W6_arr m ρ c 3).trans hY)
    (fun q => (congrFun (W6_arr m ρ c 4) (ix2 0 q)).trans (hS q))
    (fun q => (congrFun (W6_arr m ρ c 5) (ix2 0 q)).trans (hQ q))

/-! ## Region 4 -/

theorem W9_main_arg10 (c : Dev nD) : W9 m ρ c (Proc.devRef .tc main_arg10) = m ((c : Thread nD τ).loc main_arg10) :=
  (h4_keep (W8 m ρ c) main_arg10 (by decide)).trans <| (W8_of_ne m ρ c main_arg10 (by decide)).trans <| (h3_keep (W6 m ρ c) main_arg10 (by decide)).trans <| (W6_of_ne m ρ c main_arg10 (by decide)).trans <| (h2_keep (W4 m ρ c) main_arg10 (by decide)).trans <| (W4_of_ne m ρ c main_arg10 (by decide)).trans <| (h1_keep (W2 m ρ c) main_arg10 (by decide)).trans <| (W2_of_ne m ρ c main_arg10 (by decide)).trans <| (h0_keep (W0 m ρ c) main_arg10 (by decide))

theorem W8_main_arg11 (c : Dev nD) : W8 m ρ c (Proc.devRef .tc main_arg11) = m ((c : Thread nD τ).loc main_arg11) :=
  (W8_of_ne m ρ c main_arg11 (by decide)).trans <| (h3_keep (W6 m ρ c) main_arg11 (by decide)).trans <| (W6_of_ne m ρ c main_arg11 (by decide)).trans <| (h2_keep (W4 m ρ c) main_arg11 (by decide)).trans <| (W4_of_ne m ρ c main_arg11 (by decide)).trans <| (h1_keep (W2 m ρ c) main_arg11 (by decide)).trans <| (W2_of_ne m ρ c main_arg11 (by decide)).trans <| (h0_keep (W0 m ρ c) main_arg11 (by decide))

/-- The two edge rows are cut from the edge array before region 0 and nothing writes them afterwards. -/
theorem W8_main_v1 (c : Dev nD) :
    (W8 m ρ c (Proc.devRef .tc main_v1) : S1600000.Idx → BitVec 32) = Cert.Seg.edgeRow0 (m ((c : Thread nD τ).loc main_arg20)) :=
  ((W8_of_ne m ρ c main_v1 (by decide)).trans <| (h3_keep (W6 m ρ c) main_v1 (by decide)).trans <| (W6_of_ne m ρ c main_v1 (by decide)).trans <| (h2_keep (W4 m ρ c) main_v1 (by decide)).trans <| (W4_of_ne m ρ c main_v1 (by decide)).trans <| (h1_keep (W2 m ρ c) main_v1 (by decide)).trans <| (W2_of_ne m ρ c main_v1 (by decide))).trans (h0_src (W0 m ρ c))
theorem W8_main_v3 (c : Dev nD) :
    (W8 m ρ c (Proc.devRef .tc main_v3) : S1600000.Idx → BitVec 32) = Cert.Seg.edgeRow1 (m ((c : Thread nD τ).loc main_arg20)) :=
  ((W8_of_ne m ρ c main_v3 (by decide)).trans <| (h3_keep (W6 m ρ c) main_v3 (by decide)).trans <| (W6_of_ne m ρ c main_v3 (by decide)).trans <| (h2_keep (W4 m ρ c) main_v3 (by decide)).trans <| (W4_of_ne m ρ c main_v3 (by decide)).trans <| (h1_keep (W2 m ρ c) main_v3 (by decide)).trans <| (W2_of_ne m ρ c main_v3 (by decide))).trans (h0_dst (W0 m ρ c))

/-- Region 4's entry arrays: the activations found in region 3's output, their neighbour sum, the weights, the bias row. -/
theorem in4_x (c : Dev nD) (Z : Cert.Spec.Mat 100000 128)
    (hz : ∀ i q, (W8 m ρ c (Proc.devRef .tc main_v35) : S100000x128.Idx → EReal) (ix2 i q) = Z i q)
    (i : Fin 100000) (cc : Fin 128) :
    (V9 m ρ c main_v35 : S100000x128.Idx → EReal) (ix2 i cc) = Z i cc :=
  (congrFun (h4_keep (W8 m ρ c) main_v35 (by decide)) (ix2 i cc)).trans (hz i cc)

theorem in4_a (c : Dev nD) (Z : Cert.Spec.Mat 100000 128)
    (hz : ∀ i q, (W8 m ρ c (Proc.devRef .tc main_v35) : S100000x128.Idx → EReal) (ix2 i q) = Z i q)
    (i : Fin 100000) (cc : Fin 128) :
    (V9 m ρ c main_v45 : S100000x128.Idx → EReal) (ix2 i cc)
      = Cert.Seg.S 128 (m ((c : Thread nD τ).loc main_arg20)) Z i cc :=
  (h4_sum (W8 m ρ c) (m ((c : Thread nD τ).loc main_arg20)) (W8_main_v1 m ρ c) (W8_main_v3 m ρ c) i cc).trans
    (congrArg (fun z => Cert.Seg.S 128 (m ((c : Thread nD τ).loc main_arg20)) z i cc)
      (funext fun i' => funext fun k' => hz i' k'))

theorem in4_w (c : Dev nD) (cc : Fin 128) (q : Fin 128) :
    (V9 m ρ c main_arg10 : S128x128.Idx → EReal) (ix2 cc q)
      = Cert.Glue.mat (m ((c : Thread nD τ).loc main_arg10) : S128x128.Idx → EReal) cc q :=
  congrFun (W9_main_arg10 m ρ c) (ix2 cc q)

theorem in4_b (c : Dev nD) (q : Fin 128) :
    (V9 m ρ c main_v46 : S1x128.Idx → EReal) (ix2 0 q)
      = Cert.Glue.row (m ((c : Thread nD τ).loc main_arg11) : S128.Idx → EReal) q :=
  (h4_bias (W8 m ρ c) q).trans (congrFun (W8_main_arg11 m ρ c) (ix1 q))

theorem stage4 (c : Dev nD) (Z : Cert.Spec.Mat 100000 128)
    (hz : ∀ i q, (W8 m ρ c (Proc.devRef .tc main_v35) : S100000x128.Idx → EReal) (ix2 i q) = Z i q)
    (hY : (dat4 (V9 m ρ) c).arrAt 4 cfg4.N
      = linF4 (V9 m ρ c main_v35) (V9 m ρ c main_v45) (V9 m ρ c main_arg10) (V9 m ρ c main_v46))
    (hS : ∀ q : Fin 128, ((dat4 (V9 m ρ) c).arrAt 5 cfg4.N : S1x128.Idx → EReal) (ix2 0 q)
      = Ideal.ofBits .f32 0x00000000#32
        + ∑ i : Fin 100000, linF4 (V9 m ρ c main_v35) (V9 m ρ c main_v45) (V9 m ρ c main_arg10) (V9 m ρ c main_v46) (ix2 i q))
    (hQ : ∀ q : Fin 128, ((dat4 (V9 m ρ) c).arrAt 6 cfg4.N : S1x128.Idx → EReal) (ix2 0 q)
      = Ideal.ofBits .f32 0x00000000#32
        + ∑ i : Fin 100000, linF4 (V9 m ρ c main_v35) (V9 m ρ c main_v45) (V9 m ρ c main_arg10) (V9 m ρ c main_v46) (ix2 i q)
            * linF4 (V9 m ρ c main_v35) (V9 m ρ c main_v45) (V9 m ρ c main_arg10) (V9 m ρ c main_v46) (ix2 i q)) :
    let Y := Cert.Spec.lin (fun i k => Z i k + Cert.Seg.S 128 (m ((c : Thread nD τ).loc main_arg20)) Z i k)
      (Cert.Glue.mat (m ((c : Thread nD τ).loc main_arg10) : S128x128.Idx → EReal))
      (Cert.Glue.row (m ((c : Thread nD τ).loc main_arg11) : S128.Idx → EReal))
    (∀ i q, (W10 m ρ c (Proc.devRef .tc main_v47_0) : S100000x128.Idx → EReal) (ix2 i q) = Y i q)
    ∧ (∀ q, (W10 m ρ c (Proc.devRef .tc main_v47_1) : S1x128.Idx → EReal) (ix2 0 q) = Cert.Spec.zer + Cert.Spec.colSum Y q)
    ∧ (∀ q, (W10 m ρ c (Proc.devRef .tc main_v47_2) : S1x128.Idx → EReal) (ix2 0 q) = Cert.Spec.zer + Cert.Spec.colSumSq Y q) :=
  stage_of (W10 m ρ c (Proc.devRef .tc main_v47_0)) (W10 m ρ c (Proc.devRef .tc main_v47_1)) (W10 m ρ c (Proc.devRef .tc main_v47_2))
    (linF4 (V9 m ρ c main_v35) (V9 m ρ c main_v45) (V9 m ρ c main_arg10) (V9 m ρ c main_v46))
    (Cert.Spec.lin (fun i k => Z i k + Cert.Seg.S 128 (m ((c : Thread nD τ).loc main_arg20)) Z i k)
      (Cert.Glue.mat (m ((c : Thread nD τ).loc main_arg10) : S128x128.Idx → EReal))
      (Cert.Glue.row (m ((c : Thread nD τ).loc main_arg11) : S128.Idx → EReal)))
    (linF4_spec (V9 m ρ c main_v35) (V9 m ρ c main_v45) (V9 m ρ c main_arg10) (V9 m ρ c main_v46) Z
      (Cert.Seg.S 128 (m ((c : Thread nD τ).loc main_arg20)) Z)
      (Cert.Glue.mat (m ((c : Thread nD τ).loc main_arg10) : S128x128.Idx → EReal))
      (Cert.Glue.row (m ((c : Thread nD τ).loc main_arg11) : S128.Idx → EReal))
      (in4_x m ρ c Z hz) (in4_a m ρ c Z hz) (in4_w m ρ c) (in4_b m ρ c))
    ((W10_arr m ρ c 4).trans hY)
    (fun q => (congrFun (W10_arr m ρ c 5) (ix2 0 q)).trans (hS q))
    (fun q => (congrFun (W10_arr m ρ c 6) (ix2 0 q)).trans (hQ q))

/-! ## Region 6 -/

theorem W13_main_arg14 (c : Dev nD) : W13 m ρ c (Proc.devRef .tc main_arg14) = m ((c : Thread nD τ).loc main_arg14) :=
  (h6_keep (W12 m ρ c) main_arg14 (by decide)).trans <| (W12_of_ne m ρ c main_arg14 (by decide)).trans <| (h5_keep (W10 m ρ c) main_arg14 (by decide)).trans <| (W10_of_ne m ρ c main_arg14 (by decide)).trans <| (h4_keep (W8 m ρ c) main_arg14 (by decide)).trans <| (W8_of_ne m ρ c main_arg14 (by decide)).trans <| (h3_keep (W6 m ρ c) main_arg14 (by decide)).trans <| (W6_of_ne m ρ c main_arg14 (by decide)).trans <| (h2_keep (W4 m ρ c) main_arg14 (by decide)).trans <| (W4_of_ne m ρ c main_arg14 (by decide)).trans <| (h1_keep (W2 m ρ c) main_arg14 (by decide)).trans <| (W2_of_ne m ρ c main_arg14 (by decide)).trans <| (h0_keep (W0 m ρ c) main_arg14 (by decide))

theorem W12_main_arg15 (c : Dev nD) : W12 m ρ c (Proc.devRef .tc main_arg15) = m ((c : Thread nD τ).loc main_arg15) :=
  (W12_of_ne m ρ c main_arg15 (by decide)).trans <| (h5_keep (W10 m ρ c) main_arg15 (by decide)).trans <| (W10_of_ne m ρ c main_arg15 (by decide)).trans <| (h4_keep (W8 m ρ c) main_arg15 (by decide)).trans <| (W8_of_ne m ρ c main_arg15 (by decide)).trans <| (h3_keep (W6 m ρ c) main_arg15 (by decide)).trans <| (W6_of_ne m ρ c main_arg15 (by decide)).trans <| (h2_keep (W4 m ρ c) main_arg15 (by decide)).trans <| (W4_of_ne m ρ c main_arg15 (by decide)).trans <| (h1_keep (W2 m ρ c) main_arg15 (by decide)).trans <| (W2_of_ne m ρ c main_arg15 (by decide)).trans <| (h0_keep (W0 m ρ c) main_arg15 (by decide))

/-- Region 6's entry arrays: the activations found in region 5's output, the weights as launched, the bias row. -/
theorem in6_x (c : Dev nD) (Z : Cert.Spec.Mat 100000 128)
    (hz : ∀ i q, (W12 m ρ c (Proc.devRef .tc main_v56) : S100000x128.Idx → EReal) (ix2 i q) = Z i q)
    (i : Fin 100000) (cc : Fin 128) :
    (V13 m ρ c main_v56 : S100000x128.Idx → EReal) (ix2 i cc) = Z i cc :=
  (congrFun (h6_keep (W12 m ρ c) main_v56 (by decide)) (ix2 i cc)).trans (hz i cc)

theorem in6_w (c : Dev nD) (cc : Fin 128) (q : Fin 128) :
    (V13 m ρ c main_arg14 : S128x128.Idx → EReal) (ix2 cc q)
      = Cert.Glue.mat (m ((c : Thread nD τ).loc main_arg14) : S128x128.Idx → EReal) cc q :=
  congrFun (W13_main_arg14 m ρ c) (ix2 cc q)

theorem in6_b (c : Dev nD) (q : Fin 128) :
    (V13 m ρ c main_v57 : S1x128.Idx → EReal) (ix2 0 q)
      = Cert.Glue.row (m ((c : Thread nD τ).loc main_arg15) : S128.Idx → EReal) q :=
  (h6_bias (W12 m ρ c) q).trans (congrFun (W12_main_arg15 m ρ c) (ix1 q))

theorem stage6 (c : Dev nD) (Z : Cert.Spec.Mat 100000 128)
    (hz : ∀ i q, (W12 m ρ c (Proc.devRef .tc main_v56) : S100000x128.Idx → EReal) (ix2 i q) = Z i q)
    (hY : (dat6 (V13 m ρ) c).arrAt 3 cfg6.N
      = linF6 (V13 m ρ c main_v56) (V13 m ρ c main_arg14) (V13 m ρ c main_v57))
    (hS : ∀ q : Fin 128, ((dat6 (V13 m ρ) c).arrAt 4 cfg6.N : S1x128.Idx → EReal) (ix2 0 q)
      = Ideal.ofBits .f32 0x00000000#32
        + ∑ i : Fin 100000, linF6 (V13 m ρ c main_v56) (V13 m ρ c main_arg14) (V13 m ρ c main_v57) (ix2 i q))
    (hQ : ∀ q : Fin 128, ((dat6 (V13 m ρ) c).arrAt 5 cfg6.N : S1x128.Idx → EReal) (ix2 0 q)
      = Ideal.ofBits .f32 0x00000000#32
        + ∑ i : Fin 100000, linF6 (V13 m ρ c main_v56) (V13 m ρ c main_arg14) (V13 m ρ c main_v57) (ix2 i q)
            * linF6 (V13 m ρ c main_v56) (V13 m ρ c main_arg14) (V13 m ρ c main_v57) (ix2 i q)) :
    let Y := Cert.Spec.lin Z (Cert.Glue.mat (m ((c : Thread nD τ).loc main_arg14) : S128x128.Idx → EReal))
      (Cert.Glue.row (m ((c : Thread nD τ).loc main_arg15) : S128.Idx → EReal))
    (∀ i q, (W14 m ρ c (Proc.devRef .tc main_v58_0) : S100000x128.Idx → EReal) (ix2 i q) = Y i q)
    ∧ (∀ q, (W14 m ρ c (Proc.devRef .tc main_v58_1) : S1x128.Idx → EReal) (ix2 0 q) = Cert.Spec.zer + Cert.Spec.colSum Y q)
    ∧ (∀ q, (W14 m ρ c (Proc.devRef .tc main_v58_2) : S1x128.Idx → EReal) (ix2 0 q) = Cert.Spec.zer + Cert.Spec.colSumSq Y q) :=
  stage_of (W14 m ρ c (Proc.devRef .tc main_v58_0)) (W14 m ρ c (Proc.devRef .tc main_v58_1)) (W14 m ρ c (Proc.devRef .tc main_v58_2))
    (linF6 (V13 m ρ c main_v56) (V13 m ρ c main_arg14) (V13 m ρ c main_v57))
    (Cert.Spec.lin Z (Cert.Glue.mat (m ((c : Thread nD τ).loc main_arg14) : S128x128.Idx → EReal))
      (Cert.Glue.row (m ((c : Thread nD τ).loc main_arg15) : S128.Idx → EReal)))
    (linF6_spec (V13 m ρ c main_v56) (V13 m ρ c main_arg14) (V13 m ρ c main_v57) Z
      (Cert.Glue.mat (m ((c : Thread nD τ).loc main_arg14) : S128x128.Idx → EReal))
      (Cert.Glue.row (m ((c : Thread nD τ).loc main_arg15) : S128.Idx → EReal))
      (in6_x m ρ c Z hz) (in6_w m ρ c) (in6_b m ρ c))
    ((W14_arr m ρ c 3).trans hY)
    (fun q => (congrFun (W14_arr m ρ c 4) (ix2 0 q)).trans (hS q))
    (fun q => (congrFun (W14_arr m ρ c 5) (ix2 0 q)).trans (hQ q))

end Cert.KernelIdeal.Regions

end
-- ==== Proof.KI.NormVal1.lean ====
/-
  What region 1 leaves in its output array.  Every block of 10000 rows is written back once, and together
  the ten blocks tile the array; block t of the output is the pointwise function
      max(γ_q · ((y_{p,q} − mean_q) · rsqrt(var_q + ε)) + β_q, 0)
  of block t of y and of the four rows, so the whole array is that function of the whole arrays.
-/
import proofs.«110958_j70274254897753_1_alg».proof.Proof.KI.Norm1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- A row broadcast down 10000 rows, read at an index: the row's entry in that column. -/
theorem rowcast1 (x : Vec Ideal S1x128 .f32) (j : S10000x128.Idx) :
    broadcastTo S10000x128 x broadcasts_S1x128_S10000x128 j = x (ix2 0 (j 1)) :=
  broadcastTo_apply x _ j (ix2 0 (j 1)) (fun a => by match a with | ⟨0, _⟩ => rfl | ⟨1, _⟩ => rfl)

/-- The normalised, scaled, shifted and clamped array, entry by entry. -/
def normF1 (y : S100000x128.Idx → EReal) (mean var g b : S1x128.Idx → EReal) : S100000x128.Idx → EReal :=
  fun i => max (g (ix2 0 (i 1)) * ((y i - mean (ix2 0 (i 1))) * Ideal.rsqrt (var (ix2 0 (i 1)) + Ideal.ofBits .f32 0x3727C5AC#32))
    + b (ix2 0 (i 1))) (Ideal.ofBits .f32 0x00000000#32)

/-- The body's one payload at an index of the block. -/
theorem pay1_at (v0 : Vec Ideal S1x128 .f32) (v5 : Vec Ideal S10000x128 .f32) (v7 v13 v17 : Vec Ideal S1x128 .f32) (j : S10000x128.Idx) :
    k1_pay1 (F := Ideal) v0 v5 v7 v13 v17 j
      = max (v13 (ix2 0 (j 1)) * ((v5 j - v7 (ix2 0 (j 1))) * Ideal.rsqrt (v0 (ix2 0 (j 1)) + Ideal.ofBits .f32 0x3727C5AC#32))
          + v17 (ix2 0 (j 1))) (Ideal.ofBits .f32 0x00000000#32) := by
  unfold k1_pay1
  simp only [shapeCast_self, maximumf_apply, addf_apply, mulf_apply, subf_apply]
  rw [rowcast1 v13 j, rowcast1 v7 j, rowcast1 v17 j, rowcast1 _ j]
  rfl

/-- Where each window's block sits at point t: the row-blocked windows at block row t, the four rows at the origin. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

set_option maxHeartbeats 4000000 in
/-- What point t writes back is block t of the normalised array. -/
theorem flushed1_eq (c : Dev nD) (t : Fin cfg1.N) :
    (dat1 V c).flushed 5 t = ((cfg1.win 5).blk t).view.read (Elt Ideal)
      (normF1 (V c main_v15_0) (V c main_v17) (V c main_v21) (V c main_v22) (V c main_v23)) := by
  show (cfg1.win 5).cut (grid1.coords t) ((dat1 V c).after 5 t) = _
  rw [after1_5]
  unfold out1_5
  rw [View.canon_unit_zero hz1]
  simp only [View.ld_unit_zero (S := S10000x128) hz1, View.ld_unit_zero (S := S1x128) hz1]
  obtain ⟨e0, e1, e2, e3, e4, e5, e6, e7, e8, e9, e10, e11⟩ := idx_facts1 t
  funext j
  show k1_pay1 (F := Ideal) (iblk1 V c 2 t) (iblk1 V c 0 t) (iblk1 V c 1 t) (iblk1 V c 3 t) (iblk1 V c 4 t) j
    = normF1 (V c main_v15_0) (V c main_v17) (V c main_v21) (V c main_v22) (V c main_v23) (((cfg1.win 5).blk t).view.emb j)
  rw [pay1_at]
  unfold normF1 iblk1
  simp only [View.read_apply]
  have h0 : ((cfg1.win 0).blk t).view.emb j = ((cfg1.win 5).blk t).view.emb j := by
    funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb (ix2 0 (j 1)) = ix2 0 ((((cfg1.win 5).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : ((cfg1.win 2).blk t).view.emb (ix2 0 (j 1)) = ix2 0 ((((cfg1.win 5).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : ((cfg1.win 3).blk t).view.emb (ix2 0 (j 1)) = ix2 0 ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 0 (j 1)) = ix2 0 ((((cfg1.win 5).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [h0, h1, h2, h3, h4]
  rfl

/-- An index of the array is in point t's block iff each coordinate is in the block's range. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v24).slice (win1_5.rect t)).set ↔ _
  rw [View.set_slice_whole, Rect.mem_set_unit]
  exact Iff.rfl

set_option maxHeartbeats 2000000 in
/-- The output array after the region: the normalised array, everywhere. -/
theorem final1 (c : Dev nD) : (dat1 V c).arrAt 5 cfg1.N
    = normF1 (V c main_v15_0) (V c main_v17) (V c main_v21) (V c main_v22) (V c main_v23) :=
  (dat1 V c).arrAt_eq_of_cover 5 _ (fun t _ => flushed1_eq V c t) fun i => by
    have hi0 : (i 0).val < 100000 := (i 0).isLt
    have hi1 : (i 1).val < 128 := (i 1).isLt
    have hN : cfg1.N = 10 := N_1
    refine ⟨⟨(i 0).val / 10000, by omega⟩, flush1_5 _, ?_⟩
    rw [mem_blk1]
    obtain ⟨e0, e1, e2, e3, -⟩ := idx_facts1 ⟨(i 0).val / 10000, by omega⟩
    intro a
    match a with
    | ⟨0, _⟩ => show win1_5.index _ (0 : Fin 2) * 10000 ≤ (i 0).val ∧ (i 0).val < win1_5.index _ (0 : Fin 2) * 10000 + 10000; rw [e2]; dsimp only; omega
    | ⟨1, _⟩ => show win1_5.index _ (1 : Fin 2) * 128 ≤ (i 1).val ∧ (i 1).val < win1_5.index _ (1 : Fin 2) * 128 + 128; rw [e3]; omega

end Cert.KernelIdeal.Regions

end
-- ==== Proof.KI.NormVal3.lean ====
/-
  What region 3 leaves in its output array.  Every block of 10000 rows is written back once, and together
  the ten blocks tile the array; block t of the output is the pointwise function
      max(γ_q · ((y_{p,q} − mean_q) · rsqrt(var_q + ε)) + β_q, 0)
  of block t of y and of the four rows, so the whole array is that function of the whole arrays.
-/
import proofs.«110958_j70274254897753_1_alg».proof.Proof.KI.Norm3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- A row broadcast down 10000 rows, read at an index: the row's entry in that column. -/
theorem rowcast3 (x : Vec Ideal S1x128 .f32) (j : S10000x128.Idx) :
    broadcastTo S10000x128 x broadcasts_S1x128_S10000x128 j = x (ix2 0 (j 1)) :=
  broadcastTo_apply x _ j (ix2 0 (j 1)) (fun a => by match a with | ⟨0, _⟩ => rfl | ⟨1, _⟩ => rfl)

/-- The normalised, scaled, shifted and clamped array, entry by entry. -/
def normF3 (y : S100000x128.Idx → EReal) (mean var g b : S1x128.Idx → EReal) : S100000x128.Idx → EReal :=
  fun i => max (g (ix2 0 (i 1)) * ((y i - mean (ix2 0 (i 1))) * Ideal.rsqrt (var (ix2 0 (i 1)) + Ideal.ofBits .f32 0x3727C5AC#32))
    + b (ix2 0 (i 1))) (Ideal.ofBits .f32 0x00000000#32)

/-- The body's one payload at an index of the block. -/
theorem pay3_at (v0 : Vec Ideal S1x128 .f32) (v5 : Vec Ideal S10000x128 .f32) (v7 v13 v17 : Vec Ideal S1x128 .f32) (j : S10000x128.Idx) :
    k3_pay1 (F := Ideal) v0 v5 v7 v13 v17 j
      = max (v13 (ix2 0 (j 1)) * ((v5 j - v7 (ix2 0 (j 1))) * Ideal.rsqrt (v0 (ix2 0 (j 1)) + Ideal.ofBits .f32 0x3727C5AC#32))
          + v17 (ix2 0 (j 1))) (Ideal.ofBits .f32 0x00000000#32) := by
  unfold k3_pay1
  simp only [shapeCast_self, maximumf_apply, addf_apply, mulf_apply, subf_apply]
  rw [rowcast3 v13 j, rowcast3 v7 j, rowcast3 v17 j, rowcast3 _ j]
  rfl

/-- Where each window's block sits at point t: the row-blocked windows at block row t, the four rows at the origin. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

set_option maxHeartbeats 4000000 in
/-- What point t writes back is block t of the normalised array. -/
theorem flushed3_eq (c : Dev nD) (t : Fin cfg3.N) :
    (dat3 V c).flushed 5 t = ((cfg3.win 5).blk t).view.read (Elt Ideal)
      (normF3 (V c main_v26_0) (V c main_v28) (V c main_v32) (V c main_v33) (V c main_v34)) := by
  show (cfg3.win 5).cut (grid3.coords t) ((dat3 V c).after 5 t) = _
  rw [after3_5]
  unfold out3_5
  rw [View.canon_unit_zero hz3]
  simp only [View.ld_unit_zero (S := S10000x128) hz3, View.ld_unit_zero (S := S1x128) hz3]
  obtain ⟨e0, e1, e2, e3, e4, e5, e6, e7, e8, e9, e10, e11⟩ := idx_facts3 t
  funext j
  show k3_pay1 (F := Ideal) (iblk3 V c 2 t) (iblk3 V c 0 t) (iblk3 V c 1 t) (iblk3 V c 3 t) (iblk3 V c 4 t) j
    = normF3 (V c main_v26_0) (V c main_v28) (V c main_v32) (V c main_v33) (V c main_v34) (((cfg3.win 5).blk t).view.emb j)
  rw [pay3_at]
  unfold normF3 iblk3
  simp only [View.read_apply]
  have h0 : ((cfg3.win 0).blk t).view.emb j = ((cfg3.win 5).blk t).view.emb j := by
    funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 128 + 1 * (j 1).val = win3_5.index t (1 : Fin 2) * 128 + 1 * (j 1).val; omega
  have h1 : ((cfg3.win 1).blk t).view.emb (ix2 0 (j 1)) = ix2 0 ((((cfg3.win 5).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_5.index t (1 : Fin 2) * 128 + 1 * (j 1).val; omega
  have h2 : ((cfg3.win 2).blk t).view.emb (ix2 0 (j 1)) = ix2 0 ((((cfg3.win 5).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_5.index t (1 : Fin 2) * 128 + 1 * (j 1).val; omega
  have h3 : ((cfg3.win 3).blk t).view.emb (ix2 0 (j 1)) = ix2 0 ((((cfg3.win 5).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  have h4 : ((cfg3.win 4).blk t).view.emb (ix2 0 (j 1)) = ix2 0 ((((cfg3.win 5).blk t).view.emb j) 1) := by
    funext a; apply Fin.ext
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega
  rw [h0, h1, h2, h3, h4]
  rfl

/-- An index of the array is in point t's block iff each coordinate is in the block's range. -/
theorem mem_blk3 (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v35).slice (win3_5.rect t)).set ↔ _
  rw [View.set_slice_whole, Rect.mem_set_unit]
  exact Iff.rfl

set_option maxHeartbeats 2000000 in
/-- The output array after the region: the normalised array, everywhere. -/
theorem final3 (c : Dev nD) : (dat3 V c).arrAt 5 cfg3.N
    = normF3 (V c main_v26_0) (V c main_v28) (V c main_v32) (V c main_v33) (V c main_v34) :=
  (dat3 V c).arrAt_eq_of_cover 5 _ (fun t _ => flushed3_eq V c t) fun i => by
    have hi0 : (i 0).val < 100000 := (i 0).isLt
    have hi1 : (i 1).val < 128 := (i 1).isLt
    have hN : cfg3.N = 10 := N_3
    refine ⟨⟨(i 0).val / 10000, by omega⟩, flush3_5 _, ?_⟩
    rw [mem_blk3]
    obtain ⟨e0, e1, e2, e3, -⟩ := idx_facts3 ⟨(i 0).val / 10000, by omega⟩
    intro a
    match a with
    | ⟨0, _⟩ => show win3_5.index _ (0 : Fin 2) * 10000 ≤ (i 0).val ∧ (i 0).val < win3_5.index _ (0 : Fin 2) * 10000 + 10000; rw [e2]; dsimp only; omega
    | ⟨1, _⟩ => show win3_5.index _ (1 : Fin 2) * 128 ≤ (i 1).val ∧ (i 1).val < win3_5.index _ (1 : Fin 2) * 128 + 128; rw [e3]; omega

end Cert.KernelIdeal.Regions

end
-- ==== Proof.KI.NormVal5.lean ====
/-
  What region 5 leaves in its output array.  Every block of 10000 rows is written back once, and together
  the ten blocks tile the array; block t of the output is the pointwise function
      max(γ_q · ((y_{p,q} − mean_q) · rsqrt(var_q + ε)) + β_q, 0)
  of block t of y and of the four rows, so the whole array is that function of the whole arrays.
-/
import proofs.«110958_j70274254897753_1_alg».proof.Proof.KI.Norm5
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- A row broadcast down 10000 rows, read at an index: the row's entry in that column. -/
theorem rowcast5 (x : Vec Ideal S1x128 .f32) (j : S10000x128.Idx) :
    broadcastTo S10000x128 x broadcasts_S1x128_S10000x128 j = x (ix2 0 (j 1)) :=
  broadcastTo_apply x _ j (ix2 0 (j 1)) (fun a => by match a with | ⟨0, _⟩ => rfl | ⟨1, _⟩ => rfl)

/-- The normalised, scaled, shifted and clamped array, entry by entry. -/
def normF5 (y : S100000x128.Idx → EReal) (mean var g b : S1x128.Idx → EReal) : S100000x128.Idx → EReal :=
  fun i => max (g (ix2 0 (i 1)) * ((y i - mean (ix2 0 (i 1))) * Ideal.rsqrt (var (ix2 0 (i 1)) + Ideal.ofBits .f32 0x3727C5AC#32))
    + b (ix2 0 (i 1))) (Ideal.ofBits .f32 0x00000000#32)

/-- The body's one payload at an index of the block. -/
theorem pay5_at (v0 : Vec Ideal S1x128 .f32) (v5 : Vec Ideal S10000x128 .f32) (v7 v13 v17 : Vec Ideal S1x128 .f32) (j : S10000x128.Idx) :
    k5_pay1 (F := Ideal) v0 v5 v7 v13 v17 j
      = max (v13 (ix2 0 (j 1)) * ((v5 j - v7 (ix2 0 (j 1))) * Ideal.rsqrt (v0 (ix2 0 (j 1)) + Ideal.ofBits .f32 0x3727C5AC#32))
          + v17 (ix2 0 (j 1))) (Ideal.ofBits .f32 0x00000000#32) := by
  unfold k5_pay1
  simp only [shapeCast_self, maximumf_apply, addf_apply, mulf_apply, subf_apply]
  rw [rowcast5 v13 j, rowcast5 v7 j, rowcast5 v17 j, rowcast5 _ j]
  rfl

/-- Where each window's block sits at point t: the row-blocked windows at block row t, the four rows at the origin. -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

set_option maxHeartbeats 4000000 in
/-- What point t writes back is block t of the normalised array. -/
theorem flushed5_eq (c : Dev nD) (t : Fin cfg5.N) :
    (dat5 V c).flushed 5 t = ((cfg5.win 5).blk t).view.read (Elt Ideal)
      (normF5 (V c main_v47_0) (V c main_v49) (V c main_v53) (V c main_v54) (V c main_v55)) := by
  show (cfg5.win 5).cut (grid5.coords t) ((dat5 V c).after 5 t) = _
  rw [after5_5]
  unfold out5_5
  rw [View.canon_unit_zero hz5]
  simp only [View.ld_unit_zero (S := S10000x128) hz5, View.ld_unit_zero (S := S1x128) hz5]
  obtain ⟨e0, e1, e2, e3, e4, e5, e6, e7, e8, e9, e10, e11⟩ := idx_facts5 t
  funext j
  show k5_pay1 (F := Ideal) (iblk5 V c 2 t) (iblk5 V c 0 t) (iblk5 V c 1 t) (iblk5 V c 3 t) (iblk5 V c 4 t) j
    = normF5 (V c main_v47_0) (V c main_v49) (V c main_v53) (V c main_v54) (V c main_v55) (((cfg5.win 5).blk t).view.emb j)
  rw [pay5_at]
  unfold normF5 iblk5
  simp only [View.read_apply]
  have h0 : ((cfg5.win 0).blk t).view.emb j = ((cfg5.win 5).blk t).view.emb j := by
    funext a; apply Fin.ext
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 128 + 1 * (j 1).val = win5_5.index t (1 : Fin 2) * 128 + 1 * (j 1).val; omega
  have h1 : ((cfg5.win 1).blk t).view.emb (ix2 0 (j 1)) = ix2 0 ((((cfg5.win 5).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  have h2 : ((cfg5.win 2).blk t).view.emb (ix2 0 (j 1)) = ix2 0 ((((cfg5.win 5).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  have h3 : ((cfg5.win 3).blk t).view.emb (ix2 0 (j 1)) = ix2 0 ((((cfg5.win 5).blk t).view.emb j) 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  have h4 : ((cfg5.win 4).blk t).view.emb (ix2 0 (j 1)) = ix2 0 ((((cfg5.win 5).blk t).view.emb j) 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega
  rw [h0, h1, h2, h3, h4]
  rfl

/-- An index of the array is in point t's block iff each coordinate is in the block's range. -/
theorem mem_blk5 (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v56).slice (win5_5.rect t)).set ↔ _
  rw [View.set_slice_whole, Rect.mem_set_unit]
  exact Iff.rfl

set_option maxHeartbeats 2000000 in
/-- The output array after the region: the normalised array, everywhere. -/
theorem final5 (c : Dev nD) : (dat5 V c).arrAt 5 cfg5.N
    = normF5 (V c main_v47_0) (V c main_v49) (V c main_v53) (V c main_v54) (V c main_v55) :=
  (dat5 V c).arrAt_eq_of_cover 5 _ (fun t _ => flushed5_eq V c t) fun i => by
    have hi0 : (i 0).val < 100000 := (i 0).isLt
    have hi1 : (i 1).val < 128 := (i 1).isLt
    have hN : cfg5.N = 10 := N_5
    refine ⟨⟨(i 0).val / 10000, by omega⟩, flush5_5 _, ?_⟩
    rw [mem_blk5]
    obtain ⟨e0, e1, e2, e3, -⟩ := idx_facts5 ⟨(i 0).val / 10000, by omega⟩
    intro a
    match a with
    | ⟨0, _⟩ => show win5_5.index _ (0 : Fin 2) * 10000 ≤ (i 0).val ∧ (i 0).val < win5_5.index _ (0 : Fin 2) * 10000 + 10000; rw [e2]; dsimp only; omega
    | ⟨1, _⟩ => show win5_5.index _ (1 : Fin 2) * 128 ≤ (i 1).val ∧ (i 1).val < win5_5.index _ (1 : Fin 2) * 128 + 128; rw [e3]; omega

end Cert.KernelIdeal.Regions

end
-- ==== Proof.KI.NormVal7.lean ====
/-
  What region 7 leaves in its output array.  Every block of 10000 rows is written back once, and together
  the ten blocks tile the array; block t of the output is the pointwise function
      max(γ_q · ((y_{p,q} − mean_q) · rsqrt(var_q + ε)) + β_q, 0)
  of block t of y and of the four rows, so the whole array is that function of the whole arrays.
-/
import proofs.«110958_j70274254897753_1_alg».proof.Proof.KI.Norm7
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- A row broadcast down 10000 rows, read at an index: the row's entry in that column. -/
theorem rowcast7 (x : Vec Ideal S1x128 .f32) (j : S10000x128.Idx) :
    broadcastTo S10000x128 x broadcasts_S1x128_S10000x128 j = x (ix2 0 (j 1)) :=
  broadcastTo_apply x _ j (ix2 0 (j 1)) (fun a => by match a with | ⟨0, _⟩ => rfl | ⟨1, _⟩ => rfl)

/-- The normalised, scaled, shifted and clamped array, entry by entry. -/
def normF7 (y : S100000x128.Idx → EReal) (mean var g b : S1x128.Idx → EReal) : S100000x128.Idx → EReal :=
  fun i => max (g (ix2 0 (i 1)) * ((y i - mean (ix2 0 (i 1))) * Ideal.rsqrt (var (ix2 0 (i 1)) + Ideal.ofBits .f32 0x3727C5AC#32))
    + b (ix2 0 (i 1))) (Ideal.ofBits .f32 0x00000000#32)

/-- The body's one payload at an index of the block. -/
theorem pay7_at (v0 : Vec Ideal S1x128 .f32) (v5 : Vec Ideal S10000x128 .f32) (v7 v13 v17 : Vec Ideal S1x128 .f32) (j : S10000x128.Idx) :
    k7_pay1 (F := Ideal) v0 v5 v7 v13 v17 j
      = max (v13 (ix2 0 (j 1)) * ((v5 j - v7 (ix2 0 (j 1))) * Ideal.rsqrt (v0 (ix2 0 (j 1)) + Ideal.ofBits .f32 0x3727C5AC#32))
          + v17 (ix2 0 (j 1))) (Ideal.ofBits .f32 0x00000000#32) := by
  unfold k7_pay1
  simp only [shapeCast_self, maximumf_apply, addf_apply, mulf_apply, subf_apply]
  rw [rowcast7 v13 j, rowcast7 v7 j, rowcast7 v17 j, rowcast7 _ j]
  rfl

/-- Where each window's block sits at point t: the row-blocked windows at block row t, the four rows at the origin. -/
theorem idx_facts7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

set_option maxHeartbeats 4000000 in
/-- What point t writes back is block t of the normalised array. -/
theorem flushed7_eq (c : Dev nD) (t : Fin cfg7.N) :
    (dat7 V c).flushed 5 t = ((cfg7.win 5).blk t).view.read (Elt Ideal)
      (normF7 (V c main_v58_0) (V c main_v60) (V c main_v64) (V c main_v65) (V c main_v66)) := by
  show (cfg7.win 5).cut (grid7.coords t) ((dat7 V c).after 5 t) = _
  rw [after7_5]
  unfold out7_5
  rw [View.canon_unit_zero hz7]
  simp only [View.ld_unit_zero (S := S10000x128) hz7, View.ld_unit_zero (S := S1x128) hz7]
  obtain ⟨e0, e1, e2, e3, e4, e5, e6, e7, e8, e9, e10, e11⟩ := idx_facts7 t
  funext j
  show k7_pay1 (F := Ideal) (iblk7 V c 2 t) (iblk7 V c 0 t) (iblk7 V c 1 t) (iblk7 V c 3 t) (iblk7 V c 4 t) j
    = normF7 (V c main_v58_0) (V c main_v60) (V c main_v64) (V c main_v65) (V c main_v66) (((cfg7.win 5).blk t).view.emb j)
  rw [pay7_at]
  unfold normF7 iblk7
  simp only [View.read_apply]
  have h0 : ((cfg7.win 0).blk t).view.emb j = ((cfg7.win 5).blk t).view.emb j := by
    funext a; apply Fin.ext
    match a with
    | ⟨0, _⟩ => show win7_0.index t (0 : Fin 2) * 10000 + 1 * (j 0).val = win7_5.index t (0 : Fin 2) * 10000 + 1 * (j 0).val; omega
    | ⟨1, _⟩ => show win7_0.index t (1 : Fin 2) * 128 + 1 * (j 1).val = win7_5.index t (1 : Fin 2) * 128 + 1 * (j 1).val; omega
  have h1 : ((cfg7.win 1).blk t).view.emb (ix2 0 (j 1)) = ix2 0 ((((cfg7.win 5).blk t).view.emb j) 1) := by
    funext a; apply Fin.ext
    match a with
    | ⟨0, _⟩ => show win7_1.index t (0 : Fin 2) * 1 + 1 * 0 = 0; omega
    | ⟨1, _⟩ => show win7_1.index t (1 : Fin 2) * 128 + 1 * (j 1).val = win7_5.index t (1 : Fin 2) * 128 + 1 * (j 1).val; omega
  have h2 : ((cfg7.win 2).blk t).view.emb (ix2 0 (j 1)) = ix2 0 ((((cfg7.win 5).blk t).view.emb j) 1) := by
    funext a; apply Fin.ext
    match a with
    | ⟨0, _⟩ => show win7_2.index t (0 : Fin 2) * 1 + 1 * 0 = 0; omega
    | ⟨1, _⟩ => show win7_2.index t (1 : Fin 2) * 128 + 1 * (j 1).val = win7_5.index t (1 : Fin 2) * 128 + 1 * (j 1).val; omega
  have h3 : ((cfg7.win 3).blk t).view.emb (ix2 0 (j 1)) = ix2 0 ((((cfg7.win 5).blk t).view.emb j) 1) := by
    funext a; apply Fin.ext
    match a with
    | ⟨0, _⟩ => show win7_3.index t (0 : Fin 2) * 1 + 1 * 0 = 0; omega
    | ⟨1, _⟩ => show win7_3.index t (1 : Fin 2) * 128 + 1 * (j 1).val = win7_5.index t (1 : Fin 2) * 128 + 1 * (j 1).val; omega
  have h4 : ((cfg7.win 4).blk t).view.emb (ix2 0 (j 1)) = ix2 0 ((((cfg7.win 5).blk t).view.emb j) 1) := by
    funext a; apply Fin.ext
    match a with
    | ⟨0, _⟩ => show win7_4.index t (0 : Fin 2) * 1 + 1 * 0 = 0; omega
    | ⟨1, _⟩ => show win7_4.index t (1 : Fin 2) * 128 + 1 * (j 1).val = win7_5.index t (1 : Fin 2) * 128 + 1 * (j 1).val; omega
  rw [h0, h1, h2, h3, h4]
  rfl

/-- An index of the array is in point t's block iff each coordinate is in the block's range. -/
theorem mem_blk7 (t : Fin cfg7.N) (i : S100000x128.Idx) :
    i ∈ ((cfg7.win 5).blk t).view.set ↔ ∀ a : Fin 2, win7_5.index t a * S10000x128.size a ≤ (i a).val ∧ (i a).val < win7_5.index t a * S10000x128.size a + S10000x128.size a := by
  show i ∈ ((View.whole main_v67).slice (win7_5.rect t)).set ↔ _
  rw [View.set_slice_whole, Rect.mem_set_unit]
  exact Iff.rfl

set_option maxHeartbeats 2000000 in
/-- The output array after the region: the normalised array, everywhere. -/
theorem final7 (c : Dev nD) : (dat7 V c).arrAt 5 cfg7.N
    = normF7 (V c main_v58_0) (V c main_v60) (V c main_v64) (V c main_v65) (V c main_v66) :=
  (dat7 V c).arrAt_eq_of_cover 5 _ (fun t _ => flushed7_eq V c t) fun i => by
    have hi0 : (i 0).val < 100000 := (i 0).isLt
    have hi1 : (i 1).val < 128 := (i 1).isLt
    have hN : cfg7.N = 10 := N_7
    refine ⟨⟨(i 0).val / 10000, by omega⟩, flush7_5 _, ?_⟩
    rw [mem_blk7]
    obtain ⟨e0, e1, e2, e3, -⟩ := idx_facts7 ⟨(i 0).val / 10000, by omega⟩
    intro a
    match a with
    | ⟨0, _⟩ => show win7_5.index _ (0 : Fin 2) * 10000 ≤ (i 0).val ∧ (i 0).val < win7_5.index _ (0 : Fin 2) * 10000 + 10000; rw [e2]; dsimp only; omega
    | ⟨1, _⟩ => show win7_5.index _ (1 : Fin 2) * 128 ≤ (i 1).val ∧ (i 1).val < win7_5.index _ (1 : Fin 2) * 128 + 128; rw [e3]; omega

end Cert.KernelIdeal.Regions

end
-- ==== Proof.KI.PayAt.lean ====
/-
  The kernels' arithmetic read at one index.  Each kernel body's value is a pure expression over the vectors it has
  loaded; here every such expression is read at explicit coordinates (p, q) as the formula it denotes on extended reals:
  a linear layer is the sum over the contracted coordinate plus the bias row, a running column sum is the carried row plus
  the sum over the 10000 rows of the block, and the last kernel is the row-wise log-softmax of its linear layer.
-/
import Idealize.ShloMosaic.Lib.ValueIdx
import Idealize.ShloMosaic.Lib.ValueLayout
import Idealize.ShloMosaic.Lib.Pipeline.Value
import Idealize.ShloMosaic.PureOps.Ideal.Laws
import proofs.«110958_j70274254897753_1_alg».proof.Proof.Gen.KernelIdeal.Skeleton

noncomputable section

namespace Cert.KernelIdeal.PayAt

open Cert.KernelIdeal Cert.KernelIdeal.Gen Idealize.ShloMosaic Idealize.ShloMosaic.ValueIdx

theorem mm128_l0 (i : S10000x128.Idx) (k : dot_S10000x128_S128x128_S10000x128_1_0_0_1_n_n.contr.Idx) : (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem mm128_l1 (i : S10000x128.Idx) (k : dot_S10000x128_S128x128_S10000x128_1_0_0_1_n_n.contr.Idx) : (dot_S10000x128_S128x128_S10000x128_1_0_0_1_n_n.lhsIdx i k 1).val = (k ⟨0, by decide⟩).val :=
  dot_S10000x128_S128x128_S10000x128_1_0_0_1_n_n.lhsIdx_val_of_single rfl i k
theorem mm128_r0 (i : S10000x128.Idx) (k : dot_S10000x128_S128x128_S10000x128_1_0_0_1_n_n.contr.Idx) : (dot_S10000x128_S128x128_S10000x128_1_0_0_1_n_n.rhsIdx i k 0).val = (k ⟨0, by decide⟩).val :=
  dot_S10000x128_S128x128_S10000x128_1_0_0_1_n_n.rhsIdx_val_of_single rfl i k
theorem mm128_r1 (i : S10000x128.Idx) (k : dot_S10000x128_S128x128_S10000x128_1_0_0_1_n_n.contr.Idx) : (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product into the zero accumulator, read at (p, q): the sum over the contracted coordinate. -/
theorem mm128_at (x : FVec Ideal S10000x128 .f32) (w : FVec Ideal S128x128 .f32) (p : Fin 10000) (q : Fin 128) :
    matmul dot_S10000x128_S128x128_S10000x128_1_0_0_1_n_n none x w (constant (F := Ideal) S10000x128 .f32 0x00000000#32) (ix2 p q)
      = ∑ c : Fin 128, x (ix2 p c) * w (ix2 c q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact mm128_l0 _ _
      | ⟨1, _⟩ => exact (mm128_l1 _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (mm128_r0 _ _).trans hk
      | ⟨1, _⟩ => exact mm128_r1 _ _)
  rw [el, er]

theorem mm10_l0 (i : S10000x128.Idx) (k : dot_S10000x10_S10x128_S10000x128_1_0_0_1_n_n.contr.Idx) : (dot_S10000x10_S10x128_S10000x128_1_0_0_1_n_n.lhsIdx i k 0).val = (i 0).val := by
  unfold DotDims.lhsIdx
  rw [dif_neg (show ¬(0 : Fin S10000x10.rank) ∈ dot_S10000x10_S10x128_S10000x128_1_0_0_1_n_n.lhsBatch by decide),
    dif_pos (show (0 : Fin S10000x10.rank) ∈ dot_S10000x10_S10x128_S10000x128_1_0_0_1_n_n.lhsNonContracting by decide)]
  rfl
theorem mm10_l1 (i : S10000x128.Idx) (k : dot_S10000x10_S10x128_S10000x128_1_0_0_1_n_n.contr.Idx) : (dot_S10000x10_S10x128_S10000x128_1_0_0_1_n_n.lhsIdx i k 1).val = (k ⟨0, by decide⟩).val :=
  dot_S10000x10_S10x128_S10000x128_1_0_0_1_n_n.lhsIdx_val_of_single rfl i k
theorem mm10_r0 (i : S10000x128.Idx) (k : dot_S10000x10_S10x128_S10000x128_1_0_0_1_n_n.contr.Idx) : (dot_S10000x10_S10x128_S10000x128_1_0_0_1_n_n.rhsIdx i k 0).val = (k ⟨0, by decide⟩).val :=
  dot_S10000x10_S10x128_S10000x128_1_0_0_1_n_n.rhsIdx_val_of_single rfl i k
theorem mm10_r1 (i : S10000x128.Idx) (k : dot_S10000x10_S10x128_S10000x128_1_0_0_1_n_n.contr.Idx) : (dot_S10000x10_S10x128_S10000x128_1_0_0_1_n_n.rhsIdx i k 1).val = (i 1).val := by
  unfold DotDims.rhsIdx
  rw [dif_neg (show ¬(1 : Fin S10x128.rank) ∈ dot_S10000x10_S10x128_S10000x128_1_0_0_1_n_n.rhsBatch by decide),
    dif_pos (show (1 : Fin S10x128.rank) ∈ dot_S10000x10_S10x128_S10000x128_1_0_0_1_n_n.rhsNonContracting by decide)]
  rfl

/-- The product into the zero accumulator, read at (p, q): the sum over the contracted coordinate. -/
theorem mm10_at (x : FVec Ideal S10000x10 .f32) (w : FVec Ideal S10x128 .f32) (p : Fin 10000) (q : Fin 128) :
    matmul dot_S10000x10_S10x128_S10000x128_1_0_0_1_n_n none x w (constant (F := Ideal) S10000x128 .f32 0x00000000#32) (ix2 p q)
      = ∑ c : Fin 10, x (ix2 p c) * w (ix2 c q) := by
  simp only [matmul]
  rw [Ideal.matmul_constant_zero_apply, ← Equiv.sum_comp (contrEquiv1 dot_S10000x10_S10x128_S10000x128_1_0_0_1_n_n 10 rfl rfl).symm]
  refine Finset.sum_congr rfl fun k _ => ?_
  have hk := contrEquiv1_symm_val dot_S10000x10_S10x128_S10000x128_1_0_0_1_n_n 10 rfl rfl k
  have el : dot_S10000x10_S10x128_S10000x128_1_0_0_1_n_n.lhsIdx (ix2 p q) ((contrEquiv1 dot_S10000x10_S10x128_S10000x128_1_0_0_1_n_n 10 rfl rfl).symm k) = ix2 p k :=
    funext fun a => Fin.ext (by
      match a with
      | ⟨0, _⟩ => exact mm10_l0 _ _
      | ⟨1, _⟩ => exact (mm10_l1 _ _).trans hk)
  have er : dot_S10000x10_S10x128_S10000x128_1_0_0_1_n_n.rhsIdx (ix2 p q) ((contrEquiv1 dot_S10000x10_S10x128_S10000x128_1_0_0_1_n_n 10 rfl rfl).symm k) = ix2 k q :=
    funext fun a => Fin.ext (by
      match a with
      | ⟨0, _⟩ => exact (mm10_r0 _ _).trans hk
      | ⟨1, _⟩ => exact mm10_r1 _ _)
  rw [el, er]

theorem mmF_l0 (i : S10000x10.Idx) (k : dot_S10000x128_S128x10_S10000x10_1_0_0_1_n_n.contr.Idx) : (dot_S10000x128_S128x10_S10000x10_1_0_0_1_n_n.lhsIdx i k 0).val = (i 0).val := by
  unfold DotDims.lhsIdx
  rw [dif_neg (show ¬(0 : Fin S10000x128.rank) ∈ dot_S10000x128_S128x10_S10000x10_1_0_0_1_n_n.lhsBatch by decide),
    dif_pos (show (0 : Fin S10000x128.rank) ∈ dot_S10000x128_S128x10_S10000x10_1_0_0_1_n_n.lhsNonContracting by decide)]
  rfl
theorem mmF_l1 (i : S10000x10.Idx) (k : dot_S10000x128_S128x10_S10000x10_1_0_0_1_n_n.contr.Idx) : (dot_S10000x128_S128x10_S10000x10_1_0_0_1_n_n.lhsIdx i k 1).val = (k ⟨0, by decide⟩).val :=
  dot_S10000x128_S128x10_S10000x10_1_0_0_1_n_n.lhsIdx_val_of_single rfl i k
theorem mmF_r0 (i : S10000x10.Idx) (k : dot_S10000x128_S128x10_S10000x10_1_0_0_1_n_n.contr.Idx) : (dot_S10000x128_S128x10_S10000x10_1_0_0_1_n_n.rhsIdx i k 0).val = (k ⟨0, by decide⟩).val :=
  dot_S10000x128_S128x10_S10000x10_1_0_0_1_n_n.rhsIdx_val_of_single rfl i k
theorem mmF_r1 (i : S10000x10.Idx) (k : dot_S10000x128_S128x10_S10000x10_1_0_0_1_n_n.contr.Idx) : (dot_S10000x128_S128x10_S10000x10_1_0_0_1_n_n.rhsIdx i k 1).val = (i 1).val := by
  unfold DotDims.rhsIdx
  rw [dif_neg (show ¬(1 : Fin S128x10.rank) ∈ dot_S10000x128_S128x10_S10000x10_1_0_0_1_n_n.rhsBatch by decide),
    dif_pos (show (1 : Fin S128x10.rank) ∈ dot_S10000x128_S128x10_S10000x10_1_0_0_1_n_n.rhsNonContracting by decide)]
  rfl

/-- The product into the zero accumulator, read at (p, q): the sum over the contracted coordinate. -/
theorem mmF_at (x : FVec Ideal S10000x128 .f32) (w : FVec Ideal S128x10 .f32) (p : Fin 10000) (q : Fin 10) :
    matmul dot_S10000x128_S128x10_S10000x10_1_0_0_1_n_n none x w (constant (F := Ideal) S10000x10 .f32 0x00000000#32) (ix2 p q)
      = ∑ c : Fin 128, x (ix2 p c) * w (ix2 c q) := by
  simp only [matmul]
  rw [Ideal.matmul_constant_zero_apply, ← Equiv.sum_comp (contrEquiv1 dot_S10000x128_S128x10_S10000x10_1_0_0_1_n_n 128 rfl rfl).symm]
  refine Finset.sum_congr rfl fun k _ => ?_
  have hk := contrEquiv1_symm_val dot_S10000x128_S128x10_S10000x10_1_0_0_1_n_n 128 rfl rfl k
  have el : dot_S10000x128_S128x10_S10000x10_1_0_0_1_n_n.lhsIdx (ix2 p q) ((contrEquiv1 dot_S10000x128_S128x10_S10000x10_1_0_0_1_n_n 128 rfl rfl).symm k) = ix2 p k :=
    funext fun a => Fin.ext (by
      match a with
      | ⟨0, _⟩ => exact mmF_l0 _ _
      | ⟨1, _⟩ => exact (mmF_l1 _ _).trans hk)
  have er : dot_S10000x128_S128x10_S10000x10_1_0_0_1_n_n.rhsIdx (ix2 p q) ((contrEquiv1 dot_S10000x128_S128x10_S10000x10_1_0_0_1_n_n 128 rfl rfl).symm k) = ix2 k q :=
    funext fun a => Fin.ext (by
      match a with
      | ⟨0, _⟩ => exact (mmF_r0 _ _).trans hk
      | ⟨1, _⟩ => exact mmF_r1 _ _)
  rw [el, er]

/-- The bias row [1,128] broadcast down the 10000 rows, read at (p, q), is the row at (0, q). -/
theorem bias128_at (b : Vec Ideal S1x128 .f32) (p : Fin 10000) (q : Fin 128) :
    broadcastTo S10000x128 b broadcasts_S1x128_S10000x128 (ix2 p q) = b (ix2 0 q) := by
  refine broadcastTo_apply b broadcasts_S1x128_S10000x128 (ix2 p q) (ix2 0 q) fun a => ?_
  match a with
  | ⟨0, _⟩ => rfl
  | ⟨1, _⟩ => rfl

/-- A [128] row viewed as a [1,128] block, read at (0, q), is the row at q. -/
theorem row128_at (x : FVec Ideal S128 .f32) (q : Fin 128) :
    shapeCast S1x128 x shapeCasts_S128_S1x128 (ix2 0 q) = x (ix1 q) := by
  refine (shapeCast_addUnit_apply ![128] x shapeCasts_S128_S1x128 (ix2 0 q)).trans (congrArg x ?_)
  funext a
  match a with
  | ⟨0, _⟩ => rfl

/-- The sum over the rows of a [10000,128] block, read at column q. -/
theorem colsum_at (x : FVec Ideal S10000x128 .f32) (q : Fin 128) :
    multiReduction (F := Ideal) .add [0] S128 x 0x00000000#32 reduces_S10000x128_S128 (.inl rfl) rfl (ix1 q)
      = ∑ p : Fin 10000, x (ix2 p q) := by
  rw [Ideal.multiReduction_add_single x 0x00000000#32 reduces_S10000x128_S128 (.inl rfl) rfl (ix1 q)]
  refine Finset.sum_congr rfl fun k _ => congrArg x ?_
  funext a
  refine Fin.ext ?_
  match a with
  | ⟨0, _⟩ => rfl
  | ⟨1, _⟩ => rfl

/-- The bias row [1,10] broadcast down the 10000 rows, read at (p, q), is the row at (0, q). -/
theorem bias10_at (b : Vec Ideal S1x10 .f32) (p : Fin 10000) (q : Fin 10) :
    broadcastTo S10000x10 b broadcasts_S1x10_S10000x10 (ix2 p q) = b (ix2 0 q) := by
  refine broadcastTo_apply b broadcasts_S1x10_S10000x10 (ix2 p q) (ix2 0 q) fun a => ?_
  match a with
  | ⟨0, _⟩ => rfl
  | ⟨1, _⟩ => rfl

/-- A [10000,1] column broadcast across the 10 classes, read at (p, q), is the column at (p, 0). -/
theorem col10_at (y : FVec Ideal S10000x1 .f32) (p : Fin 10000) (q : Fin 10) :
    broadcastTo S10000x10 y broadcasts_S10000x1_S10000x10 (ix2 p q) = y (ix2 p 0) := by
  refine broadcastTo_apply y broadcasts_S10000x1_S10000x10 (ix2 p q) (ix2 p 0) fun a => ?_
  match a with
  | ⟨0, _⟩ => rfl
  | ⟨1, _⟩ => rfl

/-- A [10000] vector viewed as a [10000,1] column, read at (p, 0), is the vector at p. -/
theorem col1_at (x : FVec Ideal S10000 .f32) (p : Fin 10000) :
    shapeCast S10000x1 x shapeCasts_S10000_S10000x1 (ix2 p 0) = x (ix1 p) := by
  refine shapeCast_apply x shapeCasts_S10000_S10000x1 (ix2 p 0) (ix1 p) ?_
  rw [Shape.rowMajor_val_one, Shape.rowMajor_val_two]
  show p.val = p.val * 1 + 0
  omega

/-- The maximum along a row of a [10000,10] block: the fold of max from minus infinity over the 10 classes. -/
theorem rowmax_at (x : FVec Ideal S10000x10 .f32) (p : Fin 10000) :
    multiReduction (F := Ideal) .maximumf [1] S10000 x 0xFF800000#32 reduces_S10000x10_S10000 (.inl rfl) rfl (ix1 p)
      = (Finset.univ : Finset (Fin 10)).fold max (Ideal.ofBits .f32 0xFF800000#32) (fun q => x (ix2 p q)) := by
  rw [Ideal.multiReduction_maximumf_single x 0xFF800000#32 reduces_S10000x10_S10000 (.inl rfl) rfl (ix1 p)]
  refine congrArg (fun f => (Finset.univ : Finset (Fin 10)).fold max (Ideal.ofBits .f32 0xFF800000#32) f) ?_
  funext k
  refine congrArg x ?_
  funext a
  refine Fin.ext ?_
  match a with
  | ⟨0, _⟩ => rfl
  | ⟨1, _⟩ => rfl

/-- The sum along a row of a [10000,10] block. -/
theorem rowsum_at (x : FVec Ideal S10000x10 .f32) (p : Fin 10000) :
    multiReduction (F := Ideal) .add [1] S10000 x 0x00000000#32 reduces_S10000x10_S10000 (.inl rfl) rfl (ix1 p)
      = ∑ c : Fin 10, x (ix2 p c) := by
  rw [Ideal.multiReduction_add_single x 0x00000000#32 reduces_S10000x10_S10000 (.inl rfl) rfl (ix1 p)]
  refine Finset.sum_congr rfl fun k _ => congrArg x ?_
  funext a
  refine Fin.ext ?_
  match a with
  | ⟨0, _⟩ => rfl
  | ⟨1, _⟩ => rfl

/-- The linear layer of kernel 0 at (p, q): (x + S x)·W + b, ten input features. -/
theorem k0_pay3_at (v3 v4 : Vec Ideal S10000x10 .f32) (v7 : Vec Ideal S10x128 .f32) (v9 : Vec Ideal S1x128 .f32)
    (p : Fin 10000) (q : Fin 128) :
    k0_pay3 (F := Ideal) v3 v4 v7 v9 (ix2 p q)
      = (∑ c : Fin 10, (v3 (ix2 p c) + v4 (ix2 p c)) * v7 (ix2 c q)) + v9 (ix2 0 q) := by
  unfold k0_pay3
  simp only [shapeCast_self]
  rw [addf_apply, mm10_at, bias128_at]
  rfl

/-- Kernel 0's running column sum: the carried row plus the block's column sums. -/
theorem k0_pay4_at (v3 v4 : Vec Ideal S10000x10 .f32) (v7 : Vec Ideal S10x128 .f32) (v9 : Vec Ideal S1x128 .f32) (v : Vec Ideal S1x128 .f32) (q : Fin 128) :
    k0_pay4 (F := Ideal) v3 v4 v7 v9 v (ix2 0 q) = v (ix2 0 q) + ∑ p : Fin 10000, k0_pay3 (F := Ideal) v3 v4 v7 v9 (ix2 p q) := by
  unfold k0_pay4
  simp only [shapeCast_self]
  rw [addf_apply, row128_at, colsum_at]

/-- Kernel 0's running column sum of squares. -/
theorem k0_pay5_at (v3 v4 : Vec Ideal S10000x10 .f32) (v7 : Vec Ideal S10x128 .f32) (v9 : Vec Ideal S1x128 .f32) (v : Vec Ideal S1x128 .f32) (q : Fin 128) :
    k0_pay5 (F := Ideal) v3 v4 v7 v9 v (ix2 0 q)
      = v (ix2 0 q) + ∑ p : Fin 10000, k0_pay3 (F := Ideal) v3 v4 v7 v9 (ix2 p q) * k0_pay3 (F := Ideal) v3 v4 v7 v9 (ix2 p q) := by
  unfold k0_pay5
  simp only [shapeCast_self]
  rw [addf_apply, row128_at, colsum_at]
  rfl

/-- Kernel 0's two reset rows are zero rows. -/
theorem k0_pay1_at (q : Fin 128) : k0_pay1 (F := Ideal) (ix2 0 q) = Ideal.ofBits .f32 0x00000000#32 := by
  unfold k0_pay1
  simp only [shapeCast_self]
  rfl
theorem k0_pay2_at (q : Fin 128) : k0_pay2 (F := Ideal) (ix2 0 q) = Ideal.ofBits .f32 0x00000000#32 := by
  unfold k0_pay2
  simp only [shapeCast_self]
  rfl

/-- The linear layer of kernel 2 at (p, q): x·W + b. -/
theorem k2_pay3_at (v3 : Vec Ideal S10000x128 .f32) (v5 : Vec Ideal S128x128 .f32) (v7 : Vec Ideal S1x128 .f32)
    (p : Fin 10000) (q : Fin 128) :
    k2_pay3 (F := Ideal) v3 v5 v7 (ix2 p q)
      = (∑ c : Fin 128, v3 (ix2 p c) * v5 (ix2 c q)) + v7 (ix2 0 q) := by
  unfold k2_pay3
  simp only [shapeCast_self]
  rw [addf_apply, mm128_at, bias128_at]

/-- Kernel 2's running column sum: the carried row plus the block's column sums. -/
theorem k2_pay4_at (v3 : Vec Ideal S10000x128 .f32) (v5 : Vec Ideal S128x128 .f32) (v7 : Vec Ideal S1x128 .f32) (v : Vec Ideal S1x128 .f32) (q : Fin 128) :
    k2_pay4 (F := Ideal) v3 v5 v7 v (ix2 0 q) = v (ix2 0 q) + ∑ p : Fin 10000, k2_pay3 (F := Ideal) v3 v5 v7 (ix2 p q) := by
  unfold k2_pay4
  simp only [shapeCast_self]
  rw [addf_apply, row128_at, colsum_at]

/-- Kernel 2's running column sum of squares. -/
theorem k2_pay5_at (v3 : Vec Ideal S10000x128 .f32) (v5 : Vec Ideal S128x128 .f32) (v7 : Vec Ideal S1x128 .f32) (v : Vec Ideal S1x128 .f32) (q : Fin 128) :
    k2_pay5 (F := Ideal) v3 v5 v7 v (ix2 0 q)
      = v (ix2 0 q) + ∑ p : Fin 10000, k2_pay3 (F := Ideal) v3 v5 v7 (ix2 p q) * k2_pay3 (F := Ideal) v3 v5 v7 (ix2 p q) := by
  unfold k2_pay5
  simp only [shapeCast_self]
  rw [addf_apply, row128_at, colsum_at]
  rfl

/-- Kernel 2's two reset rows are zero rows. -/
theorem k2_pay1_at (q : Fin 128) : k2_pay1 (F := Ideal) (ix2 0 q) = Ideal.ofBits .f32 0x00000000#32 := by
  unfold k2_pay1
  simp only [shapeCast_self]
  rfl
theorem k2_pay2_at (q : Fin 128) : k2_pay2 (F := Ideal) (ix2 0 q) = Ideal.ofBits .f32 0x00000000#32 := by
  unfold k2_pay2
  simp only [shapeCast_self]
  rfl

/-- The linear layer of kernel 4 at (p, q): (h + S h)·W + b. -/
theorem k4_pay3_at (v3 v5 : Vec Ideal S10000x128 .f32) (v8 : Vec Ideal S128x128 .f32) (v10 : Vec Ideal S1x128 .f32)
    (p : Fin 10000) (q : Fin 128) :
    k4_pay3 (F := Ideal) v3 v5 v8 v10 (ix2 p q)
      = (∑ c : Fin 128, (v3 (ix2 p c) + v5 (ix2 p c)) * v8 (ix2 c q)) + v10 (ix2 0 q) := by
  unfold k4_pay3
  simp only [shapeCast_self]
  rw [addf_apply, mm128_at, bias128_at]
  rfl

/-- Kernel 4's running column sum: the carried row plus the block's column sums. -/
theorem k4_pay4_at (v3 v5 : Vec Ideal S10000x128 .f32) (v8 : Vec Ideal S128x128 .f32) (v10 : Vec Ideal S1x128 .f32) (v : Vec Ideal S1x128 .f32) (q : Fin 128) :
    k4_pay4 (F := Ideal) v3 v5 v8 v10 v (ix2 0 q) = v (ix2 0 q) + ∑ p : Fin 10000, k4_pay3 (F := Ideal) v3 v5 v8 v10 (ix2 p q) := by
  unfold k4_pay4
  simp only [shapeCast_self]
  rw [addf_apply, row128_at, colsum_at]

/-- Kernel 4's running column sum of squares. -/
theorem k4_pay5_at (v3 v5 : Vec Ideal S10000x128 .f32) (v8 : Vec Ideal S128x128 .f32) (v10 : Vec Ideal S1x128 .f32) (v : Vec Ideal S1x128 .f32) (q : Fin 128) :
    k4_pay5 (F := Ideal) v3 v5 v8 v10 v (ix2 0 q)
      = v (ix2 0 q) + ∑ p : Fin 10000, k4_pay3 (F := Ideal) v3 v5 v8 v10 (ix2 p q) * k4_pay3 (F := Ideal) v3 v5 v8 v10 (ix2 p q) := by
  unfold k4_pay5
  simp only [shapeCast_self]
  rw [addf_apply, row128_at, colsum_at]
  rfl

/-- Kernel 4's two reset rows are zero rows. -/
theorem k4_pay1_at (q : Fin 128) : k4_pay1 (F := Ideal) (ix2 0 q) = Ideal.ofBits .f32 0x00000000#32 := by
  unfold k4_pay1
  simp only [shapeCast_self]
  rfl
theorem k4_pay2_at (q : Fin 128) : k4_pay2 (F := Ideal) (ix2 0 q) = Ideal.ofBits .f32 0x00000000#32 := by
  unfold k4_pay2
  simp only [shapeCast_self]
  rfl

/-- The linear layer of kernel 6 at (p, q): x·W + b. -/
theorem k6_pay3_at (v3 : Vec Ideal S10000x128 .f32) (v5 : Vec Ideal S128x128 .f32) (v7 : Vec Ideal S1x128 .f32)
    (p : Fin 10000) (q : Fin 128) :
    k6_pay3 (F := Ideal) v3 v5 v7 (ix2 p q)
      = (∑ c : Fin 128, v3 (ix2 p c) * v5 (ix2 c q)) + v7 (ix2 0 q) := by
  unfold k6_pay3
  simp only [shapeCast_self]
  rw [addf_apply, mm128_at, bias128_at]

/-- Kernel 6's running column sum: the carried row plus the block's column sums. -/
theorem k6_pay4_at (v3 : Vec Ideal S10000x128 .f32) (v5 : Vec Ideal S128x128 .f32) (v7 : Vec Ideal S1x128 .f32) (v : Vec Ideal S1x128 .f32) (q : Fin 128) :
    k6_pay4 (F := Ideal) v3 v5 v7 v (ix2 0 q) = v (ix2 0 q) + ∑ p : Fin 10000, k6_pay3 (F := Ideal) v3 v5 v7 (ix2 p q) := by
  unfold k6_pay4
  simp only [shapeCast_self]
  rw [addf_apply, row128_at, colsum_at]

/-- Kernel 6's running column sum of squares. -/
theorem k6_pay5_at (v3 : Vec Ideal S10000x128 .f32) (v5 : Vec Ideal S128x128 .f32) (v7 : Vec Ideal S1x128 .f32) (v : Vec Ideal S1x128 .f32) (q : Fin 128) :
    k6_pay5 (F := Ideal) v3 v5 v7 v (ix2 0 q)
      = v (ix2 0 q) + ∑ p : Fin 10000, k6_pay3 (F := Ideal) v3 v5 v7 (ix2 p q) * k6_pay3 (F := Ideal) v3 v5 v7 (ix2 p q) := by
  unfold k6_pay5
  simp only [shapeCast_self]
  rw [addf_apply, row128_at, colsum_at]
  rfl

/-- Kernel 6's two reset rows are zero rows. -/
theorem k6_pay1_at (q : Fin 128) : k6_pay1 (F := Ideal) (ix2 0 q) = Ideal.ofBits .f32 0x00000000#32 := by
  unfold k6_pay1
  simp only [shapeCast_self]
  rfl
theorem k6_pay2_at (q : Fin 128) : k6_pay2 (F := Ideal) (ix2 0 q) = Ideal.ofBits .f32 0x00000000#32 := by
  unfold k6_pay2
  simp only [shapeCast_self]
  rfl

/-- The row-wise log-softmax of a [10000,10] block, as the kernel spells it, read at (p, q). -/
theorem lsm_at (y : FVec Ideal S10000x10 .f32) (p : Fin 10000) (q : Fin 10) :
    subf
      (subf y
        (broadcastTo S10000x10
          (shapeCast S10000x1
            (multiReduction (F := Ideal) .maximumf [1] S10000 y 0xFF800000#32 reduces_S10000x10_S10000 (.inl rfl) rfl)
            shapeCasts_S10000_S10000x1)
          broadcasts_S10000x1_S10000x10))
      (broadcastTo S10000x10
        (log
          (shapeCast S10000x1
            (multiReduction (F := Ideal) .add [1] S10000
              (exp
                (subf y
                  (broadcastTo S10000x10
                    (shapeCast S10000x1
                      (multiReduction (F := Ideal) .maximumf [1] S10000 y 0xFF800000#32 reduces_S10000x10_S10000 (.inl rfl) rfl)
                      shapeCasts_S10000_S10000x1)
                    broadcasts_S10000x1_S10000x10)))
              0x00000000#32 reduces_S10000x10_S10000 (.inl rfl) rfl)
            shapeCasts_S10000_S10000x1))
        broadcasts_S10000x1_S10000x10)
      (ix2 p q)
    = (y (ix2 p q) - (Finset.univ : Finset (Fin 10)).fold max (Ideal.ofBits .f32 0xFF800000#32) (fun q' => y (ix2 p q')))
        - Ideal.log (∑ c : Fin 10, Ideal.exp
            (y (ix2 p c) - (Finset.univ : Finset (Fin 10)).fold max (Ideal.ofBits .f32 0xFF800000#32) (fun q' => y (ix2 p q')))) := by
  have hmx : ∀ c : Fin 10,
      broadcastTo S10000x10
          (shapeCast S10000x1
            (multiReduction (F := Ideal) .maximumf [1] S10000 y 0xFF800000#32 reduces_S10000x10_S10000 (.inl rfl) rfl)
            shapeCasts_S10000_S10000x1)
          broadcasts_S10000x1_S10000x10 (ix2 p c)
        = (Finset.univ : Finset (Fin 10)).fold max (Ideal.ofBits .f32 0xFF800000#32) (fun q' => y (ix2 p q')) := by
    intro c
    rw [col10_at, col1_at, rowmax_at]
  rw [subf_apply, subf_apply, hmx, col10_at]
  show _ - Ideal.log (shapeCast S10000x1 _ shapeCasts_S10000_S10000x1 (ix2 p 0)) = _
  rw [col1_at, rowsum_at]
  refine congrArg (fun s => _ - Ideal.log s) (Finset.sum_congr rfl fun c _ => ?_)
  show Ideal.exp (subf y _ (ix2 p c)) = _
  rw [subf_apply, hmx]

/-- The last kernel's linear layer at (p, q). -/
theorem lin8_at (v0 : FVec Ideal S10000x128 .f32) (v2 : FVec Ideal S128x10 .f32) (v4 : Vec Ideal S1x10 .f32)
    (p : Fin 10000) (q : Fin 10) :
    addf (matmul dot_S10000x128_S128x10_S10000x10_1_0_0_1_n_n none v0 v2 (constant (F := Ideal) S10000x10 .f32 0x00000000#32))
        (broadcastTo S10000x10 v4 broadcasts_S1x10_S10000x10) (ix2 p q)
      = (∑ c : Fin 128, v0 (ix2 p c) * v2 (ix2 c q)) + v4 (ix2 0 q) := by
  rw [addf_apply, mmF_at, bias10_at]

/-- The last kernel at (p, q): the row-wise log-softmax of x·W + b, the row shifted by its maximum. -/
theorem k8_pay1_at (v0 : Vec Ideal S10000x128 .f32) (v2 : Vec Ideal S128x10 .f32) (v4 : Vec Ideal S1x10 .f32)
    (p : Fin 10000) (q : Fin 10) :
    k8_pay1 (F := Ideal) v0 v2 v4 (ix2 p q)
      = (((∑ c : Fin 128, v0 (ix2 p c) * v2 (ix2 c q)) + v4 (ix2 0 q))
          - (Finset.univ : Finset (Fin 10)).fold max (Ideal.ofBits .f32 0xFF800000#32)
              (fun q' => (∑ c : Fin 128, v0 (ix2 p c) * v2 (ix2 c q')) + v4 (ix2 0 q')))
        - Ideal.log (∑ c' : Fin 10, Ideal.exp
            (((∑ c : Fin 128, v0 (ix2 p c) * v2 (ix2 c c')) + v4 (ix2 0 c'))
              - (Finset.univ : Finset (Fin 10)).fold max (Ideal.ofBits .f32 0xFF800000#32)
                  (fun q' => (∑ c : Fin 128, v0 (ix2 p c) * v2 (ix2 c q')) + v4 (ix2 0 q')))) := by
  unfold k8_pay1
  simp only [shapeCast_self]
  rw [lsm_at]
  simp only [lin8_at]

end Cert.KernelIdeal.PayAt

end
-- ==== Proof.KI.FinalVal8.lean ====
/-
  What region 8 leaves in its output array.  Every block of 10000 rows is written back once, and together the ten
  blocks tile the array; block t of the output is the row-wise log-softmax of (block t of h)·W + b, so the whole array
  is the row-wise log-softmax of h·W + b.
-/
import proofs.«110958_j70274254897753_1_alg».proof.Proof.KI.Final8
import proofs.«110958_j70274254897753_1_alg».proof.Proof.KI.PayAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen Cert.KernelIdeal.PayAt
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-- The row-wise log-softmax of h·W + b, entry by entry: each row shifted by its maximum. -/
def lsmF8 (h : S100000x128.Idx → EReal) (w : S128x10.Idx → EReal) (b : S1x10.Idx → EReal) : S100000x10.Idx → EReal :=
  fun i =>
    (((∑ c : Fin 128, h (ix2 (i 0) c) * w (ix2 c (i 1))) + b (ix2 0 (i 1)))
        - (Finset.univ : Finset (Fin 10)).fold max (Ideal.ofBits .f32 0xFF800000#32)
            (fun q' => (∑ c : Fin 128, h (ix2 (i 0) c) * w (ix2 c q')) + b (ix2 0 q')))
      - Ideal.log (∑ c' : Fin 10, Ideal.exp
          (((∑ c : Fin 128, h (ix2 (i 0) c) * w (ix2 c c')) + b (ix2 0 c'))
            - (Finset.univ : Finset (Fin 10)).fold max (Ideal.ofBits .f32 0xFF800000#32)
                (fun q' => (∑ c : Fin 128, h (ix2 (i 0) c) * w (ix2 c q')) + b (ix2 0 q'))))

/-- Where each window's block sits at point t: the row-blocked windows at block row t, the weights and the bias at the origin. -/
theorem idx_facts8 : ∀ t : Fin cfg8.N, win8_0.index t (0 : Fin 2) = t.val ∧ win8_0.index t (1 : Fin 2) = 0
    ∧ win8_3.index t (0 : Fin 2) = t.val ∧ win8_3.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

/-- Row p of block t is row t·10000 + p of the array. -/
theorem row8_lt (t : Fin cfg8.N) (p : Fin 10000) : t.val * 10000 + p.val < 100000 := by
  have ht : t.val < 10 := lt_of_lt_of_eq t.isLt N_8
  have hp := p.isLt
  omega

/-- Block t of h, read at (p, c): h at row t·10000 + p. -/
theorem blk8_0_at (c : Dev nD) (t : Fin cfg8.N) (p : Fin 10000) (cc : Fin 128) :
    iblk8 V c 0 t (ix2 p cc) = V c main_v67 (ix2 ⟨t.val * 10000 + p.val, row8_lt t p⟩ cc) := by
  obtain ⟨e0, e1, -⟩ := idx_facts8 t
  unfold iblk8
  rw [View.read_apply]
  refine congrArg (V c main_v67) ?_
  funext a
  apply Fin.ext
  match a with
  | ⟨0, _⟩ => show win8_0.index t (0 : Fin 2) * 10000 + 1 * p.val = t.val * 10000 + p.val; omega
  | ⟨1, _⟩ => show win8_0.index t (1 : Fin 2) * 128 + 1 * cc.val = cc.val; omega

/-- The weights' one block is the whole array. -/
theorem blk8_1_at (c : Dev nD) (t : Fin cfg8.N) (cc : Fin 128) (q : Fin 10) :
    iblk8 V c 1 t (ix2 cc q) = V c main_arg18 (ix2 cc q) := by
  obtain ⟨-, -, -, -, e4, e5, -⟩ := idx_facts8 t
  unfold iblk8
  rw [View.read_apply]
  refine congrArg (V c main_arg18) ?_
  funext a
  apply Fin.ext
  match a with
  | ⟨0, _⟩ => show win8_1.index t (0 : Fin 2) * 128 + 1 * cc.val = cc.val; omega
  | ⟨1, _⟩ => show win8_1.index t (1 : Fin 2) * 10 + 1 * q.val = q.val; omega

/-- The bias' one block is the whole row. -/
theorem blk8_2_at (c : Dev nD) (t : Fin cfg8.N) (q : Fin 10) :
    iblk8 V c 2 t (ix2 0 q) = V c main_v68 (ix2 0 q) := by
  obtain ⟨-, -, -, -, -, -, e6, e7⟩ := idx_facts8 t
  unfold iblk8
  rw [View.read_apply]
  refine congrArg (V c main_v68) ?_
  funext a
  apply Fin.ext
  match a with
  | ⟨0, _⟩ => show win8_2.index t (0 : Fin 2) * 1 + 1 * 0 = 0; omega
  | ⟨1, _⟩ => show win8_2.index t (1 : Fin 2) * 10 + 1 * q.val = q.val; omega

/-- Block t of the output, at (p, q), sits at row t·10000 + p, column q of the array. -/
theorem emb8_3_at (t : Fin cfg8.N) (p : Fin 10000) (q : Fin 10) :
    ((cfg8.win 3).blk t).view.emb (ix2 p q) = ix2 ⟨t.val * 10000 + p.val, row8_lt t p⟩ q := by
  obtain ⟨-, -, e2, e3, -⟩ := idx_facts8 t
  funext a
  apply Fin.ext
  match a with
  | ⟨0, _⟩ => show win8_3.index t (0 : Fin 2) * 10000 + 1 * p.val = t.val * 10000 + p.val; omega
  | ⟨1, _⟩ => show win8_3.index t (1 : Fin 2) * 10 + 1 * q.val = q.val; omega

set_option maxHeartbeats 4000000 in
/-- What point t writes back is block t of the log-softmax array. -/
theorem flushed8_eq (c : Dev nD) (t : Fin cfg8.N) :
    (dat8 V c).flushed 3 t = ((cfg8.win 3).blk t).view.read (Elt Ideal)
      (lsmF8 (V c main_v67) (V c main_arg18) (V c main_v68)) := by
  show (cfg8.win 3).cut (grid8.coords t) ((dat8 V c).after 3 t) = _
  rw [after8_3]
  unfold out8_3
  rw [View.canon_unit_zero hz8]
  simp only [View.ld_unit_zero (S := S10000x128) hz8, View.ld_unit_zero (S := S128x10) hz8,
    View.ld_unit_zero (S := S1x10) hz8]
  funext j
  obtain ⟨p, q, rfl⟩ : ∃ (p : Fin 10000) (q : Fin 10), j = ix2 p q := ⟨j 0, j 1, eq_ix2 j⟩
  show k8_pay1 (F := Ideal) (iblk8 V c 0 t) (iblk8 V c 1 t) (iblk8 V c 2 t) (ix2 p q)
    = lsmF8 (V c main_v67) (V c main_arg18) (V c main_v68) (((cfg8.win 3).blk t).view.emb (ix2 p q))
  rw [k8_pay1_at, emb8_3_at]
  simp only [blk8_0_at, blk8_1_at, blk8_2_at]
  rfl

/-- An index of the array is in point t's block iff each coordinate is in the block's range. -/
theorem mem_blk8 (t : Fin cfg8.N) (i : S100000x10.Idx) :
    i ∈ ((cfg8.win 3).blk t).view.set ↔ ∀ a : Fin 2, win8_3.index t a * S10000x10.size a ≤ (i a).val ∧ (i a).val < win8_3.index t a * S10000x10.size a + S10000x10.size a := by
  show i ∈ ((View.whole main_v69).slice (win8_3.rect t)).set ↔ _
  rw [View.set_slice_whole, Rect.mem_set_unit]
  exact Iff.rfl

set_option maxHeartbeats 2000000 in
/-- The output array after the region: the log-softmax array, everywhere. -/
theorem final8 (c : Dev nD) : (dat8 V c).arrAt 3 cfg8.N
    = lsmF8 (V c main_v67) (V c main_arg18) (V c main_v68) :=
  (dat8 V c).arrAt_eq_of_cover 3 _ (fun t _ => flushed8_eq V c t) fun i => by
    have hi0 : (i 0).val < 100000 := (i 0).isLt
    have hi1 : (i 1).val < 10 := (i 1).isLt
    have hN : cfg8.N = 10 := N_8
    refine ⟨⟨(i 0).val / 10000, by omega⟩, flush8_3 _, ?_⟩
    rw [mem_blk8]
    obtain ⟨-, -, e2, e3, -⟩ := idx_facts8 ⟨(i 0).val / 10000, by omega⟩
    intro a
    match a with
    | ⟨0, _⟩ => show win8_3.index _ (0 : Fin 2) * 10000 ≤ (i 0).val ∧ (i 0).val < win8_3.index _ (0 : Fin 2) * 10000 + 10000; rw [e2]; dsimp only; omega
    | ⟨1, _⟩ => show win8_3.index _ (1 : Fin 2) * 10 ≤ (i 1).val ∧ (i 1).val < win8_3.index _ (1 : Fin 2) * 10 + 10; rw [e3]; omega

end Cert.KernelIdeal.Regions

end
-- ==== Proof.KI.StageNorm.lean ====
/-
  The normalising regions and the last region of the program's value chain.

  A normalising region reads the linear layer's output y with its two column sums.  The stretch of host
  operations before it forms the mean (Σ y)/N and the one-pass variance (Σ y²)/N − ((Σ y)/N)² and views the
  scale and shift vectors as rows; the region then writes, entry by entry,
      max(γ_q · ((y_{i,q} − mean_q) · rsqrt(var_q + ε)) + β_q, 0).
  The running sums were started from zero, and zero plus a sum is the sum, so this is the batch normalisation
  of y in the one-pass spelling, with the launched scale and shift vectors: no earlier stretch or region
  writes an argument array.

  The last region writes the row-wise log-softmax of h·W + b, each row shifted by its maximum, with the launched
  weights and bias.
-/
import proofs.«110958_j70274254897753_1_alg».proof.Proof.KI.Run
import proofs.«110958_j70274254897753_1_alg».proof.Proof.KI.Host
import proofs.«110958_j70274254897753_1_alg».proof.Proof.KI.NormVal1
import proofs.«110958_j70274254897753_1_alg».proof.Proof.KI.NormVal3
import proofs.«110958_j70274254897753_1_alg».proof.Proof.KI.NormVal5
import proofs.«110958_j70274254897753_1_alg».proof.Proof.KI.NormVal7
import proofs.«110958_j70274254897753_1_alg».proof.Proof.KI.FinalVal8
import proofs.«110958_j70274254897753_1_alg».proof.Proof.Glue
import proofs.«110958_j70274254897753_1_alg».proof.Proof.Spec
import proofs.«110958_j70274254897753_1_alg».proof.Proof.Math.NetEq

set_option maxRecDepth 16384

noncomputable section

namespace Cert.KernelIdeal.Regions

open Cert.KernelIdeal Cert.KernelIdeal.Gen Cert.KernelIdeal.HostRead
open Idealize.ShloMosaic Idealize.ShloMosaic.TcCoe Idealize.ShloMosaic.ValueIdx

variable (m : (ℓ : Loc nD τ sig) → Buf (Elt Ideal) ℓ) (ρ : Dev nD → PrngReg)

/-! ## The arithmetic, over arbitrary arrays -/

/-- The mean from the running sum: the sum started from zero, divided by the number of rows. -/
theorem mean_of {s : EReal} (Y : Cert.Spec.Mat 100000 128) (q : Fin 128)
    (hs : s = Cert.Spec.zer + Cert.Spec.colSum Y q) :
    Ideal.div s (Ideal.ofBits .f32 0x47C35000#32) = Cert.Spec.mean Y q := by
  rw [hs, Cert.Spec.zer_eq, zero_add]
  rfl

/-- The one-pass variance from the two running sums. -/
theorem varK_of {s1 s2 : EReal} (Y : Cert.Spec.Mat 100000 128) (q : Fin 128)
    (h1 : s1 = Cert.Spec.zer + Cert.Spec.colSum Y q) (h2 : s2 = Cert.Spec.zer + Cert.Spec.colSumSq Y q) :
    Ideal.div s2 (Ideal.ofBits .f32 0x47C35000#32)
        - Ideal.div s1 (Ideal.ofBits .f32 0x47C35000#32) * Ideal.div s1 (Ideal.ofBits .f32 0x47C35000#32)
      = Cert.Spec.varK Y q := by
  rw [h1, h2, Cert.Spec.zer_eq, zero_add, zero_add]
  rfl

/-- The normalised entry, once its five ingredients are those of the matrix Y. -/
theorem norm_bnK (y : S100000x128.Idx → EReal) (mean var g b : S1x128.Idx → EReal)
    (Y : Cert.Spec.Mat 100000 128) (G T : Cert.Spec.Row 128)
    (hy : ∀ i q, y (ix2 i q) = Y i q) (hm : ∀ q, mean (ix2 0 q) = Cert.Spec.mean Y q)
    (hv : ∀ q, var (ix2 0 q) = Cert.Spec.varK Y q) (hg : ∀ q, g (ix2 0 q) = G q) (hb : ∀ q, b (ix2 0 q) = T q)
    (i : Fin 100000) (q : Fin 128) :
    max (g (ix2 0 q) * ((y (ix2 i q) - mean (ix2 0 q)) * Ideal.rsqrt (var (ix2 0 q) + Ideal.ofBits .f32 0x3727C5AC#32))
        + b (ix2 0 q)) (Ideal.ofBits .f32 0x00000000#32)
      = Cert.Spec.bnK Y G T i q := by
  rw [hy, hm, hv, hg, hb]
  rfl

/-- The log-softmax of the last linear layer, entry by entry, once its three ingredients are the matrices Z, Wm and
    the row Bm: each row is shifted by its maximum before the exponentials are summed. -/
theorem lsm_of (h : S100000x128.Idx → EReal) (w : S128x10.Idx → EReal) (b : S1x10.Idx → EReal)
    (Z : Cert.Spec.Mat 100000 128) (Wm : Cert.Spec.Mat 128 10) (Bm : Cert.Spec.Row 10)
    (hh : ∀ i cc, h (ix2 i cc) = Z i cc) (hw : ∀ cc j, w (ix2 cc j) = Wm cc j) (hb : ∀ j, b (ix2 0 j) = Bm j)
    (i : Fin 100000) (j : Fin 10) :
    lsmF8 h w b (ix2 i j) = Cert.Spec.lsm (Cert.Spec.lin Z Wm Bm) i j := by
  unfold lsmF8 Cert.Spec.lsm Cert.Spec.rowMax Cert.Spec.lin Cert.Spec.ninf
  simp only [hh, hw, hb]

/-! ## Region 1: the first normalisation of the first block -/

/-- The scale and shift arguments are still the launched ones when the stretch before region 1 reads them. -/
theorem W2_arg4 (c : Dev nD) : W2 m ρ c (Proc.devRef .tc main_arg4) = m ((c : Thread nD τ).loc main_arg4) :=
  (W2_of_ne m ρ c main_arg4 (by decide)).trans <| (StableHlo.after_of_writes_sub hostOps0 (W0 m ρ c) hostOps0_writes (by decide))
theorem W2_arg5 (c : Dev nD) : W2 m ρ c (Proc.devRef .tc main_arg5) = m ((c : Thread nD τ).loc main_arg5) :=
  (W2_of_ne m ρ c main_arg5 (by decide)).trans <| (StableHlo.after_of_writes_sub hostOps0 (W0 m ρ c) hostOps0_writes (by decide))

/-- Region 1 turns the linear layer's output Y, with its two column sums, into the normalised, scaled, shifted and
    clamped matrix. -/
theorem stage1 (c : Dev nD) (Y : Cert.Spec.Mat 100000 128)
    (hy : ∀ i q, (W2 m ρ c (Proc.devRef .tc main_v15_0) : S100000x128.Idx → EReal) (ix2 i q) = Y i q)
    (hs : ∀ q, (W2 m ρ c (Proc.devRef .tc main_v15_1) : S1x128.Idx → EReal) (ix2 0 q) = Cert.Spec.zer + Cert.Spec.colSum Y q)
    (hq : ∀ q, (W2 m ρ c (Proc.devRef .tc main_v15_2) : S1x128.Idx → EReal) (ix2 0 q) = Cert.Spec.zer + Cert.Spec.colSumSq Y q) :
    ∀ i q, (W4 m ρ c (Proc.devRef .tc main_v24) : S100000x128.Idx → EReal) (ix2 i q)
      = Cert.Spec.bnK Y (Cert.Glue.row (m ((c : Thread nD τ).loc main_arg4) : S128.Idx → EReal)) (Cert.Glue.row (m ((c : Thread nD τ).loc main_arg5) : S128.Idx → EReal)) i q := by
  intro i q
  have e : W4 m ρ c (Proc.devRef .tc main_v24)
      = normF1 (V3 m ρ c main_v15_0) (V3 m ρ c main_v17) (V3 m ρ c main_v21) (V3 m ρ c main_v22) (V3 m ρ c main_v23) :=
    (W4_arr m ρ c 5).trans (final1 (V3 m ρ) c)
  refine (congrFun e (ix2 i q)).trans ?_
  unfold normF1
  exact norm_bnK (V3 m ρ c main_v15_0) (V3 m ρ c main_v17) (V3 m ρ c main_v21) (V3 m ρ c main_v22) (V3 m ρ c main_v23) Y
    (Cert.Glue.row (m ((c : Thread nD τ).loc main_arg4) : S128.Idx → EReal)) (Cert.Glue.row (m ((c : Thread nD τ).loc main_arg5) : S128.Idx → EReal))
    (fun i q => (congrFun (h1_keep (W2 m ρ c) main_v15_0 (by decide)) (ix2 i q)).trans (hy i q))
    (fun q => (h1_mean (W2 m ρ c) q).trans (mean_of Y q (hs q)))
    (fun q => (h1_var (W2 m ρ c) q).trans (varK_of Y q (hs q) (hq q)))
    (fun q => (h1_scale (W2 m ρ c) q).trans (congrFun (W2_arg4 m ρ c) (ix1 q)))
    (fun q => (h1_shift (W2 m ρ c) q).trans (congrFun (W2_arg5 m ρ c) (ix1 q)))
    i q

/-! ## Region 3: the second normalisation of the first block -/

/-- The scale and shift arguments are still the launched ones when the stretch before region 3 reads them. -/
theorem W6_arg8 (c : Dev nD) : W6 m ρ c (Proc.devRef .tc main_arg8) = m ((c : Thread nD τ).loc main_arg8) :=
  (W6_of_ne m ρ c main_arg8 (by decide)).trans <| (StableHlo.after_of_writes_sub hostOps2 (W4 m ρ c) hostOps2_writes (by decide)).trans <| (W4_of_ne m ρ c main_arg8 (by decide)).trans <| (StableHlo.after_of_writes_sub hostOps1 (W2 m ρ c) hostOps1_writes (by decide)).trans <| (W2_of_ne m ρ c main_arg8 (by decide)).trans <| (StableHlo.after_of_writes_sub hostOps0 (W0 m ρ c) hostOps0_writes (by decide))
theorem W6_arg9 (c : Dev nD) : W6 m ρ c (Proc.devRef .tc main_arg9) = m ((c : Thread nD τ).loc main_arg9) :=
  (W6_of_ne m ρ c main_arg9 (by decide)).trans <| (StableHlo.after_of_writes_sub hostOps2 (W4 m ρ c) hostOps2_writes (by decide)).trans <| (W4_of_ne m ρ c main_arg9 (by decide)).trans <| (StableHlo.after_of_writes_sub hostOps1 (W2 m ρ c) hostOps1_writes (by decide)).trans <| (W2_of_ne m ρ c main_arg9 (by decide)).trans <| (StableHlo.after_of_writes_sub hostOps0 (W0 m ρ c) hostOps0_writes (by decide))

/-- Region 3 turns the linear layer's output Y, with its two column sums, into the normalised, scaled, shifted and
    clamped matrix. -/
theorem stage3 (c : Dev nD) (Y : Cert.Spec.Mat 100000 128)
    (hy : ∀ i q, (W6 m ρ c (Proc.devRef .tc main_v26_0) : S100000x128.Idx → EReal) (ix2 i q) = Y i q)
    (hs : ∀ q, (W6 m ρ c (Proc.devRef .tc main_v26_1) : S1x128.Idx → EReal) (ix2 0 q) = Cert.Spec.zer + Cert.Spec.colSum Y q)
    (hq : ∀ q, (W6 m ρ c (Proc.devRef .tc main_v26_2) : S1x128.Idx → EReal) (ix2 0 q) = Cert.Spec.zer + Cert.Spec.colSumSq Y q) :
    ∀ i q, (W8 m ρ c (Proc.devRef .tc main_v35) : S100000x128.Idx → EReal) (ix2 i q)
      = Cert.Spec.bnK Y (Cert.Glue.row (m ((c : Thread nD τ).loc main_arg8) : S128.Idx → EReal)) (Cert.Glue.row (m ((c : Thread nD τ).loc main_arg9) : S128.Idx → EReal)) i q := by
  intro i q
  have e : W8 m ρ c (Proc.devRef .tc main_v35)
      = normF3 (V7 m ρ c main_v26_0) (V7 m ρ c main_v28) (V7 m ρ c main_v32) (V7 m ρ c main_v33) (V7 m ρ c main_v34) :=
    (W8_arr m ρ c 5).trans (final3 (V7 m ρ) c)
  refine (congrFun e (ix2 i q)).trans ?_
  unfold normF3
  exact norm_bnK (V7 m ρ c main_v26_0) (V7 m ρ c main_v28) (V7 m ρ c main_v32) (V7 m ρ c main_v33) (V7 m ρ c main_v34) Y
    (Cert.Glue.row (m ((c : Thread nD τ).loc main_arg8) : S128.Idx → EReal)) (Cert.Glue.row (m ((c : Thread nD τ).loc main_arg9) : S128.Idx → EReal))
    (fun i q => (congrFun (h3_keep (W6 m ρ c) main_v26_0 (by decide)) (ix2 i q)).trans (hy i q))
    (fun q => (h3_mean (W6 m ρ c) q).trans (mean_of Y q (hs q)))
    (fun q => (h3_var (W6 m ρ c) q).trans (varK_of Y q (hs q) (hq q)))
    (fun q => (h3_scale (W6 m ρ c) q).trans (congrFun (W6_arg8 m ρ c) (ix1 q)))
    (fun q => (h3_shift (W6 m ρ c) q).trans (congrFun (W6_arg9 m ρ c) (ix1 q)))
    i q

/-! ## Region 5: the first normalisation of the second block -/

/-- The scale and shift arguments are still the launched ones when the stretch before region 5 reads them. -/
theorem W10_arg12 (c : Dev nD) : W10 m ρ c (Proc.devRef .tc main_arg12) = m ((c : Thread nD τ).loc main_arg12) :=
  (W10_of_ne m ρ c main_arg12 (by decide)).trans <| (StableHlo.after_of_writes_sub hostOps4 (W8 m ρ c) hostOps4_writes (by decide)).trans <| (W8_of_ne m ρ c main_arg12 (by decide)).trans <| (StableHlo.after_of_writes_sub hostOps3 (W6 m ρ c) hostOps3_writes (by decide)).trans <| (W6_of_ne m ρ c main_arg12 (by decide)).trans <| (StableHlo.after_of_writes_sub hostOps2 (W4 m ρ c) hostOps2_writes (by decide)).trans <| (W4_of_ne m ρ c main_arg12 (by decide)).trans <| (StableHlo.after_of_writes_sub hostOps1 (W2 m ρ c) hostOps1_writes (by decide)).trans <| (W2_of_ne m ρ c main_arg12 (by decide)).trans <| (StableHlo.after_of_writes_sub hostOps0 (W0 m ρ c) hostOps0_writes (by decide))
theorem W10_arg13 (c : Dev nD) : W10 m ρ c (Proc.devRef .tc main_arg13) = m ((c : Thread nD τ).loc main_arg13) :=
  (W10_of_ne m ρ c main_arg13 (by decide)).trans <| (StableHlo.after_of_writes_sub hostOps4 (W8 m ρ c) hostOps4_writes (by decide)).trans <| (W8_of_ne m ρ c main_arg13 (by decide)).trans <| (StableHlo.after_of_writes_sub hostOps3 (W6 m ρ c) hostOps3_writes (by decide)).trans <| (W6_of_ne m ρ c main_arg13 (by decide)).trans <| (StableHlo.after_of_writes_sub hostOps2 (W4 m ρ c) hostOps2_writes (by decide)).trans <| (W4_of_ne m ρ c main_arg13 (by decide)).trans <| (StableHlo.after_of_writes_sub hostOps1 (W2 m ρ c) hostOps1_writes (by decide)).trans <| (W2_of_ne m ρ c main_arg13 (by decide)).trans <| (StableHlo.after_of_writes_sub hostOps0 (W0 m ρ c) hostOps0_writes (by decide))

/-- Region 5 turns the linear layer's output Y, with its two column sums, into the normalised, scaled, shifted and
    clamped matrix. -/
theorem stage5 (c : Dev nD) (Y : Cert.Spec.Mat 100000 128)
    (hy : ∀ i q, (W10 m ρ c (Proc.devRef .tc main_v47_0) : S100000x128.Idx → EReal) (ix2 i q) = Y i q)
    (hs : ∀ q, (W10 m ρ c (Proc.devRef .tc main_v47_1) : S1x128.Idx → EReal) (ix2 0 q) = Cert.Spec.zer + Cert.Spec.colSum Y q)
    (hq : ∀ q, (W10 m ρ c (Proc.devRef .tc main_v47_2) : S1x128.Idx → EReal) (ix2 0 q) = Cert.Spec.zer + Cert.Spec.colSumSq Y q) :
    ∀ i q, (W12 m ρ c (Proc.devRef .tc main_v56) : S100000x128.Idx → EReal) (ix2 i q)
      = Cert.Spec.bnK Y (Cert.Glue.row (m ((c : Thread nD τ).loc main_arg12) : S128.Idx → EReal)) (Cert.Glue.row (m ((c : Thread nD τ).loc main_arg13) : S128.Idx → EReal)) i q := by
  intro i q
  have e : W12 m ρ c (Proc.devRef .tc main_v56)
      = normF5 (V11 m ρ c main_v47_0) (V11 m ρ c main_v49) (V11 m ρ c main_v53) (V11 m ρ c main_v54) (V11 m ρ c main_v55) :=
    (W12_arr m ρ c 5).trans (final5 (V11 m ρ) c)
  refine (congrFun e (ix2 i q)).trans ?_
  unfold normF5
  exact norm_bnK (V11 m ρ c main_v47_0) (V11 m ρ c main_v49) (V11 m ρ c main_v53) (V11 m ρ c main_v54) (V11 m ρ c main_v55) Y
    (Cert.Glue.row (m ((c : Thread nD τ).loc main_arg12) : S128.Idx → EReal)) (Cert.Glue.row (m ((c : Thread nD τ).loc main_arg13) : S128.Idx → EReal))
    (fun i q => (congrFun (h5_keep (W10 m ρ c) main_v47_0 (by decide)) (ix2 i q)).trans (hy i q))
    (fun q => (h5_mean (W10 m ρ c) q).trans (mean_of Y q (hs q)))
    (fun q => (h5_var (W10 m ρ c) q).trans (varK_of Y q (hs q) (hq q)))
    (fun q => (h5_scale (W10 m ρ c) q).trans (congrFun (W10_arg12 m ρ c) (ix1 q)))
    (fun q => (h5_shift (W10 m ρ c) q).trans (congrFun (W10_arg13 m ρ c) (ix1 q)))
    i q

/-! ## Region 7: the second normalisation of the second block -/

/-- The scale and shift arguments are still the launched ones when the stretch before region 7 reads them. -/
theorem W14_arg16 (c : Dev nD) : W14 m ρ c (Proc.devRef .tc main_arg16) = m ((c : Thread nD τ).loc main_arg16) :=
  (W14_of_ne m ρ c main_arg16 (by decide)).trans <| (StableHlo.after_of_writes_sub hostOps6 (W12 m ρ c) hostOps6_writes (by decide)).trans <| (W12_of_ne m ρ c main_arg16 (by decide)).trans <| (StableHlo.after_of_writes_sub hostOps5 (W10 m ρ c) hostOps5_writes (by decide)).trans <| (W10_of_ne m ρ c main_arg16 (by decide)).trans <| (StableHlo.after_of_writes_sub hostOps4 (W8 m ρ c) hostOps4_writes (by decide)).trans <| (W8_of_ne m ρ c main_arg16 (by decide)).trans <| (StableHlo.after_of_writes_sub hostOps3 (W6 m ρ c) hostOps3_writes (by decide)).trans <| (W6_of_ne m ρ c main_arg16 (by decide)).trans <| (StableHlo.after_of_writes_sub hostOps2 (W4 m ρ c) hostOps2_writes (by decide)).trans <| (W4_of_ne m ρ c main_arg16 (by decide)).trans <| (StableHlo.after_of_writes_sub hostOps1 (W2 m ρ c) hostOps1_writes (by decide)).trans <| (W2_of_ne m ρ c main_arg16 (by decide)).trans <| (StableHlo.after_of_writes_sub hostOps0 (W0 m ρ c) hostOps0_writes (by decide))
theorem W14_arg17 (c : Dev nD) : W14 m ρ c (Proc.devRef .tc main_arg17) = m ((c : Thread nD τ).loc main_arg17) :=
  (W14_of_ne m ρ c main_arg17 (by decide)).trans <| (StableHlo.after_of_writes_sub hostOps6 (W12 m ρ c) hostOps6_writes (by decide)).trans <| (W12_of_ne m ρ c main_arg17 (by decide)).trans <| (StableHlo.after_of_writes_sub hostOps5 (W10 m ρ c) hostOps5_writes (by decide)).trans <| (W10_of_ne m ρ c main_arg17 (by decide)).trans <| (StableHlo.after_of_writes_sub hostOps4 (W8 m ρ c) hostOps4_writes (by decide)).trans <| (W8_of_ne m ρ c main_arg17 (by decide)).trans <| (StableHlo.after_of_writes_sub hostOps3 (W6 m ρ c) hostOps3_writes (by decide)).trans <| (W6_of_ne m ρ c main_arg17 (by decide)).trans <| (StableHlo.after_of_writes_sub hostOps2 (W4 m ρ c) hostOps2_writes (by decide)).trans <| (W4_of_ne m ρ c main_arg17 (by decide)).trans <| (StableHlo.after_of_writes_sub hostOps1 (W2 m ρ c) hostOps1_writes (by decide)).trans <| (W2_of_ne m ρ c main_arg17 (by decide)).trans <| (StableHlo.after_of_writes_sub hostOps0 (W0 m ρ c) hostOps0_writes (by decide))

/-- Region 7 turns the linear layer's output Y, with its two column sums, into the normalised, scaled, shifted and
    clamped matrix. -/
theorem stage7 (c : Dev nD) (Y : Cert.Spec.Mat 100000 128)
    (hy : ∀ i q, (W14 m ρ c (Proc.devRef .tc main_v58_0) : S100000x128.Idx → EReal) (ix2 i q) = Y i q)
    (hs : ∀ q, (W14 m ρ c (Proc.devRef .tc main_v58_1) : S1x128.Idx → EReal) (ix2 0 q) = Cert.Spec.zer + Cert.Spec.colSum Y q)
    (hq : ∀ q, (W14 m ρ c (Proc.devRef .tc main_v58_2) : S1x128.Idx → EReal) (ix2 0 q) = Cert.Spec.zer + Cert.Spec.colSumSq Y q) :
    ∀ i q, (W16 m ρ c (Proc.devRef .tc main_v67) : S100000x128.Idx → EReal) (ix2 i q)
      = Cert.Spec.bnK Y (Cert.Glue.row (m ((c : Thread nD τ).loc main_arg16) : S128.Idx → EReal)) (Cert.Glue.row (m ((c : Thread nD τ).loc main_arg17) : S128.Idx → EReal)) i q := by
  intro i q
  have e : W16 m ρ c (Proc.devRef .tc main_v67)
      = normF7 (V15 m ρ c main_v58_0) (V15 m ρ c main_v60) (V15 m ρ c main_v64) (V15 m ρ c main_v65) (V15 m ρ c main_v66) :=
    (W16_arr m ρ c 5).trans (final7 (V15 m ρ) c)
  refine (congrFun e (ix2 i q)).trans ?_
  unfold normF7
  exact norm_bnK (V15 m ρ c main_v58_0) (V15 m ρ c main_v60) (V15 m ρ c main_v64) (V15 m ρ c main_v65) (V15 m ρ c main_v66) Y
    (Cert.Glue.row (m ((c : Thread nD τ).loc main_arg16) : S128.Idx → EReal)) (Cert.Glue.row (m ((c : Thread nD τ).loc main_arg17) : S128.Idx → EReal))
    (fun i q => (congrFun (h7_keep (W14 m ρ c) main_v58_0 (by decide)) (ix2 i q)).trans (hy i q))
    (fun q => (h7_mean (W14 m ρ c) q).trans (mean_of Y q (hs q)))
    (fun q => (h7_var (W14 m ρ c) q).trans (varK_of Y q (hs q) (hq q)))
    (fun q => (h7_scale (W14 m ρ c) q).trans (congrFun (W14_arg16 m ρ c) (ix1 q)))
    (fun q => (h7_shift (W14 m ρ c) q).trans (congrFun (W14_arg17 m ρ c) (ix1 q)))
    i q

/-! ## Region 8: the last linear layer and the row-wise log-softmax -/

/-- The last weights and bias are still the launched ones when region 8 reads them. -/
theorem W16_arg18 (c : Dev nD) : W16 m ρ c (Proc.devRef .tc main_arg18) = m ((c : Thread nD τ).loc main_arg18) :=
  (W16_of_ne m ρ c main_arg18 (by decide)).trans <| (StableHlo.after_of_writes_sub hostOps7 (W14 m ρ c) hostOps7_writes (by decide)).trans <| (W14_of_ne m ρ c main_arg18 (by decide)).trans <| (StableHlo.after_of_writes_sub hostOps6 (W12 m ρ c) hostOps6_writes (by decide)).trans <| (W12_of_ne m ρ c main_arg18 (by decide)).trans <| (StableHlo.after_of_writes_sub hostOps5 (W10 m ρ c) hostOps5_writes (by decide)).trans <| (W10_of_ne m ρ c main_arg18 (by decide)).trans <| (StableHlo.after_of_writes_sub hostOps4 (W8 m ρ c) hostOps4_writes (by decide)).trans <| (W8_of_ne m ρ c main_arg18 (by decide)).trans <| (StableHlo.after_of_writes_sub hostOps3 (W6 m ρ c) hostOps3_writes (by decide)).trans <| (W6_of_ne m ρ c main_arg18 (by decide)).trans <| (StableHlo.after_of_writes_sub hostOps2 (W4 m ρ c) hostOps2_writes (by decide)).trans <| (W4_of_ne m ρ c main_arg18 (by decide)).trans <| (StableHlo.after_of_writes_sub hostOps1 (W2 m ρ c) hostOps1_writes (by decide)).trans <| (W2_of_ne m ρ c main_arg18 (by decide)).trans <| (StableHlo.after_of_writes_sub hostOps0 (W0 m ρ c) hostOps0_writes (by decide))
theorem W16_arg19 (c : Dev nD) : W16 m ρ c (Proc.devRef .tc main_arg19) = m ((c : Thread nD τ).loc main_arg19) :=
  (W16_of_ne m ρ c main_arg19 (by decide)).trans <| (StableHlo.after_of_writes_sub hostOps7 (W14 m ρ c) hostOps7_writes (by decide)).trans <| (W14_of_ne m ρ c main_arg19 (by decide)).trans <| (StableHlo.after_of_writes_sub hostOps6 (W12 m ρ c) hostOps6_writes (by decide)).trans <| (W12_of_ne m ρ c main_arg19 (by decide)).trans <| (StableHlo.after_of_writes_sub hostOps5 (W10 m ρ c) hostOps5_writes (by decide)).trans <| (W10_of_ne m ρ c main_arg19 (by decide)).trans <| (StableHlo.after_of_writes_sub hostOps4 (W8 m ρ c) hostOps4_writes (by decide)).trans <| (W8_of_ne m ρ c main_arg19 (by decide)).trans <| (StableHlo.after_of_writes_sub hostOps3 (W6 m ρ c) hostOps3_writes (by decide)).trans <| (W6_of_ne m ρ c main_arg19 (by decide)).trans <| (StableHlo.after_of_writes_sub hostOps2 (W4 m ρ c) hostOps2_writes (by decide)).trans <| (W4_of_ne m ρ c main_arg19 (by decide)).trans <| (StableHlo.after_of_writes_sub hostOps1 (W2 m ρ c) hostOps1_writes (by decide)).trans <| (W2_of_ne m ρ c main_arg19 (by decide)).trans <| (StableHlo.after_of_writes_sub hostOps0 (W0 m ρ c) hostOps0_writes (by decide))

/-- Region 8 turns the last hidden matrix Z into the row-wise log-softmax of Z·W + b. -/
theorem stage8 (c : Dev nD) (Z : Cert.Spec.Mat 100000 128)
    (hz : ∀ i q, (W16 m ρ c (Proc.devRef .tc main_v67) : S100000x128.Idx → EReal) (ix2 i q) = Z i q) :
    ∀ i j, (W18 m ρ c (Proc.devRef .tc main_v69) : S100000x10.Idx → EReal) (ix2 i j)
      = Cert.Spec.lsm (Cert.Spec.lin Z (Cert.Glue.mat (m ((c : Thread nD τ).loc main_arg18) : S128x10.Idx → EReal))
          (Cert.Glue.row (m ((c : Thread nD τ).loc main_arg19) : S10.Idx → EReal))) i j := by
  intro i j
  have e : W18 m ρ c (Proc.devRef .tc main_v69)
      = lsmF8 (V17 m ρ c main_v67) (V17 m ρ c main_arg18) (V17 m ρ c main_v68) :=
    (W18_arr m ρ c 3).trans (final8 (V17 m ρ) c)
  refine (congrFun e (ix2 i j)).trans ?_
  exact lsm_of (V17 m ρ c main_v67) (V17 m ρ c main_arg18) (V17 m ρ c main_v68) Z
    (Cert.Glue.mat (m ((c : Thread nD τ).loc main_arg18) : S128x10.Idx → EReal))
    (Cert.Glue.row (m ((c : Thread nD τ).loc main_arg19) : S10.Idx → EReal))
    (fun i cc => (congrFun (h8_keep (W16 m ρ c) main_v67 (by decide)) (ix2 i cc)).trans (hz i cc))
    (fun cc j => congrFun ((h8_keep (W16 m ρ c) main_arg18 (by decide)).trans (W16_arg18 m ρ c)) (ix2 cc j))
    (fun j => (h8_bias (W16 m ρ c) j).trans (congrFun (W16_arg19 m ρ c) (ix1 j)))
    i j

end Cert.KernelIdeal.Regions

end
-- ==== Proof.KI.StatsVal0.lean ====
/-
  Region 0: what each case of the body leaves, as values.  The block output is the linear layer's payload of
  the input blocks; each scratch row is its accumulation payload of the input blocks and of what the row held
  (zero at the first point); at the last point the two statistics windows receive the scratch rows.  So after
  point n the scratch rows hold the running column sums over the blocks 0 … n, by induction on n.
-/
import proofs.«110958_j70274254897753_1_alg».proof.Proof.KI.Stats0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hzv0 : (![0, 0] : Fin 2 → Nat) = fun _ => 0 := funext fun a => by fin_cases a <;> rfl

theorem val0_B_y_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) :
    val0_B_y c i arg1 harg1 arg2 harg2 arg3 harg3 arg4 harg4 arg5 harg5 arg6 harg6 arg7 harg7 arg8 harg8 arg9 harg9 hc0 hc1 x0 x1 x2 x3 xs0 xs1 = k0_pay3 x0 x1 x2 x3 := by
  unfold val0_B_y
  rw [View.read_writes_eq_canon _ _ _ (cov0_B_y c i arg1 harg1 arg2 harg2 arg3 harg3 arg4 harg4 arg5 harg5 arg6 harg6 arg7 harg7 arg8 harg8 arg9 harg9 hc0 hc1 x0 x1 x2 x3 xs0 xs1)]
  unfold kernelRun0_B
  dsimp only
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_B_s0_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) :
    val0_B_s0 c i arg1 harg1 arg2 harg2 arg3 harg3 arg4 harg4 arg5 harg5 arg6 harg6 arg7 harg7 arg8 harg8 arg9 harg9 hc0 hc1 x0 x1 x2 x3 xs0 xs1 = k0_pay4 x0 x1 x2 x3 xs0 := by
  unfold val0_B_s0
  rw [View.read_writes_eq_canon _ _ _ (cov0_B_s0 c i arg1 harg1 arg2 harg2 arg3 harg3 arg4 harg4 arg5 harg5 arg6 harg6 arg7 harg7 arg8 harg8 arg9 harg9 hc0 hc1 x0 x1 x2 x3 xs0 xs1)]
  unfold kernelRun0_B
  dsimp only
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_B_s1_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S10000x10 .f32) (x1 : Vec F S10000x10 .f32) (x2 : Vec F S10x128 .f32) (x3 : Vec F S1x128 .f32) (xs0 xs1 : Vec F S1x128 .f32) :
    val0_B_s1 c i arg1 harg1 arg2 harg2 arg3 harg3 arg4 harg4 arg5 harg5 arg6 harg6 arg7 harg7 arg8 harg8 arg9 harg9 hc0 hc1 x0 x1 x2 x3 xs0 xs1 = k0_pay5 x0 x1 x2 x3 xs1 := by
  unfold val0_B_s1
  rw [View.read_writes_eq_canon _ _ _ (cov0_B_s1 c i arg1 harg1 arg2 harg2 arg3 harg3 arg4 harg4 arg5 harg5 arg6 harg6 arg7 harg7 arg8 harg8 arg9 harg9 hc0 hc1 x0 x1 x2 x3 xs0 xs1)]
  unfold kernelRun0_B
  dsimp only
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_A_y_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) :
    val0_A_y c i arg1 harg1 arg2 harg2 arg3 harg3 arg4 harg4 arg5 harg5 arg6 harg6 arg7 harg7 arg8 harg8 arg9 harg9 hc0 hc1 x0 x1 x2 x3 = k0_pay3 x0 x1 x2 x3 := by
  unfold val0_A_y
  rw [View.read_writes_eq_canon _ _ _ (cov0_A_y c i arg1 harg1 arg2 harg2 arg3 harg3 arg4 harg4 arg5 harg5 arg6 harg6 arg7 harg7 arg8 harg8 arg9 harg9 hc0 hc1 x0 x1 x2 x3)]
  unfold kernelRun0_A
  dsimp only
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_A_s0_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) :
    val0_A_s0 c i arg1 harg1 arg2 harg2 arg3 harg3 arg4 harg4 arg5 harg5 arg6 harg6 arg7 harg7 arg8 harg8 arg9 harg9 hc0 hc1 x0 x1 x2 x3 = k0_pay4 x0 x1 x2 x3 (k0_pay1 (F := F)) := by
  unfold val0_A_s0
  rw [View.read_writes_eq_canon _ _ _ (cov0_A_s0 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x128) hzv0, View.readCov_unit_zero (S := S1x128) _ hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_A_s1_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S10000x10 .f32) (x1 : Vec F S10000x10 .f32) (x2 : Vec F S10x128 .f32) (x3 : Vec F S1x128 .f32) :
    val0_A_s1 c i arg1 harg1 arg2 harg2 arg3 harg3 arg4 harg4 arg5 harg5 arg6 harg6 arg7 harg7 arg8 harg8 arg9 harg9 hc0 hc1 x0 x1 x2 x3 = k0_pay5 x0 x1 x2 x3 (k0_pay2 (F := F)) := by
  unfold val0_A_s1
  rw [View.read_writes_eq_canon _ _ _ (cov0_A_s1 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x128) hzv0, View.readCov_unit_zero (S := S1x128) _ hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_C_y_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    val0_C_y c i arg1 harg1 arg2 harg2 arg3 harg3 arg4 harg4 arg5 harg5 arg6 harg6 arg7 harg7 arg8 harg8 arg9 harg9 hc0 hc1 x0 x1 x2 x3 xs0 xs1 = k0_pay3 x0 x1 x2 x3 := by
  unfold val0_C_y
  rw [View.read_writes_eq_canon _ _ _ (cov0_C_y c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_C_s0_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    val0_C_s0 c i arg1 harg1 arg2 harg2 arg3 harg3 arg4 harg4 arg5 harg5 arg6 harg6 arg7 harg7 arg8 harg8 arg9 harg9 hc0 hc1 x0 x1 x2 x3 xs0 xs1 = k0_pay4 x0 x1 x2 x3 xs0 := by
  unfold val0_C_s0
  rw [View.read_writes_eq_canon _ _ _ (cov0_C_s0 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_C_s1_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    val0_C_s1 c i arg1 harg1 arg2 harg2 arg3 harg3 arg4 harg4 arg5 harg5 arg6 harg6 arg7 harg7 arg8 harg8 arg9 harg9 hc0 hc1 x0 x1 x2 x3 xs0 xs1 = k0_pay5 x0 x1 x2 x3 xs1 := by
  unfold val0_C_s1
  rw [View.read_writes_eq_canon _ _ _ (cov0_C_s1 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_C_S_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    val0_C_S c i arg1 harg1 arg2 harg2 arg3 harg3 arg4 harg4 arg5 harg5 arg6 harg6 arg7 harg7 arg8 harg8 arg9 harg9 hc0 hc1 x0 x1 x2 x3 xs0 xs1 = k0_pay4 x0 x1 x2 x3 xs0 := by
  unfold val0_C_S
  rw [View.read_writes_eq_canon _ _ _ (cov0_C_S c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x128) hzv0, View.readCov_unit_zero (S := S1x128) _ hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

theorem val0_C_Q_eq (c : Dev nD) (i : grid0.Coords) (arg1 : Memref sig .tc .vmem S10000x10 .f32) (harg1 : arg1.IsWhole) (arg2 : Memref sig .tc .vmem S10000x10 .f32) (harg2 : arg2.IsWhole) (arg3 : Memref sig .tc .vmem S10x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S10000x10 .f32) (x1 : Vec F S10000x10 .f32) (x2 : Vec F S10x128 .f32) (x3 : Vec F S1x128 .f32) (xs0 xs1 : Vec F S1x128 .f32) :
    val0_C_Q c i arg1 harg1 arg2 harg2 arg3 harg3 arg4 harg4 arg5 harg5 arg6 harg6 arg7 harg7 arg8 harg8 arg9 harg9 hc0 hc1 x0 x1 x2 x3 xs0 xs1 = k0_pay5 x0 x1 x2 x3 xs1 := by
  unfold val0_C_Q
  rw [View.read_writes_eq_canon _ _ _ (cov0_C_Q c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x128) hzv0, View.readCov_unit_zero (S := S1x128) _ hzv0]
  simp only [View.readAt_eq_ld, harg1.read_unread, harg2.read_unread, harg3.read_unread, harg4.read_unread, harg8.read_unread, harg9.read_unread, View.ld_unit_zero (S := S10000x10) hzv0, View.ld_unit_zero (S := S10x128) hzv0, View.ld_unit_zero (S := S1x128) hzv0, View.ld_unit_zero (S := S10000x128) hzv0]

/-- The running column sums of y and of y² after point n. -/
def accS0 (c : Dev nD) : (n : ℕ) → n < cfg0.N → Vec F S1x128 .f32
  | 0, h => k0_pay4 (iblk0 V c 0 ⟨0, h⟩) (iblk0 V c 1 ⟨0, h⟩) (iblk0 V c 2 ⟨0, h⟩) (iblk0 V c 3 ⟨0, h⟩) (k0_pay1 (F := F))
  | n + 1, h => k0_pay4 (iblk0 V c 0 ⟨n + 1, h⟩) (iblk0 V c 1 ⟨n + 1, h⟩) (iblk0 V c 2 ⟨n + 1, h⟩) (iblk0 V c 3 ⟨n + 1, h⟩) (accS0 c n (Nat.lt_of_succ_lt h))
def accQ0 (c : Dev nD) : (n : ℕ) → n < cfg0.N → Vec F S1x128 .f32
  | 0, h => k0_pay5 (iblk0 V c 0 ⟨0, h⟩) (iblk0 V c 1 ⟨0, h⟩) (iblk0 V c 2 ⟨0, h⟩) (iblk0 V c 3 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩) (accQ0 c n (Nat.lt_of_succ_lt h))

theorem accS0_zero (c : Dev nD) (h : 0 < cfg0.N) : accS0 V c 0 h = k0_pay4 (iblk0 V c 0 ⟨0, h⟩) (iblk0 V c 1 ⟨0, h⟩) (iblk0 V c 2 ⟨0, h⟩) (iblk0 V c 3 ⟨0, h⟩) (k0_pay1 (F := F)) := rfl
theorem accS0_succ (c : Dev nD) (n : ℕ) (hn : n + 1 < cfg0.N) :
    accS0 V c (n + 1) hn = k0_pay4 (iblk0 V c 0 ⟨n + 1, hn⟩) (iblk0 V c 1 ⟨n + 1, hn⟩) (iblk0 V c 2 ⟨n + 1, hn⟩) (iblk0 V c 3 ⟨n + 1, hn⟩) (accS0 V c n (Nat.lt_of_succ_lt hn)) := rfl
theorem accQ0_zero (c : Dev nD) (h : 0 < cfg0.N) : accQ0 V c 0 h = k0_pay5 (iblk0 V c 0 ⟨0, h⟩) (iblk0 V c 1 ⟨0, h⟩) (iblk0 V c 2 ⟨0, h⟩) (iblk0 V c 3 ⟨0, h⟩) (k0_pay2 (F := F)) := rfl
theorem accQ0_succ (c : Dev nD) (n : ℕ) (hn : n + 1 < cfg0.N) :
    accQ0 V c (n + 1) hn = k0_pay5 (iblk0 V c 0 ⟨n + 1, hn⟩) (iblk0 V c 1 ⟨n + 1, hn⟩) (iblk0 V c 2 ⟨n + 1, hn⟩) (iblk0 V c 3 ⟨n + 1, hn⟩) (accQ0 V c n (Nat.lt_of_succ_lt hn)) := rfl

/-- Which case a point is in. -/
theorem cond0_0_zero (h : 0 < cfg0.N) : cond0_0 (grid0.coords ⟨0, h⟩) := (hcond0_0 ⟨0, h⟩).mpr (Nat.zero_mod _)
theorem ncond0_1_zero (h : 0 < cfg0.N) : ¬cond0_1 (grid0.coords ⟨0, h⟩) := fun hh => by
  have := (hcond0_1 ⟨0, h⟩).mp hh; dsimp only at this; omega
theorem ncond0_0_succ (n : ℕ) (hn : n + 1 < cfg0.N) : ¬cond0_0 (grid0.coords ⟨n + 1, hn⟩) := fun hh => by
  have := (hcond0_0 ⟨n + 1, hn⟩).mp hh; have hN : cfg0.N = 10 := N_0; dsimp only at this; omega

/-- One step of the accumulation, read at 0 and at n + 1. -/
theorem outs0_zero (c : Dev nD) (h : 0 < cfg0.N) :
    outsAt0 V c 0 h = ((val0_A_y c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) (cond0_0_zero h) (ncond0_1_zero h) (iblk0 V c 0 ⟨0, h⟩) (iblk0 V c 1 ⟨0, h⟩) (iblk0 V c 2 ⟨0, h⟩) (iblk0 V c 3 ⟨0, h⟩)), (VO0_5.read (Elt F) VO0_5.junk), (VO0_6.read (Elt F) VO0_6.junk), (val0_A_s0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) (cond0_0_zero h) (ncond0_1_zero h) (iblk0 V c 0 ⟨0, h⟩) (iblk0 V c 1 ⟨0, h⟩) (iblk0 V c 2 ⟨0, h⟩) (iblk0 V c 3 ⟨0, h⟩)), (val0_A_s1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) (cond0_0_zero h) (ncond0_1_zero h) (iblk0 V c 0 ⟨0, h⟩) (iblk0 V c 1 ⟨0, h⟩) (iblk0 V c 2 ⟨0, h⟩) (iblk0 V c 3 ⟨0, h⟩))) := rfl
theorem outs0_succB (c : Dev nD) (n : ℕ) (hn : n + 1 < cfg0.N) (h1 : ¬(n + 1) % 10 = 9) :
    outsAt0 V c (n + 1) hn = ((val0_B_y c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) (fun hh => h1 ((hcond0_1 ⟨n + 1, hn⟩).mp hh)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2), (VO0_5.read (Elt F) VO0_5.junk), (VO0_6.read (Elt F) VO0_6.junk), (val0_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) (fun hh => h1 ((hcond0_1 ⟨n + 1, hn⟩).mp hh)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2), (val0_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) (fun hh => h1 ((hcond0_1 ⟨n + 1, hn⟩).mp hh)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2)) := (dif_neg h1).trans rfl
theorem outs0_succC (c : Dev nD) (n : ℕ) (hn : n + 1 < cfg0.N) (h1 : (n + 1) % 10 = 9) :
    outsAt0 V c (n + 1) hn = ((val0_C_y c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2), (val0_C_S c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2), (val0_C_Q c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2), (val0_C_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2), (val0_C_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (ncond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2)) := (dif_pos h1).trans rfl

/-- The one-step equations with each case's contents as payload values. -/
theorem outs0_zero' (c : Dev nD) (h : 0 < cfg0.N) :
    outsAt0 V c 0 h = (k0_pay3 (iblk0 V c 0 ⟨0, h⟩) (iblk0 V c 1 ⟨0, h⟩) (iblk0 V c 2 ⟨0, h⟩) (iblk0 V c 3 ⟨0, h⟩), (VO0_5.read (Elt F) VO0_5.junk), (VO0_6.read (Elt F) VO0_6.junk), k0_pay4 (iblk0 V c 0 ⟨0, h⟩) (iblk0 V c 1 ⟨0, h⟩) (iblk0 V c 2 ⟨0, h⟩) (iblk0 V c 3 ⟨0, h⟩) (k0_pay1 (F := F)), k0_pay5 (iblk0 V c 0 ⟨0, h⟩) (iblk0 V c 1 ⟨0, h⟩) (iblk0 V c 2 ⟨0, h⟩) (iblk0 V c 3 ⟨0, h⟩) (k0_pay2 (F := F))) := by
  have e := outs0_zero V c h
  simp only [val0_A_y_eq, val0_A_s0_eq, val0_A_s1_eq] at e
  exact e
theorem outs0_succB' (c : Dev nD) (n : ℕ) (hn : n + 1 < cfg0.N) (h1 : ¬(n + 1) % 10 = 9) :
    outsAt0 V c (n + 1) hn = (k0_pay3 (iblk0 V c 0 ⟨n + 1, hn⟩) (iblk0 V c 1 ⟨n + 1, hn⟩) (iblk0 V c 2 ⟨n + 1, hn⟩) (iblk0 V c 3 ⟨n + 1, hn⟩), (VO0_5.read (Elt F) VO0_5.junk), (VO0_6.read (Elt F) VO0_6.junk), k0_pay4 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1, k0_pay5 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.2) := by
  have e := outs0_succB V c n hn h1
  simp only [val0_B_y_eq, val0_B_s0_eq, val0_B_s1_eq] at e
  exact e
theorem outs0_succC' (c : Dev nD) (n : ℕ) (hn : n + 1 < cfg0.N) (h1 : (n + 1) % 10 = 9) :
    outsAt0 V c (n + 1) hn = (k0_pay3 (iblk0 V c 0 ⟨n + 1, hn⟩) (iblk0 V c 1 ⟨n + 1, hn⟩) (iblk0 V c 2 ⟨n + 1, hn⟩) (iblk0 V c 3 ⟨n + 1, hn⟩), k0_pay4 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1, k0_pay5 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.2, k0_pay4 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1, k0_pay5 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.2) := by
  have e := outs0_succC V c n hn h1
  simp only [val0_C_y_eq, val0_C_S_eq, val0_C_Q_eq, val0_C_s0_eq, val0_C_s1_eq] at e
  exact e

/-- After point n: the block output is the linear payload of block n, the scratch rows are the running sums. -/
theorem outs0_eq (c : Dev nD) (n : ℕ) : ∀ (h : n < cfg0.N),
    (outsAt0 V c n h).1 = k0_pay3 (iblk0 V c 0 ⟨n, h⟩) (iblk0 V c 1 ⟨n, h⟩) (iblk0 V c 2 ⟨n, h⟩) (iblk0 V c 3 ⟨n, h⟩)
    ∧ (outsAt0 V c n h).2.2.2.1 = accS0 V c n h ∧ (outsAt0 V c n h).2.2.2.2 = accQ0 V c n h := by
  induction n with
  | zero =>
    intro h
    have e := outs0_zero' V c h
    exact ⟨congrArg (fun o => o.1) e, (congrArg (fun o => o.2.2.2.1) e).trans (accS0_zero V c h).symm,
      (congrArg (fun o => o.2.2.2.2) e).trans (accQ0_zero V c h).symm⟩
  | succ n ih =>
    intro hn
    obtain ⟨-, ih0, ih1⟩ := ih (Nat.lt_of_succ_lt hn)
    by_cases h1 : (n + 1) % 10 = 9
    · have e := outs0_succC' V c n hn h1
      exact ⟨congrArg (fun o => o.1) e,
        (congrArg (fun o => o.2.2.2.1) e).trans ((congrArg (k0_pay4 (iblk0 V c 0 ⟨n + 1, hn⟩) (iblk0 V c 1 ⟨n + 1, hn⟩) (iblk0 V c 2 ⟨n + 1, hn⟩) (iblk0 V c 3 ⟨n + 1, hn⟩)) ih0).trans (accS0_succ V c n hn).symm),
        (congrArg (fun o => o.2.2.2.2) e).trans ((congrArg (k0_pay5 (iblk0 V c 0 ⟨n + 1, hn⟩) (iblk0 V c 1 ⟨n + 1, hn⟩) (iblk0 V c 2 ⟨n + 1, hn⟩) (iblk0 V c 3 ⟨n + 1, hn⟩)) ih1).trans (accQ0_succ V c n hn).symm)⟩
    · have e := outs0_succB' V c n hn h1
      exact ⟨congrArg (fun o => o.1) e,
        (congrArg (fun o => o.2.2.2.1) e).trans ((congrArg (k0_pay4 (iblk0 V c 0 ⟨n + 1, hn⟩) (iblk0 V c 1 ⟨n + 1, hn⟩) (iblk0 V c 2 ⟨n + 1, hn⟩) (iblk0 V c 3 ⟨n + 1, hn⟩)) ih0).trans (accS0_succ V c n hn).symm),
        (congrArg (fun o => o.2.2.2.2) e).trans ((congrArg (k0_pay5 (iblk0 V c 0 ⟨n + 1, hn⟩) (iblk0 V c 1 ⟨n + 1, hn⟩) (iblk0 V c 2 ⟨n + 1, hn⟩) (iblk0 V c 3 ⟨n + 1, hn⟩)) ih1).trans (accQ0_succ V c n hn).symm)⟩

/-- At the last point the two statistics windows receive the running sums. -/
theorem outs0_last (c : Dev nD) (hn : 8 + 1 < cfg0.N) :
    (outsAt0 V c (8 + 1) hn).2.1 = accS0 V c (8 + 1) hn ∧ (outsAt0 V c (8 + 1) hn).2.2.1 = accQ0 V c (8 + 1) hn := by
  obtain ⟨-, ih0, ih1⟩ := outs0_eq V c 8 (Nat.lt_of_succ_lt hn)
  have h1 : (8 + 1) % 10 = 9 := rfl
  have e := outs0_succC' V c 8 hn h1
  exact ⟨(congrArg (fun o => o.2.1) e).trans ((congrArg (k0_pay4 (iblk0 V c 0 ⟨8 + 1, hn⟩) (iblk0 V c 1 ⟨8 + 1, hn⟩) (iblk0 V c 2 ⟨8 + 1, hn⟩) (iblk0 V c 3 ⟨8 + 1, hn⟩)) ih0).trans (accS0_succ V c 8 hn).symm),
    (congrArg (fun o => o.2.2.1) e).trans ((congrArg (k0_pay5 (iblk0 V c 0 ⟨8 + 1, hn⟩) (iblk0 V c 1 ⟨8 + 1, hn⟩) (iblk0 V c 2 ⟨8 + 1, hn⟩) (iblk0 V c 3 ⟨8 + 1, hn⟩)) ih1).trans (accQ0_succ V c 8 hn).symm)⟩

end Cert.KernelIdeal.Regions

end
-- ==== Proof.KI.StatsFinY0.lean ====
/-
  Region 0: the block output as one array.  Block t of the output is the linear payload of block t of the
  input rows and of the (whole) weights and bias; the ten blocks tile the array; so the output array is the
  linear layer of the whole arrays, entry by entry.
-/
import proofs.«110958_j70274254897753_1_alg».proof.Proof.KI.StatsVal0
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row p of block t is row 10000·t + p of the array. -/
def rowOf0 (t : Fin cfg0.N) (p : Fin 10000) : Fin 100000 :=
  ⟨t.val * 10000 + p.val, by have := t.isLt; have hN : cfg0.N = 10 := N_0; have := p.isLt; omega⟩

theorem sidx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_4.index t (0 : Fin 2) = t.val ∧ win0_4.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

set_option maxHeartbeats 2000000 in
/-- An entry of block t of row-blocked input window 0. -/
theorem rd0_0 (c : Dev nD) (t : Fin cfg0.N) (p : Fin 10000) (cc : Fin 10) :
    iblk0 V c 0 t (ix2 p cc) = V c main_arg0 (ix2 (rowOf0 t p) cc) := by
  have hf := sidx_facts0 t
  unfold iblk0
  rw [View.read_apply]
  refine congrArg (V c main_arg0) ?_
  funext a; apply Fin.ext
  match a with
  | ⟨0, _⟩ => show win0_0.index t (0 : Fin 2) * 10000 + 1 * p.val = t.val * 10000 + p.val; omega
  | ⟨1, _⟩ => show win0_0.index t (1 : Fin 2) * 10 + 1 * cc.val = cc.val; omega
set_option maxHeartbeats 2000000 in
/-- An entry of block t of row-blocked input window 1. -/
theorem rd0_1 (c : Dev nD) (t : Fin cfg0.N) (p : Fin 10000) (cc : Fin 10) :
    iblk0 V c 1 t (ix2 p cc) = V c main_v13 (ix2 (rowOf0 t p) cc) := by
  have hf := sidx_facts0 t
  unfold iblk0
  rw [View.read_apply]
  refine congrArg (V c main_v13) ?_
  funext a; apply Fin.ext
  match a with
  | ⟨0, _⟩ => show win0_1.index t (0 : Fin 2) * 10000 + 1 * p.val = t.val * 10000 + p.val; omega
  | ⟨1, _⟩ => show win0_1.index t (1 : Fin 2) * 10 + 1 * cc.val = cc.val; omega
set_option maxHeartbeats 2000000 in
/-- The weights' and the bias' one block is the whole array. -/
theorem rd0_w (c : Dev nD) (t : Fin cfg0.N) (cc : Fin 10) (q : Fin 128) :
    iblk0 V c 2 t (ix2 cc q) = V c main_arg2 (ix2 cc q) := by
  have hf := sidx_facts0 t
  unfold iblk0
  rw [View.read_apply]
  refine congrArg (V c main_arg2) ?_
  funext a; apply Fin.ext
  match a with
  | ⟨0, _⟩ => show win0_2.index t (0 : Fin 2) * 10 + 1 * cc.val = cc.val; omega
  | ⟨1, _⟩ => show win0_2.index t (1 : Fin 2) * 128 + 1 * q.val = q.val; omega
set_option maxHeartbeats 2000000 in
theorem rd0_b (c : Dev nD) (t : Fin cfg0.N) (q : Fin 128) :
    iblk0 V c 3 t (ix2 0 q) = V c main_v14 (ix2 0 q) := by
  have hf := sidx_facts0 t
  unfold iblk0
  rw [View.read_apply]
  refine congrArg (V c main_v14) ?_
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- The linear payload of block t at (p, q) is the linear layer at (10000·t + p, q). -/
theorem blkY0 (c : Dev nD) (t : Fin cfg0.N) (p : Fin 10000) (q : Fin 128) :
    k0_pay3 (F := Ideal) (iblk0 V c 0 t) (iblk0 V c 1 t) (iblk0 V c 2 t) (iblk0 V c 3 t) (ix2 p q) = linF0 (V c main_arg0) (V c main_v13) (V c main_arg2) (V c main_v14) (ix2 (rowOf0 t p) q) := by
  rw [Cert.KernelIdeal.PayAt.k0_pay3_at]
  unfold linF0
  simp only [rd0_0 V c t, rd0_1 V c t, rd0_w V c t, rd0_b V c t]
  all_goals rfl

/-! ## The block output as one array -/

set_option maxHeartbeats 4000000 in
/-- What point t writes back of the block output is block t of the linear layer. -/
theorem flushedY0_eq (c : Dev nD) (t : Fin cfg0.N) :
    (dat0 V c).flushed 4 t = ((cfg0.win 4).blk t).view.read (Elt Ideal) (linF0 (V c main_arg0) (V c main_v13) (V c main_arg2) (V c main_v14)) := by
  show (cfg0.win 4).cut (grid0.coords t) ((dat0 V c).after 4 t) = _
  rw [after0_4, (outs0_eq V c t.val t.isLt).1]
  have hf := sidx_facts0 t
  funext j
  obtain ⟨p, q, rfl⟩ : ∃ (p : Fin 10000) (q : Fin 128), j = ix2 p q := ⟨j 0, j 1, eq_ix2 j⟩
  show k0_pay3 (F := Ideal) (iblk0 V c 0 t) (iblk0 V c 1 t) (iblk0 V c 2 t) (iblk0 V c 3 t) (ix2 p q) = linF0 (V c main_arg0) (V c main_v13) (V c main_arg2) (V c main_v14) (((cfg0.win 4).blk t).view.emb (ix2 p q))
  rw [blkY0 V c t p q]
  refine congrArg (linF0 (V c main_arg0) (V c main_v13) (V c main_arg2) (V c main_v14)) ?_
  funext a; apply Fin.ext
  match a with
  | ⟨0, _⟩ => show t.val * 10000 + p.val = win0_4.index t (0 : Fin 2) * 10000 + 1 * p.val; omega
  | ⟨1, _⟩ => show q.val = win0_4.index t (1 : Fin 2) * 128 + 1 * q.val; omega

theorem mem_blkY0 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v15_0).slice (win0_4.rect t)).set ↔ _
  rw [View.set_slice_whole, Rect.mem_set_unit]
  exact Iff.rfl

set_option maxHeartbeats 2000000 in
/-- The block output array after the region: the linear layer, everywhere. -/
theorem finalY0 (c : Dev nD) : (dat0 V c).arrAt 4 cfg0.N = linF0 (V c main_arg0) (V c main_v13) (V c main_arg2) (V c main_v14) :=
  (dat0 V c).arrAt_eq_of_cover 4 _ (fun t _ => flushedY0_eq V c t) fun i => by
    have hi0 : (i 0).val < 100000 := (i 0).isLt
    have hi1 : (i 1).val < 128 := (i 1).isLt
    have hN : cfg0.N = 10 := N_0
    refine ⟨⟨(i 0).val / 10000, by omega⟩, flush0_4 _, ?_⟩
    rw [mem_blkY0]
    have hf := sidx_facts0 ⟨(i 0).val / 10000, by omega⟩
    intro a
    match a with
    | ⟨0, _⟩ => show win0_4.index _ (0 : Fin 2) * 10000 ≤ (i 0).val ∧ (i 0).val < win0_4.index _ (0 : Fin 2) * 10000 + 10000; dsimp only at hf; omega
    | ⟨1, _⟩ => show win0_4.index _ (1 : Fin 2) * 128 ≤ (i 1).val ∧ (i 1).val < win0_4.index _ (1 : Fin 2) * 128 + 128; omega

end Cert.KernelIdeal.Regions

end
-- ==== Proof.KI.StatsFinS0.lean ====
/-
  Region 0: the two statistics arrays.  Each is written back once, at the last point, and its one block is the
  whole row; so after the region it holds the running sum after the last point.
-/
import proofs.«110958_j70274254897753_1_alg».proof.Proof.KI.StatsVal0
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The two statistics arrays -/

set_option maxHeartbeats 4000000 in
/-- The one write-back of statistics window 5, at the last point, writes the running sums: its block is the whole row. -/
theorem flushedS0_eq (c : Dev nD) (t : Fin cfg0.N) (hf : (cfg0.win 5).flush t = true) :
    (dat0 V c).flushed 5 t = ((cfg0.win 5).blk t).view.read (Elt Ideal) (accS0 V c 9 t0_9.isLt) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5]
  show (cfg0.win 5).cut (grid0.coords t0_9) (outsAt0 V c 9 t0_9.isLt).2.1 = _
  rw [(outs0_last V c t0_9.isLt).1]
  have hz' : (fun a => win0_5.index t0_9 a * main_v15_1.ty.shape.size a) = fun _ => 0 := funext fun a => by fin_cases a <;> decide
  exact (Memref.read_access_unit_zero (Elt Ideal) main_v15_1 hz' (fun a => by rw [congrFun hz' a]; simp) (accS0 V c 9 t0_9.isLt)).symm

set_option maxHeartbeats 4000000 in
theorem finalS0 (c : Dev nD) : (dat0 V c).arrAt 5 cfg0.N = accS0 V c 9 t0_9.isLt :=
  (dat0 V c).arrAt_eq_of_cover 5 (accS0 V c 9 t0_9.isLt) (flushedS0_eq V c) fun i =>
    ⟨t0_9, (flush0_5 t0_9).mpr rfl, by
      show i ∈ ((View.whole main_v15_1).slice (win0_5.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 1 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 128 from by decide +kernel]; omega⟩

set_option maxHeartbeats 4000000 in
/-- The one write-back of statistics window 6, at the last point, writes the running sums: its block is the whole row. -/
theorem flushedQ0_eq (c : Dev nD) (t : Fin cfg0.N) (hf : (cfg0.win 6).flush t = true) :
    (dat0 V c).flushed 6 t = ((cfg0.win 6).blk t).view.read (Elt Ideal) (accQ0 V c 9 t0_9.isLt) := by
  have hN : cfg0.N = 10 := N_0
  have h9 : t.val = 9 := by have := (flush0_6 t).mp hf; have := t.isLt; omega
  obtain rfl : t = t0_9 := Fin.ext h9
  show (cfg0.win 6).cut (grid0.coords t0_9) ((dat0 V c).after 6 t0_9) = _
  rw [after0_6]
  show (cfg0.win 6).cut (grid0.coords t0_9) (outsAt0 V c 9 t0_9.isLt).2.2.1 = _
  rw [(outs0_last V c t0_9.isLt).2]
  have hz' : (fun a => win0_6.index t0_9 a * main_v15_2.ty.shape.size a) = fun _ => 0 := funext fun a => by fin_cases a <;> decide
  exact (Memref.read_access_unit_zero (Elt Ideal) main_v15_2 hz' (fun a => by rw [congrFun hz' a]; simp) (accQ0 V c 9 t0_9.isLt)).symm

set_option maxHeartbeats 4000000 in
theorem finalQ0 (c : Dev nD) : (dat0 V c).arrAt 6 cfg0.N = accQ0 V c 9 t0_9.isLt :=
  (dat0 V c).arrAt_eq_of_cover 6 (accQ0 V c 9 t0_9.isLt) (flushedQ0_eq V c) fun i =>
    ⟨t0_9, (flush0_6 t0_9).mpr rfl, by
      show i ∈ ((View.whole main_v15_2).slice (win0_6.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_6.index t0_9 0 * win0_6.size 0 ≤ (i 0 : Nat) ∧ (i 0 : Nat) < win0_6.index t0_9 0 * win0_6.size 0 + win0_6.xsize (grid0.coords t0_9) 0
                  rw [show win0_6.index t0_9 0 * win0_6.size 0 = 0 from by decide +kernel, show win0_6.xsize (grid0.coords t0_9) 0 = 1 from by decide +kernel]; omega
      | ⟨1, _⟩ => show win0_6.index t0_9 1 * win0_6.size 1 ≤ (i 1 : Nat) ∧ (i 1 : Nat) < win0_6.index t0_9 1 * win0_6.size 1 + win0_6.xsize (grid0.coords t0_9) 1
                  rw [show win0_6.index t0_9 1 * win0_6.size 1 = 0 from by decide +kernel, show win0_6.xsize (grid0.coords t0_9) 1 = 128 from by decide +kernel]; omega⟩

end Cert.KernelIdeal.Regions

end
-- ==== Proof.KI.StatsFinA0.lean ====
/-
  Region 0: the running sums at a column: the zero word plus, block by block, the column sum of the block's
  linear payload (or of its square).
-/
import proofs.«110958_j70274254897753_1_alg».proof.Proof.KI.StatsVal0
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The running sums at a column -/

/-- Block s's contribution to column q. -/
def contribaccS0 (c : Dev nD) (q : Fin 128) (s : ℕ) : EReal :=
  if hs : s < cfg0.N then ∑ p : Fin 10000, k0_pay3 (F := Ideal) (iblk0 V c 0 ⟨s, hs⟩) (iblk0 V c 1 ⟨s, hs⟩) (iblk0 V c 2 ⟨s, hs⟩) (iblk0 V c 3 ⟨s, hs⟩) (ix2 p q) else 0

/-- The running sum after point n, at column q: the zero word plus the contributions of the blocks 0 … n. -/
theorem accS0_at (c : Dev nD) (q : Fin 128) : ∀ (n : ℕ) (h : n < cfg0.N),
    accS0 V c n h (ix2 0 q) = Ideal.ofBits .f32 0x00000000#32 + ∑ s : Fin (n + 1), contribaccS0 V c q s.val
  | 0, h => by
    rw [accS0, Cert.KernelIdeal.PayAt.k0_pay4_at, Cert.KernelIdeal.PayAt.k0_pay1_at]
    refine congrArg (fun z => Ideal.ofBits .f32 0x00000000#32 + z) ?_
    show _ = ∑ s : Fin 1, contribaccS0 V c q s.val
    rw [Fin.sum_univ_one]
    show _ = contribaccS0 V c q 0
    rw [contribaccS0, dif_pos h]
  | n + 1, h => by
    rw [accS0, Cert.KernelIdeal.PayAt.k0_pay4_at, accS0_at c q n (Nat.lt_of_succ_lt h), Fin.sum_univ_castSucc (n := n + 1), add_assoc]
    congr 2
    simp only [Fin.val_last, contribaccS0]
    rw [dif_pos h]

/-- Block s's contribution to column q. -/
def contribaccQ0 (c : Dev nD) (q : Fin 128) (s : ℕ) : EReal :=
  if hs : s < cfg0.N then ∑ p : Fin 10000, k0_pay3 (F := Ideal) (iblk0 V c 0 ⟨s, hs⟩) (iblk0 V c 1 ⟨s, hs⟩) (iblk0 V c 2 ⟨s, hs⟩) (iblk0 V c 3 ⟨s, hs⟩) (ix2 p q) * k0_pay3 (F := Ideal) (iblk0 V c 0 ⟨s, hs⟩) (iblk0 V c 1 ⟨s, hs⟩) (iblk0 V c 2 ⟨s, hs⟩) (iblk0 V c 3 ⟨s, hs⟩) (ix2 p q) else 0

/-- The running sum after point n, at column q: the zero word plus the contributions of the blocks 0 … n. -/
theorem accQ0_at (c : Dev nD) (q : Fin 128) : ∀ (n : ℕ) (h : n < cfg0.N),
    accQ0 V c n h (ix2 0 q) = Ideal.ofBits .f32 0x00000000#32 + ∑ s : Fin (n + 1), contribaccQ0 V c q s.val
  | 0, h => by
    rw [accQ0, Cert.KernelIdeal.PayAt.k0_pay5_at, Cert.KernelIdeal.PayAt.k0_pay2_at]
    refine congrArg (fun z => Ideal.ofBits .f32 0x00000000#32 + z) ?_
    show _ = ∑ s : Fin 1, contribaccQ0 V c q s.val
    rw [Fin.sum_univ_one]
    show _ = contribaccQ0 V c q 0
    rw [contribaccQ0, dif_pos h]
  | n + 1, h => by
    rw [accQ0, Cert.KernelIdeal.PayAt.k0_pay5_at, accQ0_at c q n (Nat.lt_of_succ_lt h), Fin.sum_univ_castSucc (n := n + 1), add_assoc]
    congr 2
    simp only [Fin.val_last, contribaccQ0]
    rw [dif_pos h]

end Cert.KernelIdeal.Regions

end
-- ==== Proof.Math.BlockSum.lean ====
/-
  A sum over m·n consecutive indices, cut into m blocks of n: the sum over the blocks of the sums inside each block.
  Index i of the long range is block t = i / n, position p = i % n, that is i = t·n + p.
-/
import Mathlib.Algebra.BigOperators.Fin
import Mathlib.Logic.Equiv.Fin.Basic
import Mathlib.Data.EReal.Basic

namespace Cert.Math

open scoped BigOperators

/-- Position p of block t lies inside the range of m blocks of n. -/
theorem block_lt {m n : ℕ} (t : Fin m) (p : Fin n) : t.val * n + p.val < m * n := by
  have ht := t.isLt
  have hp := p.isLt
  calc t.val * n + p.val < t.val * n + n := Nat.add_lt_add_left hp _
    _ = (t.val + 1) * n := (Nat.succ_mul _ _).symm
    _ ≤ m * n := Nat.mul_le_mul_right _ ht

/-- The double sum over blocks and positions is the sum over the whole range, in any commutative monoid. -/
theorem block_sum_gen {M : Type*} [AddCommMonoid M] (m n : ℕ) (f : Fin (m * n) → M) :
    (∑ t : Fin m, ∑ p : Fin n, f ⟨t.val * n + p.val, block_lt t p⟩) = ∑ i : Fin (m * n), f i := by
  rw [← Fintype.sum_prod_type (f := fun x : Fin m × Fin n => f ⟨x.1.val * n + x.2.val, block_lt x.1 x.2⟩)]
  refine Fintype.sum_equiv finProdFinEquiv _ _ fun x => congrArg f (Fin.ext ?_)
  show x.1.val * n + x.2.val = x.2.val + n * x.1.val
  rw [Nat.mul_comm, Nat.add_comm]

/-- Ten blocks of 10000 rows make up the 100000 rows. -/
theorem block_sum (f : Fin 100000 → EReal) :
    (∑ t : Fin 10, ∑ p : Fin 10000, f ⟨t.val * 10000 + p.val, block_lt (m := 10) (n := 10000) t p⟩)
      = ∑ i : Fin 100000, f i :=
  block_sum_gen 10 10000 f

/-- The first k blocks (k ≤ 10) make up the first k·10000 rows. -/
theorem block_sum_le (k : ℕ) (hk : k ≤ 10) (f : Fin 100000 → EReal) :
    (∑ t : Fin k, ∑ p : Fin 10000,
        f ⟨t.val * 10000 + p.val, lt_of_lt_of_le (block_lt t p) (Nat.mul_le_mul_right 10000 hk)⟩)
      = ∑ i : Fin (k * 10000), f ⟨i.val, lt_of_lt_of_le i.isLt (Nat.mul_le_mul_right 10000 hk)⟩ :=
  block_sum_gen k 10000 fun i => f ⟨i.val, lt_of_lt_of_le i.isLt (Nat.mul_le_mul_right 10000 hk)⟩

end Cert.Math
-- ==== Proof.KI.StatsFinT0.lean ====
/-
  Region 0: the statistics arrays as sums over all 100000 rows: the ten blocks' contributions, re-indexed.
-/
import proofs.«110958_j70274254897753_1_alg».proof.Proof.KI.StatsFinY0
import proofs.«110958_j70274254897753_1_alg».proof.Proof.KI.StatsFinS0
import proofs.«110958_j70274254897753_1_alg».proof.Proof.KI.StatsFinA0
import proofs.«110958_j70274254897753_1_alg».proof.Proof.Math.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The statistics arrays as sums over all rows -/

set_option maxHeartbeats 2000000 in
/-- Statistics window 5 after the region, at column q: the zero word plus the sum over all 100000 rows. -/
theorem sumS0 (c : Dev nD) (q : Fin 128) :
    ((dat0 V c).arrAt 5 cfg0.N : S1x128.Idx → EReal) (ix2 0 q)
      = Ideal.ofBits .f32 0x00000000#32 + ∑ i : Fin 100000, linF0 (V c main_arg0) (V c main_v13) (V c main_arg2) (V c main_v14) (ix2 i q) := by
  rw [finalS0 V c, accS0_at V c q 9 t0_9.isLt]
  refine congrArg (fun z => Ideal.ofBits .f32 0x00000000#32 + z) ?_
  have hN : cfg0.N = 10 := N_0
  refine Eq.trans ?_ (Cert.Math.block_sum (fun i => linF0 (V c main_arg0) (V c main_v13) (V c main_arg2) (V c main_v14) (ix2 i q)))
  refine Finset.sum_congr rfl fun s _ => ?_
  have hs : s.val < cfg0.N := by have := s.isLt; omega
  rw [contribaccS0, dif_pos hs]
  refine Finset.sum_congr rfl fun p _ => ?_
  rw [blkY0 V c ⟨s.val, hs⟩ p q]
  rfl

set_option maxHeartbeats 2000000 in
/-- Statistics window 6 after the region, at column q: the zero word plus the sum over all 100000 rows. -/
theorem sumQ0 (c : Dev nD) (q : Fin 128) :
    ((dat0 V c).arrAt 6 cfg0.N : S1x128.Idx → EReal) (ix2 0 q)
      = Ideal.ofBits .f32 0x00000000#32 + ∑ i : Fin 100000, linF0 (V c main_arg0) (V c main_v13) (V c main_arg2) (V c main_v14) (ix2 i q) * linF0 (V c main_arg0) (V c main_v13) (V c main_arg2) (V c main_v14) (ix2 i q) := by
  rw [finalQ0 V c, accQ0_at V c q 9 t0_9.isLt]
  refine congrArg (fun z => Ideal.ofBits .f32 0x00000000#32 + z) ?_
  have hN : cfg0.N = 10 := N_0
  refine Eq.trans ?_ (Cert.Math.block_sum (fun i => linF0 (V c main_arg0) (V c main_v13) (V c main_arg2) (V c main_v14) (ix2 i q) * linF0 (V c main_arg0) (V c main_v13) (V c main_arg2) (V c main_v14) (ix2 i q)))
  refine Finset.sum_congr rfl fun s _ => ?_
  have hs : s.val < cfg0.N := by have := s.isLt; omega
  rw [contribaccQ0, dif_pos hs]
  refine Finset.sum_congr rfl fun p _ => ?_
  rw [blkY0 V c ⟨s.val, hs⟩ p q]
  rfl

end Cert.KernelIdeal.Regions

end
-- ==== Proof.KI.StatsVal2.lean ====
/-
  Region 2: what each case of the body leaves, as values.  The block output is the linear layer's payload of
  the input blocks; each scratch row is its accumulation payload of the input blocks and of what the row held
  (zero at the first point); at the last point the two statistics windows receive the scratch rows.  So after
  point n the scratch rows hold the running column sums over the blocks 0 … n, by induction on n.
-/
import proofs.«110958_j70274254897753_1_alg».proof.Proof.KI.Stats2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hzv2 : (![0, 0] : Fin 2 → Nat) = fun _ => 0 := funext fun a => by fin_cases a <;> rfl

theorem val2_B_y_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) :
    val2_B_y c i arg1 harg1 arg2 harg2 arg3 harg3 arg4 harg4 arg5 harg5 arg6 harg6 arg7 harg7 arg8 harg8 hc0 hc1 x0 x1 x2 xs0 xs1 = k2_pay3 x0 x1 x2 := by
  unfold val2_B_y
  rw [View.read_writes_eq_canon _ _ _ (cov2_B_y c i arg1 harg1 arg2 harg2 arg3 harg3 arg4 harg4 arg5 harg5 arg6 harg6 arg7 harg7 arg8 harg8 hc0 hc1 x0 x1 x2 xs0 xs1)]
  unfold kernelRun2_B
  dsimp only
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_B_s0_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) :
    val2_B_s0 c i arg1 harg1 arg2 harg2 arg3 harg3 arg4 harg4 arg5 harg5 arg6 harg6 arg7 harg7 arg8 harg8 hc0 hc1 x0 x1 x2 xs0 xs1 = k2_pay4 x0 x1 x2 xs0 := by
  unfold val2_B_s0
  rw [View.read_writes_eq_canon _ _ _ (cov2_B_s0 c i arg1 harg1 arg2 harg2 arg3 harg3 arg4 harg4 arg5 harg5 arg6 harg6 arg7 harg7 arg8 harg8 hc0 hc1 x0 x1 x2 xs0 xs1)]
  unfold kernelRun2_B
  dsimp only
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_B_s1_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S10000x128 .f32) (x1 : Vec F S128x128 .f32) (x2 : Vec F S1x128 .f32) (xs0 xs1 : Vec F S1x128 .f32) :
    val2_B_s1 c i arg1 harg1 arg2 harg2 arg3 harg3 arg4 harg4 arg5 harg5 arg6 harg6 arg7 harg7 arg8 harg8 hc0 hc1 x0 x1 x2 xs0 xs1 = k2_pay5 x0 x1 x2 xs1 := by
  unfold val2_B_s1
  rw [View.read_writes_eq_canon _ _ _ (cov2_B_s1 c i arg1 harg1 arg2 harg2 arg3 harg3 arg4 harg4 arg5 harg5 arg6 harg6 arg7 harg7 arg8 harg8 hc0 hc1 x0 x1 x2 xs0 xs1)]
  unfold kernelRun2_B
  dsimp only
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_A_y_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) :
    val2_A_y c i arg1 harg1 arg2 harg2 arg3 harg3 arg4 harg4 arg5 harg5 arg6 harg6 arg7 harg7 arg8 harg8 hc0 hc1 x0 x1 x2 = k2_pay3 x0 x1 x2 := by
  unfold val2_A_y
  rw [View.read_writes_eq_canon _ _ _ (cov2_A_y c i arg1 harg1 arg2 harg2 arg3 harg3 arg4 harg4 arg5 harg5 arg6 harg6 arg7 harg7 arg8 harg8 hc0 hc1 x0 x1 x2)]
  unfold kernelRun2_A
  dsimp only
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_A_s0_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) :
    val2_A_s0 c i arg1 harg1 arg2 harg2 arg3 harg3 arg4 harg4 arg5 harg5 arg6 harg6 arg7 harg7 arg8 harg8 hc0 hc1 x0 x1 x2 = k2_pay4 x0 x1 x2 (k2_pay1 (F := F)) := by
  unfold val2_A_s0
  rw [View.read_writes_eq_canon _ _ _ (cov2_A_s0 c i arg1 harg1 arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S1x128) hzv2, View.readCov_unit_zero (S := S1x128) _ hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_A_s1_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S10000x128 .f32) (x1 : Vec F S128x128 .f32) (x2 : Vec F S1x128 .f32) :
    val2_A_s1 c i arg1 harg1 arg2 harg2 arg3 harg3 arg4 harg4 arg5 harg5 arg6 harg6 arg7 harg7 arg8 harg8 hc0 hc1 x0 x1 x2 = k2_pay5 x0 x1 x2 (k2_pay2 (F := F)) := by
  unfold val2_A_s1
  rw [View.read_writes_eq_canon _ _ _ (cov2_A_s1 c i arg1 harg1 arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S1x128) hzv2, View.readCov_unit_zero (S := S1x128) _ hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_C_y_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    val2_C_y c i arg1 harg1 arg2 harg2 arg3 harg3 arg4 harg4 arg5 harg5 arg6 harg6 arg7 harg7 arg8 harg8 hc0 hc1 x0 x1 x2 xs0 xs1 = k2_pay3 x0 x1 x2 := by
  unfold val2_C_y
  rw [View.read_writes_eq_canon _ _ _ (cov2_C_y c i arg1 harg1 arg2 harg2 arg3 harg3 arg4 harg4 arg5 harg5 arg6 harg6 arg7 harg7 arg8 harg8 hc0 hc1 x0 x1 x2 xs0 xs1)]
  unfold kernelRun2_C
  dsimp only
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_C_s0_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    val2_C_s0 c i arg1 harg1 arg2 harg2 arg3 harg3 arg4 harg4 arg5 harg5 arg6 harg6 arg7 harg7 arg8 harg8 hc0 hc1 x0 x1 x2 xs0 xs1 = k2_pay4 x0 x1 x2 xs0 := by
  unfold val2_C_s0
  rw [View.read_writes_eq_canon _ _ _ (cov2_C_s0 c i arg1 harg1 arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_C_s1_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    val2_C_s1 c i arg1 harg1 arg2 harg2 arg3 harg3 arg4 harg4 arg5 harg5 arg6 harg6 arg7 harg7 arg8 harg8 hc0 hc1 x0 x1 x2 xs0 xs1 = k2_pay5 x0 x1 x2 xs1 := by
  unfold val2_C_s1
  rw [View.read_writes_eq_canon _ _ _ (cov2_C_s1 c i arg1 harg1 arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_C_S_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    val2_C_S c i arg1 harg1 arg2 harg2 arg3 harg3 arg4 harg4 arg5 harg5 arg6 harg6 arg7 harg7 arg8 harg8 hc0 hc1 x0 x1 x2 xs0 xs1 = k2_pay4 x0 x1 x2 xs0 := by
  unfold val2_C_S
  rw [View.read_writes_eq_canon _ _ _ (cov2_C_S c i arg1 harg1 arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S1x128) hzv2, View.readCov_unit_zero (S := S1x128) _ hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

theorem val2_C_Q_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S10000x128 .f32) (x1 : Vec F S128x128 .f32) (x2 : Vec F S1x128 .f32) (xs0 xs1 : Vec F S1x128 .f32) :
    val2_C_Q c i arg1 harg1 arg2 harg2 arg3 harg3 arg4 harg4 arg5 harg5 arg6 harg6 arg7 harg7 arg8 harg8 hc0 hc1 x0 x1 x2 xs0 xs1 = k2_pay5 x0 x1 x2 xs1 := by
  unfold val2_C_Q
  rw [View.read_writes_eq_canon _ _ _ (cov2_C_Q c i arg1 harg1 arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S1x128) hzv2, View.readCov_unit_zero (S := S1x128) _ hzv2]
  simp only [View.readAt_eq_ld, harg1.read_unread, harg2.read_unread, harg3.read_unread, harg7.read_unread, harg8.read_unread, View.ld_unit_zero (S := S10000x128) hzv2, View.ld_unit_zero (S := S128x128) hzv2, View.ld_unit_zero (S := S1x128) hzv2]

/-- The running column sums of y and of y² after point n. -/
def accS2 (c : Dev nD) : (n : ℕ) → n < cfg2.N → Vec F S1x128 .f32
  | 0, h => k2_pay4 (iblk2 V c 0 ⟨0, h⟩) (iblk2 V c 1 ⟨0, h⟩) (iblk2 V c 2 ⟨0, h⟩) (k2_pay1 (F := F))
  | n + 1, h => k2_pay4 (iblk2 V c 0 ⟨n + 1, h⟩) (iblk2 V c 1 ⟨n + 1, h⟩) (iblk2 V c 2 ⟨n + 1, h⟩) (accS2 c n (Nat.lt_of_succ_lt h))
def accQ2 (c : Dev nD) : (n : ℕ) → n < cfg2.N → Vec F S1x128 .f32
  | 0, h => k2_pay5 (iblk2 V c 0 ⟨0, h⟩) (iblk2 V c 1 ⟨0, h⟩) (iblk2 V c 2 ⟨0, h⟩) (k2_pay2 (F := F))
  | n + 1, h => k2_pay5 (iblk2 V c 0 ⟨n + 1, h⟩) (iblk2 V c 1 ⟨n + 1, h⟩) (iblk2 V c 2 ⟨n + 1, h⟩) (accQ2 c n (Nat.lt_of_succ_lt h))

theorem accS2_zero (c : Dev nD) (h : 0 < cfg2.N) : accS2 V c 0 h = k2_pay4 (iblk2 V c 0 ⟨0, h⟩) (iblk2 V c 1 ⟨0, h⟩) (iblk2 V c 2 ⟨0, h⟩) (k2_pay1 (F := F)) := rfl
theorem accS2_succ (c : Dev nD) (n : ℕ) (hn : n + 1 < cfg2.N) :
    accS2 V c (n + 1) hn = k2_pay4 (iblk2 V c 0 ⟨n + 1, hn⟩) (iblk2 V c 1 ⟨n + 1, hn⟩) (iblk2 V c 2 ⟨n + 1, hn⟩) (accS2 V c n (Nat.lt_of_succ_lt hn)) := rfl
theorem accQ2_zero (c : Dev nD) (h : 0 < cfg2.N) : accQ2 V c 0 h = k2_pay5 (iblk2 V c 0 ⟨0, h⟩) (iblk2 V c 1 ⟨0, h⟩) (iblk2 V c 2 ⟨0, h⟩) (k2_pay2 (F := F)) := rfl
theorem accQ2_succ (c : Dev nD) (n : ℕ) (hn : n + 1 < cfg2.N) :
    accQ2 V c (n + 1) hn = k2_pay5 (iblk2 V c 0 ⟨n + 1, hn⟩) (iblk2 V c 1 ⟨n + 1, hn⟩) (iblk2 V c 2 ⟨n + 1, hn⟩) (accQ2 V c n (Nat.lt_of_succ_lt hn)) := rfl

/-- Which case a point is in. -/
theorem cond2_0_zero (h : 0 < cfg2.N) : cond2_0 (grid2.coords ⟨0, h⟩) := (hcond2_0 ⟨0, h⟩).mpr (Nat.zero_mod _)
theorem ncond2_1_zero (h : 0 < cfg2.N) : ¬cond2_1 (grid2.coords ⟨0, h⟩) := fun hh => by
  have := (hcond2_1 ⟨0, h⟩).mp hh; dsimp only at this; omega
theorem ncond2_0_succ (n : ℕ) (hn : n + 1 < cfg2.N) : ¬cond2_0 (grid2.coords ⟨n + 1, hn⟩) := fun hh => by
  have := (hcond2_0 ⟨n + 1, hn⟩).mp hh; have hN : cfg2.N = 10 := N_2; dsimp only at this; omega

/-- One step of the accumulation, read at 0 and at n + 1. -/
theorem outs2_zero (c : Dev nD) (h : 0 < cfg2.N) :
    outsAt2 V c 0 h = ((val2_A_y c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) scM2_1 (Memref.isWhole_whole _) (cond2_0_zero h) (ncond2_1_zero h) (iblk2 V c 0 ⟨0, h⟩) (iblk2 V c 1 ⟨0, h⟩) (iblk2 V c 2 ⟨0, h⟩)), (VO2_4.read (Elt F) VO2_4.junk), (VO2_5.read (Elt F) VO2_5.junk), (val2_A_s0 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) scM2_1 (Memref.isWhole_whole _) (cond2_0_zero h) (ncond2_1_zero h) (iblk2 V c 0 ⟨0, h⟩) (iblk2 V c 1 ⟨0, h⟩) (iblk2 V c 2 ⟨0, h⟩)), (val2_A_s1 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) scM2_1 (Memref.isWhole_whole _) (cond2_0_zero h) (ncond2_1_zero h) (iblk2 V c 0 ⟨0, h⟩) (iblk2 V c 1 ⟨0, h⟩) (iblk2 V c 2 ⟨0, h⟩))) := rfl
theorem outs2_succB (c : Dev nD) (n : ℕ) (hn : n + 1 < cfg2.N) (h1 : ¬(n + 1) % 10 = 9) :
    outsAt2 V c (n + 1) hn = ((val2_B_y c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) (fun hh => h1 ((hcond2_1 ⟨n + 1, hn⟩).mp hh)) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2), (VO2_4.read (Elt F) VO2_4.junk), (VO2_5.read (Elt F) VO2_5.junk), (val2_B_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) (fun hh => h1 ((hcond2_1 ⟨n + 1, hn⟩).mp hh)) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2), (val2_B_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) (fun hh => h1 ((hcond2_1 ⟨n + 1, hn⟩).mp hh)) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2)) := (dif_neg h1).trans rfl
theorem outs2_succC (c : Dev nD) (n : ℕ) (hn : n + 1 < cfg2.N) (h1 : (n + 1) % 10 = 9) :
    outsAt2 V c (n + 1) hn = ((val2_C_y c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2), (val2_C_S c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2), (val2_C_Q c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2), (val2_C_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2), (val2_C_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 V c n (Nat.lt_of_succ_lt hn)).2.2.2.1 (outsAt2 V c n (Nat.lt_of_succ_lt hn)).2.2.2.2)) := (dif_pos h1).trans rfl

/-- The one-step equations with each case's contents as payload values. -/
theorem outs2_zero' (c : Dev nD) (h : 0 < cfg2.N) :
    outsAt2 V c 0 h = (k2_pay3 (iblk2 V c 0 ⟨0, h⟩) (iblk2 V c 1 ⟨0, h⟩) (iblk2 V c 2 ⟨0, h⟩), (VO2_4.read (Elt F) VO2_4.junk), (VO2_5.read (Elt F) VO2_5.junk), k2_pay4 (iblk2 V c 0 ⟨0, h⟩) (iblk2 V c 1 ⟨0, h⟩) (iblk2 V c 2 ⟨0, h⟩) (k2_pay1 (F := F)), k2_pay5 (iblk2 V c 0 ⟨0, h⟩) (iblk2 V c 1 ⟨0, h⟩) (iblk2 V c 2 ⟨0, h⟩) (k2_pay2 (F := F))) := by
  have e := outs2_zero V c h
  simp only [val2_A_y_eq, val2_A_s0_eq, val2_A_s1_eq] at e
  exact e
theorem outs2_succB' (c : Dev nD) (n : ℕ) (hn : n + 1 < cfg2.N) (h1 : ¬(n + 1) % 10 = 9) :
    outsAt2 V c (n + 1) hn = (k2_pay3 (iblk2 V c 0 ⟨n + 1, hn⟩) (iblk2 V c 1 ⟨n + 1, hn⟩) (iblk2 V c 2 ⟨n + 1, hn⟩), (VO2_4.read (Elt F) VO2_4.junk), (VO2_5.read (Elt F) VO2_5.junk), k2_pay4 (iblk2 V c 0 ⟨n + 1, hn⟩) (iblk2 V c 1 ⟨n + 1, hn⟩) (iblk2 V c 2 ⟨n + 1, hn⟩) (outsAt2 V c n (Nat.lt_of_succ_lt hn)).2.2.2.1, k2_pay5 (iblk2 V c 0 ⟨n + 1, hn⟩) (iblk2 V c 1 ⟨n + 1, hn⟩) (iblk2 V c 2 ⟨n + 1, hn⟩) (outsAt2 V c n (Nat.lt_of_succ_lt hn)).2.2.2.2) := by
  have e := outs2_succB V c n hn h1
  simp only [val2_B_y_eq, val2_B_s0_eq, val2_B_s1_eq] at e
  exact e
theorem outs2_succC' (c : Dev nD) (n : ℕ) (hn : n + 1 < cfg2.N) (h1 : (n + 1) % 10 = 9) :
    outsAt2 V c (n + 1) hn = (k2_pay3 (iblk2 V c 0 ⟨n + 1, hn⟩) (iblk2 V c 1 ⟨n + 1, hn⟩) (iblk2 V c 2 ⟨n + 1, hn⟩), k2_pay4 (iblk2 V c 0 ⟨n + 1, hn⟩) (iblk2 V c 1 ⟨n + 1, hn⟩) (iblk2 V c 2 ⟨n + 1, hn⟩) (outsAt2 V c n (Nat.lt_of_succ_lt hn)).2.2.2.1, k2_pay5 (iblk2 V c 0 ⟨n + 1, hn⟩) (iblk2 V c 1 ⟨n + 1, hn⟩) (iblk2 V c 2 ⟨n + 1, hn⟩) (outsAt2 V c n (Nat.lt_of_succ_lt hn)).2.2.2.2, k2_pay4 (iblk2 V c 0 ⟨n + 1, hn⟩) (iblk2 V c 1 ⟨n + 1, hn⟩) (iblk2 V c 2 ⟨n + 1, hn⟩) (outsAt2 V c n (Nat.lt_of_succ_lt hn)).2.2.2.1, k2_pay5 (iblk2 V c 0 ⟨n + 1, hn⟩) (iblk2 V c 1 ⟨n + 1, hn⟩) (iblk2 V c 2 ⟨n + 1, hn⟩) (outsAt2 V c n (Nat.lt_of_succ_lt hn)).2.2.2.2) := by
  have e := outs2_succC V c n hn h1
  simp only [val2_C_y_eq, val2_C_S_eq, val2_C_Q_eq, val2_C_s0_eq, val2_C_s1_eq] at e
  exact e

/-- After point n: the block output is the linear payload of block n, the scratch rows are the running sums. -/
theorem outs2_eq (c : Dev nD) (n : ℕ) : ∀ (h : n < cfg2.N),
    (outsAt2 V c n h).1 = k2_pay3 (iblk2 V c 0 ⟨n, h⟩) (iblk2 V c 1 ⟨n, h⟩) (iblk2 V c 2 ⟨n, h⟩)
    ∧ (outsAt2 V c n h).2.2.2.1 = accS2 V c n h ∧ (outsAt2 V c n h).2.2.2.2 = accQ2 V c n h := by
  induction n with
  | zero =>
    intro h
    have e := outs2_zero' V c h
    exact ⟨congrArg (fun o => o.1) e, (congrArg (fun o => o.2.2.2.1) e).trans (accS2_zero V c h).symm,
      (congrArg (fun o => o.2.2.2.2) e).trans (accQ2_zero V c h).symm⟩
  | succ n ih =>
    intro hn
    obtain ⟨-, ih0, ih1⟩ := ih (Nat.lt_of_succ_lt hn)
    by_cases h1 : (n + 1) % 10 = 9
    · have e := outs2_succC' V c n hn h1
      exact ⟨congrArg (fun o => o.1) e,
        (congrArg (fun o => o.2.2.2.1) e).trans ((congrArg (k2_pay4 (iblk2 V c 0 ⟨n + 1, hn⟩) (iblk2 V c 1 ⟨n + 1, hn⟩) (iblk2 V c 2 ⟨n + 1, hn⟩)) ih0).trans (accS2_succ V c n hn).symm),
        (congrArg (fun o => o.2.2.2.2) e).trans ((congrArg (k2_pay5 (iblk2 V c 0 ⟨n + 1, hn⟩) (iblk2 V c 1 ⟨n + 1, hn⟩) (iblk2 V c 2 ⟨n + 1, hn⟩)) ih1).trans (accQ2_succ V c n hn).symm)⟩
    · have e := outs2_succB' V c n hn h1
      exact ⟨congrArg (fun o => o.1) e,
        (congrArg (fun o => o.2.2.2.1) e).trans ((congrArg (k2_pay4 (iblk2 V c 0 ⟨n + 1, hn⟩) (iblk2 V c 1 ⟨n + 1, hn⟩) (iblk2 V c 2 ⟨n + 1, hn⟩)) ih0).trans (accS2_succ V c n hn).symm),
        (congrArg (fun o => o.2.2.2.2) e).trans ((congrArg (k2_pay5 (iblk2 V c 0 ⟨n + 1, hn⟩) (iblk2 V c 1 ⟨n + 1, hn⟩) (iblk2 V c 2 ⟨n + 1, hn⟩)) ih1).trans (accQ2_succ V c n hn).symm)⟩

/-- At the last point the two statistics windows receive the running sums. -/
theorem outs2_last (c : Dev nD) (hn : 8 + 1 < cfg2.N) :
    (outsAt2 V c (8 + 1) hn).2.1 = accS2 V c (8 + 1) hn ∧ (outsAt2 V c (8 + 1) hn).2.2.1 = accQ2 V c (8 + 1) hn := by
  obtain ⟨-, ih0, ih1⟩ := outs2_eq V c 8 (Nat.lt_of_succ_lt hn)
  have h1 : (8 + 1) % 10 = 9 := rfl
  have e := outs2_succC' V c 8 hn h1
  exact ⟨(congrArg (fun o => o.2.1) e).trans ((congrArg (k2_pay4 (iblk2 V c 0 ⟨8 + 1, hn⟩) (iblk2 V c 1 ⟨8 + 1, hn⟩) (iblk2 V c 2 ⟨8 + 1, hn⟩)) ih0).trans (accS2_succ V c 8 hn).symm),
    (congrArg (fun o => o.2.2.1) e).trans ((congrArg (k2_pay5 (iblk2 V c 0 ⟨8 + 1, hn⟩) (iblk2 V c 1 ⟨8 + 1, hn⟩) (iblk2 V c 2 ⟨8 + 1, hn⟩)) ih1).trans (accQ2_succ V c 8 hn).symm)⟩

end Cert.KernelIdeal.Regions

end
-- ==== Proof.KI.StatsFinY2.lean ====
/-
  Region 2: the block output as one array.  Block t of the output is the linear payload of block t of the
  input rows and of the (whole) weights and bias; the ten blocks tile the array; so the output array is the
  linear layer of the whole arrays, entry by entry.
-/
import proofs.«110958_j70274254897753_1_alg».proof.Proof.KI.StatsVal2
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row p of block t is row 10000·t + p of the array. -/
def rowOf2 (t : Fin cfg2.N) (p : Fin 10000) : Fin 100000 :=
  ⟨t.val * 10000 + p.val, by have := t.isLt; have hN : cfg2.N = 10 := N_2; have := p.isLt; omega⟩

theorem sidx_facts2 : ∀ t : Fin cfg2.N, win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

set_option maxHeartbeats 2000000 in
/-- An entry of block t of row-blocked input window 0. -/
theorem rd2_0 (c : Dev nD) (t : Fin cfg2.N) (p : Fin 10000) (cc : Fin 128) :
    iblk2 V c 0 t (ix2 p cc) = V c main_v24 (ix2 (rowOf2 t p) cc) := by
  have hf := sidx_facts2 t
  unfold iblk2
  rw [View.read_apply]
  refine congrArg (V c main_v24) ?_
  funext a; apply Fin.ext
  match a with
  | ⟨0, _⟩ => show win2_0.index t (0 : Fin 2) * 10000 + 1 * p.val = t.val * 10000 + p.val; omega
  | ⟨1, _⟩ => show win2_0.index t (1 : Fin 2) * 128 + 1 * cc.val = cc.val; omega
set_option maxHeartbeats 2000000 in
/-- The weights' and the bias' one block is the whole array. -/
theorem rd2_w (c : Dev nD) (t : Fin cfg2.N) (cc : Fin 128) (q : Fin 128) :
    iblk2 V c 1 t (ix2 cc q) = V c main_arg6 (ix2 cc q) := by
  have hf := sidx_facts2 t
  unfold iblk2
  rw [View.read_apply]
  refine congrArg (V c main_arg6) ?_
  funext a; apply Fin.ext
  match a with
  | ⟨0, _⟩ => show win2_1.index t (0 : Fin 2) * 128 + 1 * cc.val = cc.val; omega
  | ⟨1, _⟩ => show win2_1.index t (1 : Fin 2) * 128 + 1 * q.val = q.val; omega
set_option maxHeartbeats 2000000 in
theorem rd2_b (c : Dev nD) (t : Fin cfg2.N) (q : Fin 128) :
    iblk2 V c 2 t (ix2 0 q) = V c main_v25 (ix2 0 q) := by
  have hf := sidx_facts2 t
  unfold iblk2
  rw [View.read_apply]
  refine congrArg (V c main_v25) ?_
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- The linear payload of block t at (p, q) is the linear layer at (10000·t + p, q). -/
theorem blkY2 (c : Dev nD) (t : Fin cfg2.N) (p : Fin 10000) (q : Fin 128) :
    k2_pay3 (F := Ideal) (iblk2 V c 0 t) (iblk2 V c 1 t) (iblk2 V c 2 t) (ix2 p q) = linF2 (V c main_v24) (V c main_arg6) (V c main_v25) (ix2 (rowOf2 t p) q) := by
  rw [Cert.KernelIdeal.PayAt.k2_pay3_at]
  unfold linF2
  simp only [rd2_0 V c t, rd2_w V c t, rd2_b V c t]
  all_goals rfl

/-! ## The block output as one array -/

set_option maxHeartbeats 4000000 in
/-- What point t writes back of the block output is block t of the linear layer. -/
theorem flushedY2_eq (c : Dev nD) (t : Fin cfg2.N) :
    (dat2 V c).flushed 3 t = ((cfg2.win 3).blk t).view.read (Elt Ideal) (linF2 (V c main_v24) (V c main_arg6) (V c main_v25)) := by
  show (cfg2.win 3).cut (grid2.coords t) ((dat2 V c).after 3 t) = _
  rw [after2_3, (outs2_eq V c t.val t.isLt).1]
  have hf := sidx_facts2 t
  funext j
  obtain ⟨p, q, rfl⟩ : ∃ (p : Fin 10000) (q : Fin 128), j = ix2 p q := ⟨j 0, j 1, eq_ix2 j⟩
  show k2_pay3 (F := Ideal) (iblk2 V c 0 t) (iblk2 V c 1 t) (iblk2 V c 2 t) (ix2 p q) = linF2 (V c main_v24) (V c main_arg6) (V c main_v25) (((cfg2.win 3).blk t).view.emb (ix2 p q))
  rw [blkY2 V c t p q]
  refine congrArg (linF2 (V c main_v24) (V c main_arg6) (V c main_v25)) ?_
  funext a; apply Fin.ext
  match a with
  | ⟨0, _⟩ => show t.val * 10000 + p.val = win2_3.index t (0 : Fin 2) * 10000 + 1 * p.val; omega
  | ⟨1, _⟩ => show q.val = win2_3.index t (1 : Fin 2) * 128 + 1 * q.val; omega

theorem mem_blkY2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v26_0).slice (win2_3.rect t)).set ↔ _
  rw [View.set_slice_whole, Rect.mem_set_unit]
  exact Iff.rfl

set_option maxHeartbeats 2000000 in
/-- The block output array after the region: the linear layer, everywhere. -/
theorem finalY2 (c : Dev nD) : (dat2 V c).arrAt 3 cfg2.N = linF2 (V c main_v24) (V c main_arg6) (V c main_v25) :=
  (dat2 V c).arrAt_eq_of_cover 3 _ (fun t _ => flushedY2_eq V c t) fun i => by
    have hi0 : (i 0).val < 100000 := (i 0).isLt
    have hi1 : (i 1).val < 128 := (i 1).isLt
    have hN : cfg2.N = 10 := N_2
    refine ⟨⟨(i 0).val / 10000, by omega⟩, flush2_3 _, ?_⟩
    rw [mem_blkY2]
    have hf := sidx_facts2 ⟨(i 0).val / 10000, by omega⟩
    intro a
    match a with
    | ⟨0, _⟩ => show win2_3.index _ (0 : Fin 2) * 10000 ≤ (i 0).val ∧ (i 0).val < win2_3.index _ (0 : Fin 2) * 10000 + 10000; dsimp only at hf; omega
    | ⟨1, _⟩ => show win2_3.index _ (1 : Fin 2) * 128 ≤ (i 1).val ∧ (i 1).val < win2_3.index _ (1 : Fin 2) * 128 + 128; omega

end Cert.KernelIdeal.Regions

end
-- ==== Proof.KI.StatsFinS2.lean ====
/-
  Region 2: the two statistics arrays.  Each is written back once, at the last point, and its one block is the
  whole row; so after the region it holds the running sum after the last point.
-/
import proofs.«110958_j70274254897753_1_alg».proof.Proof.KI.StatsVal2
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The two statistics arrays -/

set_option maxHeartbeats 4000000 in
/-- The one write-back of statistics window 4, at the last point, writes the running sums: its block is the whole row. -/
theorem flushedS2_eq (c : Dev nD) (t : Fin cfg2.N) (hf : (cfg2.win 4).flush t = true) :
    (dat2 V c).flushed 4 t = ((cfg2.win 4).blk t).view.read (Elt Ideal) (accS2 V c 9 t2_9.isLt) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4]
  show (cfg2.win 4).cut (grid2.coords t2_9) (outsAt2 V c 9 t2_9.isLt).2.1 = _
  rw [(outs2_last V c t2_9.isLt).1]
  have hz' : (fun a => win2_4.index t2_9 a * main_v26_1.ty.shape.size a) = fun _ => 0 := funext fun a => by fin_cases a <;> decide
  exact (Memref.read_access_unit_zero (Elt Ideal) main_v26_1 hz' (fun a => by rw [congrFun hz' a]; simp) (accS2 V c 9 t2_9.isLt)).symm

set_option maxHeartbeats 4000000 in
theorem finalS2 (c : Dev nD) : (dat2 V c).arrAt 4 cfg2.N = accS2 V c 9 t2_9.isLt :=
  (dat2 V c).arrAt_eq_of_cover 4 (accS2 V c 9 t2_9.isLt) (flushedS2_eq V c) fun i =>
    ⟨t2_9, (flush2_4 t2_9).mpr rfl, by
      show i ∈ ((View.whole main_v26_1).slice (win2_4.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 1 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 128 from by decide +kernel]; omega⟩

set_option maxHeartbeats 4000000 in
/-- The one write-back of statistics window 5, at the last point, writes the running sums: its block is the whole row. -/
theorem flushedQ2_eq (c : Dev nD) (t : Fin cfg2.N) (hf : (cfg2.win 5).flush t = true) :
    (dat2 V c).flushed 5 t = ((cfg2.win 5).blk t).view.read (Elt Ideal) (accQ2 V c 9 t2_9.isLt) := by
  have hN : cfg2.N = 10 := N_2
  have h9 : t.val = 9 := by have := (flush2_5 t).mp hf; have := t.isLt; omega
  obtain rfl : t = t2_9 := Fin.ext h9
  show (cfg2.win 5).cut (grid2.coords t2_9) ((dat2 V c).after 5 t2_9) = _
  rw [after2_5]
  show (cfg2.win 5).cut (grid2.coords t2_9) (outsAt2 V c 9 t2_9.isLt).2.2.1 = _
  rw [(outs2_last V c t2_9.isLt).2]
  have hz' : (fun a => win2_5.index t2_9 a * main_v26_2.ty.shape.size a) = fun _ => 0 := funext fun a => by fin_cases a <;> decide
  exact (Memref.read_access_unit_zero (Elt Ideal) main_v26_2 hz' (fun a => by rw [congrFun hz' a]; simp) (accQ2 V c 9 t2_9.isLt)).symm

set_option maxHeartbeats 4000000 in
theorem finalQ2 (c : Dev nD) : (dat2 V c).arrAt 5 cfg2.N = accQ2 V c 9 t2_9.isLt :=
  (dat2 V c).arrAt_eq_of_cover 5 (accQ2 V c 9 t2_9.isLt) (flushedQ2_eq V c) fun i =>
    ⟨t2_9, (flush2_5 t2_9).mpr rfl, by
      show i ∈ ((View.whole main_v26_2).slice (win2_5.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_5.index t2_9 0 * win2_5.size 0 ≤ (i 0 : Nat) ∧ (i 0 : Nat) < win2_5.index t2_9 0 * win2_5.size 0 + win2_5.xsize (grid2.coords t2_9) 0
                  rw [show win2_5.index t2_9 0 * win2_5.size 0 = 0 from by decide +kernel, show win2_5.xsize (grid2.coords t2_9) 0 = 1 from by decide +kernel]; omega
      | ⟨1, _⟩ => show win2_5.index t2_9 1 * win2_5.size 1 ≤ (i 1 : Nat) ∧ (i 1 : Nat) < win2_5.index t2_9 1 * win2_5.size 1 + win2_5.xsize (grid2.coords t2_9) 1
                  rw [show win2_5.index t2_9 1 * win2_5.size 1 = 0 from by decide +kernel, show win2_5.xsize (grid2.coords t2_9) 1 = 128 from by decide +kernel]; omega⟩

end Cert.KernelIdeal.Regions

end
-- ==== Proof.KI.StatsFinA2.lean ====
/-
  Region 2: the running sums at a column: the zero word plus, block by block, the column sum of the block's
  linear payload (or of its square).
-/
import proofs.«110958_j70274254897753_1_alg».proof.Proof.KI.StatsVal2
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The running sums at a column -/

/-- Block s's contribution to column q. -/
def contribaccS2 (c : Dev nD) (q : Fin 128) (s : ℕ) : EReal :=
  if hs : s < cfg2.N then ∑ p : Fin 10000, k2_pay3 (F := Ideal) (iblk2 V c 0 ⟨s, hs⟩) (iblk2 V c 1 ⟨s, hs⟩) (iblk2 V c 2 ⟨s, hs⟩) (ix2 p q) else 0

/-- The running sum after point n, at column q: the zero word plus the contributions of the blocks 0 … n. -/
theorem accS2_at (c : Dev nD) (q : Fin 128) : ∀ (n : ℕ) (h : n < cfg2.N),
    accS2 V c n h (ix2 0 q) = Ideal.ofBits .f32 0x00000000#32 + ∑ s : Fin (n + 1), contribaccS2 V c q s.val
  | 0, h => by
    rw [accS2, Cert.KernelIdeal.PayAt.k2_pay4_at, Cert.KernelIdeal.PayAt.k2_pay1_at]
    refine congrArg (fun z => Ideal.ofBits .f32 0x00000000#32 + z) ?_
    show _ = ∑ s : Fin 1, contribaccS2 V c q s.val
    rw [Fin.sum_univ_one]
    show _ = contribaccS2 V c q 0
    rw [contribaccS2, dif_pos h]
  | n + 1, h => by
    rw [accS2, Cert.KernelIdeal.PayAt.k2_pay4_at, accS2_at c q n (Nat.lt_of_succ_lt h), Fin.sum_univ_castSucc (n := n + 1), add_assoc]
    congr 2
    simp only [Fin.val_last, contribaccS2]
    rw [dif_pos h]

/-- Block s's contribution to column q. -/
def contribaccQ2 (c : Dev nD) (q : Fin 128) (s : ℕ) : EReal :=
  if hs : s < cfg2.N then ∑ p : Fin 10000, k2_pay3 (F := Ideal) (iblk2 V c 0 ⟨s, hs⟩) (iblk2 V c 1 ⟨s, hs⟩) (iblk2 V c 2 ⟨s, hs⟩) (ix2 p q) * k2_pay3 (F := Ideal) (iblk2 V c 0 ⟨s, hs⟩) (iblk2 V c 1 ⟨s, hs⟩) (iblk2 V c 2 ⟨s, hs⟩) (ix2 p q) else 0

/-- The running sum after point n, at column q: the zero word plus the contributions of the blocks 0 … n. -/
theorem accQ2_at (c : Dev nD) (q : Fin 128) : ∀ (n : ℕ) (h : n < cfg2.N),
    accQ2 V c n h (ix2 0 q) = Ideal.ofBits .f32 0x00000000#32 + ∑ s : Fin (n + 1), contribaccQ2 V c q s.val
  | 0, h => by
    rw [accQ2, Cert.KernelIdeal.PayAt.k2_pay5_at, Cert.KernelIdeal.PayAt.k2_pay2_at]
    refine congrArg (fun z => Ideal.ofBits .f32 0x00000000#32 + z) ?_
    show _ = ∑ s : Fin 1, contribaccQ2 V c q s.val
    rw [Fin.sum_univ_one]
    show _ = contribaccQ2 V c q 0
    rw [contribaccQ2, dif_pos h]
  | n + 1, h => by
    rw [accQ2, Cert.KernelIdeal.PayAt.k2_pay5_at, accQ2_at c q n (Nat.lt_of_succ_lt h), Fin.sum_univ_castSucc (n := n + 1), add_assoc]
    congr 2
    simp only [Fin.val_last, contribaccQ2]
    rw [dif_pos h]

end Cert.KernelIdeal.Regions

end
-- ==== Proof.KI.StatsFinT2.lean ====
/-
  Region 2: the statistics arrays as sums over all 100000 rows: the ten blocks' contributions, re-indexed.
-/
import proofs.«110958_j70274254897753_1_alg».proof.Proof.KI.StatsFinY2
import proofs.«110958_j70274254897753_1_alg».proof.Proof.KI.StatsFinS2
import proofs.«110958_j70274254897753_1_alg».proof.Proof.KI.StatsFinA2
import proofs.«110958_j70274254897753_1_alg».proof.Proof.Math.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The statistics arrays as sums over all rows -/

set_option maxHeartbeats 2000000 in
/-- Statistics window 4 after the region, at column q: the zero word plus the sum over all 100000 rows. -/
theorem sumS2 (c : Dev nD) (q : Fin 128) :
    ((dat2 V c).arrAt 4 cfg2.N : S1x128.Idx → EReal) (ix2 0 q)
      = Ideal.ofBits .f32 0x00000000#32 + ∑ i : Fin 100000, linF2 (V c main_v24) (V c main_arg6) (V c main_v25) (ix2 i q) := by
  rw [finalS2 V c, accS2_at V c q 9 t2_9.isLt]
  refine congrArg (fun z => Ideal.ofBits .f32 0x00000000#32 + z) ?_
  have hN : cfg2.N = 10 := N_2
  refine Eq.trans ?_ (Cert.Math.block_sum (fun i => linF2 (V c main_v24) (V c main_arg6) (V c main_v25) (ix2 i q)))
  refine Finset.sum_congr rfl fun s _ => ?_
  have hs : s.val < cfg2.N := by have := s.isLt; omega
  rw [contribaccS2, dif_pos hs]
  refine Finset.sum_congr rfl fun p _ => ?_
  rw [blkY2 V c ⟨s.val, hs⟩ p q]
  rfl

set_option maxHeartbeats 2000000 in
/-- Statistics window 5 after the region, at column q: the zero word plus the sum over all 100000 rows. -/
theorem sumQ2 (c : Dev nD) (q : Fin 128) :
    ((dat2 V c).arrAt 5 cfg2.N : S1x128.Idx → EReal) (ix2 0 q)
      = Ideal.ofBits .f32 0x00000000#32 + ∑ i : Fin 100000, linF2 (V c main_v24) (V c main_arg6) (V c main_v25) (ix2 i q) * linF2 (V c main_v24) (V c main_arg6) (V c main_v25) (ix2 i q) := by
  rw [finalQ2 V c, accQ2_at V c q 9 t2_9.isLt]
  refine congrArg (fun z => Ideal.ofBits .f32 0x00000000#32 + z) ?_
  have hN : cfg2.N = 10 := N_2
  refine Eq.trans ?_ (Cert.Math.block_sum (fun i => linF2 (V c main_v24) (V c main_arg6) (V c main_v25) (ix2 i q) * linF2 (V c main_v24) (V c main_arg6) (V c main_v25) (ix2 i q)))
  refine Finset.sum_congr rfl fun s _ => ?_
  have hs : s.val < cfg2.N := by have := s.isLt; omega
  rw [contribaccQ2, dif_pos hs]
  refine Finset.sum_congr rfl fun p _ => ?_
  rw [blkY2 V c ⟨s.val, hs⟩ p q]
  rfl

end Cert.KernelIdeal.Regions

end
-- ==== Proof.KI.StatsVal4.lean ====
/-
  Region 4: what each case of the body leaves, as values.  The block output is the linear layer's payload of
  the input blocks; each scratch row is its accumulation payload of the input blocks and of what the row held
  (zero at the first point); at the last point the two statistics windows receive the scratch rows.  So after
  point n the scratch rows hold the running column sums over the blocks 0 … n, by induction on n.
-/
import proofs.«110958_j70274254897753_1_alg».proof.Proof.KI.Stats4
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hzv4 : (![0, 0] : Fin 2 → Nat) = fun _ => 0 := funext fun a => by fin_cases a <;> rfl

theorem val4_B_y_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) :
    val4_B_y c i arg1 harg1 arg2 harg2 arg3 harg3 arg4 harg4 arg5 harg5 arg6 harg6 arg7 harg7 arg8 harg8 arg9 harg9 hc0 hc1 x0 x1 x2 x3 xs0 xs1 = k4_pay3 x0 x1 x2 x3 := by
  unfold val4_B_y
  rw [View.read_writes_eq_canon _ _ _ (cov4_B_y c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_B_s0_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) :
    val4_B_s0 c i arg1 harg1 arg2 harg2 arg3 harg3 arg4 harg4 arg5 harg5 arg6 harg6 arg7 harg7 arg8 harg8 arg9 harg9 hc0 hc1 x0 x1 x2 x3 xs0 xs1 = k4_pay4 x0 x1 x2 x3 xs0 := by
  unfold val4_B_s0
  rw [View.read_writes_eq_canon _ _ _ (cov4_B_s0 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_B_s1_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S10000x128 .f32) (x1 : Vec F S10000x128 .f32) (x2 : Vec F S128x128 .f32) (x3 : Vec F S1x128 .f32) (xs0 xs1 : Vec F S1x128 .f32) :
    val4_B_s1 c i arg1 harg1 arg2 harg2 arg3 harg3 arg4 harg4 arg5 harg5 arg6 harg6 arg7 harg7 arg8 harg8 arg9 harg9 hc0 hc1 x0 x1 x2 x3 xs0 xs1 = k4_pay5 x0 x1 x2 x3 xs1 := by
  unfold val4_B_s1
  rw [View.read_writes_eq_canon _ _ _ (cov4_B_s1 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_A_y_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) :
    val4_A_y c i arg1 harg1 arg2 harg2 arg3 harg3 arg4 harg4 arg5 harg5 arg6 harg6 arg7 harg7 arg8 harg8 arg9 harg9 hc0 hc1 x0 x1 x2 x3 = k4_pay3 x0 x1 x2 x3 := by
  unfold val4_A_y
  rw [View.read_writes_eq_canon _ _ _ (cov4_A_y c i arg1 harg1 arg2 harg2 arg3 harg3 arg4 harg4 arg5 harg5 arg6 harg6 arg7 harg7 arg8 harg8 arg9 harg9 hc0 hc1 x0 x1 x2 x3)]
  unfold kernelRun4_A
  dsimp only
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_A_s0_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) :
    val4_A_s0 c i arg1 harg1 arg2 harg2 arg3 harg3 arg4 harg4 arg5 harg5 arg6 harg6 arg7 harg7 arg8 harg8 arg9 harg9 hc0 hc1 x0 x1 x2 x3 = k4_pay4 x0 x1 x2 x3 (k4_pay1 (F := F)) := by
  unfold val4_A_s0
  rw [View.read_writes_eq_canon _ _ _ (cov4_A_s0 c i arg1 harg1 arg2 harg2 arg3 harg3 arg4 harg4 arg5 harg5 arg6 harg6 arg7 harg7 arg8 harg8 arg9 harg9 hc0 hc1 x0 x1 x2 x3)]
  unfold kernelRun4_A
  dsimp only
  sl_unfold_words
  rw [View.canon_cons_unit_zero (S := S1x128) hzv4, View.readCov_unit_zero (S := S1x128) _ hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_A_s1_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S10000x128 .f32) (x1 : Vec F S10000x128 .f32) (x2 : Vec F S128x128 .f32) (x3 : Vec F S1x128 .f32) :
    val4_A_s1 c i arg1 harg1 arg2 harg2 arg3 harg3 arg4 harg4 arg5 harg5 arg6 harg6 arg7 harg7 arg8 harg8 arg9 harg9 hc0 hc1 x0 x1 x2 x3 = k4_pay5 x0 x1 x2 x3 (k4_pay2 (F := F)) := by
  unfold val4_A_s1
  rw [View.read_writes_eq_canon _ _ _ (cov4_A_s1 c i arg1 harg1 arg2 harg2 arg3 harg3 arg4 harg4 arg5 harg5 arg6 harg6 arg7 harg7 arg8 harg8 arg9 harg9 hc0 hc1 x0 x1 x2 x3)]
  unfold kernelRun4_A
  dsimp only
  sl_unfold_words
  rw [View.canon_cons_unit_zero (S := S1x128) hzv4, View.readCov_unit_zero (S := S1x128) _ hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_C_y_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    val4_C_y c i arg1 harg1 arg2 harg2 arg3 harg3 arg4 harg4 arg5 harg5 arg6 harg6 arg7 harg7 arg8 harg8 arg9 harg9 hc0 hc1 x0 x1 x2 x3 xs0 xs1 = k4_pay3 x0 x1 x2 x3 := by
  unfold val4_C_y
  rw [View.read_writes_eq_canon _ _ _ (cov4_C_y c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_C_s0_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    val4_C_s0 c i arg1 harg1 arg2 harg2 arg3 harg3 arg4 harg4 arg5 harg5 arg6 harg6 arg7 harg7 arg8 harg8 arg9 harg9 hc0 hc1 x0 x1 x2 x3 xs0 xs1 = k4_pay4 x0 x1 x2 x3 xs0 := by
  unfold val4_C_s0
  rw [View.read_writes_eq_canon _ _ _ (cov4_C_s0 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_C_s1_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    val4_C_s1 c i arg1 harg1 arg2 harg2 arg3 harg3 arg4 harg4 arg5 harg5 arg6 harg6 arg7 harg7 arg8 harg8 arg9 harg9 hc0 hc1 x0 x1 x2 x3 xs0 xs1 = k4_pay5 x0 x1 x2 x3 xs1 := by
  unfold val4_C_s1
  rw [View.read_writes_eq_canon _ _ _ (cov4_C_s1 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_C_S_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    val4_C_S c i arg1 harg1 arg2 harg2 arg3 harg3 arg4 harg4 arg5 harg5 arg6 harg6 arg7 harg7 arg8 harg8 arg9 harg9 hc0 hc1 x0 x1 x2 x3 xs0 xs1 = k4_pay4 x0 x1 x2 x3 xs0 := by
  unfold val4_C_S
  rw [View.read_writes_eq_canon _ _ _ (cov4_C_S c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero (S := S1x128) hzv4, View.readCov_unit_zero (S := S1x128) _ hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

theorem val4_C_Q_eq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S10000x128 .f32) (x1 : Vec F S10000x128 .f32) (x2 : Vec F S128x128 .f32) (x3 : Vec F S1x128 .f32) (xs0 xs1 : Vec F S1x128 .f32) :
    val4_C_Q c i arg1 harg1 arg2 harg2 arg3 harg3 arg4 harg4 arg5 harg5 arg6 harg6 arg7 harg7 arg8 harg8 arg9 harg9 hc0 hc1 x0 x1 x2 x3 xs0 xs1 = k4_pay5 x0 x1 x2 x3 xs1 := by
  unfold val4_C_Q
  rw [View.read_writes_eq_canon _ _ _ (cov4_C_Q c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero (S := S1x128) hzv4, View.readCov_unit_zero (S := S1x128) _ hzv4]
  simp only [View.readAt_eq_ld, harg1.read_unread, harg2.read_unread, harg3.read_unread, harg4.read_unread, harg8.read_unread, harg9.read_unread, View.ld_unit_zero (S := S10000x128) hzv4, View.ld_unit_zero (S := S128x128) hzv4, View.ld_unit_zero (S := S1x128) hzv4]

/-- The running column sums of y and of y² after point n. -/
def accS4 (c : Dev nD) : (n : ℕ) → n < cfg4.N → Vec F S1x128 .f32
  | 0, h => k4_pay4 (iblk4 V c 0 ⟨0, h⟩) (iblk4 V c 1 ⟨0, h⟩) (iblk4 V c 2 ⟨0, h⟩) (iblk4 V c 3 ⟨0, h⟩) (k4_pay1 (F := F))
  | n + 1, h => k4_pay4 (iblk4 V c 0 ⟨n + 1, h⟩) (iblk4 V c 1 ⟨n + 1, h⟩) (iblk4 V c 2 ⟨n + 1, h⟩) (iblk4 V c 3 ⟨n + 1, h⟩) (accS4 c n (Nat.lt_of_succ_lt h))
def accQ4 (c : Dev nD) : (n : ℕ) → n < cfg4.N → Vec F S1x128 .f32
  | 0, h => k4_pay5 (iblk4 V c 0 ⟨0, h⟩) (iblk4 V c 1 ⟨0, h⟩) (iblk4 V c 2 ⟨0, h⟩) (iblk4 V c 3 ⟨0, h⟩) (k4_pay2 (F := F))
  | n + 1, h => k4_pay5 (iblk4 V c 0 ⟨n + 1, h⟩) (iblk4 V c 1 ⟨n + 1, h⟩) (iblk4 V c 2 ⟨n + 1, h⟩) (iblk4 V c 3 ⟨n + 1, h⟩) (accQ4 c n (Nat.lt_of_succ_lt h))

theorem accS4_zero (c : Dev nD) (h : 0 < cfg4.N) : accS4 V c 0 h = k4_pay4 (iblk4 V c 0 ⟨0, h⟩) (iblk4 V c 1 ⟨0, h⟩) (iblk4 V c 2 ⟨0, h⟩) (iblk4 V c 3 ⟨0, h⟩) (k4_pay1 (F := F)) := rfl
theorem accS4_succ (c : Dev nD) (n : ℕ) (hn : n + 1 < cfg4.N) :
    accS4 V c (n + 1) hn = k4_pay4 (iblk4 V c 0 ⟨n + 1, hn⟩) (iblk4 V c 1 ⟨n + 1, hn⟩) (iblk4 V c 2 ⟨n + 1, hn⟩) (iblk4 V c 3 ⟨n + 1, hn⟩) (accS4 V c n (Nat.lt_of_succ_lt hn)) := rfl
theorem accQ4_zero (c : Dev nD) (h : 0 < cfg4.N) : accQ4 V c 0 h = k4_pay5 (iblk4 V c 0 ⟨0, h⟩) (iblk4 V c 1 ⟨0, h⟩) (iblk4 V c 2 ⟨0, h⟩) (iblk4 V c 3 ⟨0, h⟩) (k4_pay2 (F := F)) := rfl
theorem accQ4_succ (c : Dev nD) (n : ℕ) (hn : n + 1 < cfg4.N) :
    accQ4 V c (n + 1) hn = k4_pay5 (iblk4 V c 0 ⟨n + 1, hn⟩) (iblk4 V c 1 ⟨n + 1, hn⟩) (iblk4 V c 2 ⟨n + 1, hn⟩) (iblk4 V c 3 ⟨n + 1, hn⟩) (accQ4 V c n (Nat.lt_of_succ_lt hn)) := rfl

/-- Which case a point is in. -/
theorem cond4_0_zero (h : 0 < cfg4.N) : cond4_0 (grid4.coords ⟨0, h⟩) := (hcond4_0 ⟨0, h⟩).mpr (Nat.zero_mod _)
theorem ncond4_1_zero (h : 0 < cfg4.N) : ¬cond4_1 (grid4.coords ⟨0, h⟩) := fun hh => by
  have := (hcond4_1 ⟨0, h⟩).mp hh; dsimp only at this; omega
theorem ncond4_0_succ (n : ℕ) (hn : n + 1 < cfg4.N) : ¬cond4_0 (grid4.coords ⟨n + 1, hn⟩) := fun hh => by
  have := (hcond4_0 ⟨n + 1, hn⟩).mp hh; have hN : cfg4.N = 10 := N_4; dsimp only at this; omega

/-- One step of the accumulation, read at 0 and at n + 1. -/
theorem outs4_zero (c : Dev nD) (h : 0 < cfg4.N) :
    outsAt4 V c 0 h = ((val4_A_y c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) scM4_0 (Memref.isWhole_whole _) scM4_1 (Memref.isWhole_whole _) (cond4_0_zero h) (ncond4_1_zero h) (iblk4 V c 0 ⟨0, h⟩) (iblk4 V c 1 ⟨0, h⟩) (iblk4 V c 2 ⟨0, h⟩) (iblk4 V c 3 ⟨0, h⟩)), (VO4_5.read (Elt F) VO4_5.junk), (VO4_6.read (Elt F) VO4_6.junk), (val4_A_s0 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) scM4_0 (Memref.isWhole_whole _) scM4_1 (Memref.isWhole_whole _) (cond4_0_zero h) (ncond4_1_zero h) (iblk4 V c 0 ⟨0, h⟩) (iblk4 V c 1 ⟨0, h⟩) (iblk4 V c 2 ⟨0, h⟩) (iblk4 V c 3 ⟨0, h⟩)), (val4_A_s1 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) scM4_0 (Memref.isWhole_whole _) scM4_1 (Memref.isWhole_whole _) (cond4_0_zero h) (ncond4_1_zero h) (iblk4 V c 0 ⟨0, h⟩) (iblk4 V c 1 ⟨0, h⟩) (iblk4 V c 2 ⟨0, h⟩) (iblk4 V c 3 ⟨0, h⟩))) := rfl
theorem outs4_succB (c : Dev nD) (n : ℕ) (hn : n + 1 < cfg4.N) (h1 : ¬(n + 1) % 10 = 9) :
    outsAt4 V c (n + 1) hn = ((val4_B_y c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) (fun hh => h1 ((hcond4_1 ⟨n + 1, hn⟩).mp hh)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2), (VO4_5.read (Elt F) VO4_5.junk), (VO4_6.read (Elt F) VO4_6.junk), (val4_B_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) (fun hh => h1 ((hcond4_1 ⟨n + 1, hn⟩).mp hh)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2), (val4_B_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) (fun hh => h1 ((hcond4_1 ⟨n + 1, hn⟩).mp hh)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2)) := (dif_neg h1).trans rfl
theorem outs4_succC (c : Dev nD) (n : ℕ) (hn : n + 1 < cfg4.N) (h1 : (n + 1) % 10 = 9) :
    outsAt4 V c (n + 1) hn = ((val4_C_y c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2), (val4_C_S c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2), (val4_C_Q c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2), (val4_C_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2), (val4_C_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (ncond4_0_succ n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2)) := (dif_pos h1).trans rfl

/-- The one-step equations with each case's contents as payload values. -/
theorem outs4_zero' (c : Dev nD) (h : 0 < cfg4.N) :
    outsAt4 V c 0 h = (k4_pay3 (iblk4 V c 0 ⟨0, h⟩) (iblk4 V c 1 ⟨0, h⟩) (iblk4 V c 2 ⟨0, h⟩) (iblk4 V c 3 ⟨0, h⟩), (VO4_5.read (Elt F) VO4_5.junk), (VO4_6.read (Elt F) VO4_6.junk), k4_pay4 (iblk4 V c 0 ⟨0, h⟩) (iblk4 V c 1 ⟨0, h⟩) (iblk4 V c 2 ⟨0, h⟩) (iblk4 V c 3 ⟨0, h⟩) (k4_pay1 (F := F)), k4_pay5 (iblk4 V c 0 ⟨0, h⟩) (iblk4 V c 1 ⟨0, h⟩) (iblk4 V c 2 ⟨0, h⟩) (iblk4 V c 3 ⟨0, h⟩) (k4_pay2 (F := F))) := by
  have e := outs4_zero V c h
  simp only [val4_A_y_eq, val4_A_s0_eq, val4_A_s1_eq] at e
  exact e
theorem outs4_succB' (c : Dev nD) (n : ℕ) (hn : n + 1 < cfg4.N) (h1 : ¬(n + 1) % 10 = 9) :
    outsAt4 V c (n + 1) hn = (k4_pay3 (iblk4 V c 0 ⟨n + 1, hn⟩) (iblk4 V c 1 ⟨n + 1, hn⟩) (iblk4 V c 2 ⟨n + 1, hn⟩) (iblk4 V c 3 ⟨n + 1, hn⟩), (VO4_5.read (Elt F) VO4_5.junk), (VO4_6.read (Elt F) VO4_6.junk), k4_pay4 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1, k4_pay5 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.2) := by
  have e := outs4_succB V c n hn h1
  simp only [val4_B_y_eq, val4_B_s0_eq, val4_B_s1_eq] at e
  exact e
theorem outs4_succC' (c : Dev nD) (n : ℕ) (hn : n + 1 < cfg4.N) (h1 : (n + 1) % 10 = 9) :
    outsAt4 V c (n + 1) hn = (k4_pay3 (iblk4 V c 0 ⟨n + 1, hn⟩) (iblk4 V c 1 ⟨n + 1, hn⟩) (iblk4 V c 2 ⟨n + 1, hn⟩) (iblk4 V c 3 ⟨n + 1, hn⟩), k4_pay4 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1, k4_pay5 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.2, k4_pay4 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1, k4_pay5 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.2) := by
  have e := outs4_succC V c n hn h1
  simp only [val4_C_y_eq, val4_C_S_eq, val4_C_Q_eq, val4_C_s0_eq, val4_C_s1_eq] at e
  exact e

/-- After point n: the block output is the linear payload of block n, the scratch rows are the running sums. -/
theorem outs4_eq (c : Dev nD) (n : ℕ) : ∀ (h : n < cfg4.N),
    (outsAt4 V c n h).1 = k4_pay3 (iblk4 V c 0 ⟨n, h⟩) (iblk4 V c 1 ⟨n, h⟩) (iblk4 V c 2 ⟨n, h⟩) (iblk4 V c 3 ⟨n, h⟩)
    ∧ (outsAt4 V c n h).2.2.2.1 = accS4 V c n h ∧ (outsAt4 V c n h).2.2.2.2 = accQ4 V c n h := by
  induction n with
  | zero =>
    intro h
    have e := outs4_zero' V c h
    exact ⟨congrArg (fun o => o.1) e, (congrArg (fun o => o.2.2.2.1) e).trans (accS4_zero V c h).symm,
      (congrArg (fun o => o.2.2.2.2) e).trans (accQ4_zero V c h).symm⟩
  | succ n ih =>
    intro hn
    obtain ⟨-, ih0, ih1⟩ := ih (Nat.lt_of_succ_lt hn)
    by_cases h1 : (n + 1) % 10 = 9
    · have e := outs4_succC' V c n hn h1
      exact ⟨congrArg (fun o => o.1) e,
        (congrArg (fun o => o.2.2.2.1) e).trans ((congrArg (k4_pay4 (iblk4 V c 0 ⟨n + 1, hn⟩) (iblk4 V c 1 ⟨n + 1, hn⟩) (iblk4 V c 2 ⟨n + 1, hn⟩) (iblk4 V c 3 ⟨n + 1, hn⟩)) ih0).trans (accS4_succ V c n hn).symm),
        (congrArg (fun o => o.2.2.2.2) e).trans ((congrArg (k4_pay5 (iblk4 V c 0 ⟨n + 1, hn⟩) (iblk4 V c 1 ⟨n + 1, hn⟩) (iblk4 V c 2 ⟨n + 1, hn⟩) (iblk4 V c 3 ⟨n + 1, hn⟩)) ih1).trans (accQ4_succ V c n hn).symm)⟩
    · have e := outs4_succB' V c n hn h1
      exact ⟨congrArg (fun o => o.1) e,
        (congrArg (fun o => o.2.2.2.1) e).trans ((congrArg (k4_pay4 (iblk4 V c 0 ⟨n + 1, hn⟩) (iblk4 V c 1 ⟨n + 1, hn⟩) (iblk4 V c 2 ⟨n + 1, hn⟩) (iblk4 V c 3 ⟨n + 1, hn⟩)) ih0).trans (accS4_succ V c n hn).symm),
        (congrArg (fun o => o.2.2.2.2) e).trans ((congrArg (k4_pay5 (iblk4 V c 0 ⟨n + 1, hn⟩) (iblk4 V c 1 ⟨n + 1, hn⟩) (iblk4 V c 2 ⟨n + 1, hn⟩) (iblk4 V c 3 ⟨n + 1, hn⟩)) ih1).trans (accQ4_succ V c n hn).symm)⟩

/-- At the last point the two statistics windows receive the running sums. -/
theorem outs4_last (c : Dev nD) (hn : 8 + 1 < cfg4.N) :
    (outsAt4 V c (8 + 1) hn).2.1 = accS4 V c (8 + 1) hn ∧ (outsAt4 V c (8 + 1) hn).2.2.1 = accQ4 V c (8 + 1) hn := by
  obtain ⟨-, ih0, ih1⟩ := outs4_eq V c 8 (Nat.lt_of_succ_lt hn)
  have h1 : (8 + 1) % 10 = 9 := rfl
  have e := outs4_succC' V c 8 hn h1
  exact ⟨(congrArg (fun o => o.2.1) e).trans ((congrArg (k4_pay4 (iblk4 V c 0 ⟨8 + 1, hn⟩) (iblk4 V c 1 ⟨8 + 1, hn⟩) (iblk4 V c 2 ⟨8 + 1, hn⟩) (iblk4 V c 3 ⟨8 + 1, hn⟩)) ih0).trans (accS4_succ V c 8 hn).symm),
    (congrArg (fun o => o.2.2.1) e).trans ((congrArg (k4_pay5 (iblk4 V c 0 ⟨8 + 1, hn⟩) (iblk4 V c 1 ⟨8 + 1, hn⟩) (iblk4 V c 2 ⟨8 + 1, hn⟩) (iblk4 V c 3 ⟨8 + 1, hn⟩)) ih1).trans (accQ4_succ V c 8 hn).symm)⟩

end Cert.KernelIdeal.Regions

end
-- ==== Proof.KI.StatsFinY4.lean ====
/-
  Region 4: the block output as one array.  Block t of the output is the linear payload of block t of the
  input rows and of the (whole) weights and bias; the ten blocks tile the array; so the output array is the
  linear layer of the whole arrays, entry by entry.
-/
import proofs.«110958_j70274254897753_1_alg».proof.Proof.KI.StatsVal4
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row p of block t is row 10000·t + p of the array. -/
def rowOf4 (t : Fin cfg4.N) (p : Fin 10000) : Fin 100000 :=
  ⟨t.val * 10000 + p.val, by have := t.isLt; have hN : cfg4.N = 10 := N_4; have := p.isLt; omega⟩

theorem sidx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_4.index t (0 : Fin 2) = t.val ∧ win4_4.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

set_option maxHeartbeats 2000000 in
/-- An entry of block t of row-blocked input window 0. -/
theorem rd4_0 (c : Dev nD) (t : Fin cfg4.N) (p : Fin 10000) (cc : Fin 128) :
    iblk4 V c 0 t (ix2 p cc) = V c main_v35 (ix2 (rowOf4 t p) cc) := by
  have hf := sidx_facts4 t
  unfold iblk4
  rw [View.read_apply]
  refine congrArg (V c main_v35) ?_
  funext a; apply Fin.ext
  match a with
  | ⟨0, _⟩ => show win4_0.index t (0 : Fin 2) * 10000 + 1 * p.val = t.val * 10000 + p.val; omega
  | ⟨1, _⟩ => show win4_0.index t (1 : Fin 2) * 128 + 1 * cc.val = cc.val; omega
set_option maxHeartbeats 2000000 in
/-- An entry of block t of row-blocked input window 1. -/
theorem rd4_1 (c : Dev nD) (t : Fin cfg4.N) (p : Fin 10000) (cc : Fin 128) :
    iblk4 V c 1 t (ix2 p cc) = V c main_v45 (ix2 (rowOf4 t p) cc) := by
  have hf := sidx_facts4 t
  unfold iblk4
  rw [View.read_apply]
  refine congrArg (V c main_v45) ?_
  funext a; apply Fin.ext
  match a with
  | ⟨0, _⟩ => show win4_1.index t (0 : Fin 2) * 10000 + 1 * p.val = t.val * 10000 + p.val; omega
  | ⟨1, _⟩ => show win4_1.index t (1 : Fin 2) * 128 + 1 * cc.val = cc.val; omega
set_option maxHeartbeats 2000000 in
/-- The weights' and the bias' one block is the whole array. -/
theorem rd4_w (c : Dev nD) (t : Fin cfg4.N) (cc : Fin 128) (q : Fin 128) :
    iblk4 V c 2 t (ix2 cc q) = V c main_arg10 (ix2 cc q) := by
  have hf := sidx_facts4 t
  unfold iblk4
  rw [View.read_apply]
  refine congrArg (V c main_arg10) ?_
  funext a; apply Fin.ext
  match a with
  | ⟨0, _⟩ => show win4_2.index t (0 : Fin 2) * 128 + 1 * cc.val = cc.val; omega
  | ⟨1, _⟩ => show win4_2.index t (1 : Fin 2) * 128 + 1 * q.val = q.val; omega
set_option maxHeartbeats 2000000 in
theorem rd4_b (c : Dev nD) (t : Fin cfg4.N) (q : Fin 128) :
    iblk4 V c 3 t (ix2 0 q) = V c main_v46 (ix2 0 q) := by
  have hf := sidx_facts4 t
  unfold iblk4
  rw [View.read_apply]
  refine congrArg (V c main_v46) ?_
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-- The linear payload of block t at (p, q) is the linear layer at (10000·t + p, q). -/
theorem blkY4 (c : Dev nD) (t : Fin cfg4.N) (p : Fin 10000) (q : Fin 128) :
    k4_pay3 (F := Ideal) (iblk4 V c 0 t) (iblk4 V c 1 t) (iblk4 V c 2 t) (iblk4 V c 3 t) (ix2 p q) = linF4 (V c main_v35) (V c main_v45) (V c main_arg10) (V c main_v46) (ix2 (rowOf4 t p) q) := by
  rw [Cert.KernelIdeal.PayAt.k4_pay3_at]
  unfold linF4
  simp only [rd4_0 V c t, rd4_1 V c t, rd4_w V c t, rd4_b V c t]
  all_goals rfl

/-! ## The block output as one array -/

set_option maxHeartbeats 4000000 in
/-- What point t writes back of the block output is block t of the linear layer. -/
theorem flushedY4_eq (c : Dev nD) (t : Fin cfg4.N) :
    (dat4 V c).flushed 4 t = ((cfg4.win 4).blk t).view.read (Elt Ideal) (linF4 (V c main_v35) (V c main_v45) (V c main_arg10) (V c main_v46)) := by
  show (cfg4.win 4).cut (grid4.coords t) ((dat4 V c).after 4 t) = _
  rw [after4_4, (outs4_eq V c t.val t.isLt).1]
  have hf := sidx_facts4 t
  funext j
  obtain ⟨p, q, rfl⟩ : ∃ (p : Fin 10000) (q : Fin 128), j = ix2 p q := ⟨j 0, j 1, eq_ix2 j⟩
  show k4_pay3 (F := Ideal) (iblk4 V c 0 t) (iblk4 V c 1 t) (iblk4 V c 2 t) (iblk4 V c 3 t) (ix2 p q) = linF4 (V c main_v35) (V c main_v45) (V c main_arg10) (V c main_v46) (((cfg4.win 4).blk t).view.emb (ix2 p q))
  rw [blkY4 V c t p q]
  refine congrArg (linF4 (V c main_v35) (V c main_v45) (V c main_arg10) (V c main_v46)) ?_
  funext a; apply Fin.ext
  match a with
  | ⟨0, _⟩ => show t.val * 10000 + p.val = win4_4.index t (0 : Fin 2) * 10000 + 1 * p.val; omega
  | ⟨1, _⟩ => show q.val = win4_4.index t (1 : Fin 2) * 128 + 1 * q.val; omega

theorem mem_blkY4 (t : Fin cfg4.N) (i : S100000x128.Idx) :
    i ∈ ((cfg4.win 4).blk t).view.set ↔ ∀ a : Fin 2, win4_4.index t a * S10000x128.size a ≤ (i a).val ∧ (i a).val < win4_4.index t a * S10000x128.size a + S10000x128.size a := by
  show i ∈ ((View.whole main_v47_0).slice (win4_4.rect t)).set ↔ _
  rw [View.set_slice_whole, Rect.mem_set_unit]
  exact Iff.rfl

set_option maxHeartbeats 2000000 in
/-- The block output array after the region: the linear layer, everywhere. -/
theorem finalY4 (c : Dev nD) : (dat4 V c).arrAt 4 cfg4.N = linF4 (V c main_v35) (V c main_v45) (V c main_arg10) (V c main_v46) :=
  (dat4 V c).arrAt_eq_of_cover 4 _ (fun t _ => flushedY4_eq V c t) fun i => by
    have hi0 : (i 0).val < 100000 := (i 0).isLt
    have hi1 : (i 1).val < 128 := (i 1).isLt
    have hN : cfg4.N = 10 := N_4
    refine ⟨⟨(i 0).val / 10000, by omega⟩, flush4_4 _, ?_⟩
    rw [mem_blkY4]
    have hf := sidx_facts4 ⟨(i 0).val / 10000, by omega⟩
    intro a
    match a with
    | ⟨0, _⟩ => show win4_4.index _ (0 : Fin 2) * 10000 ≤ (i 0).val ∧ (i 0).val < win4_4.index _ (0 : Fin 2) * 10000 + 10000; dsimp only at hf; omega
    | ⟨1, _⟩ => show win4_4.index _ (1 : Fin 2) * 128 ≤ (i 1).val ∧ (i 1).val < win4_4.index _ (1 : Fin 2) * 128 + 128; omega

end Cert.KernelIdeal.Regions

end
-- ==== Proof.KI.StatsFinS4.lean ====
/-
  Region 4: the two statistics arrays.  Each is written back once, at the last point, and its one block is the
  whole row; so after the region it holds the running sum after the last point.
-/
import proofs.«110958_j70274254897753_1_alg».proof.Proof.KI.StatsVal4
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The two statistics arrays -/

set_option maxHeartbeats 4000000 in
/-- The one write-back of statistics window 5, at the last point, writes the running sums: its block is the whole row. -/
theorem flushedS4_eq (c : Dev nD) (t : Fin cfg4.N) (hf : (cfg4.win 5).flush t = true) :
    (dat4 V c).flushed 5 t = ((cfg4.win 5).blk t).view.read (Elt Ideal) (accS4 V c 9 t4_9.isLt) := by
  have hN : cfg4.N = 10 := N_4
  have h9 : t.val = 9 := by have := (flush4_5 t).mp hf; have := t.isLt; omega
  obtain rfl : t = t4_9 := Fin.ext h9
  show (cfg4.win 5).cut (grid4.coords t4_9) ((dat4 V c).after 5 t4_9) = _
  rw [after4_5]
  show (cfg4.win 5).cut (grid4.coords t4_9) (outsAt4 V c 9 t4_9.isLt).2.1 = _
  rw [(outs4_last V c t4_9.isLt).1]
  have hz' : (fun a => win4_5.index t4_9 a * main_v47_1.ty.shape.size a) = fun _ => 0 := funext fun a => by fin_cases a <;> decide
  exact (Memref.read_access_unit_zero (Elt Ideal) main_v47_1 hz' (fun a => by rw [congrFun hz' a]; simp) (accS4 V c 9 t4_9.isLt)).symm

set_option maxHeartbeats 4000000 in
theorem finalS4 (c : Dev nD) : (dat4 V c).arrAt 5 cfg4.N = accS4 V c 9 t4_9.isLt :=
  (dat4 V c).arrAt_eq_of_cover 5 (accS4 V c 9 t4_9.isLt) (flushedS4_eq V c) fun i =>
    ⟨t4_9, (flush4_5 t4_9).mpr rfl, by
      show i ∈ ((View.whole main_v47_1).slice (win4_5.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_5.index t4_9 0 * win4_5.size 0 ≤ (i 0 : Nat) ∧ (i 0 : Nat) < win4_5.index t4_9 0 * win4_5.size 0 + win4_5.xsize (grid4.coords t4_9) 0
                  rw [show win4_5.index t4_9 0 * win4_5.size 0 = 0 from by decide +kernel, show win4_5.xsize (grid4.coords t4_9) 0 = 1 from by decide +kernel]; omega
      | ⟨1, _⟩ => show win4_5.index t4_9 1 * win4_5.size 1 ≤ (i 1 : Nat) ∧ (i 1 : Nat) < win4_5.index t4_9 1 * win4_5.size 1 + win4_5.xsize (grid4.coords t4_9) 1
                  rw [show win4_5.index t4_9 1 * win4_5.size 1 = 0 from by decide +kernel, show win4_5.xsize (grid4.coords t4_9) 1 = 128 from by decide +kernel]; omega⟩

set_option maxHeartbeats 4000000 in
/-- The one write-back of statistics window 6, at the last point, writes the running sums: its block is the whole row. -/
theorem flushedQ4_eq (c : Dev nD) (t : Fin cfg4.N) (hf : (cfg4.win 6).flush t = true) :
    (dat4 V c).flushed 6 t = ((cfg4.win 6).blk t).view.read (Elt Ideal) (accQ4 V c 9 t4_9.isLt) := by
  have hN : cfg4.N = 10 := N_4
  have h9 : t.val = 9 := by have := (flush4_6 t).mp hf; have := t.isLt; omega
  obtain rfl : t = t4_9 := Fin.ext h9
  show (cfg4.win 6).cut (grid4.coords t4_9) ((dat4 V c).after 6 t4_9) = _
  rw [after4_6]
  show (cfg4.win 6).cut (grid4.coords t4_9) (outsAt4 V c 9 t4_9.isLt).2.2.1 = _
  rw [(outs4_last V c t4_9.isLt).2]
  have hz' : (fun a => win4_6.index t4_9 a * main_v47_2.ty.shape.size a) = fun _ => 0 := funext fun a => by fin_cases a <;> decide
  exact (Memref.read_access_unit_zero (Elt Ideal) main_v47_2 hz' (fun a => by rw [congrFun hz' a]; simp) (accQ4 V c 9 t4_9.isLt)).symm

set_option maxHeartbeats 4000000 in
theorem finalQ4 (c : Dev nD) : (dat4 V c).arrAt 6 cfg4.N = accQ4 V c 9 t4_9.isLt :=
  (dat4 V c).arrAt_eq_of_cover 6 (accQ4 V c 9 t4_9.isLt) (flushedQ4_eq V c) fun i =>
    ⟨t4_9, (flush4_6 t4_9).mpr rfl, by
      show i ∈ ((View.whole main_v47_2).slice (win4_6.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_6.index t4_9 0 * win4_6.size 0 ≤ (i 0 : Nat) ∧ (i 0 : Nat) < win4_6.index t4_9 0 * win4_6.size 0 + win4_6.xsize (grid4.coords t4_9) 0
                  rw [show win4_6.index t4_9 0 * win4_6.size 0 = 0 from by decide +kernel, show win4_6.xsize (grid4.coords t4_9) 0 = 1 from by decide +kernel]; omega
      | ⟨1, _⟩ => show win4_6.index t4_9 1 * win4_6.size 1 ≤ (i 1 : Nat) ∧ (i 1 : Nat) < win4_6.index t4_9 1 * win4_6.size 1 + win4_6.xsize (grid4.coords t4_9) 1
                  rw [show win4_6.index t4_9 1 * win4_6.size 1 = 0 from by decide +kernel, show win4_6.xsize (grid4.coords t4_9) 1 = 128 from by decide +kernel]; omega⟩

end Cert.KernelIdeal.Regions

end
-- ==== Proof.KI.StatsFinA4.lean ====
/-
  Region 4: the running sums at a column: the zero word plus, block by block, the column sum of the block's
  linear payload (or of its square).
-/
import proofs.«110958_j70274254897753_1_alg».proof.Proof.KI.StatsVal4
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The running sums at a column -/

/-- Block s's contribution to column q. -/
def contribaccS4 (c : Dev nD) (q : Fin 128) (s : ℕ) : EReal :=
  if hs : s < cfg4.N then ∑ p : Fin 10000, k4_pay3 (F := Ideal) (iblk4 V c 0 ⟨s, hs⟩) (iblk4 V c 1 ⟨s, hs⟩) (iblk4 V c 2 ⟨s, hs⟩) (iblk4 V c 3 ⟨s, hs⟩) (ix2 p q) else 0

/-- The running sum after point n, at column q: the zero word plus the contributions of the blocks 0 … n. -/
theorem accS4_at (c : Dev nD) (q : Fin 128) : ∀ (n : ℕ) (h : n < cfg4.N),
    accS4 V c n h (ix2 0 q) = Ideal.ofBits .f32 0x00000000#32 + ∑ s : Fin (n + 1), contribaccS4 V c q s.val
  | 0, h => by
    rw [accS4, Cert.KernelIdeal.PayAt.k4_pay4_at, Cert.KernelIdeal.PayAt.k4_pay1_at]
    refine congrArg (fun z => Ideal.ofBits .f32 0x00000000#32 + z) ?_
    show _ = ∑ s : Fin 1, contribaccS4 V c q s.val
    rw [Fin.sum_univ_one]
    show _ = contribaccS4 V c q 0
    rw [contribaccS4, dif_pos h]
  | n + 1, h => by
    rw [accS4, Cert.KernelIdeal.PayAt.k4_pay4_at, accS4_at c q n (Nat.lt_of_succ_lt h), Fin.sum_univ_castSucc (n := n + 1), add_assoc]
    congr 2
    simp only [Fin.val_last, contribaccS4]
    rw [dif_pos h]

/-- Block s's contribution to column q. -/
def contribaccQ4 (c : Dev nD) (q : Fin 128) (s : ℕ) : EReal :=
  if hs : s < cfg4.N then ∑ p : Fin 10000, k4_pay3 (F := Ideal) (iblk4 V c 0 ⟨s, hs⟩) (iblk4 V c 1 ⟨s, hs⟩) (iblk4 V c 2 ⟨s, hs⟩) (iblk4 V c 3 ⟨s, hs⟩) (ix2 p q) * k4_pay3 (F := Ideal) (iblk4 V c 0 ⟨s, hs⟩) (iblk4 V c 1 ⟨s, hs⟩) (iblk4 V c 2 ⟨s, hs⟩) (iblk4 V c 3 ⟨s, hs⟩) (ix2 p q) else 0

/-- The running sum after point n, at column q: the zero word plus the contributions of the blocks 0 … n. -/
theorem accQ4_at (c : Dev nD) (q : Fin 128) : ∀ (n : ℕ) (h : n < cfg4.N),
    accQ4 V c n h (ix2 0 q) = Ideal.ofBits .f32 0x00000000#32 + ∑ s : Fin (n + 1), contribaccQ4 V c q s.val
  | 0, h => by
    rw [accQ4, Cert.KernelIdeal.PayAt.k4_pay5_at, Cert.KernelIdeal.PayAt.k4_pay2_at]
    refine congrArg (fun z => Ideal.ofBits .f32 0x00000000#32 + z) ?_
    show _ = ∑ s : Fin 1, contribaccQ4 V c q s.val
    rw [Fin.sum_univ_one]
    show _ = contribaccQ4 V c q 0
    rw [contribaccQ4, dif_pos h]
  | n + 1, h => by
    rw [accQ4, Cert.KernelIdeal.PayAt.k4_pay5_at, accQ4_at c q n (Nat.lt_of_succ_lt h), Fin.sum_univ_castSucc (n := n + 1), add_assoc]
    congr 2
    simp only [Fin.val_last, contribaccQ4]
    rw [dif_pos h]

end Cert.KernelIdeal.Regions

end
-- ==== Proof.KI.StatsFinT4.lean ====
/-
  Region 4: the statistics arrays as sums over all 100000 rows: the ten blocks' contributions, re-indexed.
-/
import proofs.«110958_j70274254897753_1_alg».proof.Proof.KI.StatsFinY4
import proofs.«110958_j70274254897753_1_alg».proof.Proof.KI.StatsFinS4
import proofs.«110958_j70274254897753_1_alg».proof.Proof.KI.StatsFinA4
import proofs.«110958_j70274254897753_1_alg».proof.Proof.Math.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The statistics arrays as sums over all rows -/

set_option maxHeartbeats 2000000 in
/-- Statistics window 5 after the region, at column q: the zero word plus the sum over all 100000 rows. -/
theorem sumS4 (c : Dev nD) (q : Fin 128) :
    ((dat4 V c).arrAt 5 cfg4.N : S1x128.Idx → EReal) (ix2 0 q)
      = Ideal.ofBits .f32 0x00000000#32 + ∑ i : Fin 100000, linF4 (V c main_v35) (V c main_v45) (V c main_arg10) (V c main_v46) (ix2 i q) := by
  rw [finalS4 V c, accS4_at V c q 9 t4_9.isLt]
  refine congrArg (fun z => Ideal.ofBits .f32 0x00000000#32 + z) ?_
  have hN : cfg4.N = 10 := N_4
  refine Eq.trans ?_ (Cert.Math.block_sum (fun i => linF4 (V c main_v35) (V c main_v45) (V c main_arg10) (V c main_v46) (ix2 i q)))
  refine Finset.sum_congr rfl fun s _ => ?_
  have hs : s.val < cfg4.N := by have := s.isLt; omega
  rw [contribaccS4, dif_pos hs]
  refine Finset.sum_congr rfl fun p _ => ?_
  rw [blkY4 V c ⟨s.val, hs⟩ p q]
  rfl

set_option maxHeartbeats 2000000 in
/-- Statistics window 6 after the region, at column q: the zero word plus the sum over all 100000 rows. -/
theorem sumQ4 (c : Dev nD) (q : Fin 128) :
    ((dat4 V c).arrAt 6 cfg4.N : S1x128.Idx → EReal) (ix2 0 q)
      = Ideal.ofBits .f32 0x00000000#32 + ∑ i : Fin 100000, linF4 (V c main_v35) (V c main_v45) (V c main_arg10) (V c main_v46) (ix2 i q) * linF4 (V c main_v35) (V c main_v45) (V c main_arg10) (V c main_v46) (ix2 i q) := by
  rw [finalQ4 V c, accQ4_at V c q 9 t4_9.isLt]
  refine congrArg (fun z => Ideal.ofBits .f32 0x00000000#32 + z) ?_
  have hN : cfg4.N = 10 := N_4
  refine Eq.trans ?_ (Cert.Math.block_sum (fun i => linF4 (V c main_v35) (V c main_v45) (V c main_arg10) (V c main_v46) (ix2 i q) * linF4 (V c main_v35) (V c main_v45) (V c main_arg10) (V c main_v46) (ix2 i q)))
  refine Finset.sum_congr rfl fun s _ => ?_
  have hs : s.val < cfg4.N := by have := s.isLt; omega
  rw [contribaccQ4, dif_pos hs]
  refine Finset.sum_congr rfl fun p _ => ?_
  rw [blkY4 V c ⟨s.val, hs⟩ p q]
  rfl

end Cert.KernelIdeal.Regions

end
-- ==== Proof.KI.StatsVal6.lean ====
/-
  Region 6: what each case of the body leaves, as values.  The block output is the linear layer's payload of
  the input blocks; each scratch row is its accumulation payload of the input blocks and of what the row held
  (zero at the first point); at the last point the two statistics windows receive the scratch rows.  So after
  point n the scratch rows hold the running column sums over the blocks 0 … n, by induction on n.
-/
import proofs.«110958_j70274254897753_1_alg».proof.Proof.KI.Stats6
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hzv6 : (![0, 0] : Fin 2 → Nat) = fun _ => 0 := funext fun a => by fin_cases a <;> rfl

theorem val6_B_y_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) :
    val6_B_y c i arg1 harg1 arg2 harg2 arg3 harg3 arg4 harg4 arg5 harg5 arg6 harg6 arg7 harg7 arg8 harg8 hc0 hc1 x0 x1 x2 xs0 xs1 = k6_pay3 x0 x1 x2 := by
  unfold val6_B_y
  rw [View.read_writes_eq_canon _ _ _ (cov6_B_y c i arg1 harg1 arg2 harg2 arg3 harg3 arg4 harg4 arg5 harg5 arg6 harg6 arg7 harg7 arg8 harg8 hc0 hc1 x0 x1 x2 xs0 xs1)]
  unfold kernelRun6_B
  dsimp only
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_B_s0_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) :
    val6_B_s0 c i arg1 harg1 arg2 harg2 arg3 harg3 arg4 harg4 arg5 harg5 arg6 harg6 arg7 harg7 arg8 harg8 hc0 hc1 x0 x1 x2 xs0 xs1 = k6_pay4 x0 x1 x2 xs0 := by
  unfold val6_B_s0
  rw [View.read_writes_eq_canon _ _ _ (cov6_B_s0 c i arg1 harg1 arg2 harg2 arg3 harg3 arg4 harg4 arg5 harg5 arg6 harg6 arg7 harg7 arg8 harg8 hc0 hc1 x0 x1 x2 xs0 xs1)]
  unfold kernelRun6_B
  dsimp only
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_B_s1_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S10000x128 .f32) (x1 : Vec F S128x128 .f32) (x2 : Vec F S1x128 .f32) (xs0 xs1 : Vec F S1x128 .f32) :
    val6_B_s1 c i arg1 harg1 arg2 harg2 arg3 harg3 arg4 harg4 arg5 harg5 arg6 harg6 arg7 harg7 arg8 harg8 hc0 hc1 x0 x1 x2 xs0 xs1 = k6_pay5 x0 x1 x2 xs1 := by
  unfold val6_B_s1
  rw [View.read_writes_eq_canon _ _ _ (cov6_B_s1 c i arg1 harg1 arg2 harg2 arg3 harg3 arg4 harg4 arg5 harg5 arg6 harg6 arg7 harg7 arg8 harg8 hc0 hc1 x0 x1 x2 xs0 xs1)]
  unfold kernelRun6_B
  dsimp only
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_A_y_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) :
    val6_A_y c i arg1 harg1 arg2 harg2 arg3 harg3 arg4 harg4 arg5 harg5 arg6 harg6 arg7 harg7 arg8 harg8 hc0 hc1 x0 x1 x2 = k6_pay3 x0 x1 x2 := by
  unfold val6_A_y
  rw [View.read_writes_eq_canon _ _ _ (cov6_A_y c i arg1 harg1 arg2 harg2 arg3 harg3 arg4 harg4 arg5 harg5 arg6 harg6 arg7 harg7 arg8 harg8 hc0 hc1 x0 x1 x2)]
  unfold kernelRun6_A
  dsimp only
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_A_s0_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) :
    val6_A_s0 c i arg1 harg1 arg2 harg2 arg3 harg3 arg4 harg4 arg5 harg5 arg6 harg6 arg7 harg7 arg8 harg8 hc0 hc1 x0 x1 x2 = k6_pay4 x0 x1 x2 (k6_pay1 (F := F)) := by
  unfold val6_A_s0
  rw [View.read_writes_eq_canon _ _ _ (cov6_A_s0 c i arg1 harg1 arg2 harg2 arg3 harg3 arg4 harg4 arg5 harg5 arg6 harg6 arg7 harg7 arg8 harg8 hc0 hc1 x0 x1 x2)]
  unfold kernelRun6_A
  dsimp only
  sl_unfold_words
  rw [View.canon_cons_unit_zero (S := S1x128) hzv6, View.readCov_unit_zero (S := S1x128) _ hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_A_s1_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S10000x128 .f32) (x1 : Vec F S128x128 .f32) (x2 : Vec F S1x128 .f32) :
    val6_A_s1 c i arg1 harg1 arg2 harg2 arg3 harg3 arg4 harg4 arg5 harg5 arg6 harg6 arg7 harg7 arg8 harg8 hc0 hc1 x0 x1 x2 = k6_pay5 x0 x1 x2 (k6_pay2 (F := F)) := by
  unfold val6_A_s1
  rw [View.read_writes_eq_canon _ _ _ (cov6_A_s1 c i arg1 harg1 arg2 harg2 arg3 harg3 arg4 harg4 arg5 harg5 arg6 harg6 arg7 harg7 arg8 harg8 hc0 hc1 x0 x1 x2)]
  unfold kernelRun6_A
  dsimp only
  sl_unfold_words
  rw [View.canon_cons_unit_zero (S := S1x128) hzv6, View.readCov_unit_zero (S := S1x128) _ hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_C_y_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    val6_C_y c i arg1 harg1 arg2 harg2 arg3 harg3 arg4 harg4 arg5 harg5 arg6 harg6 arg7 harg7 arg8 harg8 hc0 hc1 x0 x1 x2 xs0 xs1 = k6_pay3 x0 x1 x2 := by
  unfold val6_C_y
  rw [View.read_writes_eq_canon _ _ _ (cov6_C_y c i arg1 harg1 arg2 harg2 arg3 harg3 arg4 harg4 arg5 harg5 arg6 harg6 arg7 harg7 arg8 harg8 hc0 hc1 x0 x1 x2 xs0 xs1)]
  unfold kernelRun6_C
  dsimp only
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_C_s0_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    val6_C_s0 c i arg1 harg1 arg2 harg2 arg3 harg3 arg4 harg4 arg5 harg5 arg6 harg6 arg7 harg7 arg8 harg8 hc0 hc1 x0 x1 x2 xs0 xs1 = k6_pay4 x0 x1 x2 xs0 := by
  unfold val6_C_s0
  rw [View.read_writes_eq_canon _ _ _ (cov6_C_s0 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_C_s1_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    val6_C_s1 c i arg1 harg1 arg2 harg2 arg3 harg3 arg4 harg4 arg5 harg5 arg6 harg6 arg7 harg7 arg8 harg8 hc0 hc1 x0 x1 x2 xs0 xs1 = k6_pay5 x0 x1 x2 xs1 := by
  unfold val6_C_s1
  rw [View.read_writes_eq_canon _ _ _ (cov6_C_s1 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  rw [View.canon_unit_zero hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_C_S_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    val6_C_S c i arg1 harg1 arg2 harg2 arg3 harg3 arg4 harg4 arg5 harg5 arg6 harg6 arg7 harg7 arg8 harg8 hc0 hc1 x0 x1 x2 xs0 xs1 = k6_pay4 x0 x1 x2 xs0 := by
  unfold val6_C_S
  rw [View.read_writes_eq_canon _ _ _ (cov6_C_S c i arg1 harg1 arg2 harg2 arg3 harg3 arg4 harg4 arg5 harg5 arg6 harg6 arg7 harg7 arg8 harg8 hc0 hc1 x0 x1 x2 xs0 xs1)]
  unfold kernelRun6_C
  dsimp only
  sl_unfold_words
  rw [View.canon_unit_zero (S := S1x128) hzv6, View.readCov_unit_zero (S := S1x128) _ hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

theorem val6_C_Q_eq (c : Dev nD) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S10000x128 .f32) (x1 : Vec F S128x128 .f32) (x2 : Vec F S1x128 .f32) (xs0 xs1 : Vec F S1x128 .f32) :
    val6_C_Q c i arg1 harg1 arg2 harg2 arg3 harg3 arg4 harg4 arg5 harg5 arg6 harg6 arg7 harg7 arg8 harg8 hc0 hc1 x0 x1 x2 xs0 xs1 = k6_pay5 x0 x1 x2 xs1 := by
  unfold val6_C_Q
  rw [View.read_writes_eq_canon _ _ _ (cov6_C_Q c i arg1 harg1 arg2 harg2 arg3 harg3 arg4 harg4 arg5 harg5 arg6 harg6 arg7 harg7 arg8 harg8 hc0 hc1 x0 x1 x2 xs0 xs1)]
  unfold kernelRun6_C
  dsimp only
  sl_unfold_words
  rw [View.canon_unit_zero (S := S1x128) hzv6, View.readCov_unit_zero (S := S1x128) _ hzv6]
  simp only [View.readAt_eq_ld, harg1.read_unread, harg2.read_unread, harg3.read_unread, harg7.read_unread, harg8.read_unread, View.ld_unit_zero (S := S10000x128) hzv6, View.ld_unit_zero (S := S128x128) hzv6, View.ld_unit_zero (S := S1x128) hzv6]

/-- The running column sums of y and of y² after point n. -/
def accS6 (c : Dev nD) : (n : ℕ) → n < cfg6.N → Vec F S1x128 .f32
  | 0, h => k6_pay4 (iblk6 V c 0 ⟨0, h⟩) (iblk6 V c 1 ⟨0, h⟩) (iblk6 V c 2 ⟨0, h⟩) (k6_pay1 (F := F))
  | n + 1, h => k6_pay4 (iblk6 V c 0 ⟨n + 1, h⟩) (iblk6 V c 1 ⟨n + 1, h⟩) (iblk6 V c 2 ⟨n + 1, h⟩) (accS6 c n (Nat.lt_of_succ_lt h))
def accQ6 (c : Dev nD) : (n : ℕ) → n < cfg6.N → Vec F S1x128 .f32
  | 0, h => k6_pay5 (iblk6 V c 0 ⟨0, h⟩) (iblk6 V c 1 ⟨0, h⟩) (iblk6 V c 2 ⟨0, h⟩) (k6_pay2 (F := F))
  | n + 1, h => k6_pay5 (iblk6 V c 0 ⟨n + 1, h⟩) (iblk6 V c 1 ⟨n + 1, h⟩) (iblk6 V c 2 ⟨n + 1, h⟩) (accQ6 c n (Nat.lt_of_succ_lt h))

theorem accS6_zero (c : Dev nD) (h : 0 < cfg6.N) : accS6 V c 0 h = k6_pay4 (iblk6 V c 0 ⟨0, h⟩) (iblk6 V c 1 ⟨0, h⟩) (iblk6 V c 2 ⟨0, h⟩) (k6_pay1 (F := F)) := rfl
theorem accS6_succ (c : Dev nD) (n : ℕ) (hn : n + 1 < cfg6.N) :
    accS6 V c (n + 1) hn = k6_pay4 (iblk6 V c 0 ⟨n + 1, hn⟩) (iblk6 V c 1 ⟨n + 1, hn⟩) (iblk6 V c 2 ⟨n + 1, hn⟩) (accS6 V c n (Nat.lt_of_succ_lt hn)) := rfl
theorem accQ6_zero (c : Dev nD) (h : 0 < cfg6.N) : accQ6 V c 0 h = k6_pay5 (iblk6 V c 0 ⟨0, h⟩) (iblk6 V c 1 ⟨0, h⟩) (iblk6 V c 2 ⟨0, h⟩) (k6_pay2 (F := F)) := rfl
theorem accQ6_succ (c : Dev nD) (n : ℕ) (hn : n + 1 < cfg6.N) :
    accQ6 V c (n + 1) hn = k6_pay5 (iblk6 V c 0 ⟨n + 1, hn⟩) (iblk6 V c 1 ⟨n + 1, hn⟩) (iblk6 V c 2 ⟨n + 1, hn⟩) (accQ6 V c n (Nat.lt_of_succ_lt hn)) := rfl

/-- Which case a point is in. -/
theorem cond6_0_zero (h : 0 < cfg6.N) : cond6_0 (grid6.coords ⟨0, h⟩) := (hcond6_0 ⟨0, h⟩).mpr (Nat.zero_mod _)
theorem ncond6_1_zero (h : 0 < cfg6.N) : ¬cond6_1 (grid6.coords ⟨0, h⟩) := fun hh => by
  have := (hcond6_1 ⟨0, h⟩).mp hh; dsimp only at this; omega
theorem ncond6_0_succ (n : ℕ) (hn : n + 1 < cfg6.N) : ¬cond6_0 (grid6.coords ⟨n + 1, hn⟩) := fun hh => by
  have := (hcond6_0 ⟨n + 1, hn⟩).mp hh; have hN : cfg6.N = 10 := N_6; dsimp only at this; omega

/-- One step of the accumulation, read at 0 and at n + 1. -/
theorem outs6_zero (c : Dev nD) (h : 0 < cfg6.N) :
    outsAt6 V c 0 h = ((val6_A_y c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) scM6_0 (Memref.isWhole_whole _) scM6_1 (Memref.isWhole_whole _) (cond6_0_zero h) (ncond6_1_zero h) (iblk6 V c 0 ⟨0, h⟩) (iblk6 V c 1 ⟨0, h⟩) (iblk6 V c 2 ⟨0, h⟩)), (VO6_4.read (Elt F) VO6_4.junk), (VO6_5.read (Elt F) VO6_5.junk), (val6_A_s0 c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) scM6_0 (Memref.isWhole_whole _) scM6_1 (Memref.isWhole_whole _) (cond6_0_zero h) (ncond6_1_zero h) (iblk6 V c 0 ⟨0, h⟩) (iblk6 V c 1 ⟨0, h⟩) (iblk6 V c 2 ⟨0, h⟩)), (val6_A_s1 c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) scM6_0 (Memref.isWhole_whole _) scM6_1 (Memref.isWhole_whole _) (cond6_0_zero h) (ncond6_1_zero h) (iblk6 V c 0 ⟨0, h⟩) (iblk6 V c 1 ⟨0, h⟩) (iblk6 V c 2 ⟨0, h⟩))) := rfl
theorem outs6_succB (c : Dev nD) (n : ℕ) (hn : n + 1 < cfg6.N) (h1 : ¬(n + 1) % 10 = 9) :
    outsAt6 V c (n + 1) hn = ((val6_B_y c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) (fun hh => h1 ((hcond6_1 ⟨n + 1, hn⟩).mp hh)) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2), (VO6_4.read (Elt F) VO6_4.junk), (VO6_5.read (Elt F) VO6_5.junk), (val6_B_s0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) (fun hh => h1 ((hcond6_1 ⟨n + 1, hn⟩).mp hh)) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2), (val6_B_s1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) (fun hh => h1 ((hcond6_1 ⟨n + 1, hn⟩).mp hh)) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2)) := (dif_neg h1).trans rfl
theorem outs6_succC (c : Dev nD) (n : ℕ) (hn : n + 1 < cfg6.N) (h1 : (n + 1) % 10 = 9) :
    outsAt6 V c (n + 1) hn = ((val6_C_y c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) ((hcond6_1 ⟨n + 1, hn⟩).mpr h1) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2), (val6_C_S c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) ((hcond6_1 ⟨n + 1, hn⟩).mpr h1) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2), (val6_C_Q c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) ((hcond6_1 ⟨n + 1, hn⟩).mpr h1) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2), (val6_C_s0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) ((hcond6_1 ⟨n + 1, hn⟩).mpr h1) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2), (val6_C_s1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (ncond6_0_succ n hn) ((hcond6_1 ⟨n + 1, hn⟩).mpr h1) (iblk6 V c 0 ⟨n + 1, hn⟩) (iblk6 V c 1 ⟨n + 1, hn⟩) (iblk6 V c 2 ⟨n + 1, hn⟩) (outsAt6 V c n (Nat.lt_of_succ_lt hn)).2.2.2.1 (outsAt6 V c n (Nat.lt_of_succ_lt hn)).2.2.2.2)) := (dif_pos h1).trans rfl

/-- The one-step equations with each case's contents as payload values. -/
theorem outs6_zero' (c : Dev nD) (h : 0 < cfg6.N) :
    outsAt6 V c 0 h = (k6_pay3 (iblk6 V c 0 ⟨0, h⟩) (iblk6 V c 1 ⟨0, h⟩) (iblk6 V c 2 ⟨0, h⟩), (VO6_4.read (Elt F) VO6_4.junk), (VO6_5.read (Elt F) VO6_5.junk), k6_pay4 (iblk6 V c 0 ⟨0, h⟩) (iblk6 V c 1 ⟨0, h⟩) (iblk6 V c 2 ⟨0, h⟩) (k6_pay1 (F := F)), k6_pay5 (iblk6 V c 0 ⟨0, h⟩) (iblk6 V c 1 ⟨0, h⟩) (iblk6 V c 2 ⟨0, h⟩) (k6_pay2 (F := F))) := by
  have e := outs6_zero V c h
  simp only [val6_A_y_eq, val6_A_s0_eq, val6_A_s1_eq] at e
  exact e
theorem outs6_succB' (c : Dev nD) (n : ℕ) (hn : n + 1 < cfg6.N) (h1 : ¬(n + 1) % 10 = 9) :
    outsAt6 V c (n + 1) hn = (k6_pay3 (iblk6 V c 0 ⟨n + 1, hn⟩) (iblk6 V c 1 ⟨n + 1, hn⟩) (iblk6 V c 2 ⟨n + 1, hn⟩), (VO6_4.read (Elt F) VO6_4.junk), (VO6_5.read (Elt F) VO6_5.junk), k6_pay4 (iblk6 V c 0 ⟨n + 1, hn⟩) (iblk6 V c 1 ⟨n + 1, hn⟩) (iblk6 V c 2 ⟨n + 1, hn⟩) (outsAt6 V c n (Nat.lt_of_succ_lt hn)).2.2.2.1, k6_pay5 (iblk6 V c 0 ⟨n + 1, hn⟩) (iblk6 V c 1 ⟨n + 1, hn⟩) (iblk6 V c 2 ⟨n + 1, hn⟩) (outsAt6 V c n (Nat.lt_of_succ_lt hn)).2.2.2.2) := by
  have e := outs6_succB V c n hn h1
  simp only [val6_B_y_eq, val6_B_s0_eq, val6_B_s1_eq] at e
  exact e
theorem outs6_succC' (c : Dev nD) (n : ℕ) (hn : n + 1 < cfg6.N) (h1 : (n + 1) % 10 = 9) :
    outsAt6 V c (n + 1) hn = (k6_pay3 (iblk6 V c 0 ⟨n + 1, hn⟩) (iblk6 V c 1 ⟨n + 1, hn⟩) (iblk6 V c 2 ⟨n + 1, hn⟩), k6_pay4 (iblk6 V c 0 ⟨n + 1, hn⟩) (iblk6 V c 1 ⟨n + 1, hn⟩) (iblk6 V c 2 ⟨n + 1, hn⟩) (outsAt6 V c n (Nat.lt_of_succ_lt hn)).2.2.2.1, k6_pay5 (iblk6 V c 0 ⟨n + 1, hn⟩) (iblk6 V c 1 ⟨n + 1, hn⟩) (iblk6 V c 2 ⟨n + 1, hn⟩) (outsAt6 V c n (Nat.lt_of_succ_lt hn)).2.2.2.2, k6_pay4 (iblk6 V c 0 ⟨n + 1, hn⟩) (iblk6 V c 1 ⟨n + 1, hn⟩) (iblk6 V c 2 ⟨n + 1, hn⟩) (outsAt6 V c n (Nat.lt_of_succ_lt hn)).2.2.2.1, k6_pay5 (iblk6 V c 0 ⟨n + 1, hn⟩) (iblk6 V c 1 ⟨n + 1, hn⟩) (iblk6 V c 2 ⟨n + 1, hn⟩) (outsAt6 V c n (Nat.lt_of_succ_lt hn)).2.2.2.2) := by
  have e := outs6_succC V c n hn h1
  simp only [val6_C_y_eq, val6_C_S_eq, val6_C_Q_eq, val6_C_s0_eq, val6_C_s1_eq] at e
  exact e

/-- After point n: the block output is the linear payload of block n, the scratch rows are the running sums. -/
theorem outs6_eq (c : Dev nD) (n : ℕ) : ∀ (h : n < cfg6.N),
    (outsAt6 V c n h).1 = k6_pay3 (iblk6 V c 0 ⟨n, h⟩) (iblk6 V c 1 ⟨n, h⟩) (iblk6 V c 2 ⟨n, h⟩)
    ∧ (outsAt6 V c n h).2.2.2.1 = accS6 V c n h ∧ (outsAt6 V c n h).2.2.2.2 = accQ6 V c n h := by
  induction n with
  | zero =>
    intro h
    have e := outs6_zero' V c h
    exact ⟨congrArg (fun o => o.1) e, (congrArg (fun o => o.2.2.2.1) e).trans (accS6_zero V c h).symm,
      (congrArg (fun o => o.2.2.2.2) e).trans (accQ6_zero V c h).symm⟩
  | succ n ih =>
    intro hn
    obtain ⟨-, ih0, ih1⟩ := ih (Nat.lt_of_succ_lt hn)
    by_cases h1 : (n + 1) % 10 = 9
    · have e := outs6_succC' V c n hn h1
      exact ⟨congrArg (fun o => o.1) e,
        (congrArg (fun o => o.2.2.2.1) e).trans ((congrArg (k6_pay4 (iblk6 V c 0 ⟨n + 1, hn⟩) (iblk6 V c 1 ⟨n + 1, hn⟩) (iblk6 V c 2 ⟨n + 1, hn⟩)) ih0).trans (accS6_succ V c n hn).symm),
        (congrArg (fun o => o.2.2.2.2) e).trans ((congrArg (k6_pay5 (iblk6 V c 0 ⟨n + 1, hn⟩) (iblk6 V c 1 ⟨n + 1, hn⟩) (iblk6 V c 2 ⟨n + 1, hn⟩)) ih1).trans (accQ6_succ V c n hn).symm)⟩
    · have e := outs6_succB' V c n hn h1
      exact ⟨congrArg (fun o => o.1) e,
        (congrArg (fun o => o.2.2.2.1) e).trans ((congrArg (k6_pay4 (iblk6 V c 0 ⟨n + 1, hn⟩) (iblk6 V c 1 ⟨n + 1, hn⟩) (iblk6 V c 2 ⟨n + 1, hn⟩)) ih0).trans (accS6_succ V c n hn).symm),
        (congrArg (fun o => o.2.2.2.2) e).trans ((congrArg (k6_pay5 (iblk6 V c 0 ⟨n + 1, hn⟩) (iblk6 V c 1 ⟨n + 1, hn⟩) (iblk6 V c 2 ⟨n + 1, hn⟩)) ih1).trans (accQ6_succ V c n hn).symm)⟩

/-- At the last point the two statistics windows receive the running sums. -/
theorem outs6_last (c : Dev nD) (hn : 8 + 1 < cfg6.N) :
    (outsAt6 V c (8 + 1) hn).2.1 = accS6 V c (8 + 1) hn ∧ (outsAt6 V c (8 + 1) hn).2.2.1 = accQ6 V c (8 + 1) hn := by
  obtain ⟨-, ih0, ih1⟩ := outs6_eq V c 8 (Nat.lt_of_succ_lt hn)
  have h1 : (8 + 1) % 10 = 9 := rfl
  have e := outs6_succC' V c 8 hn h1
  exact ⟨(congrArg (fun o => o.2.1) e).trans ((congrArg (k6_pay4 (iblk6 V c 0 ⟨8 + 1, hn⟩) (iblk6 V c 1 ⟨8 + 1, hn⟩) (iblk6 V c 2 ⟨8 + 1, hn⟩)) ih0).trans (accS6_succ V c 8 hn).symm),
    (congrArg (fun o => o.2.2.1) e).trans ((congrArg (k6_pay5 (iblk6 V c 0 ⟨8 + 1, hn⟩) (iblk6 V c 1 ⟨8 + 1, hn⟩) (iblk6 V c 2 ⟨8 + 1, hn⟩)) ih1).trans (accQ6_succ V c 8 hn).symm)⟩

end Cert.KernelIdeal.Regions

end
-- ==== Proof.KI.StatsFinY6.lean ====
/-
  Region 6: the block output as one array.  Block t of the output is the linear payload of block t of the
  input rows and of the (whole) weights and bias; the ten blocks tile the array; so the output array is the
  linear layer of the whole arrays, entry by entry.
-/
import proofs.«110958_j70274254897753_1_alg».proof.Proof.KI.StatsVal6
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row p of block t is row 10000·t + p of the array. -/
def rowOf6 (t : Fin cfg6.N) (p : Fin 10000) : Fin 100000 :=
  ⟨t.val * 10000 + p.val, by have := t.isLt; have hN : cfg6.N = 10 := N_6; have := p.isLt; omega⟩

theorem sidx_facts6 : ∀ t : Fin cfg6.N, win6_0.index t (0 : Fin 2) = t.val ∧ win6_0.index t (1 : Fin 2) = 0
    ∧ win6_3.index t (0 : Fin 2) = t.val ∧ win6_3.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

set_option maxHeartbeats 2000000 in
/-- An entry of block t of row-blocked input window 0. -/
theorem rd6_0 (c : Dev nD) (t : Fin cfg6.N) (p : Fin 10000) (cc : Fin 128) :
    iblk6 V c 0 t (ix2 p cc) = V c main_v56 (ix2 (rowOf6 t p) cc) := by
  have hf := sidx_facts6 t
  unfold iblk6
  rw [View.read_apply]
  refine congrArg (V c main_v56) ?_
  funext a; apply Fin.ext
  match a with
  | ⟨0, _⟩ => show win6_0.index t (0 : Fin 2) * 10000 + 1 * p.val = t.val * 10000 + p.val; omega
  | ⟨1, _⟩ => show win6_0.index t (1 : Fin 2) * 128 + 1 * cc.val = cc.val; omega
set_option maxHeartbeats 2000000 in
/-- The weights' and the bias' one block is the whole array. -/
theorem rd6_w (c : Dev nD) (t : Fin cfg6.N) (cc : Fin 128) (q : Fin 128) :
    iblk6 V c 1 t (ix2 cc q) = V c main_arg14 (ix2 cc q) := by
  have hf := sidx_facts6 t
  unfold iblk6
  rw [View.read_apply]
  refine congrArg (V c main_arg14) ?_
  funext a; apply Fin.ext
  match a with
  | ⟨0, _⟩ => show win6_1.index t (0 : Fin 2) * 128 + 1 * cc.val = cc.val; omega
  | ⟨1, _⟩ => show win6_1.index t (1 : Fin 2) * 128 + 1 * q.val = q.val; omega
set_option maxHeartbeats 2000000 in
theorem rd6_b (c : Dev nD) (t : Fin cfg6.N) (q : Fin 128) :
    iblk6 V c 2 t (ix2 0 q) = V c main_v57 (ix2 0 q) := by
  have hf := sidx_facts6 t
  unfold iblk6
  rw [View.read_apply]
  refine congrArg (V c main_v57) ?_
  funext a; apply Fin.ext
  match a with
  | ⟨0, _⟩ => show win6_2.index t (0 : Fin 2) * 1 + 1 * 0 = 0; omega
  | ⟨1, _⟩ => show win6_2.index t (1 : Fin 2) * 128 + 1 * q.val = q.val; omega

/-- The linear payload of block t at (p, q) is the linear layer at (10000·t + p, q). -/
theorem blkY6 (c : Dev nD) (t : Fin cfg6.N) (p : Fin 10000) (q : Fin 128) :
    k6_pay3 (F := Ideal) (iblk6 V c 0 t) (iblk6 V c 1 t) (iblk6 V c 2 t) (ix2 p q) = linF6 (V c main_v56) (V c main_arg14) (V c main_v57) (ix2 (rowOf6 t p) q) := by
  rw [Cert.KernelIdeal.PayAt.k6_pay3_at]
  unfold linF6
  simp only [rd6_0 V c t, rd6_w V c t, rd6_b V c t]
  all_goals rfl

/-! ## The block output as one array -/

set_option maxHeartbeats 4000000 in
/-- What point t writes back of the block output is block t of the linear layer. -/
theorem flushedY6_eq (c : Dev nD) (t : Fin cfg6.N) :
    (dat6 V c).flushed 3 t = ((cfg6.win 3).blk t).view.read (Elt Ideal) (linF6 (V c main_v56) (V c main_arg14) (V c main_v57)) := by
  show (cfg6.win 3).cut (grid6.coords t) ((dat6 V c).after 3 t) = _
  rw [after6_3, (outs6_eq V c t.val t.isLt).1]
  have hf := sidx_facts6 t
  funext j
  obtain ⟨p, q, rfl⟩ : ∃ (p : Fin 10000) (q : Fin 128), j = ix2 p q := ⟨j 0, j 1, eq_ix2 j⟩
  show k6_pay3 (F := Ideal) (iblk6 V c 0 t) (iblk6 V c 1 t) (iblk6 V c 2 t) (ix2 p q) = linF6 (V c main_v56) (V c main_arg14) (V c main_v57) (((cfg6.win 3).blk t).view.emb (ix2 p q))
  rw [blkY6 V c t p q]
  refine congrArg (linF6 (V c main_v56) (V c main_arg14) (V c main_v57)) ?_
  funext a; apply Fin.ext
  match a with
  | ⟨0, _⟩ => show t.val * 10000 + p.val = win6_3.index t (0 : Fin 2) * 10000 + 1 * p.val; omega
  | ⟨1, _⟩ => show q.val = win6_3.index t (1 : Fin 2) * 128 + 1 * q.val; omega

theorem mem_blkY6 (t : Fin cfg6.N) (i : S100000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v58_0).slice (win6_3.rect t)).set ↔ _
  rw [View.set_slice_whole, Rect.mem_set_unit]
  exact Iff.rfl

set_option maxHeartbeats 2000000 in
/-- The block output array after the region: the linear layer, everywhere. -/
theorem finalY6 (c : Dev nD) : (dat6 V c).arrAt 3 cfg6.N = linF6 (V c main_v56) (V c main_arg14) (V c main_v57) :=
  (dat6 V c).arrAt_eq_of_cover 3 _ (fun t _ => flushedY6_eq V c t) fun i => by
    have hi0 : (i 0).val < 100000 := (i 0).isLt
    have hi1 : (i 1).val < 128 := (i 1).isLt
    have hN : cfg6.N = 10 := N_6
    refine ⟨⟨(i 0).val / 10000, by omega⟩, flush6_3 _, ?_⟩
    rw [mem_blkY6]
    have hf := sidx_facts6 ⟨(i 0).val / 10000, by omega⟩
    intro a
    match a with
    | ⟨0, _⟩ => show win6_3.index _ (0 : Fin 2) * 10000 ≤ (i 0).val ∧ (i 0).val < win6_3.index _ (0 : Fin 2) * 10000 + 10000; dsimp only at hf; omega
    | ⟨1, _⟩ => show win6_3.index _ (1 : Fin 2) * 128 ≤ (i 1).val ∧ (i 1).val < win6_3.index _ (1 : Fin 2) * 128 + 128; omega

end Cert.KernelIdeal.Regions

end
-- ==== Proof.KI.StatsFinS6.lean ====
/-
  Region 6: the two statistics arrays.  Each is written back once, at the last point, and its one block is the
  whole row; so after the region it holds the running sum after the last point.
-/
import proofs.«110958_j70274254897753_1_alg».proof.Proof.KI.StatsVal6
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The two statistics arrays -/

set_option maxHeartbeats 4000000 in
/-- The one write-back of statistics window 4, at the last point, writes the running sums: its block is the whole row. -/
theorem flushedS6_eq (c : Dev nD) (t : Fin cfg6.N) (hf : (cfg6.win 4).flush t = true) :
    (dat6 V c).flushed 4 t = ((cfg6.win 4).blk t).view.read (Elt Ideal) (accS6 V c 9 t6_9.isLt) := by
  have hN : cfg6.N = 10 := N_6
  have h9 : t.val = 9 := by have := (flush6_4 t).mp hf; have := t.isLt; omega
  obtain rfl : t = t6_9 := Fin.ext h9
  show (cfg6.win 4).cut (grid6.coords t6_9) ((dat6 V c).after 4 t6_9) = _
  rw [after6_4]
  show (cfg6.win 4).cut (grid6.coords t6_9) (outsAt6 V c 9 t6_9.isLt).2.1 = _
  rw [(outs6_last V c t6_9.isLt).1]
  have hz' : (fun a => win6_4.index t6_9 a * main_v58_1.ty.shape.size a) = fun _ => 0 := funext fun a => by fin_cases a <;> decide
  exact (Memref.read_access_unit_zero (Elt Ideal) main_v58_1 hz' (fun a => by rw [congrFun hz' a]; simp) (accS6 V c 9 t6_9.isLt)).symm

set_option maxHeartbeats 4000000 in
theorem finalS6 (c : Dev nD) : (dat6 V c).arrAt 4 cfg6.N = accS6 V c 9 t6_9.isLt :=
  (dat6 V c).arrAt_eq_of_cover 4 (accS6 V c 9 t6_9.isLt) (flushedS6_eq V c) fun i =>
    ⟨t6_9, (flush6_4 t6_9).mpr rfl, by
      show i ∈ ((View.whole main_v58_1).slice (win6_4.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_4.index t6_9 0 * win6_4.size 0 ≤ (i 0 : Nat) ∧ (i 0 : Nat) < win6_4.index t6_9 0 * win6_4.size 0 + win6_4.xsize (grid6.coords t6_9) 0
                  rw [show win6_4.index t6_9 0 * win6_4.size 0 = 0 from by decide +kernel, show win6_4.xsize (grid6.coords t6_9) 0 = 1 from by decide +kernel]; omega
      | ⟨1, _⟩ => show win6_4.index t6_9 1 * win6_4.size 1 ≤ (i 1 : Nat) ∧ (i 1 : Nat) < win6_4.index t6_9 1 * win6_4.size 1 + win6_4.xsize (grid6.coords t6_9) 1
                  rw [show win6_4.index t6_9 1 * win6_4.size 1 = 0 from by decide +kernel, show win6_4.xsize (grid6.coords t6_9) 1 = 128 from by decide +kernel]; omega⟩

set_option maxHeartbeats 4000000 in
/-- The one write-back of statistics window 5, at the last point, writes the running sums: its block is the whole row. -/
theorem flushedQ6_eq (c : Dev nD) (t : Fin cfg6.N) (hf : (cfg6.win 5).flush t = true) :
    (dat6 V c).flushed 5 t = ((cfg6.win 5).blk t).view.read (Elt Ideal) (accQ6 V c 9 t6_9.isLt) := by
  have hN : cfg6.N = 10 := N_6
  have h9 : t.val = 9 := by have := (flush6_5 t).mp hf; have := t.isLt; omega
  obtain rfl : t = t6_9 := Fin.ext h9
  show (cfg6.win 5).cut (grid6.coords t6_9) ((dat6 V c).after 5 t6_9) = _
  rw [after6_5]
  show (cfg6.win 5).cut (grid6.coords t6_9) (outsAt6 V c 9 t6_9.isLt).2.2.1 = _
  rw [(outs6_last V c t6_9.isLt).2]
  have hz' : (fun a => win6_5.index t6_9 a * main_v58_2.ty.shape.size a) = fun _ => 0 := funext fun a => by fin_cases a <;> decide
  exact (Memref.read_access_unit_zero (Elt Ideal) main_v58_2 hz' (fun a => by rw [congrFun hz' a]; simp) (accQ6 V c 9 t6_9.isLt)).symm

set_option maxHeartbeats 4000000 in
theorem finalQ6 (c : Dev nD) : (dat6 V c).arrAt 5 cfg6.N = accQ6 V c 9 t6_9.isLt :=
  (dat6 V c).arrAt_eq_of_cover 5 (accQ6 V c 9 t6_9.isLt) (flushedQ6_eq V c) fun i =>
    ⟨t6_9, (flush6_5 t6_9).mpr rfl, by
      show i ∈ ((View.whole main_v58_2).slice (win6_5.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_5.index t6_9 0 * win6_5.size 0 ≤ (i 0 : Nat) ∧ (i 0 : Nat) < win6_5.index t6_9 0 * win6_5.size 0 + win6_5.xsize (grid6.coords t6_9) 0
                  rw [show win6_5.index t6_9 0 * win6_5.size 0 = 0 from by decide +kernel, show win6_5.xsize (grid6.coords t6_9) 0 = 1 from by decide +kernel]; omega
      | ⟨1, _⟩ => show win6_5.index t6_9 1 * win6_5.size 1 ≤ (i 1 : Nat) ∧ (i 1 : Nat) < win6_5.index t6_9 1 * win6_5.size 1 + win6_5.xsize (grid6.coords t6_9) 1
                  rw [show win6_5.index t6_9 1 * win6_5.size 1 = 0 from by decide +kernel, show win6_5.xsize (grid6.coords t6_9) 1 = 128 from by decide +kernel]; omega⟩

end Cert.KernelIdeal.Regions

end
-- ==== Proof.KI.StatsFinA6.lean ====
/-
  Region 6: the running sums at a column: the zero word plus, block by block, the column sum of the block's
  linear payload (or of its square).
-/
import proofs.«110958_j70274254897753_1_alg».proof.Proof.KI.StatsVal6
import proofs.«110958_j70274254897753_1_alg».proof.Proof.KI.PayAt
import proofs.«110958_j70274254897753_1_alg».proof.Proof.KI.LinF
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The running sums at a column -/

/-- Block s's contribution to column q. -/
def contribaccS6 (c : Dev nD) (q : Fin 128) (s : ℕ) : EReal :=
  if hs : s < cfg6.N then ∑ p : Fin 10000, k6_pay3 (F := Ideal) (iblk6 V c 0 ⟨s, hs⟩) (iblk6 V c 1 ⟨s, hs⟩) (iblk6 V c 2 ⟨s, hs⟩) (ix2 p q) else 0

/-- The running sum after point n, at column q: the zero word plus the contributions of the blocks 0 … n. -/
theorem accS6_at (c : Dev nD) (q : Fin 128) : ∀ (n : ℕ) (h : n < cfg6.N),
    accS6 V c n h (ix2 0 q) = Ideal.ofBits .f32 0x00000000#32 + ∑ s : Fin (n + 1), contribaccS6 V c q s.val
  | 0, h => by
    rw [accS6, Cert.KernelIdeal.PayAt.k6_pay4_at, Cert.KernelIdeal.PayAt.k6_pay1_at]
    refine congrArg (fun z => Ideal.ofBits .f32 0x00000000#32 + z) ?_
    show _ = ∑ s : Fin 1, contribaccS6 V c q s.val
    rw [Fin.sum_univ_one]
    show _ = contribaccS6 V c q 0
    rw [contribaccS6, dif_pos h]
  | n + 1, h => by
    rw [accS6, Cert.KernelIdeal.PayAt.k6_pay4_at, accS6_at c q n (Nat.lt_of_succ_lt h), Fin.sum_univ_castSucc (n := n + 1), add_assoc]
    congr 2
    simp only [Fin.val_last, contribaccS6]
    rw [dif_pos h]

/-- Block s's contribution to column q. -/
def contribaccQ6 (c : Dev nD) (q : Fin 128) (s : ℕ) : EReal :=
  if hs : s < cfg6.N then ∑ p : Fin 10000, k6_pay3 (F := Ideal) (iblk6 V c 0 ⟨s, hs⟩) (iblk6 V c 1 ⟨s, hs⟩) (iblk6 V c 2 ⟨s, hs⟩) (ix2 p q) * k6_pay3 (F := Ideal) (iblk6 V c 0 ⟨s, hs⟩) (iblk6 V c 1 ⟨s, hs⟩) (iblk6 V c 2 ⟨s, hs⟩) (ix2 p q) else 0

/-- The running sum after point n, at column q: the zero word plus the contributions of the blocks 0 … n. -/
theorem accQ6_at (c : Dev nD) (q : Fin 128) : ∀ (n : ℕ) (h : n < cfg6.N),
    accQ6 V c n h (ix2 0 q) = Ideal.ofBits .f32 0x00000000#32 + ∑ s : Fin (n + 1), contribaccQ6 V c q s.val
  | 0, h => by
    rw [accQ6, Cert.KernelIdeal.PayAt.k6_pay5_at, Cert.KernelIdeal.PayAt.k6_pay2_at]
    refine congrArg (fun z => Ideal.ofBits .f32 0x00000000#32 + z) ?_
    show _ = ∑ s : Fin 1, contribaccQ6 V c q s.val
    rw [Fin.sum_univ_one]
    show _ = contribaccQ6 V c q 0
    rw [contribaccQ6, dif_pos h]
  | n + 1, h => by
    rw [accQ6, Cert.KernelIdeal.PayAt.k6_pay5_at, accQ6_at c q n (Nat.lt_of_succ_lt h), Fin.sum_univ_castSucc (n := n + 1), add_assoc]
    congr 2
    simp only [Fin.val_last, contribaccQ6]
    rw [dif_pos h]

end Cert.KernelIdeal.Regions

end
-- ==== Proof.KI.StatsFinT6.lean ====
/-
  Region 6: the statistics arrays as sums over all 100000 rows: the ten blocks' contributions, re-indexed.
-/
import proofs.«110958_j70274254897753_1_alg».proof.Proof.KI.StatsFinY6
import proofs.«110958_j70274254897753_1_alg».proof.Proof.KI.StatsFinS6
import proofs.«110958_j70274254897753_1_alg».proof.Proof.KI.StatsFinA6
import proofs.«110958_j70274254897753_1_alg».proof.Proof.Math.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The statistics arrays as sums over all rows -/

set_option maxHeartbeats 2000000 in
/-- Statistics window 4 after the region, at column q: the zero word plus the sum over all 100000 rows. -/
theorem sumS6 (c : Dev nD) (q : Fin 128) :
    ((dat6 V c).arrAt 4 cfg6.N : S1x128.Idx → EReal) (ix2 0 q)
      = Ideal.ofBits .f32 0x00000000#32 + ∑ i : Fin 100000, linF6 (V c main_v56) (V c main_arg14) (V c main_v57) (ix2 i q) := by
  rw [finalS6 V c, accS6_at V c q 9 t6_9.isLt]
  refine congrArg (fun z => Ideal.ofBits .f32 0x00000000#32 + z) ?_
  have hN : cfg6.N = 10 := N_6
  refine Eq.trans ?_ (Cert.Math.block_sum (fun i => linF6 (V c main_v56) (V c main_arg14) (V c main_v57) (ix2 i q)))
  refine Finset.sum_congr rfl fun s _ => ?_
  have hs : s.val < cfg6.N := by have := s.isLt; omega
  rw [contribaccS6, dif_pos hs]
  refine Finset.sum_congr rfl fun p _ => ?_
  rw [blkY6 V c ⟨s.val, hs⟩ p q]
  rfl

set_option maxHeartbeats 2000000 in
/-- Statistics window 5 after the region, at column q: the zero word plus the sum over all 100000 rows. -/
theorem sumQ6 (c : Dev nD) (q : Fin 128) :
    ((dat6 V c).arrAt 5 cfg6.N : S1x128.Idx → EReal) (ix2 0 q)
      = Ideal.ofBits .f32 0x00000000#32 + ∑ i : Fin 100000, linF6 (V c main_v56) (V c main_arg14) (V c main_v57) (ix2 i q) * linF6 (V c main_v56) (V c main_arg14) (V c main_v57) (ix2 i q) := by
  rw [finalQ6 V c, accQ6_at V c q 9 t6_9.isLt]
  refine congrArg (fun z => Ideal.ofBits .f32 0x00000000#32 + z) ?_
  have hN : cfg6.N = 10 := N_6
  refine Eq.trans ?_ (Cert.Math.block_sum (fun i => linF6 (V c main_v56) (V c main_arg14) (V c main_v57) (ix2 i q) * linF6 (V c main_v56) (V c main_arg14) (V c main_v57) (ix2 i q)))
  refine Finset.sum_congr rfl fun s _ => ?_
  have hs : s.val < cfg6.N := by have := s.isLt; omega
  rw [contribaccQ6, dif_pos hs]
  refine Finset.sum_congr rfl fun p _ => ?_
  rw [blkY6 V c ⟨s.val, hs⟩ p q]
  rfl

end Cert.KernelIdeal.Regions

end
-- ==== Proof.KI.Chain.lean ====
/-
  The kernel's result, entry by entry: the nine regions and the host stretches between them composed.  Each
  linear region leaves y = (its input [+ neighbour sum])·W + b and the two column sums of y and y²; the host
  stretch after it turns the sums into the mean and the one-pass variance; the normalise region after that
  leaves the clamped, scaled, shifted, normalised y; the last region leaves the log-softmax of the last linear
  layer.  Composed, the result buffer holds the kernel's spelling of the network of the argument arrays.
-/
import proofs.«110958_j70274254897753_1_alg».proof.Proof.KI.StageLin
import proofs.«110958_j70274254897753_1_alg».proof.Proof.KI.StageNorm
import proofs.«110958_j70274254897753_1_alg».proof.Proof.KI.StatsFinT0
import proofs.«110958_j70274254897753_1_alg».proof.Proof.KI.StatsFinT2
import proofs.«110958_j70274254897753_1_alg».proof.Proof.KI.StatsFinT4
import proofs.«110958_j70274254897753_1_alg».proof.Proof.KI.StatsFinT6
import proofs.«110958_j70274254897753_1_alg».proof.Proof.Glue

set_option maxRecDepth 16384

noncomputable section

namespace Cert.Proof.Values

open Idealize.ShloMosaic Idealize.ShloMosaic.TcCoe Idealize.SL.Sem
open Cert.KernelIdeal Cert.KernelIdeal.Regions

set_option maxHeartbeats 4000000 in
theorem hK (m : (ℓ : Loc Cert.KernelIdeal.nD Cert.KernelIdeal.τ Cert.KernelIdeal.sig) → Buf (Elt Ideal) ℓ) (ρ : Dev Cert.KernelIdeal.nD → PrngReg) (c : Dev Cert.KernelIdeal.nD) (i : Fin 100000) (j : Fin 10) :
    Cert.KernelIdeal.Regions.W18 (F := Ideal) m ρ c (Proc.devRef .tc Cert.KernelIdeal.main_v69) (ValueIdx.ix2 i j)
      = Cert.Glue.netKOf
          (m ((c.tc : Thread Cert.KernelIdeal.nD Cert.KernelIdeal.τ).loc Cert.KernelIdeal.main_arg20))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19)) i j := by
  obtain ⟨y1, s1, q1⟩ := stage0 m ρ c (finalY0 (V1 m ρ) c) (sumS0 (V1 m ρ) c) (sumQ0 (V1 m ρ) c)
  have z1 := stage1 m ρ c _ y1 s1 q1
  obtain ⟨y2, s2, q2⟩ := stage2 m ρ c _ z1 (finalY2 (V5 m ρ) c) (sumS2 (V5 m ρ) c) (sumQ2 (V5 m ρ) c)
  have z2 := stage3 m ρ c _ y2 s2 q2
  obtain ⟨y3, s3, q3⟩ := stage4 m ρ c _ z2 (finalY4 (V9 m ρ) c) (sumS4 (V9 m ρ) c) (sumQ4 (V9 m ρ) c)
  have z3 := stage5 m ρ c _ y3 s3 q3
  obtain ⟨y4, s4, q4⟩ := stage6 m ρ c _ z3 (finalY6 (V13 m ρ) c) (sumS6 (V13 m ρ) c) (sumQ6 (V13 m ρ) c)
  have z4 := stage7 m ρ c _ y4 s4 q4
  exact (stage8 m ρ c _ z4 i j).trans rfl

end Cert.Proof.Values

end
-- ==== Proof.lean ====
/-
  The certificate of a two-block graph network (neighbour sum, Linear + BatchNorm + ReLU twice, per block; then
  Linear + log-softmax) computed by nine Pallas regions, against its jnp reference.
    * The three frames: each program runs to the end, faults nowhere and leaves its argument arrays as
      launched.  The kernel's (at the word level and at the ideal instance) is the run of its nine regions and
      the host stretches between them; the reference's is the run of its host operations.
    * The ideal pass rewrote nothing, so the idealization claim is trivial.
    * At the ideal instance the two results agree entry by entry: both are the same network of the argument
      arrays, the kernel normalising with the one-pass variance E[y²] − E[y]² and a reciprocal square root, the
      reference with the two-pass variance E[(y − E y)²] and a square root; on finite inputs — which the
      precondition gives — these are one function.
-/
import proofs.«110958_j70274254897753_1_alg».proof.Defs
import proofs.«110958_j70274254897753_1_alg».proof.Proof.Gen.Kernel
import proofs.«110958_j70274254897753_1_alg».proof.Proof.Gen.KernelIdeal
import proofs.«110958_j70274254897753_1_alg».proof.Proof.Gen.ReferenceIdeal
import proofs.«110958_j70274254897753_1_alg».proof.Proof.Gen.Pre_finite_inputs
import proofs.«110958_j70274254897753_1_alg».proof.Proof.FrameKB
import proofs.«110958_j70274254897753_1_alg».proof.Proof.FrameKI
import proofs.«110958_j70274254897753_1_alg».proof.Proof.FrameRef
import proofs.«110958_j70274254897753_1_alg».proof.Proof.Algebraic
import proofs.«110958_j70274254897753_1_alg».proof.Proof.RefAdapter
import proofs.«110958_j70274254897753_1_alg».proof.Proof.KI.Chain

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Frames.frame_Kernel, Cert.Proof.Frames.frame_KernelIdeal, Cert.Proof.Frames.frame_ReferenceIdeal, trivial,
  Cert.Proof.Algebraic.algebraic_of Cert.Proof.Values.hK Cert.Proof.Values.hR⟩

end Cert.Proof

end
